-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000x8 : Shape := ⟨2, ![3200000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x8 : S_.BroadcastsInDim S3200000x8 (![] : Fin 0 → Fin S3200000x8.rank)
  reducesTo_S3200000x8_S_d0_1 : S3200000x8.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S40x32 : S_.BroadcastsInDim S40x32 (![] : Fin 0 → Fin S40x32.rank)
  reducesTo_S40x32_S_d0_1 : S40x32.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg20 : FVec F S16 .f32) (main_v132 : IVec S_ 1) (main_v135 : IVec S_ 1) : IVec S_ 1 :=
  let main_v136 : IVec S_ 1 := andi main_v132 main_v135
  let main_cst_54 : FVec F S_ .f32 := constant S_ .f32 0x00000000#32
  let main_v137 : FVec F S16 .f32 := broadcastInDim S16 ![] bcast_S_S16 main_cst_54
  let main_v138 : IVec S16 1 := cmpf .oge main_arg20 main_v137
  let main_c_55 : IVec S_ 1 := constantI S_ 1 1#1
  let main_v139 : IVec S_ 1 := (fun x v => Host.reduce IntOp.andi x v reducesTo_S16_S_d0 h_S_) main_v138 main_c_55
  let main_v140 : IVec S_ 1 := andi main_v136 main_v139
  main_v140

def fn_part7 {F : FTy → Type} [FloatOps F] (main_arg12 : FVec F S64 .f32) (main_arg16 : FVec F S32 .f32) (main_arg20 : FVec F S16 .f32) (main_arg26 : FVec F S2 .f32) (main_v118 : IVec S_ 1) (main_v119 : FVec F S16x2 .f32) : IVec S_ 1 :=
  let main_cst_46 : FVec F S_ .f32 := constant S_ .f32 0x7F800000#32
  let main_v120 : FVec F S16x2 .f32 := broadcastInDim S16x2 ![] bcast_S_S16x2 main_cst_46
  let main_v121 : IVec S16x2 1 := cmpf .olt main_v119 main_v120
  let main_c_47 : IVec S_ 1 := constantI S_ 1 1#1
  let main_v122 : IVec S_ 1 := (fun x v => Host.reduce IntOp.andi x v reducesTo_S16x2_S_d0_1 h_S_) main_v121 main_c_47
  let main_v123 : IVec S_ 1 := andi main_v118 main_v122
  let main_v124 : FVec F S2 .f32 := Host.absf main_arg26
  let main_cst_48 : FVec F S_ .f32 := constant S_ .f32 0x7F800000#32
  let main_v125 : FVec F S2 .f32 := broadcastInDim S2 ![] bcast_S_S2 main_cst_48
  let main_v126 : IVec S2 1 := cmpf .olt main_v124 main_v125
  let main_c_49 : IVec S_ 1 := constantI S_ 1 1#1
  let main_v127 : IVec S_ 1 := (fun x v => Host.reduce IntOp.andi x v reducesTo_S2_S_d0 h_S_) main_v126 main_c_49
  let main_v128 : IVec S_ 1 := andi main_v123 main_v127
  let main_cst_50 : FVec F S_ .f32 := constant S_ .f32 0x00000000#32
  let main_v129 : FVec F S64 .f32 := broadcastInDim S64 ![] bcast_S_S64 main_cst_50
  let main_v130 : IVec S64 1 := cmpf .oge main_arg12 main_v129
  let main_c_51 : IVec S_ 1 := constantI S_ 1 1#1
  let main_v131 : IVec S_ 1 := (fun x v => Host.reduce IntOp.andi x v reducesTo_S64_S_d0 h_S_) main_v130 main_c_51
  let main_v132 : IVec S_ 1 := andi main_v128 main_v131
  let main_cst_52 : FVec F S_ .f32 := constant S_ .f32 0x00000000#32
  let main_v133 : FVec F S32 .f32 := broadcastInDim S32 ![] bcast_S_S32 main_cst_52
  let main_v134 : IVec S32 1 := cmpf .oge main_arg16 main_v133
  let main_c_53 : IVec S_ 1 := constantI S_ 1 1#1
  let main_v135 : IVec S_ 1 := (fun x v => Host.reduce IntOp.andi x v reducesTo_S32_S_d0 h_S_) main_v134 main_c_53
  fn_part8 (F := F) main_arg20 main_v132 main_v135

def fn_part6 {F : FTy → Type} [FloatOps F] (main_arg12 : FVec F S64 .f32) (main_arg16 : FVec F S32 .f32) (main_arg20 : FVec F S16 .f32) (main_arg22 : FVec F S32 .f32) (main_arg23 : FVec F S32x16 .f32) (main_arg24 : FVec F S16 .f32) (main_arg25 : FVec F S16x2 .f32) (main_arg26 : FVec F S2 .f32) (main_v98 : IVec S_ 1) (main_v101 : IVec S40x32 1) (main_c_39 : IVec S_ 1) : IVec S_ 1 :=
  let main_v102 : IVec S_ 1 := (fun x v => Host.reduce IntOp.andi x v reducesTo_S40x32_S_d0_1 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x16 .f32 := Host.absf main_arg23
  let main_cst_42 : FVec F S_ .f32 := constant S_ .f32 0x7F800000#32
  let main_v110 : FVec F S32x16 .f32 := broadcastInDim S32x16 ![] bcast_S_S32x16 main_cst_42
  let main_v111 : IVec S32x16 1 := cmpf .olt main_v109 main_v110
  let main_c_43 : IVec S_ 1 := constantI S_ 1 1#1
  let main_v112 : IVec S_ 1 := (fun x v => Host.reduce IntOp.andi x v reducesTo_S32x16_S_d0_1 h_S_) main_v111 main_c_43
  let main_v113 : IVec S_ 1 := andi main_v108 main_v112
  let main_v114 : FVec F S16 .f32 := Host.absf main_arg24
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S16x2 .f32 := Host.absf main_arg25
  fn_part7 (F := F) main_arg12 main_arg16 main_arg20 main_arg26 main_v118 main_v119

def fn_part5 {F : FTy → Type} [FloatOps F] (main_arg12 : FVec F S64 .f32) (main_arg16 : FVec F S32 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16 .f32 := Host.absf main_arg20
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S40x32 .f32 := Host.absf main_arg21
  let main_cst_38 : FVec F S_ .f32 := constant S_ .f32 0x7F800000#32
  let main_v100 : FVec F S40x32 .f32 := broadcastInDim S40x32 ![] bcast_S_S40x32 main_cst_38
  let main_v101 : IVec S40x32 1 := cmpf .olt main_v99 main_v100
  let main_c_39 : IVec S_ 1 := constantI S_ 1 1#1
  fn_part6 (F := F) main_arg12 main_arg16 main_arg20 main_arg22 main_arg23 main_arg24 main_arg25 main_arg26 main_v98 main_v101 main_c_39

def fn_part4 {F : FTy → Type} [FloatOps F] (main_arg12 : FVec F S64 .f32) (main_arg15 : FVec F S32 .f32) (main_arg16 : FVec F S32 .f32) (main_arg17 : FVec F S16 .f32) (main_arg18 : FVec F S16 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg18
  let main_cst_32 : FVec F S_ .f32 := constant S_ .f32 0x7F800000#32
  fn_part5 (F := F) main_arg12 main_arg16 main_arg19 main_arg20 main_arg21 main_arg22 main_arg23 main_arg24 main_arg25 main_arg26 main_v83 main_v84 main_cst_32

def fn_part3 {F : FTy → Type} [FloatOps F] (main_arg12 : FVec F S64 .f32) (main_arg13 : FVec F S32 .f32) (main_arg14 : FVec F S32 .f32) (main_arg15 : FVec F S32 .f32) (main_arg16 : FVec F S32 .f32) (main_arg17 : FVec F S16 .f32) (main_arg18 : FVec F S16 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg12 main_arg15 main_arg16 main_arg17 main_arg18 main_arg19 main_arg20 main_arg21 main_arg22 main_arg23 main_arg24 main_arg25 main_arg26 main_v63 main_v67

def fn_part2 {F : FTy → Type} [FloatOps F] (main_arg8 : FVec F S16 .f32) (main_arg9 : FVec F S64 .f32) (main_arg10 : FVec F S64 .f32) (main_arg11 : FVec F S64 .f32) (main_arg12 : FVec F S64 .f32) (main_arg13 : FVec F S32 .f32) (main_arg14 : FVec F S32 .f32) (main_arg15 : FVec F S32 .f32) (main_arg16 : FVec F S32 .f32) (main_arg17 : FVec F S16 .f32) (main_arg18 : FVec F S16 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S64x32 .f32) (main_arg6 : FVec F S32 .f32) (main_arg7 : FVec F S32x16 .f32) (main_arg8 : FVec F S16 .f32) (main_arg9 : FVec F S64 .f32) (main_arg10 : FVec F S64 .f32) (main_arg11 : FVec F S64 .f32) (main_arg12 : FVec F S64 .f32) (main_arg13 : FVec F S32 .f32) (main_arg14 : FVec F S32 .f32) (main_arg15 : FVec F S32 .f32) (main_arg16 : FVec F S32 .f32) (main_arg17 : FVec F S16 .f32) (main_arg18 : FVec F S16 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : IVec S2x3200000 32) (main_arg2 : FVec F S3200000x8 .f32) (main_arg3 : FVec F S128x64 .f32) (main_arg4 : FVec F S64 .f32) (main_arg5 : FVec F S64x32 .f32) (main_arg6 : FVec F S32 .f32) (main_arg7 : FVec F S32x16 .f32) (main_arg8 : FVec F S16 .f32) (main_arg9 : FVec F S64 .f32) (main_arg10 : FVec F S64 .f32) (main_arg11 : FVec F S64 .f32) (main_arg12 : FVec F S64 .f32) (main_arg13 : FVec F S32 .f32) (main_arg14 : FVec F S32 .f32) (main_arg15 : FVec F S32 .f32) (main_arg16 : FVec F S32 .f32) (main_arg17 : FVec F S16 .f32) (main_arg18 : FVec F S16 .f32) (main_arg19 : FVec F S16 .f32) (main_arg20 : FVec F S16 .f32) (main_arg21 : FVec F S40x32 .f32) (main_arg22 : FVec F S32 .f32) (main_arg23 : FVec F S32x16 .f32) (main_arg24 : FVec F S16 .f32) (main_arg25 : FVec F S16x2 .f32) (main_arg26 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x8 .f32 := Host.absf main_arg2
  let main_cst_0 : FVec F S_ .f32 := constant S_ .f32 0x7F800000#32
  let main_v5 : FVec F S3200000x8 .f32 := broadcastInDim S3200000x8 ![] bcast_S_S3200000x8 main_cst_0
  let main_v6 : IVec S3200000x8 1 := cmpf .olt main_v4 main_v5
  let main_c_1 : IVec S_ 1 := constantI S_ 1 1#1
  let main_v7 : IVec S_ 1 := (fun x v => Host.reduce IntOp.andi x v reducesTo_S3200000x8_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S2x3200000 : Shape := ⟨2, ![2, 3200000]⟩
abbrev S3200000x8 : Shape := ⟨2, ![3200000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S3200000x32 : Shape := ⟨2, ![3200000, 32]⟩
abbrev S1x32 : Shape := ⟨2, ![1, 32]⟩
abbrev S100000x16 : Shape := ⟨2, ![100000, 16]⟩
abbrev S10000x16 : Shape := ⟨2, ![10000, 16]⟩
abbrev S3200000x16 : Shape := ⟨2, ![3200000, 16]⟩
abbrev S1x16 : Shape := ⟨2, ![1, 16]⟩
abbrev S3200000x40 : Shape := ⟨2, ![3200000, 40]⟩
abbrev S1x2 : Shape := ⟨2, ![1, 2]⟩
abbrev S3200000x2 : Shape := ⟨2, ![3200000, 2]⟩
abbrev S8000x40 : Shape := ⟨2, ![8000, 40]⟩
abbrev S8000x2 : Shape := ⟨2, ![8000, 2]⟩
abbrev S8000x32 : Shape := ⟨2, ![8000, 32]⟩
abbrev S8000x16 : Shape := ⟨2, ![8000, 16]⟩

abbrev nBuf : Space → Nat
  | .hbm => 209
  | .vmem => 52
  | .smem => 0
  | _ => 0

abbrev hbmTy0_0 (i : Nat) : BufTy := match i % 128 with
  | 0 => ⟨S100000x128, .f32⟩
  | 1 => ⟨S2x3200000, .i32⟩
  | 2 => ⟨S3200000x8, .f32⟩
  | 3 => ⟨S128x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S64, .f32⟩
  | 10 => ⟨S64, .f32⟩
  | 11 => ⟨S64, .f32⟩
  | 12 => ⟨S64, .f32⟩
  | 13 => ⟨S32, .f32⟩
  | 14 => ⟨S32, .f32⟩
  | 15 => ⟨S32, .f32⟩
  | 16 => ⟨S32, .f32⟩
  | 17 => ⟨S16, .f32⟩
  | 18 => ⟨S16, .f32⟩
  | 19 => ⟨S16, .f32⟩
  | 20 => ⟨S16, .f32⟩
  | 21 => ⟨S40x32, .f32⟩
  | 22 => ⟨S32, .f32⟩
  | 23 => ⟨S32x16, .f32⟩
  | 24 => ⟨S16, .f32⟩
  | 25 => ⟨S16x2, .f32⟩
  | 26 => ⟨S2, .f32⟩
  | 27 => ⟨S1x3200000, .i32⟩
  | 28 => ⟨S3200000, .i32⟩
  | 29 => ⟨S1x3200000, .i32⟩
  | 30 => ⟨S3200000, .i32⟩
  | 31 => ⟨S_, .f32⟩
  | 32 => ⟨S3200000, .f32⟩
  | 33 => ⟨S_, .f32⟩
  | 34 => ⟨S100000, .f32⟩
  | 35 => ⟨S3200000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S100000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000, .f32⟩
  | 60 => ⟨S3200000, .f32⟩
  | 61 => ⟨S100000x128, .i1⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .i1⟩
  | 68 => ⟨S_, .f32⟩
  | 69 => ⟨S100000x128, .f32⟩
  | 70 => ⟨S100000x128, .f32⟩
  | 71 => ⟨S_, .f32⟩
  | 72 => ⟨S100000x128, .f32⟩
  | 73 => ⟨S100000x128, .i1⟩
  | 74 => ⟨S_, .f32⟩
  | 75 => ⟨S100000x128, .f32⟩
  | 76 => ⟨S100000x128, .f32⟩
  | 77 => ⟨S100000x64, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x64, .f32⟩
  | 87 => ⟨S3200000x1, .f32⟩
  | 88 => ⟨S3200000x64, .f32⟩
  | 89 => ⟨S3200000x64, .f32⟩
  | 90 => ⟨S_, .f32⟩
  | 91 => ⟨S100000x64, .f32⟩
  | 92 => ⟨S3200000x1, .i32⟩
  | 93 => ⟨S100000x64, .f32⟩
  | 94 => ⟨S100000x1, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S64, .f32⟩
  | 102 => ⟨S64, .f32⟩
  | 103 => ⟨S64, .f32⟩
  | 104 => ⟨S1x64, .f32⟩
  | 105 => ⟨S1x64, .f32⟩
  | 106 => ⟨S1x64, .f32⟩
  | 107 => ⟨S100000x64, .f32⟩
  | 108 => ⟨S100000x32, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x32, .f32⟩
  | 118 => ⟨S3200000x1, .f32⟩
  | 119 => ⟨S3200000x32, .f32⟩
  | 120 => ⟨S3200000x32, .f32⟩
  | 121 => ⟨S_, .f32⟩
  | 122 => ⟨S100000x32, .f32⟩
  | 123 => ⟨S3200000x1, .i32⟩
  | 124 => ⟨S100000x32, .f32⟩
  | 125 => ⟨S100000x1, .f32⟩
  | 126 => ⟨S100000x32, .f32⟩
  | 127 => ⟨S100000x32, .f32⟩
  | _ => ⟨S100000x128, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32, .f32⟩
  | 6 => ⟨S32, .f32⟩
  | 7 => ⟨S1x32, .f32⟩
  | 8 => ⟨S1x32, .f32⟩
  | 9 => ⟨S1x32, .f32⟩
  | 10 => ⟨S100000x32, .f32⟩
  | 11 => ⟨S100000x16, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000x16, .f32⟩
  | 21 => ⟨S3200000x1, .f32⟩
  | 22 => ⟨S3200000x16, .f32⟩
  | 23 => ⟨S3200000x16, .f32⟩
  | 24 => ⟨S_, .f32⟩
  | 25 => ⟨S100000x16, .f32⟩
  | 26 => ⟨S3200000x1, .i32⟩
  | 27 => ⟨S100000x16, .f32⟩
  | 28 => ⟨S100000x1, .f32⟩
  | 29 => ⟨S100000x16, .f32⟩
  | 30 => ⟨S100000x16, .f32⟩
  | 31 => ⟨S_, .f32⟩
  | 32 => ⟨S16, .f32⟩
  | 33 => ⟨S16, .f32⟩
  | 34 => ⟨S16, .f32⟩
  | 35 => ⟨S16, .f32⟩
  | 36 => ⟨S16, .f32⟩
  | 37 => ⟨S16, .f32⟩
  | 38 => ⟨S1x16, .f32⟩
  | 39 => ⟨S1x16, .f32⟩
  | 40 => ⟨S1x16, .f32⟩
  | 41 => ⟨S100000x16, .f32⟩
  | 42 => ⟨S3200000x8, .i1⟩
  | 43 => ⟨S_, .f32⟩
  | 44 => ⟨S3200000x8, .f32⟩
  | 45 => ⟨S3200000x8, .f32⟩
  | 46 => ⟨S_, .f32⟩
  | 47 => ⟨S3200000x8, .f32⟩
  | 48 => ⟨S3200000x8, .i1⟩
  | 49 => ⟨S_, .f32⟩
  | 50 => ⟨S3200000x8, .f32⟩
  | 51 => ⟨S3200000x8, .f32⟩
  | 52 => ⟨S_, .f32⟩
  | 53 => ⟨S3200000x8, .f32⟩
  | 54 => ⟨S3200000x8, .i1⟩
  | 55 => ⟨S_, .f32⟩
  | 56 => ⟨S3200000x8, .f32⟩
  | 57 => ⟨S3200000x8, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000x16, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x16, .f32⟩
  | 76 => ⟨S3200000x40, .f32⟩
  | 77 => ⟨S1x32, .f32⟩
  | 78 => ⟨S1x16, .f32⟩
  | 79 => ⟨S1x2, .f32⟩
  | 80 => ⟨S3200000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S32x16, .f32⟩
  | .local _ .vmem, ⟨31, _⟩ => ⟨S10000x16, .f32⟩
  | .local _ .vmem, ⟨32, _⟩ => ⟨S10000x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S1x16, .f32⟩
  | .local _ .vmem, ⟨38, _⟩ => ⟨S1x16, .f32⟩
  | .local _ .vmem, ⟨39, _⟩ => ⟨S1x16, .f32⟩
  | .local _ .vmem, ⟨40, _⟩ => ⟨S10000x16, .f32⟩
  | .local _ .vmem, ⟨41, _⟩ => ⟨S10000x16, .f32⟩
  | .local _ .vmem, ⟨42, _⟩ => ⟨S8000x40, .f32⟩
  | .local _ .vmem, ⟨43, _⟩ => ⟨S8000x40, .f32⟩
  | .local _ .vmem, ⟨44, _⟩ => ⟨S40x32, .f32⟩
  | .local _ .vmem, ⟨45, _⟩ => ⟨S1x32, .f32⟩
  | .local _ .vmem, ⟨46, _⟩ => ⟨S32x16, .f32⟩
  | .local _ .vmem, ⟨47, _⟩ => ⟨S1x16, .f32⟩
  | .local _ .vmem, ⟨48, _⟩ => ⟨S16x2, .f32⟩
  | .local _ .vmem, ⟨49, _⟩ => ⟨S1x2, .f32⟩
  | .local _ .vmem, ⟨50, _⟩ => ⟨S8000x2, .f32⟩
  | .local _ .vmem, ⟨51, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_3 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_call0_v0 : Ref sig .tc := ⟨.hbm, 61, rfl⟩
abbrev main_call0_cst : Ref sig .tc := ⟨.hbm, 62, rfl⟩
abbrev main_call0_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_cst_1 : Ref sig .tc := ⟨.hbm, 68, rfl⟩
abbrev main_call0_call1_v0 : Ref sig .tc := ⟨.hbm, 69, rfl⟩
abbrev main_call0_v4 : Ref sig .tc := ⟨.hbm, 70, rfl⟩
abbrev main_call0_cst_2 : Ref sig .tc := ⟨.hbm, 71, rfl⟩
abbrev main_call0_v5 : Ref sig .tc := ⟨.hbm, 72, rfl⟩
abbrev main_call0_v6 : Ref sig .tc := ⟨.hbm, 73, rfl⟩
abbrev main_call0_cst_3 : Ref sig .tc := ⟨.hbm, 74, rfl⟩
abbrev main_call0_call2_v0 : Ref sig .tc := ⟨.hbm, 75, rfl⟩
abbrev main_v27 : Ref sig .tc := ⟨.hbm, 76, rfl⟩
abbrev main_v28 : Ref sig .tc := ⟨.hbm, 77, rfl⟩
abbrev main_c_5 : Ref sig .tc := ⟨.hbm, 78, rfl⟩
abbrev main_v29 : Ref sig .tc := ⟨.hbm, 79, rfl⟩
abbrev main_v30 : Ref sig .tc := ⟨.hbm, 80, rfl⟩
abbrev main_c_6 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_7 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_8 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_c_9 : Ref sig .tc := ⟨.hbm, 109, rfl⟩
abbrev main_v56 : Ref sig .tc := ⟨.hbm, 110, rfl⟩
abbrev main_v57 : Ref sig .tc := ⟨.hbm, 111, rfl⟩
abbrev main_c_10 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_11 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_12 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_13 : Ref sig .tc := ⟨.hbm, 140, rfl⟩
abbrev main_v83 : Ref sig .tc := ⟨.hbm, 141, rfl⟩
abbrev main_v84 : Ref sig .tc := ⟨.hbm, 142, rfl⟩
abbrev main_c_14 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_15 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_16 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_call1_v0 : Ref sig .tc := ⟨.hbm, 170, rfl⟩
abbrev main_call1_cst : Ref sig .tc := ⟨.hbm, 171, rfl⟩
abbrev main_call1_call0_v0 : Ref sig .tc := ⟨.hbm, 172, rfl⟩
abbrev main_call1_v1 : Ref sig .tc := ⟨.hbm, 173, rfl⟩
abbrev main_call1_cst_0 : Ref sig .tc := ⟨.hbm, 174, rfl⟩
abbrev main_call1_v2 : Ref sig .tc := ⟨.hbm, 175, rfl⟩
abbrev main_call1_v3 : Ref sig .tc := ⟨.hbm, 176, rfl⟩
abbrev main_call1_cst_1 : Ref sig .tc := ⟨.hbm, 177, rfl⟩
abbrev main_call1_call1_v0 : Ref sig .tc := ⟨.hbm, 178, rfl⟩
abbrev main_call1_v4 : Ref sig .tc := ⟨.hbm, 179, rfl⟩
abbrev main_call1_cst_2 : Ref sig .tc := ⟨.hbm, 180, rfl⟩
abbrev main_call1_v5 : Ref sig .tc := ⟨.hbm, 181, rfl⟩
abbrev main_call1_v6 : Ref sig .tc := ⟨.hbm, 182, rfl⟩
abbrev main_call1_cst_3 : Ref sig .tc := ⟨.hbm, 183, rfl⟩
abbrev main_call1_call2_v0 : Ref sig .tc := ⟨.hbm, 184, rfl⟩
abbrev main_v109 : Ref sig .tc := ⟨.hbm, 185, rfl⟩
abbrev main_c_17 : Ref sig .tc := ⟨.hbm, 186, rfl⟩
abbrev main_v110 : Ref sig .tc := ⟨.hbm, 187, rfl⟩
abbrev main_v111 : Ref sig .tc := ⟨.hbm, 188, rfl⟩
abbrev main_c_18 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_c_19 : Ref sig .tc := ⟨.hbm, 195, rfl⟩
abbrev main_v117 : Ref sig .tc := ⟨.hbm, 196, rfl⟩
abbrev main_v118 : Ref sig .tc := ⟨.hbm, 197, rfl⟩
abbrev main_c_20 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg7_0 : Ref sig .tc := ⟨.vmem, 50, rfl⟩
abbrev cc6_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem6_0 : DmaSem sig := 49
abbrev cc6_sem7_0 : DmaSem sig := 50
abbrev cc6_sem7_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S40x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x2 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S8000x2 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S64 : S_.BroadcastsInDim S64 (![] : Fin 0 → Fin S64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S_S32 : S_.BroadcastsInDim S32 (![] : Fin 0 → Fin S32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S_S16 : S_.BroadcastsInDim S16 (![] : Fin 0 → Fin S16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  bcast_S_S3200000x8 : S_.BroadcastsInDim S3200000x8 (![] : Fin 0 → Fin S3200000x8.rank)
  concatenates_S3200000x16_S3200000x16_S3200000x8_S3200000x40_d1 : Shape.Concatenates [S3200000x16, S3200000x16, S3200000x8] S3200000x40 1
  shapeCasts_S2_S1x2 : S2.ShapeCasts S1x2
  inb_S8000x40_S8000x40_0_0 : ∀ a, (![0, 0] : Fin 2 → Nat) a + S8000x40.size a ≤ S8000x40.size a
  h_S8000x40 : 0 < S8000x40.numel
  shapeCasts_S8000x40_S8000x40 : S8000x40.ShapeCasts S8000x40
  inb_S40x32_S40x32_0_0 : ∀ a, (![0, 0] : Fin 2 → Nat) a + S40x32.size a ≤ S40x32.size a
  h_S40x32 : 0 < S40x32.numel
  broadcasts_S1x32_S8000x32 : S1x32.Broadcasts S8000x32
  broadcasts_S1x16_S8000x16 : S1x16.Broadcasts S8000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S8000x40_S40x32_S8000x32_1_0_0_1_n_n_wf : DotDims.WF S8000x40 S40x32 S8000x32 [1] [0] [0] [1] [] []
  dot_S8000x32_S32x16_S8000x16_1_0_0_1_n_n_wf : DotDims.WF S8000x32 S32x16 S8000x16 [1] [0] [0] [1] [] []
  dot_S8000x16_S16x2_S8000x2_1_0_0_1_n_n_wf : DotDims.WF S8000x16 S16x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x16.size a ≤ S100000x16.size a
  hwx5_1 : ∀ i : grid5.Coords, EltTy.bits .f32 = 32 ∨ (Rect.block (s := S100000x16) S10000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x16.size a ≤ S100000x16.size a
  hwx5_5 : ∀ i : grid5.Coords, EltTy.bits .f32 = 32 ∨ (Rect.block (s := S100000x16) S10000x16.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x40.size a ≤ S3200000x40.size a
  hwx6_0 : ∀ i : grid6.Coords, EltTy.bits .f32 = 32 ∨ (Rect.block (s := S3200000x40) S8000x40.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S40x32.size a ≤ S40x32.size a
  hwx6_1 : ∀ i : grid6.Coords, EltTy.bits .f32 = 32 ∨ (Rect.block (s := S40x32) S40x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x16.size a ≤ S32x16.size a
  hwx6_3 : ∀ i : grid6.Coords, EltTy.bits .f32 = 32 ∨ (Rect.block (s := S32x16) S32x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S16x2.size a ≤ S16x2.size a
  hwx6_5 : ∀ i : grid6.Coords, EltTy.bits .f32 = 32 ∨ (Rect.block (s := S16x2) S16x2.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x2.size a ≤ S1x2.size a
  hwx6_6 : ∀ i : grid6.Coords, EltTy.bits .f32 = 32 ∨ (Rect.block (s := S1x2) S1x2.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8000x2.size a ≤ S3200000x2.size a
  hwx6_7 : ∀ i : grid6.Coords, EltTy.bits .f32 = 32 ∨ (Rect.block (s := S3200000x2) S8000x2.size (cc6_transform_7 i) (hinb6_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S8000x40_S40x32_S8000x32_1_0_0_1_n_n : DotDims S8000x40 S40x32 S8000x32 where
  lhsContracting := [1]
  rhsContracting := [0]
  lhsNonContracting := [0]
  rhsNonContracting := [1]
  lhsBatch := []
  rhsBatch := []
  wf := dot_S8000x40_S40x32_S8000x32_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x16_S16x2_S8000x2_1_0_0_1_n_n : DotDims S8000x16 S16x2 S8000x2 where
  lhsContracting := [1]
  rhsContracting := [0]
  lhsNonContracting := [0]
  rhsNonContracting := [1]
  lhsBatch := []
  rhsBatch := []
  wf := dot_S8000x16_S16x2_S8000x2_1_0_0_1_n_n_wf

abbrev win0_0 : Pipeline.Window sig grid0 :=
  Pipeline.Window.ofSpec (Memref.whole main_v27) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S10000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S10000x16.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S8000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S40x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S32x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v126) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg25) S16x2.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127) S1x2.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v128) S8000x2.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000x8 : Shape := ⟨2, ![3200000, 8]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S40x32 : Shape := ⟨2, ![40, 32]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000x64 : Shape := ⟨2, ![100000, 64]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S3200000x40 : Shape := ⟨2, ![3200000, 40]⟩
abbrev S3200000x2 : Shape := ⟨2, ![3200000, 2]⟩
abbrev S1x2 : Shape := ⟨2, ![1, 2]⟩

abbrev nBuf : Space → Nat
  | .hbm => 335
  | .vmem => 0
  | .smem => 0
  | _ => 0

abbrev hbmTy0_0 (i : Nat) : BufTy := match i % 128 with
  | 0 => ⟨S100000x128, .f32⟩
  | 1 => ⟨S2x3200000, .i32⟩
  | 2 => ⟨S3200000x8, .f32⟩
  | 3 => ⟨S128x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S64, .f32⟩
  | 10 => ⟨S64, .f32⟩
  | 11 => ⟨S64, .f32⟩
  | 12 => ⟨S64, .f32⟩
  | 13 => ⟨S32, .f32⟩
  | 14 => ⟨S32, .f32⟩
  | 15 => ⟨S32, .f32⟩
  | 16 => ⟨S32, .f32⟩
  | 17 => ⟨S16, .f32⟩
  | 18 => ⟨S16, .f32⟩
  | 19 => ⟨S16, .f32⟩
  | 20 => ⟨S16, .f32⟩
  | 21 => ⟨S40x32, .f32⟩
  | 22 => ⟨S32, .f32⟩
  | 23 => ⟨S32x16, .f32⟩
  | 24 => ⟨S16, .f32⟩
  | 25 => ⟨S16x2, .f32⟩
  | 26 => ⟨S2, .f32⟩
  | 27 => ⟨S1x3200000, .i32⟩
  | 28 => ⟨S3200000, .i32⟩
  | 29 => ⟨S1x3200000, .i32⟩
  | 30 => ⟨S3200000, .i32⟩
  | 31 => ⟨S100000x128, .i1⟩
  | 32 => ⟨S_, .f32⟩
  | 33 => ⟨S100000x128, .f32⟩
  | 34 => ⟨S100000x128, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .f32⟩
  | 41 => ⟨S_, .f32⟩
  | 42 => ⟨S100000x128, .f32⟩
  | 43 => ⟨S100000x128, .i1⟩
  | 44 => ⟨S_, .f32⟩
  | 45 => ⟨S100000x128, .f32⟩
  | 46 => ⟨S100000x128, .f32⟩
  | 47 => ⟨S100000x64, .f32⟩
  | 48 => ⟨S_, .f32⟩
  | 49 => ⟨S3200000, .f32⟩
  | 50 => ⟨S_, .f32⟩
  | 51 => ⟨S100000, .f32⟩
  | 52 => ⟨S3200000x1, .i32⟩
  | 53 => ⟨S100000, .f32⟩
  | 54 => ⟨S_, .f32⟩
  | 55 => ⟨S100000, .f32⟩
  | 56 => ⟨S100000, .f32⟩
  | 57 => ⟨S100000, .f32⟩
  | 58 => ⟨S_, .i32⟩
  | 59 => ⟨S3200000, .i32⟩
  | 60 => ⟨S3200000, .i1⟩
  | 61 => ⟨S_, .i32⟩
  | 62 => ⟨S3200000, .i32⟩
  | 63 => ⟨S3200000, .i32⟩
  | 64 => ⟨S3200000, .i32⟩
  | 65 => ⟨S3200000x1, .i32⟩
  | 66 => ⟨S3200000, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000, .f32⟩
  | 76 => ⟨S3200000, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x1, .f32⟩
  | 87 => ⟨S3200000x64, .f32⟩
  | 88 => ⟨S3200000x64, .f32⟩
  | 89 => ⟨S_, .f32⟩
  | 90 => ⟨S100000x64, .f32⟩
  | 91 => ⟨S3200000x1, .i32⟩
  | 92 => ⟨S100000x64, .f32⟩
  | 93 => ⟨S100000, .f32⟩
  | 94 => ⟨S100000x1, .f32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x32, .f32⟩
  | 121 => ⟨S_, .f32⟩
  | 122 => ⟨S3200000, .f32⟩
  | 123 => ⟨S_, .f32⟩
  | 124 => ⟨S100000, .f32⟩
  | 125 => ⟨S3200000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S_, .i32⟩
  | 4 => ⟨S3200000, .i32⟩
  | 5 => ⟨S3200000, .i1⟩
  | 6 => ⟨S_, .i32⟩
  | 7 => ⟨S3200000, .i32⟩
  | 8 => ⟨S3200000, .i32⟩
  | 9 => ⟨S3200000, .i32⟩
  | 10 => ⟨S3200000x1, .i32⟩
  | 11 => ⟨S3200000, .f32⟩
  | 12 => ⟨S_, .i32⟩
  | 13 => ⟨S3200000, .i32⟩
  | 14 => ⟨S3200000, .i1⟩
  | 15 => ⟨S_, .i32⟩
  | 16 => ⟨S3200000, .i32⟩
  | 17 => ⟨S3200000, .i32⟩
  | 18 => ⟨S3200000, .i32⟩
  | 19 => ⟨S3200000x1, .i32⟩
  | 20 => ⟨S3200000, .f32⟩
  | 21 => ⟨S3200000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x32, .f32⟩
  | 31 => ⟨S3200000x1, .f32⟩
  | 32 => ⟨S3200000x32, .f32⟩
  | 33 => ⟨S3200000x32, .f32⟩
  | 34 => ⟨S_, .f32⟩
  | 35 => ⟨S100000x32, .f32⟩
  | 36 => ⟨S3200000x1, .i32⟩
  | 37 => ⟨S100000x32, .f32⟩
  | 38 => ⟨S100000, .f32⟩
  | 39 => ⟨S100000x1, .f32⟩
  | 40 => ⟨S100000x32, .f32⟩
  | 41 => ⟨S100000x32, .f32⟩
  | 42 => ⟨S100000x32, .f32⟩
  | 43 => ⟨S1x32, .f32⟩
  | 44 => ⟨S100000x32, .f32⟩
  | 45 => ⟨S100000x32, .f32⟩
  | 46 => ⟨S1x32, .f32⟩
  | 47 => ⟨S100000x32, .f32⟩
  | 48 => ⟨S100000x32, .f32⟩
  | 49 => ⟨S_, .f32⟩
  | 50 => ⟨S32, .f32⟩
  | 51 => ⟨S32, .f32⟩
  | 52 => ⟨S32, .f32⟩
  | 53 => ⟨S1x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | 59 => ⟨S1x32, .f32⟩
  | 60 => ⟨S100000x32, .f32⟩
  | 61 => ⟨S100000x32, .f32⟩
  | 62 => ⟨S_, .f32⟩
  | 63 => ⟨S100000x32, .f32⟩
  | 64 => ⟨S100000x32, .f32⟩
  | 65 => ⟨S100000x16, .f32⟩
  | 66 => ⟨S_, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S_, .f32⟩
  | 73 => ⟨S100000, .f32⟩
  | 74 => ⟨S100000, .f32⟩
  | 75 => ⟨S100000, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000, .f32⟩
  | 94 => ⟨S3200000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x16, .f32⟩
  | 104 => ⟨S3200000x1, .f32⟩
  | 105 => ⟨S3200000x16, .f32⟩
  | 106 => ⟨S3200000x16, .f32⟩
  | 107 => ⟨S_, .f32⟩
  | 108 => ⟨S100000x16, .f32⟩
  | 109 => ⟨S3200000x1, .i32⟩
  | 110 => ⟨S100000x16, .f32⟩
  | 111 => ⟨S100000, .f32⟩
  | 112 => ⟨S100000x1, .f32⟩
  | 113 => ⟨S100000x16, .f32⟩
  | 114 => ⟨S100000x16, .f32⟩
  | 115 => ⟨S100000x16, .f32⟩
  | 116 => ⟨S1x16, .f32⟩
  | 117 => ⟨S100000x16, .f32⟩
  | 118 => ⟨S100000x16, .f32⟩
  | 119 => ⟨S1x16, .f32⟩
  | 120 => ⟨S100000x16, .f32⟩
  | 121 => ⟨S100000x16, .f32⟩
  | 122 => ⟨S_, .f32⟩
  | 123 => ⟨S16, .f32⟩
  | 124 => ⟨S16, .f32⟩
  | 125 => ⟨S16, .f32⟩
  | 126 => ⟨S1x16, .f32⟩
  | 127 => ⟨S100000x16, .f32⟩
  | _ => ⟨S100000x128, .f32⟩

abbrev hbmTy0_2 (i : Nat) : BufTy := match i % 128 with
  | 0 => ⟨S100000x16, .f32⟩
  | 1 => ⟨S1x16, .f32⟩
  | 2 => ⟨S100000x16, .f32⟩
  | 3 => ⟨S100000x16, .f32⟩
  | 4 => ⟨S1x16, .f32⟩
  | 5 => ⟨S100000x16, .f32⟩
  | 6 => ⟨S100000x16, .f32⟩
  | 7 => ⟨S_, .f32⟩
  | 8 => ⟨S100000x16, .f32⟩
  | 9 => ⟨S100000x16, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x16, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x16, .f32⟩
  | 28 => ⟨S3200000x8, .i1⟩
  | 29 => ⟨S_, .f32⟩
  | 30 => ⟨S3200000x8, .f32⟩
  | 31 => ⟨S3200000x8, .f32⟩
  | 32 => ⟨S_, .f32⟩
  | 33 => ⟨S3200000x8, .f32⟩
  | 34 => ⟨S3200000x8, .i1⟩
  | 35 => ⟨S_, .f32⟩
  | 36 => ⟨S3200000x8, .f32⟩
  | 37 => ⟨S3200000x8, .f32⟩
  | 38 => ⟨S_, .f32⟩
  | 39 => ⟨S3200000x8, .f32⟩
  | 40 => ⟨S3200000x8, .i1⟩
  | 41 => ⟨S_, .f32⟩
  | 42 => ⟨S3200000x8, .f32⟩
  | 43 => ⟨S3200000x8, .f32⟩
  | 44 => ⟨S3200000x40, .f32⟩
  | 45 => ⟨S3200000x32, .f32⟩
  | 46 => ⟨S1x32, .f32⟩
  | 47 => ⟨S3200000x32, .f32⟩
  | 48 => ⟨S3200000x32, .f32⟩
  | 49 => ⟨S_, .f32⟩
  | 50 => ⟨S3200000x32, .f32⟩
  | 51 => ⟨S3200000x32, .f32⟩
  | 52 => ⟨S3200000x16, .f32⟩
  | 53 => ⟨S1x16, .f32⟩
  | 54 => ⟨S3200000x16, .f32⟩
  | 55 => ⟨S3200000x16, .f32⟩
  | 56 => ⟨S_, .f32⟩
  | 57 => ⟨S3200000x16, .f32⟩
  | 58 => ⟨S3200000x16, .f32⟩
  | 59 => ⟨S3200000x2, .f32⟩
  | 60 => ⟨S1x2, .f32⟩
  | 61 => ⟨S3200000x2, .f32⟩
  | 62 => ⟨S3200000x2, .f32⟩
  | 63 => ⟨S3200000x2, .i1⟩
  | 64 => ⟨S_, .f32⟩
  | 65 => ⟨S3200000x2, .f32⟩
  | 66 => ⟨S3200000x2, .f32⟩
  | 67 => ⟨S_, .f32⟩
  | 68 => ⟨S3200000x2, .f32⟩
  | 69 => ⟨S3200000x2, .i1⟩
  | 70 => ⟨S_, .f32⟩
  | 71 => ⟨S3200000x2, .f32⟩
  | 72 => ⟨S3200000x2, .f32⟩
  | 73 => ⟨S_, .f32⟩
  | 74 => ⟨S3200000x2, .f32⟩
  | 75 => ⟨S3200000x2, .i1⟩
  | 76 => ⟨S_, .f32⟩
  | 77 => ⟨S3200000x2, .f32⟩
  | 78 => ⟨S3200000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_v0 : Ref sig .tc := ⟨.hbm, 31, rfl⟩
abbrev main_call0_cst : Ref sig .tc := ⟨.hbm, 32, rfl⟩
abbrev main_call0_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_cst_1 : Ref sig .tc := ⟨.hbm, 38, rfl⟩
abbrev main_call0_call1_v0 : Ref sig .tc := ⟨.hbm, 39, rfl⟩
abbrev main_call0_v4 : Ref sig .tc := ⟨.hbm, 40, rfl⟩
abbrev main_call0_cst_2 : Ref sig .tc := ⟨.hbm, 41, rfl⟩
abbrev main_call0_v5 : Ref sig .tc := ⟨.hbm, 42, rfl⟩
abbrev main_call0_v6 : Ref sig .tc := ⟨.hbm, 43, rfl⟩
abbrev main_call0_cst_3 : Ref sig .tc := ⟨.hbm, 44, rfl⟩
abbrev main_call0_call2_v0 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_cst_0 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst_1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_c : Ref sig .tc := ⟨.hbm, 58, rfl⟩
abbrev main_v13 : Ref sig .tc := ⟨.hbm, 59, rfl⟩
abbrev main_v14 : Ref sig .tc := ⟨.hbm, 60, rfl⟩
abbrev main_c_2 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_c_3 : Ref sig .tc := ⟨.hbm, 67, rfl⟩
abbrev main_v20 : Ref sig .tc := ⟨.hbm, 68, rfl⟩
abbrev main_v21 : Ref sig .tc := ⟨.hbm, 69, rfl⟩
abbrev main_c_4 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_5 : Ref sig .tc := ⟨.hbm, 77, rfl⟩
abbrev main_v28 : Ref sig .tc := ⟨.hbm, 78, rfl⟩
abbrev main_v29 : Ref sig .tc := ⟨.hbm, 79, rfl⟩
abbrev main_c_6 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_7 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_8 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_call1_cst : Ref sig .tc := ⟨.hbm, 117, rfl⟩
abbrev main_call1_v0 : Ref sig .tc := ⟨.hbm, 118, rfl⟩
abbrev main_v64 : Ref sig .tc := ⟨.hbm, 119, rfl⟩
abbrev main_v65 : Ref sig .tc := ⟨.hbm, 120, rfl⟩
abbrev main_cst_9 : Ref sig .tc := ⟨.hbm, 121, rfl⟩
abbrev main_v66 : Ref sig .tc := ⟨.hbm, 122, rfl⟩
abbrev main_cst_10 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_cst_11 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_12 : Ref sig .tc := ⟨.hbm, 131, rfl⟩
abbrev main_v73 : Ref sig .tc := ⟨.hbm, 132, rfl⟩
abbrev main_v74 : Ref sig .tc := ⟨.hbm, 133, rfl⟩
abbrev main_c_13 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_c_14 : Ref sig .tc := ⟨.hbm, 140, rfl⟩
abbrev main_v80 : Ref sig .tc := ⟨.hbm, 141, rfl⟩
abbrev main_v81 : Ref sig .tc := ⟨.hbm, 142, rfl⟩
abbrev main_c_15 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_c_16 : Ref sig .tc := ⟨.hbm, 150, rfl⟩
abbrev main_v88 : Ref sig .tc := ⟨.hbm, 151, rfl⟩
abbrev main_v89 : Ref sig .tc := ⟨.hbm, 152, rfl⟩
abbrev main_c_17 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_18 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_19 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_call2_cst : Ref sig .tc := ⟨.hbm, 190, rfl⟩
abbrev main_call2_v0 : Ref sig .tc := ⟨.hbm, 191, rfl⟩
abbrev main_v124 : Ref sig .tc := ⟨.hbm, 192, rfl⟩
abbrev main_v125 : Ref sig .tc := ⟨.hbm, 193, rfl⟩
abbrev main_cst_20 : Ref sig .tc := ⟨.hbm, 194, rfl⟩
abbrev main_v126 : Ref sig .tc := ⟨.hbm, 195, rfl⟩
abbrev main_cst_21 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_22 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_c_23 : Ref sig .tc := ⟨.hbm, 204, rfl⟩
abbrev main_v133 : Ref sig .tc := ⟨.hbm, 205, rfl⟩
abbrev main_v134 : Ref sig .tc := ⟨.hbm, 206, rfl⟩
abbrev main_c_24 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_c_25 : Ref sig .tc := ⟨.hbm, 213, rfl⟩
abbrev main_v140 : Ref sig .tc := ⟨.hbm, 214, rfl⟩
abbrev main_v141 : Ref sig .tc := ⟨.hbm, 215, rfl⟩
abbrev main_c_26 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_c_27 : Ref sig .tc := ⟨.hbm, 223, rfl⟩
abbrev main_v148 : Ref sig .tc := ⟨.hbm, 224, rfl⟩
abbrev main_v149 : Ref sig .tc := ⟨.hbm, 225, rfl⟩
abbrev main_c_28 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_29 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_30 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_call3_cst : Ref sig .tc := ⟨.hbm, 263, rfl⟩
abbrev main_call3_v0 : Ref sig .tc := ⟨.hbm, 264, rfl⟩
abbrev main_v184 : Ref sig .tc := ⟨.hbm, 265, rfl⟩
abbrev main_c_31 : Ref sig .tc := ⟨.hbm, 266, rfl⟩
abbrev main_v185 : Ref sig .tc := ⟨.hbm, 267, rfl⟩
abbrev main_v186 : Ref sig .tc := ⟨.hbm, 268, rfl⟩
abbrev main_c_32 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_c_33 : Ref sig .tc := ⟨.hbm, 275, rfl⟩
abbrev main_v192 : Ref sig .tc := ⟨.hbm, 276, rfl⟩
abbrev main_v193 : Ref sig .tc := ⟨.hbm, 277, rfl⟩
abbrev main_c_34 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_call4_v0 : Ref sig .tc := ⟨.hbm, 284, rfl⟩
abbrev main_call4_cst : Ref sig .tc := ⟨.hbm, 285, rfl⟩
abbrev main_call4_call0_v0 : Ref sig .tc := ⟨.hbm, 286, rfl⟩
abbrev main_call4_v1 : Ref sig .tc := ⟨.hbm, 287, rfl⟩
abbrev main_call4_cst_0 : Ref sig .tc := ⟨.hbm, 288, rfl⟩
abbrev main_call4_v2 : Ref sig .tc := ⟨.hbm, 289, rfl⟩
abbrev main_call4_v3 : Ref sig .tc := ⟨.hbm, 290, rfl⟩
abbrev main_call4_cst_1 : Ref sig .tc := ⟨.hbm, 291, rfl⟩
abbrev main_call4_call1_v0 : Ref sig .tc := ⟨.hbm, 292, rfl⟩
abbrev main_call4_v4 : Ref sig .tc := ⟨.hbm, 293, rfl⟩
abbrev main_call4_cst_2 : Ref sig .tc := ⟨.hbm, 294, rfl⟩
abbrev main_call4_v5 : Ref sig .tc := ⟨.hbm, 295, rfl⟩
abbrev main_call4_v6 : Ref sig .tc := ⟨.hbm, 296, rfl⟩
abbrev main_call4_cst_3 : Ref sig .tc := ⟨.hbm, 297, rfl⟩
abbrev main_call4_call2_v0 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_call5_cst : Ref sig .tc := ⟨.hbm, 305, rfl⟩
abbrev main_call5_v0 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_call6_cst : Ref sig .tc := ⟨.hbm, 312, rfl⟩
abbrev main_call6_v0 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_call7_v0 : Ref sig .tc := ⟨.hbm, 319, rfl⟩
abbrev main_call7_cst : Ref sig .tc := ⟨.hbm, 320, rfl⟩
abbrev main_call7_call0_v0 : Ref sig .tc := ⟨.hbm, 321, rfl⟩
abbrev main_call7_v1 : Ref sig .tc := ⟨.hbm, 322, rfl⟩
abbrev main_call7_cst_0 : Ref sig .tc := ⟨.hbm, 323, rfl⟩
abbrev main_call7_v2 : Ref sig .tc := ⟨.hbm, 324, rfl⟩
abbrev main_call7_v3 : Ref sig .tc := ⟨.hbm, 325, rfl⟩
abbrev main_call7_cst_1 : Ref sig .tc := ⟨.hbm, 326, rfl⟩
abbrev main_call7_call1_v0 : Ref sig .tc := ⟨.hbm, 327, rfl⟩
abbrev main_call7_v4 : Ref sig .tc := ⟨.hbm, 328, rfl⟩
abbrev main_call7_cst_2 : Ref sig .tc := ⟨.hbm, 329, rfl⟩
abbrev main_call7_v5 : Ref sig .tc := ⟨.hbm, 330, rfl⟩
abbrev main_call7_v6 : Ref sig .tc := ⟨.hbm, 331, rfl⟩
abbrev main_call7_cst_3 : Ref sig .tc := ⟨.hbm, 332, rfl⟩
abbrev main_call7_call2_v0 : Ref sig .tc := ⟨.hbm, 333, rfl⟩
abbrev main_v215 : Ref sig .tc := ⟨.hbm, 334, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000x128 : S_.BroadcastsInDim S100000x128 (![] : Fin 0 → Fin S100000x128.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S_S3200000x8 : S_.BroadcastsInDim S3200000x8 (![] : Fin 0 → Fin S3200000x8.rank)
  concatenates_S3200000x16_S3200000x16_S3200000x8_S3200000x40_d1 : Shape.Concatenates [S3200000x16, S3200000x16, S3200000x8] S3200000x40 1
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  bcast_S_S3200000x2 : S_.BroadcastsInDim S3200000x2 (![] : Fin 0 → Fin S3200000x2.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S3200000x40_S40x32_S3200000x32_1_0_0_1_n_n_wf : DotDims.WF S3200000x40 S40x32 S3200000x32 [1] [0] [0] [1] [] []
  dot_S3200000x32_S32x16_S3200000x16_1_0_0_1_n_n_wf : DotDims.WF S3200000x32 S32x16 S3200000x16 [1] [0] [0] [1] [] []
  dot_S3200000x16_S16x2_S3200000x2_1_0_0_1_n_n_wf : DotDims.WF S3200000x16 S16x2 S3200000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S3200000x40_S40x32_S3200000x32_1_0_0_1_n_n : DotDims S3200000x40 S40x32 S3200000x32 where
  lhsContracting := [1]
  rhsContracting := [0]
  lhsNonContracting := [0]
  rhsNonContracting := [1]
  lhsBatch := []
  rhsBatch := []
  wf := dot_S3200000x40_S40x32_S3200000x32_1_0_0_1_n_n_wf
def dot_S3200000x32_S32x16_S3200000x16_1_0_0_1_n_n : DotDims S3200000x32 S32x16 S3200000x16 where
  lhsContracting := [1]
  rhsContracting := [0]
  lhsNonContracting := [0]
  rhsNonContracting := [1]
  lhsBatch := []
  rhsBatch := []
  wf := dot_S3200000x32_S32x16_S3200000x16_1_0_0_1_n_n_wf
def dot_S3200000x16_S16x2_S3200000x2_1_0_0_1_n_n : DotDims S3200000x16 S16x2 S3200000x2 where
  lhsContracting := [1]
  rhsContracting := [0]
  lhsNonContracting := [0]
  rhsNonContracting := [1]
  lhsBatch := []
  rhsBatch := []
  wf := dot_S3200000x16_S16x2_S3200000x2_1_0_0_1_n_n_wf

class Facts : Prop extends Facts₀ where

variable [Facts]
-- ==== Proof.Bits.NodeLinear1.lean ====
/-
  Dense node layer 1, as one pipelined region: the node features [100000, 128] are cut into 10 row blocks of 10000
  rows; at each grid point the body reads one row block and the whole weight matrix [128, 64] and writes the block's
  product, a [10000, 64] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeLinear1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x128 := Rect.unit (s := S10000x128) ![0, 0] S10000x128.size inb_S10000x128_S10000x128_0_0
abbrev rect_weights : Rect S128x64 := Rect.unit (s := S128x64) ![0, 0] S128x64.size inb_S128x64_S128x64_0_0
abbrev rect_out : Rect S10000x64 := Rect.unit (s := S10000x64) ![0, 0] S10000x64.size inb_S10000x64_S10000x64_0_0

/-- The output buffer after the body: its one store, of the product of the row block with the weight matrix. -/
def result (x : Vec F S10000x128 .f32) (w : Vec F S128x64 .f32) : Vec F S10000x64 .f32 :=
  View.canon [⟨rect_out, k0_pay1 (View.ld x rect_rows) (View.ld w rect_weights)⟩]

/-- That one store covers the whole output buffer. -/
theorem store_covers (p : Vec F S10000x64 .f32) (y : S10000x64.Idx) :
    ∃ pc ∈ ([⟨rect_out, p⟩] : List (View.Piece (Elt F) S10000x64 .f32)), y ∈ pc.1.set :=
  View.cover_of_tiled [⟨rect_out, p⟩] S10000x64.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x : Vec F S10000x128 .f32) (w : Vec F S128x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => result (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) : (dat V c).after 2 t = result (blockAt V c 0 t) (blockAt V c 1 t) := by dsimp only [dat]

theorem before_rows (c : Dev nD) (t : Fin cfg0.N) (d) : (dat V c).before 0 t d = blockAt V c 0 t :=
  staged_rows V (dat V c) (dat_A V c 0) (after_rows V c) t d
theorem before_weights (c : Dev nD) (t : Fin cfg0.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid0.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at V c t

end Cert.Kernel.NodeLinear1

end
-- ==== Proof.Bits.Combine1.lean ====
/-
  The fused combine of layer 1, as one pipelined region over 10 row blocks of 10000 nodes: at each grid point the body
  reads the block's neighbour sums and self terms [10000, 64] and the three rows bias, scale, shift [1, 64], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The neighbour-sum window's staging buffer holds the point's row block whenever the body starts. -/
theorem staged_agg {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x64 := Rect.unit (s := S10000x64) ![0, 0] S10000x64.size inb_S10000x64_S10000x64_0_0
abbrev rect_self : Rect S10000x64 := Rect.unit (s := S10000x64) ![0, 0] S10000x64.size inb_S10000x64_S10000x64_0_0
abbrev rect_bias : Rect S1x64 := Rect.unit (s := S1x64) ![0, 0] S1x64.size inb_S1x64_S1x64_0_0
abbrev rect_scale : Rect S1x64 := Rect.unit (s := S1x64) ![0, 0] S1x64.size inb_S1x64_S1x64_0_0
abbrev rect_shift : Rect S1x64 := Rect.unit (s := S1x64) ![0, 0] S1x64.size inb_S1x64_S1x64_0_0
abbrev rect_out : Rect S10000x64 := Rect.unit (s := S10000x64) ![0, 0] S10000x64.size inb_S10000x64_S10000x64_0_0

/-- The output buffer after the body: its one store, the rectified affine combination of the two row blocks with the three rows. -/
def result (a : Vec F S10000x64 .f32) (s : Vec F S10000x64 .f32) (b : Vec F S1x64 .f32) (sc : Vec F S1x64 .f32) (sh : Vec F S1x64 .f32) : Vec F S10000x64 .f32 :=
  View.canon [⟨rect_out, k1_pay1 (View.ld a rect_agg) (View.ld s rect_self) (View.ld b rect_bias) (View.ld sc rect_scale) (View.ld sh rect_shift)⟩]

/-- That one store covers the whole output buffer. -/
theorem store_covers (p : Vec F S10000x64 .f32) (y : S10000x64.Idx) :
    ∃ pc ∈ ([⟨rect_out, p⟩] : List (View.Piece (Elt F) S10000x64 .f32)), y ∈ pc.1.set :=
  View.cover_of_tiled [⟨rect_out, p⟩] S10000x64.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (a : Vec F S10000x64 .f32) (s : Vec F S10000x64 .f32) (b : Vec F S1x64 .f32) (sc : Vec F S1x64 .f32) (sh : Vec F S1x64 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc1__combine_bn_relu_kernel i arg1 harg1 arg2 harg2 arg3 harg3 arg4 harg4 arg5 harg5 arg6 harg6) K := by
  simp only [cc1__combine_bn_relu_kernel_eq_skeleton]; unfold cc1__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = blockAt V c 0 t := by dsimp only [dat]
theorem after_self (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_scale (c : Dev nD) (t : Fin cfg1.N) : (dat V c).after 3 t = blockAt V c 3 t := by dsimp only [dat]
theorem after_shift (c : Dev nD) (t : Fin cfg1.N) : (dat V c).after 4 t = blockAt V c 4 t := by dsimp only [dat]
theorem after_out (c : Dev nD) (t : Fin cfg1.N) : (dat V c).after 5 t = result (blockAt V c 0 t) (blockAt V c 1 t) (blockAt V c 2 t) (blockAt V c 3 t) (blockAt V c 4 t) := by dsimp only [dat]

theorem before_agg (c : Dev nD) (t : Fin cfg1.N) (d) : (dat V c).before 0 t d = blockAt V c 0 t :=
  staged_agg V (dat V c) (dat_A V c 0) (after_agg V c) t d
theorem before_self (c : Dev nD) (t : Fin cfg1.N) (d) : (dat V c).before 1 t d = blockAt V c 1 t :=
  staged_self V (dat V c) (dat_A V c 1) (after_self V c) t d
theorem before_bias (c : Dev nD) (t : Fin cfg1.N) (d) : (dat V c).before 2 t d = blockAt V c 2 t :=
  staged_bias V (dat V c) (dat_A V c 2) (after_bias V c) t d
theorem before_scale (c : Dev nD) (t : Fin cfg1.N) (d) : (dat V c).before 3 t d = blockAt V c 3 t :=
  staged_scale V (dat V c) (dat_A V c 3) (after_scale V c) t d
theorem before_shift (c : Dev nD) (t : Fin cfg1.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid1.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact body_at V c t

end Cert.Kernel.Combine1

end
-- ==== Proof.Bits.NodeLinear2.lean ====
/-
  Dense node layer 2, as one pipelined region: the node features [100000, 64] are cut into 10 row blocks of 10000
  rows; at each grid point the body reads one row block and the whole weight matrix [64, 32] and writes the block's
  product, a [10000, 32] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeLinear2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x64 := Rect.unit (s := S10000x64) ![0, 0] S10000x64.size inb_S10000x64_S10000x64_0_0
abbrev rect_weights : Rect S64x32 := Rect.unit (s := S64x32) ![0, 0] S64x32.size inb_S64x32_S64x32_0_0
abbrev rect_out : Rect S10000x32 := Rect.unit (s := S10000x32) ![0, 0] S10000x32.size inb_S10000x32_S10000x32_0_0

/-- The output buffer after the body: its one store, of the product of the row block with the weight matrix. -/
def result (x : Vec F S10000x64 .f32) (w : Vec F S64x32 .f32) : Vec F S10000x32 .f32 :=
  View.canon [⟨rect_out, k2_pay1 (View.ld x rect_rows) (View.ld w rect_weights)⟩]

/-- That one store covers the whole output buffer. -/
theorem store_covers (p : Vec F S10000x32 .f32) (y : S10000x32.Idx) :
    ∃ pc ∈ ([⟨rect_out, p⟩] : List (View.Piece (Elt F) S10000x32 .f32)), y ∈ pc.1.set :=
  View.cover_of_tiled [⟨rect_out, p⟩] S10000x32.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid2.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x : Vec F S10000x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg2 c where
  A w := V c (Pipeline.arrRef spec2 w)
  after w t := match w with
    | ⟨0, _⟩ => blockAt V c 0 t
    | ⟨1, _⟩ => blockAt V c 1 t
    | ⟨2, _⟩ => result (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_out (c : Dev nD) (t : Fin cfg2.N) : (dat V c).after 2 t = result (blockAt V c 0 t) (blockAt V c 1 t) := by dsimp only [dat]

theorem before_rows (c : Dev nD) (t : Fin cfg2.N) (d) : (dat V c).before 0 t d = blockAt V c 0 t :=
  staged_rows V (dat V c) (dat_A V c 0) (after_rows V c) t d
theorem before_weights (c : Dev nD) (t : Fin cfg2.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid2.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact body_at V c t

end Cert.Kernel.NodeLinear2

end
-- ==== Proof.Bits.Combine2.lean ====
/-
  The fused combine of layer 2, as one pipelined region over 10 row blocks of 10000 nodes: at each grid point the body
  reads the block's neighbour sums and self terms [10000, 32] and the three rows bias, scale, shift [1, 32], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The neighbour-sum window's staging buffer holds the point's row block whenever the body starts. -/
theorem staged_agg {c : Dev nD} (dat : Dat τ (Elt F) Unit ℕ (Pipeline.UD sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x32 := Rect.unit (s := S10000x32) ![0, 0] S10000x32.size inb_S10000x32_S10000x32_0_0
abbrev rect_self : Rect S10000x32 := Rect.unit (s := S10000x32) ![0, 0] S10000x32.size inb_S10000x32_S10000x32_0_0
abbrev rect_bias : Rect S1x32 := Rect.unit (s := S1x32) ![0, 0] S1x32.size inb_S1x32_S1x32_0_0
abbrev rect_scale : Rect S1x32 := Rect.unit (s := S1x32) ![0, 0] S1x32.size inb_S1x32_S1x32_0_0
abbrev rect_shift : Rect S1x32 := Rect.unit (s := S1x32) ![0, 0] S1x32.size inb_S1x32_S1x32_0_0
abbrev rect_out : Rect S10000x32 := Rect.unit (s := S10000x32) ![0, 0] S10000x32.size inb_S10000x32_S10000x32_0_0

/-- The output buffer after the body: its one store, the rectified affine combination of the two row blocks with the three rows. -/
def result (a : Vec F S10000x32 .f32) (s : Vec F S10000x32 .f32) (b : Vec F S1x32 .f32) (sc : Vec F S1x32 .f32) (sh : Vec F S1x32 .f32) : Vec F S10000x32 .f32 :=
  View.canon [⟨rect_out, k3_pay1 (View.ld a rect_agg) (View.ld s rect_self) (View.ld b rect_bias) (View.ld sc rect_scale) (View.ld sh rect_shift)⟩]

/-- That one store covers the whole output buffer. -/
theorem store_covers (p : Vec F S10000x32 .f32) (y : S10000x32.Idx) :
    ∃ pc ∈ ([⟨rect_out, p⟩] : List (View.Piece (Elt F) S10000x32 .f32)), y ∈ pc.1.set :=
  View.cover_of_tiled [⟨rect_out, p⟩] S10000x32.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (a : Vec F S10000x32 .f32) (s : Vec F S10000x32 .f32) (b : Vec F S1x32 .f32) (sc : Vec F S1x32 .f32) (sh : Vec F S1x32 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc3__combine_bn_relu_kernel i arg1 harg1 arg2 harg2 arg3 harg3 arg4 harg4 arg5 harg5 arg6 harg6) K := by
  simp only [cc3__combine_bn_relu_kernel_eq_skeleton]; unfold cc3__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after_agg (c : Dev nD) (t : Fin cfg3.N) : (dat V c).after 0 t = blockAt V c 0 t := by dsimp only [dat]
theorem after_self (c : Dev nD) (t : Fin cfg3.N) : (dat V c).after 1 t = blockAt V c 1 t := by dsimp only [dat]
theorem after_bias (c : Dev nD) (t : Fin cfg3.N) : (dat V c).after 2 t = blockAt V c 2 t := by dsimp only [dat]
theorem after_scale (c : Dev nD) (t : Fin cfg3.N) : (dat V c).after 3 t = blockAt V c 3 t := by dsimp only [dat]
theorem after_shift (c : Dev nD) (t : Fin cfg3.N) : (dat V c).after 4 t = blockAt V c 4 t := by dsimp only [dat]
theorem after_out (c : Dev nD) (t : Fin cfg3.N) : (dat V c).after 5 t = result (blockAt V c 0 t) (blockAt V c 1 t) (blockAt V c 2 t) (blockAt V c 3 t) (blockAt V c 4 t) := by dsimp only [dat]

theorem before_agg (c : Dev nD) (t : Fin cfg3.N) (d) : (dat V c).before 0 t d = blockAt V c 0 t :=
  staged_agg V (dat V c) (dat_A V c 0) (after_agg V c) t d
theorem before_self (c : Dev nD) (t : Fin cfg3.N) (d) : (dat V c).before 1 t d = blockAt V c 1 t :=
  staged_self V (dat V c) (dat_A V c 1) (after_self V c) t d
theorem before_bias (c : Dev nD) (t : Fin cfg3.N) (d) : (dat V c).before 2 t d = blockAt V c 2 t :=
  staged_bias V (dat V c) (dat_A V c 2) (after_bias V c) t d
theorem before_scale (c : Dev nD) (t : Fin cfg3.N) (d) : (dat V c).before 3 t d = blockAt V c 3 t :=
  staged_scale V (dat V c) (dat_A V c 3) (after_scale V c) t d
theorem before_shift (c : Dev nD) (t : Fin cfg3.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid3.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W3, bigSep_W3]
  exact body_at V c t

end Cert.Kernel.Combine2

end
-- ==== Proof.Bits.NodeLinear3.lean ====
/-
  Dense node layer 3, as one pipelined region: the node features [100000, 32] are cut into 10 row blocks of 10000
  rows; at each grid point the body reads one row block and the whole weight matrix [32, 16] and writes the block's
  product, a [10000, 16] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeLinear3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x32 := Rect.unit (s := S10000x32) ![0, 0] S10000x32.size inb_S10000x32_S10000x32_0_0
abbrev rect_weights : Rect S32x16 := Rect.unit (s := S32x16) ![0, 0] S32x16.size inb_S32x16_S32x16_0_0
abbrev rect_out : Rect S10000x16 := Rect.unit (s := S10000x16) ![0, 0] S10000x16.size inb_S10000x16_S10000x16_0_0

/-- The output buffer after the body: its one store, of the product of the row block with the weight matrix. -/
def result (x : Vec F S10000x32 .f32) (w : Vec F S32x16 .f32) : Vec F S10000x16 .f32 :=
  View.canon [⟨rect_out, k4_pay1 (View.ld x rect_rows) (View.ld w rect_weights)⟩]

/-- That one store covers the whole output buffer. -/
theorem store_covers (p : Vec F S10000x16 .f32) (y : S10000x16.Idx) :
    ∃ pc ∈ ([⟨rect_out, p⟩] : List (View.Piece (Elt F) S10000x16 .f32)), y ∈ pc.1.set :=
  View.cover_of_tiled [⟨rect_out, p⟩] S10000x16.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid4.Coords) (arg1 : Memref sig .tc .vmem S10000x32 .f32) (harg1 : arg1.IsWhole) (arg2 : Memref sig .tc .vmem S32x16 .f32) (harg2 : arg2.IsWhole) (arg3 : Memref sig .tc .vmem S10000x16 .f32) (harg3 : arg3.IsWhole)
    (x : Vec F S10000x32 .f32) (w : Vec F S32x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg4 c where
  A w := V c (Pipeline.arrRef spec4 w)
  after w t := match w with
    | ⟨0, _⟩ => blockAt V c 0 t
    | ⟨1, _⟩ => blockAt V c 1 t
    | ⟨2, _⟩ => result (blockAt V c 0 t) (blockAt V c 1 t)
  Φ _ := Pipeline.ΦA spec4 c
  q _ := fullShare
  owed _ := 0

theorem dat_A (c : Dev nD) (w : Fin cfg4.W) : (dat V c).A w = V c (Pipeline.arrRef spec4 w) := by
  dsimp only [dat]

theorem after_rows (c : Dev nD) (t : Fin cfg4.N) : (dat V c).after 0 t = blockAt V c 0 t := by dsimp only [dat]
theorem after_weights (c : Dev nD) (t : Fin cfg4.N) : (dat V c).after 1 t = blockAt V c 1 t := by dsimp only [dat]
theorem after_out (c : Dev nD) (t : Fin cfg4.N) : (dat V c).after 2 t = result (blockAt V c 0 t) (blockAt V c 1 t) := by dsimp only [dat]

theorem before_rows (c : Dev nD) (t : Fin cfg4.N) (d) : (dat V c).before 0 t d = blockAt V c 0 t :=
  staged_rows V (dat V c) (dat_A V c 0) (after_rows V c) t d
theorem before_weights (c : Dev nD) (t : Fin cfg4.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid4.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W4, bigSep_W4]
  exact body_at V c t

end Cert.Kernel.NodeLinear3

end
-- ==== Proof.Bits.Combine3.lean ====
/-
  The fused combine of layer 3, as one pipelined region over 10 row blocks of 10000 nodes: at each grid point the body
  reads the block's neighbour sums and self terms [10000, 16] and the three rows bias, scale, shift [1, 16], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The neighbour-sum window's staging buffer holds the point's row block whenever the body starts. -/
theorem staged_agg {c : Dev nD} (dat : Dat τ (Elt F) Unit ℕ (Pipeline.UD sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg5 c) (hA : dat.A 2 = V c (Pipeline.arrRef spec5 2))
    (hafter : ∀ t, dat.after 2 t = blockAt V c 2 t) (t : Fin cfg5.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg5 c) (hA : dat.A 3 = V c (Pipeline.arrRef spec5 3))
    (hafter : ∀ t, dat.after 3 t = blockAt V c 3 t) (t : Fin cfg5.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg5 c) (hA : dat.A 4 = V c (Pipeline.arrRef spec5 4))
    (hafter : ∀ t, dat.after 4 t = blockAt V c 4 t) (t : Fin cfg5.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x16 := Rect.unit (s := S10000x16) ![0, 0] S10000x16.size inb_S10000x16_S10000x16_0_0
abbrev rect_self : Rect S10000x16 := Rect.unit (s := S10000x16) ![0, 0] S10000x16.size inb_S10000x16_S10000x16_0_0
abbrev rect_bias : Rect S1x16 := Rect.unit (s := S1x16) ![0, 0] S1x16.size inb_S1x16_S1x16_0_0
abbrev rect_scale : Rect S1x16 := Rect.unit (s := S1x16) ![0, 0] S1x16.size inb_S1x16_S1x16_0_0
abbrev rect_shift : Rect S1x16 := Rect.unit (s := S1x16) ![0, 0] S1x16.size inb_S1x16_S1x16_0_0
abbrev rect_out : Rect S10000x16 := Rect.unit (s := S10000x16) ![0, 0] S10000x16.size inb_S10000x16_S10000x16_0_0

/-- The output buffer after the body: its one store, the rectified affine combination of the two row blocks with the three rows. -/
def result (a : Vec F S10000x16 .f32) (s : Vec F S10000x16 .f32) (b : Vec F S1x16 .f32) (sc : Vec F S1x16 .f32) (sh : Vec F S1x16 .f32) : Vec F S10000x16 .f32 :=
  View.canon [⟨rect_out, k5_pay1 (View.ld a rect_agg) (View.ld s rect_self) (View.ld b rect_bias) (View.ld sc rect_scale) (View.ld sh rect_shift)⟩]

/-- That one store covers the whole output buffer. -/
theorem store_covers (p : Vec F S10000x16 .f32) (y : S10000x16.Idx) :
    ∃ pc ∈ ([⟨rect_out, p⟩] : List (View.Piece (Elt F) S10000x16 .f32)), y ∈ pc.1.set :=
  View.cover_of_tiled [⟨rect_out, p⟩] S10000x16.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid5.Coords) (arg1 : Memref sig .tc .vmem S10000x16 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S10000x16 .f32) (harg6 : arg6.IsWhole)
    (a : Vec F S10000x16 .f32) (s : Vec F S10000x16 .f32) (b : Vec F S1x16 .f32) (sc : Vec F S1x16 .f32) (sh : Vec F S1x16 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc5__combine_bn_relu_kernel i arg1 harg1 arg2 harg2 arg3 harg3 arg4 harg4 arg5 harg5 arg6 harg6) K := by
  simp only [cc5__combine_bn_relu_kernel_eq_skeleton]; unfold cc5__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg5 c where
  A w := V c (Pipeline.arrRef spec5 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec5 c
  q _ := fullShare
  owed _ := 0

theorem dat_A (c : Dev nD) (w : Fin cfg5.W) : (dat V c).A w = V c (Pipeline.arrRef spec5 w) := by
  dsimp only [dat]

theorem after_agg (c : Dev nD) (t : Fin cfg5.N) : (dat V c).after 0 t = blockAt V c 0 t := by dsimp only [dat]
theorem after_self (c : Dev nD) (t : Fin cfg5.N) : (dat V c).after 1 t = blockAt V c 1 t := by dsimp only [dat]
theorem after_bias (c : Dev nD) (t : Fin cfg5.N) : (dat V c).after 2 t = blockAt V c 2 t := by dsimp only [dat]
theorem after_scale (c : Dev nD) (t : Fin cfg5.N) : (dat V c).after 3 t = blockAt V c 3 t := by dsimp only [dat]
theorem after_shift (c : Dev nD) (t : Fin cfg5.N) : (dat V c).after 4 t = blockAt V c 4 t := by dsimp only [dat]
theorem after_out (c : Dev nD) (t : Fin cfg5.N) : (dat V c).after 5 t = result (blockAt V c 0 t) (blockAt V c 1 t) (blockAt V c 2 t) (blockAt V c 3 t) (blockAt V c 4 t) := by dsimp only [dat]

theorem before_agg (c : Dev nD) (t : Fin cfg5.N) (d) : (dat V c).before 0 t d = blockAt V c 0 t :=
  staged_agg V (dat V c) (dat_A V c 0) (after_agg V c) t d
theorem before_self (c : Dev nD) (t : Fin cfg5.N) (d) : (dat V c).before 1 t d = blockAt V c 1 t :=
  staged_self V (dat V c) (dat_A V c 1) (after_self V c) t d
theorem before_bias (c : Dev nD) (t : Fin cfg5.N) (d) : (dat V c).before 2 t d = blockAt V c 2 t :=
  staged_bias V (dat V c) (dat_A V c 2) (after_bias V c) t d
theorem before_scale (c : Dev nD) (t : Fin cfg5.N) (d) : (dat V c).before 3 t d = blockAt V c 3 t :=
  staged_scale V (dat V c) (dat_A V c 3) (after_scale V c) t d
theorem before_shift (c : Dev nD) (t : Fin cfg5.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid5.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W5, bigSep_W5]
  exact body_at V c t

end Cert.Kernel.Combine3

end
-- ==== Proof.Bits.EdgeMlp.lean ====
/-
  The edge classifier, as one pipelined region over 400 blocks of 8000 edges: at each grid point the body reads the block's
  edge features [8000, 40] and the three dense layers' weights and bias rows, applies dense, rectify, dense, rectify,
  dense, then replaces an infinite entry by the largest finite value of its sign, and writes the [8000, 2] block of
  scores. Nothing is carried from one point to the next.

  Stated at ANY contents `V` of the core's buffers on entry, and at any float instance.
-/
import proofs.«114179_j13726715478162_1_alg».proof.Proof.Gen.Kernel.Launch
import proofs.«114179_j13726715478162_1_alg».proof.Proof.Gen.Kernel.Skeleton
import proofs.«114179_j13726715478162_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EdgeMlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The edge-feature window's staging buffer holds the point's block of 8000 edges whenever the body starts. -/
theorem staged_feats {c : Dev nD} (dat : Dat τ (Elt F) Unit ℕ (Pipeline.UD sig nD τ) ℕ cfg6 c) (hA : dat.A 0 = V c (Pipeline.arrRef spec6 0))
    (hafter : ∀ t, dat.after 0 t = blockAt V c 0 t) (t : Fin cfg6.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The first weight matrix is copied in at the first point and stays. -/
theorem staged_w1 {c : Dev nD} (dat : Dat τ (Elt F) Unit ℕ (Pipeline.UD sig nD τ) ℕ cfg6 c) (hA : dat.A 1 = V c (Pipeline.arrRef spec6 1))
    (hafter : ∀ t, dat.after 1 t = blockAt V c 1 t) (t : Fin cfg6.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The first bias row is copied in at the first point and stays. -/
theorem staged_b1 {c : Dev nD} (dat : Dat τ (Elt F) Unit ℕ (Pipeline.UD sig nD τ) ℕ cfg6 c) (hA : dat.A 2 = V c (Pipeline.arrRef spec6 2))
    (hafter : ∀ t, dat.after 2 t = blockAt V c 2 t) (t : Fin cfg6.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The second weight matrix is copied in at the first point and stays. -/
theorem staged_w2 {c : Dev nD} (dat : Dat τ (Elt F) Unit ℕ (Pipeline.UD sig nD τ) ℕ cfg6 c) (hA : dat.A 3 = V c (Pipeline.arrRef spec6 3))
    (hafter : ∀ t, dat.after 3 t = blockAt V c 3 t) (t : Fin cfg6.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The second bias row is copied in at the first point and stays. -/
theorem staged_b2 {c : Dev nD} (dat : Dat τ (Elt F) Unit ℕ (Pipeline.UD sig nD τ) ℕ cfg6 c) (hA : dat.A 4 = V c (Pipeline.arrRef spec6 4))
    (hafter : ∀ t, dat.after 4 t = blockAt V c 4 t) (t : Fin cfg6.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The third weight matrix is copied in at the first point and stays. -/
theorem staged_w3 {c : Dev nD} (dat : Dat τ (Elt F) Unit ℕ (Pipeline.UD sig nD τ) ℕ cfg6 c) (hA : dat.A 5 = V c (Pipeline.arrRef spec6 5))
    (hafter : ∀ t, dat.after 5 t = blockAt V c 5 t) (t : Fin cfg6.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- The third bias row is copied in at the first point and stays. -/
theorem staged_b3 {c : Dev nD} (dat : Dat τ (Elt F) Unit ℕ (Pipeline.UD sig nD τ) ℕ cfg6 c) (hA : dat.A 6 = V c (Pipeline.arrRef spec6 6))
    (hafter : ∀ t, dat.after 6 t = blockAt V c 6 t) (t : Fin cfg6.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_feats : Rect S8000x40 := Rect.unit (s := S8000x40) ![0, 0] S8000x40.size inb_S8000x40_S8000x40_0_0
abbrev rect_w1 : Rect S40x32 := Rect.unit (s := S40x32) ![0, 0] S40x32.size inb_S40x32_S40x32_0_0
abbrev rect_b1 : Rect S1x32 := Rect.unit (s := S1x32) ![0, 0] S1x32.size inb_S1x32_S1x32_0_0
abbrev rect_w2 : Rect S32x16 := Rect.unit (s := S32x16) ![0, 0] S32x16.size inb_S32x16_S32x16_0_0
abbrev rect_b2 : Rect S1x16 := Rect.unit (s := S1x16) ![0, 0] S1x16.size inb_S1x16_S1x16_0_0
abbrev rect_w3 : Rect S16x2 := Rect.unit (s := S16x2) ![0, 0] S16x2.size inb_S16x2_S16x2_0_0
abbrev rect_b3 : Rect S1x2 := Rect.unit (s := S1x2) ![0, 0] S1x2.size inb_S1x2_S1x2_0_0
abbrev rect_out : Rect S8000x2 := Rect.unit (s := S8000x2) ![0, 0] S8000x2.size inb_S8000x2_S8000x2_0_0

/-- The output buffer after the body: its one store, the clamped scores of the block's edges. -/
def result (e : Vec F S8000x40 .f32) (w1 : Vec F S40x32 .f32) (b1 : Vec F S1x32 .f32) (w2 : Vec F S32x16 .f32) (b2 : Vec F S1x16 .f32) (w3 : Vec F S16x2 .f32) (b3 : Vec F S1x2 .f32) : Vec F S8000x2 .f32 :=
  View.canon [⟨rect_out, k6_pay1 (k6_pay2 (View.ld e rect_feats) (View.ld w1 rect_w1) (View.ld b1 rect_b1) (View.ld w2 rect_w2) (View.ld b2 rect_b2) (View.ld w3 rect_w3) (View.ld b3 rect_b3))⟩]

/-- That one store covers the whole output buffer. -/
theorem store_covers (p : Vec F S8000x2 .f32) (y : S8000x2.Idx) :
    ∃ pc ∈ ([⟨rect_out, p⟩] : List (View.Piece (Elt F) S8000x2 .f32)), y ∈ pc.1.set :=
  View.cover_of_tiled [⟨rect_out, p⟩] S8000x2.size (by rfl) y

/-! ## The body -/

set_option maxHeartbeats 2000000 in
/-- On whole staging buffers holding the block's edge features and the six parameter arrays, and anything in the output buffer, the body terminates without fault, leaves the inputs in place and the output buffer at `result` of them. (It also reads the output buffer's old contents, and does not use them.) -/
theorem body_sound (c : Dev nD) (E : Set ℕ) (i : grid6.Coords) (arg1 : Memref sig .tc .vmem S8000x40 .f32) (harg1 : arg1.IsWhole) (arg2 : Memref sig .tc .vmem S40x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x2 .f32) (harg6 : arg6.IsWhole) (arg7 : Memref sig .tc .vmem S1x2 .f32) (harg7 : arg7.IsWhole) (arg8 : Memref sig .tc .vmem S8000x2 .f32) (harg8 : arg8.IsWhole)
    (e : Vec F S8000x40 .f32) (w1 : Vec F S40x32 .f32) (b1 : Vec F S1x32 .f32) (w2 : Vec F S32x16 .f32) (b2 : Vec F S1x16 .f32) (w3 : Vec F S16x2 .f32) (b3 : Vec F S1x2 .f32) (K : PUnit → sProp 𝕄) :
    iprop(owns (c : Thread nD τ) arg1 fullShare e ∗ owns (c : Thread nD τ) arg2 fullShare w1 ∗ owns (c : Thread nD τ) arg3 fullShare b1 ∗ owns (c : Thread nD τ) arg4 fullShare w2 ∗ owns (c : Thread nD τ) arg5 fullShare b2 ∗ owns (c : Thread nD τ) arg6 fullShare w3 ∗ owns (c : Thread nD τ) arg7 fullShare b3 ∗ (∃ d, owns (c : Thread nD τ) arg8 fullShare d)
        ∗ (iprop(owns (c : Thread nD τ) arg1 fullShare e ∗ owns (c : Thread nD τ) arg2 fullShare w1 ∗ owns (c : Thread nD τ) arg3 fullShare b1 ∗ owns (c : Thread nD τ) arg4 fullShare w2 ∗ owns (c : Thread nD τ) arg5 fullShare b2 ∗ owns (c : Thread nD τ) arg6 fullShare w3 ∗ owns (c : Thread nD τ) arg7 fullShare b3 ∗ owns (c : Thread nD τ) arg8 fullShare (result e w1 b1 w2 b2 w3 b3)) -∗ K ⟨⟩))
      ⊢ wp frame (wpE (defs₀ (F := F)) Variants.none c none) E (cc6__edge_mlp_kernel i arg1 harg1 arg2 harg2 arg3 harg3 arg4 harg4 arg5 harg5 arg6 harg6 arg7 harg7 arg8 harg8) K := by
  simp only [cc6__edge_mlp_kernel_eq_skeleton]; unfold cc6__edge_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg6 c where
  A w := V c (Pipeline.arrRef spec6 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => result (blockAt V c 0 t) (blockAt V c 1 t) (blockAt V c 2 t) (blockAt V c 3 t) (blockAt V c 4 t) (blockAt V c 5 t) (blockAt V c 6 t)
  Φ _ := Pipeline.ΦA spec6 c
  q _ := fullShare
  owed _ := 0

theorem dat_A (c : Dev nD) (w : Fin cfg6.W) : (dat V c).A w = V c (Pipeline.arrRef spec6 w) := by
  dsimp only [dat]

theorem after_feats (c : Dev nD) (t : Fin cfg6.N) : (dat V c).after 0 t = blockAt V c 0 t := by dsimp only [dat]
theorem after_w1 (c : Dev nD) (t : Fin cfg6.N) : (dat V c).after 1 t = blockAt V c 1 t := by dsimp only [dat]
theorem after_b1 (c : Dev nD) (t : Fin cfg6.N) : (dat V c).after 2 t = blockAt V c 2 t := by dsimp only [dat]
theorem after_w2 (c : Dev nD) (t : Fin cfg6.N) : (dat V c).after 3 t = blockAt V c 3 t := by dsimp only [dat]
theorem after_b2 (c : Dev nD) (t : Fin cfg6.N) : (dat V c).after 4 t = blockAt V c 4 t := by dsimp only [dat]
theorem after_w3 (c : Dev nD) (t : Fin cfg6.N) : (dat V c).after 5 t = blockAt V c 5 t := by dsimp only [dat]
theorem after_b3 (c : Dev nD) (t : Fin cfg6.N) : (dat V c).after 6 t = blockAt V c 6 t := by dsimp only [dat]
theorem after_out (c : Dev nD) (t : Fin cfg6.N) : (dat V c).after 7 t = result (blockAt V c 0 t) (blockAt V c 1 t) (blockAt V c 2 t) (blockAt V c 3 t) (blockAt V c 4 t) (blockAt V c 5 t) (blockAt V c 6 t) := by dsimp only [dat]

theorem before_feats (c : Dev nD) (t : Fin cfg6.N) (d) : (dat V c).before 0 t d = blockAt V c 0 t :=
  staged_feats V (dat V c) (dat_A V c 0) (after_feats V c) t d
theorem before_w1 (c : Dev nD) (t : Fin cfg6.N) (d) : (dat V c).before 1 t d = blockAt V c 1 t :=
  staged_w1 V (dat V c) (dat_A V c 1) (after_w1 V c) t d
theorem before_b1 (c : Dev nD) (t : Fin cfg6.N) (d) : (dat V c).before 2 t d = blockAt V c 2 t :=
  staged_b1 V (dat V c) (dat_A V c 2) (after_b1 V c) t d
theorem before_w2 (c : Dev nD) (t : Fin cfg6.N) (d) : (dat V c).before 3 t d = blockAt V c 3 t :=
  staged_w2 V (dat V c) (dat_A V c 3) (after_w2 V c) t d
theorem before_b2 (c : Dev nD) (t : Fin cfg6.N) (d) : (dat V c).before 4 t d = blockAt V c 4 t :=
  staged_b2 V (dat V c) (dat_A V c 4) (after_b2 V c) t d
theorem before_w3 (c : Dev nD) (t : Fin cfg6.N) (d) : (dat V c).before 5 t d = blockAt V c 5 t :=
  staged_w3 V (dat V c) (dat_A V c 5) (after_w3 V c) t d
theorem before_b3 (c : Dev nD) (t : Fin cfg6.N) (d) : (dat V c).before 6 t d = blockAt V c 6 t :=
  staged_b3 V (dat V c) (dat_A V c 6) (after_b3 V c) t d

/-! ## The body's obligation at every grid point -/

/-- What the body is entered with at point `t`, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d))
    ∗ (∃ d, owns (c : Thread nD τ) (st6_7 t) fullShare ((dat V c).before 7 t d)))

/-- and what it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t)
    ∗ owns (c : Thread nD τ) (st6_7 t) fullShare ((dat V c).after 7 t))

theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_feats, before_w1, before_b1, before_w2, before_b2, before_w3, before_b3]
  rw [show (dat V c).Φ t.succ = (dat V c).Φ t.castSucc from rfl,
    show (dat V c).owesAt () t.succ = (dat V c).owesAt () t.castSucc from rfl,
    after_feats, after_w1, after_b1, after_w2, after_b2, after_w3, after_b3, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_sound c Set.univ (grid6.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W6, bigSep_W6]
  exact body_at V c t

end Cert.Kernel.EdgeMlp

end
-- ==== Proof.Bits.Run.lean ====
/-
  The whole execution of the program, from launch to return, at any float instance.

  The program is fourteen items in a row: stretches of array operations computed in place (degree and normalisation,
  gathers and segment sums, the rows of scale and shift, the edge features) and seven pipelined regions (three dense node
  layers, three fused combines, the edge classifier). What every buffer holds is followed from one item to the next:
  a stretch applies its operations to the contents before it; a region replaces the arrays of its windows by what the
  write-backs of all its grid points leave and touches nothing else. An argument array is written by no stretch and is
  at most an INPUT window of a region, so it is carried unchanged to the end; the result is the output window's array
  of the last region.
-/
import proofs.«114179_j13726715478162_1_alg».proof.Proof.Bits.NodeLinear1
import proofs.«114179_j13726715478162_1_alg».proof.Proof.Bits.Combine1
import proofs.«114179_j13726715478162_1_alg».proof.Proof.Bits.NodeLinear2
import proofs.«114179_j13726715478162_1_alg».proof.Proof.Bits.Combine2
import proofs.«114179_j13726715478162_1_alg».proof.Proof.Bits.NodeLinear3
import proofs.«114179_j13726715478162_1_alg».proof.Proof.Bits.Combine3
import proofs.«114179_j13726715478162_1_alg».proof.Proof.Bits.EdgeMlp
import proofs.«114179_j13726715478162_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What every buffer holds between two items -/

/-- At launch. -/
abbrev B0 : Dev nD → Valuation τ sig (Elt F) := fun c b => m (c, b)
/-- After the host stretch `hostOps0`. -/
abbrev B1 : Dev nD → Valuation τ sig (Elt F) := fun c => StableHlo.after hostOps0 (B0 m c)

/-- After the host stretch `hostOps0_1`. -/
abbrev B2 : Dev nD → Valuation τ sig (Elt F) := fun c => StableHlo.after hostOps0_1 (B1 m c)

/-- The contents region 0 is entered from, read at the core's own references. -/
abbrev E2 : (c : Dev nD) → (b : Ref sig .tc) → Buf (Elt F) ((c : Thread nD τ).loc b) := fun c b => B2 m c b
/-- After region 0: each of its windows' arrays at what the write-backs of all grid points leave (an input's array as entered), every other buffer as entered. -/
def B3 (c : Dev nD) : Valuation τ sig (Elt F) :=
  Pipeline.withArrays spec0 c (B2 m c) fun w => (NodeLinear1.dat (E2 m) c).arrAt w cfg0.N
theorem B3_arr (c : Dev nD) (w : Fin cfg0.W) :
    B3 m c (Proc.devRef .tc (Pipeline.arrRef spec0 w)) = (NodeLinear1.dat (E2 m) c).arrAt w cfg0.N := by
  unfold B3; exact Pipeline.withArrays_arr spec0 launch0.win.arr_inj c _ _ w
theorem B3_of_ne (c : Dev nD) (b : Ref sig .tc) (hb : ∀ w, Pipeline.arrRef spec0 w ≠ b) :
    B3 m c (Proc.devRef .tc b) = B2 m c (Proc.devRef .tc b) := by
  unfold B3; exact Pipeline.withArrays_of_ne spec0 c _ _ b hb
abbrev X3 : (c : Dev nD) → (b : Ref sig .tc) → Buf (Elt F) ((c : Thread nD τ).loc b) := fun c b => B3 m c b
theorem exit_arrays0 (c : Dev nD) (w : Fin cfg0.W) : (NodeLinear1.dat (E2 m) c).arrAt w cfg0.N = X3 m c (Pipeline.arrRef spec0 w) :=
  (B3_arr m c w).symm
theorem exit_rest0 (c : Dev nD) : ∀ b, b ∉ Finset.univ.image (Pipeline.arrRef spec0) → X3 m c b = E2 m c b :=
  fun b hb => B3_of_ne m c b fun w e => hb (Finset.mem_image.mpr ⟨w, Finset.mem_univ _, e⟩)

/-- After the host stretch `hostOps1`. -/
abbrev B4 : Dev nD → Valuation τ sig (Elt F) := fun c => StableHlo.after hostOps1 (B3 m c)

/-- The contents region 1 is entered from, read at the core's own references. -/
abbrev E4 : (c : Dev nD) → (b : Ref sig .tc) → Buf (Elt F) ((c : Thread nD τ).loc b) := fun c b => B4 m c b
/-- After region 1: each of its windows' arrays at what the write-backs of all grid points leave (an input's array as entered), every other buffer as entered. -/
def B5 (c : Dev nD) : Valuation τ sig (Elt F) :=
  Pipeline.withArrays spec1 c (B4 m c) fun w => (Combine1.dat (E4 m) c).arrAt w cfg1.N
theorem B5_arr (c : Dev nD) (w : Fin cfg1.W) :
    B5 m c (Proc.devRef .tc (Pipeline.arrRef spec1 w)) = (Combine1.dat (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev X5 : (c : Dev nD) → (b : Ref sig .tc) → Buf (Elt F) ((c : Thread nD τ).loc b) := fun c b => B5 m c b
theorem exit_arrays1 (c : Dev nD) (w : Fin cfg1.W) : (Combine1.dat (E4 m) c).arrAt w cfg1.N = X5 m c (Pipeline.arrRef spec1 w) :=
  (B5_arr m c w).symm
theorem exit_rest1 (c : Dev nD) : ∀ b, b ∉ Finset.univ.image (Pipeline.arrRef spec1) → X5 m c b = E4 m c b :=
  fun b hb => B5_of_ne m c b fun w e => hb (Finset.mem_image.mpr ⟨w, Finset.mem_univ _, e⟩)

/-- The contents region 2 is entered from, read at the core's own references. -/
abbrev E5 : (c : Dev nD) → (b : Ref sig .tc) → Buf (Elt F) ((c : Thread nD τ).loc b) := fun c b => B5 m c b
/-- After region 2: each of its windows' arrays at what the write-backs of all grid points leave (an input's array as entered), every other buffer as entered. -/
def B6 (c : Dev nD) : Valuation τ sig (Elt F) :=
  Pipeline.withArrays spec2 c (B5 m c) fun w => (NodeLinear2.dat (E5 m) c).arrAt w cfg2.N
theorem B6_arr (c : Dev nD) (w : Fin cfg2.W) :
    B6 m c (Proc.devRef .tc (Pipeline.arrRef spec2 w)) = (NodeLinear2.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem exit_arrays2 (c : Dev nD) (w : Fin cfg2.W) : (NodeLinear2.dat (E5 m) c).arrAt w cfg2.N = X6 m c (Pipeline.arrRef spec2 w) :=
  (B6_arr m c w).symm
theorem exit_rest2 (c : Dev nD) : ∀ b, b ∉ Finset.univ.image (Pipeline.arrRef spec2) → X6 m c b = E5 m c b :=
  fun b hb => B6_of_ne m c b fun w e => hb (Finset.mem_image.mpr ⟨w, Finset.mem_univ _, e⟩)

/-- After the host stretch `hostOps3`. -/
abbrev B7 : Dev nD → Valuation τ sig (Elt F) := fun c => StableHlo.after hostOps3 (B6 m c)

/-- The contents region 3 is entered from, read at the core's own references. -/
abbrev E7 : (c : Dev nD) → (b : Ref sig .tc) → Buf (Elt F) ((c : Thread nD τ).loc b) := fun c b => B7 m c b
/-- After region 3: each of its windows' arrays at what the write-backs of all grid points leave (an input's array as entered), every other buffer as entered. -/
def B8 (c : Dev nD) : Valuation τ sig (Elt F) :=
  Pipeline.withArrays spec3 c (B7 m c) fun w => (Combine2.dat (E7 m) c).arrAt w cfg3.N
theorem B8_arr (c : Dev nD) (w : Fin cfg3.W) :
    B8 m c (Proc.devRef .tc (Pipeline.arrRef spec3 w)) = (Combine2.dat (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem exit_arrays3 (c : Dev nD) (w : Fin cfg3.W) : (Combine2.dat (E7 m) c).arrAt w cfg3.N = X8 m c (Pipeline.arrRef spec3 w) :=
  (B8_arr m c w).symm
theorem exit_rest3 (c : Dev nD) : ∀ b, b ∉ Finset.univ.image (Pipeline.arrRef spec3) → X8 m c b = E7 m c b :=
  fun b hb => B8_of_ne m c b fun w e => hb (Finset.mem_image.mpr ⟨w, Finset.mem_univ _, e⟩)

/-- The contents region 4 is entered from, read at the core's own references. -/
abbrev E8 : (c : Dev nD) → (b : Ref sig .tc) → Buf (Elt F) ((c : Thread nD τ).loc b) := fun c b => B8 m c b
/-- After region 4: each of its windows' arrays at what the write-backs of all grid points leave (an input's array as entered), every other buffer as entered. -/
def B9 (c : Dev nD) : Valuation τ sig (Elt F) :=
  Pipeline.withArrays spec4 c (B8 m c) fun w => (NodeLinear3.dat (E8 m) c).arrAt w cfg4.N
theorem B9_arr (c : Dev nD) (w : Fin cfg4.W) :
    B9 m c (Proc.devRef .tc (Pipeline.arrRef spec4 w)) = (NodeLinear3.dat (E8 m) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m c (Proc.devRef .tc b) = B8 m c (Proc.devRef .tc b) := by
  unfold B9; exact Pipeline.withArrays_of_ne spec4 c _ _ b hb
abbrev X9 : (c : Dev nD) → (b : Ref sig .tc) → Buf (Elt F) ((c : Thread nD τ).loc b) := fun c b => B9 m c b
theorem exit_arrays4 (c : Dev nD) (w : Fin cfg4.W) : (NodeLinear3.dat (E8 m) c).arrAt w cfg4.N = X9 m c (Pipeline.arrRef spec4 w) :=
  (B9_arr m c w).symm
theorem exit_rest4 (c : Dev nD) : ∀ b, b ∉ Finset.univ.image (Pipeline.arrRef spec4) → X9 m c b = E8 m c b :=
  fun b hb => B9_of_ne m c b fun w e => hb (Finset.mem_image.mpr ⟨w, Finset.mem_univ _, e⟩)

/-- After the host stretch `hostOps5`. -/
abbrev B10 : Dev nD → Valuation τ sig (Elt F) := fun c => StableHlo.after hostOps5 (B9 m c)

/-- The contents region 5 is entered from, read at the core's own references. -/
abbrev E10 : (c : Dev nD) → (b : Ref sig .tc) → Buf (Elt F) ((c : Thread nD τ).loc b) := fun c b => B10 m c b
/-- After region 5: each of its windows' arrays at what the write-backs of all grid points leave (an input's array as entered), every other buffer as entered. -/
def B11 (c : Dev nD) : Valuation τ sig (Elt F) :=
  Pipeline.withArrays spec5 c (B10 m c) fun w => (Combine3.dat (E10 m) c).arrAt w cfg5.N
theorem B11_arr (c : Dev nD) (w : Fin cfg5.W) :
    B11 m c (Proc.devRef .tc (Pipeline.arrRef spec5 w)) = (Combine3.dat (E10 m) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m c (Proc.devRef .tc b) = B10 m c (Proc.devRef .tc b) := by
  unfold B11; exact Pipeline.withArrays_of_ne spec5 c _ _ b hb
abbrev X11 : (c : Dev nD) → (b : Ref sig .tc) → Buf (Elt F) ((c : Thread nD τ).loc b) := fun c b => B11 m c b
theorem exit_arrays5 (c : Dev nD) (w : Fin cfg5.W) : (Combine3.dat (E10 m) c).arrAt w cfg5.N = X11 m c (Pipeline.arrRef spec5 w) :=
  (B11_arr m c w).symm
theorem exit_rest5 (c : Dev nD) : ∀ b, b ∉ Finset.univ.image (Pipeline.arrRef spec5) → X11 m c b = E10 m c b :=
  fun b hb => B11_of_ne m c b fun w e => hb (Finset.mem_image.mpr ⟨w, Finset.mem_univ _, e⟩)

/-- After the host stretch `hostOps6`. -/
abbrev B12 : Dev nD → Valuation τ sig (Elt F) := fun c => StableHlo.after hostOps6 (B11 m c)

/-- After the host stretch `hostOps6_1`. -/
abbrev B13 : Dev nD → Valuation τ sig (Elt F) := fun c => StableHlo.after hostOps6_1 (B12 m c)

/-- The contents region 6 is entered from, read at the core's own references. -/
abbrev E13 : (c : Dev nD) → (b : Ref sig .tc) → Buf (Elt F) ((c : Thread nD τ).loc b) := fun c b => B13 m c b
/-- After region 6: each of its windows' arrays at what the write-backs of all grid points leave (an input's array as entered), every other buffer as entered. -/
def B14 (c : Dev nD) : Valuation τ sig (Elt F) :=
  Pipeline.withArrays spec6 c (B13 m c) fun w => (EdgeMlp.dat (E13 m) c).arrAt w cfg6.N
theorem B14_arr (c : Dev nD) (w : Fin cfg6.W) :
    B14 m c (Proc.devRef .tc (Pipeline.arrRef spec6 w)) = (EdgeMlp.dat (E13 m) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m c (Proc.devRef .tc b) = B13 m c (Proc.devRef .tc b) := by
  unfold B14; exact Pipeline.withArrays_of_ne spec6 c _ _ b hb
abbrev X14 : (c : Dev nD) → (b : Ref sig .tc) → Buf (Elt F) ((c : Thread nD τ).loc b) := fun c b => B14 m c b
theorem exit_arrays6 (c : Dev nD) (w : Fin cfg6.W) : (EdgeMlp.dat (E13 m) c).arrAt w cfg6.N = X14 m c (Pipeline.arrRef spec6 w) :=
  (B14_arr m c w).symm
theorem exit_rest6 (c : Dev nD) : ∀ b, b ∉ Finset.univ.image (Pipeline.arrRef spec6) → X14 m c b = E13 m c b :=
  fun b hb => B14_of_ne m c b fun w e => hb (Finset.mem_image.mpr ⟨w, Finset.mem_univ _, e⟩)

/-! ## An argument array ends as launched -/

theorem B14_main_arg0 (c : Dev nD) : B14 m c (Proc.devRef .tc main_arg0) = m ((c : Thread nD τ).loc main_arg0) :=
  calc B14 m c (Proc.devRef .tc main_arg0)
    _ = B13 m c (Proc.devRef .tc main_arg0) := B14_of_ne m c main_arg0 (by decide)
    _ = B12 m c (Proc.devRef .tc main_arg0) := StableHlo.after_of_writes_sub hostOps6_1 _ hostOps6_1_writes (by decide)
    _ = B11 m c (Proc.devRef .tc main_arg0) := StableHlo.after_of_writes_sub hostOps6 _ hostOps6_writes (by decide)
    _ = B10 m c (Proc.devRef .tc main_arg0) := B11_of_ne m c main_arg0 (by decide)
    _ = B9 m c (Proc.devRef .tc main_arg0) := StableHlo.after_of_writes_sub hostOps5 _ hostOps5_writes (by decide)
    _ = B8 m c (Proc.devRef .tc main_arg0) := B9_of_ne m c main_arg0 (by decide)
    _ = B7 m c (Proc.devRef .tc main_arg0) := B8_of_ne m c main_arg0 (by decide)
    _ = B6 m c (Proc.devRef .tc main_arg0) := StableHlo.after_of_writes_sub hostOps3 _ hostOps3_writes (by decide)
    _ = B5 m c (Proc.devRef .tc main_arg0) := B6_of_ne m c main_arg0 (by decide)
    _ = B4 m c (Proc.devRef .tc main_arg0) := B5_of_ne m c main_arg0 (by decide)
    _ = B3 m c (Proc.devRef .tc main_arg0) := StableHlo.after_of_writes_sub hostOps1 _ hostOps1_writes (by decide)
    _ = B2 m c (Proc.devRef .tc main_arg0) := B3_of_ne m c main_arg0 (by decide)
    _ = B1 m c (Proc.devRef .tc main_arg0) := StableHlo.after_of_writes_sub hostOps0_1 _ hostOps0_1_writes (by decide)
    _ = B0 m c (Proc.devRef .tc main_arg0) := StableHlo.after_of_writes_sub hostOps0 _ hostOps0_writes (by decide)
    _ = m ((c : Thread nD τ).loc main_arg0) := rfl

theorem B14_main_arg1 (c : Dev nD) : B14 m c (Proc.devRef .tc main_arg1) = m ((c : Thread nD τ).loc main_arg1) :=
  calc B14 m c (Proc.devRef .tc main_arg1)
    _ = B13 m c (Proc.devRef .tc main_arg1) := B14_of_ne m c main_arg1 (by decide)
    _ = B12 m c (Proc.devRef .tc main_arg1) := StableHlo.after_of_writes_sub hostOps6_1 _ hostOps6_1_writes (by decide)
    _ = B11 m c (Proc.devRef .tc main_arg1) := StableHlo.after_of_writes_sub hostOps6 _ hostOps6_writes (by decide)
    _ = B10 m c (Proc.devRef .tc main_arg1) := B11_of_ne m c main_arg1 (by decide)
    _ = B9 m c (Proc.devRef .tc main_arg1) := StableHlo.after_of_writes_sub hostOps5 _ hostOps5_writes (by decide)
    _ = B8 m c (Proc.devRef .tc main_arg1) := B9_of_ne m c main_arg1 (by decide)
    _ = B7 m c (Proc.devRef .tc main_arg1) := B8_of_ne m c main_arg1 (by decide)
    _ = B6 m c (Proc.devRef .tc main_arg1) := StableHlo.after_of_writes_sub hostOps3 _ hostOps3_writes (by decide)
    _ = B5 m c (Proc.devRef .tc main_arg1) := B6_of_ne m c main_arg1 (by decide)
    _ = B4 m c (Proc.devRef .tc main_arg1) := B5_of_ne m c main_arg1 (by decide)
    _ = B3 m c (Proc.devRef .tc main_arg1) := StableHlo.after_of_writes_sub hostOps1 _ hostOps1_writes (by decide)
    _ = B2 m c (Proc.devRef .tc main_arg1) := B3_of_ne m c main_arg1 (by decide)
    _ = B1 m c (Proc.devRef .tc main_arg1) := StableHlo.after_of_writes_sub hostOps0_1 _ hostOps0_1_writes (by decide)
    _ = B0 m c (Proc.devRef .tc main_arg1) := StableHlo.after_of_writes_sub hostOps0 _ hostOps0_writes (by decide)
    _ = m ((c : Thread nD τ).loc main_arg1) := rfl

theorem B14_main_arg2 (c : Dev nD) : B14 m c (Proc.devRef .tc main_arg2) = m ((c : Thread nD τ).loc main_arg2) :=
  calc B14 m c (Proc.devRef .tc main_arg2)
    _ = B13 m c (Proc.devRef .tc main_arg2) := B14_of_ne m c main_arg2 (by decide)
    _ = B12 m c (Proc.devRef .tc main_arg2) := StableHlo.after_of_writes_sub hostOps6_1 _ hostOps6_1_writes (by decide)
    _ = B11 m c (Proc.devRef .tc main_arg2) := StableHlo.after_of_writes_sub hostOps6 _ hostOps6_writes (by decide)
    _ = B10 m c (Proc.devRef .tc main_arg2) := B11_of_ne m c main_arg2 (by decide)
    _ = B9 m c (Proc.devRef .tc main_arg2) := StableHlo.after_of_writes_sub hostOps5 _ hostOps5_writes (by decide)
    _ = B8 m c (Proc.devRef .tc main_arg2) := B9_of_ne m c main_arg2 (by decide)
    _ = B7 m c (Proc.devRef .tc main_arg2) := B8_of_ne m c main_arg2 (by decide)
    _ = B6 m c (Proc.devRef .tc main_arg2) := StableHlo.after_of_writes_sub hostOps3 _ hostOps3_writes (by decide)
    _ = B5 m c (Proc.devRef .tc main_arg2) := B6_of_ne m c main_arg2 (by decide)
    _ = B4 m c (Proc.devRef .tc main_arg2) := B5_of_ne m c main_arg2 (by decide)
    _ = B3 m c (Proc.devRef .tc main_arg2) := StableHlo.after_of_writes_sub hostOps1 _ hostOps1_writes (by decide)
    _ = B2 m c (Proc.devRef .tc main_arg2) := B3_of_ne m c main_arg2 (by decide)
    _ = B1 m c (Proc.devRef .tc main_arg2) := StableHlo.after_of_writes_sub hostOps0_1 _ hostOps0_1_writes (by decide)
    _ = B0 m c (Proc.devRef .tc main_arg2) := StableHlo.after_of_writes_sub hostOps0 _ hostOps0_writes (by decide)
    _ = m ((c : Thread nD τ).loc main_arg2) := rfl

theorem B14_main_arg3 (c : Dev nD) : B14 m c (Proc.devRef .tc main_arg3) = m ((c : Thread nD τ).loc main_arg3) :=
  calc B14 m c (Proc.devRef .tc main_arg3)
    _ = B13 m c (Proc.devRef .tc main_arg3) := B14_of_ne m c main_arg3 (by decide)
    _ = B12 m c (Proc.devRef .tc main_arg3) := StableHlo.after_of_writes_sub hostOps6_1 _ hostOps6_1_writes (by decide)
    _ = B11 m c (Proc.devRef .tc main_arg3) := StableHlo.after_of_writes_sub hostOps6 _ hostOps6_writes (by decide)
    _ = B10 m c (Proc.devRef .tc main_arg3) := B11_of_ne m c main_arg3 (by decide)
    _ = B9 m c (Proc.devRef .tc main_arg3) := StableHlo.after_of_writes_sub hostOps5 _ hostOps5_writes (by decide)
    _ = B8 m c (Proc.devRef .tc main_arg3) := B9_of_ne m c main_arg3 (by decide)
    _ = B7 m c (Proc.devRef .tc main_arg3) := B8_of_ne m c main_arg3 (by decide)
    _ = B6 m c (Proc.devRef .tc main_arg3) := StableHlo.after_of_writes_sub hostOps3 _ hostOps3_writes (by decide)
    _ = B5 m c (Proc.devRef .tc main_arg3) := B6_of_ne m c main_arg3 (by decide)
    _ = B4 m c (Proc.devRef .tc main_arg3) := B5_of_ne m c main_arg3 (by decide)
    _ = B3 m c (Proc.devRef .tc main_arg3) := StableHlo.after_of_writes_sub hostOps1 _ hostOps1_writes (by decide)
    _ = B2 m c (Proc.devRef .tc main_arg3) := (B3_arr m c 1).trans (((NodeLinear1.dat (E2 m) c).arrAt_in 1 rfl _).trans (NodeLinear1.dat_A (E2 m) c 1))
    _ = B1 m c (Proc.devRef .tc main_arg3) := StableHlo.after_of_writes_sub hostOps0_1 _ hostOps0_1_writes (by decide)
    _ = B0 m c (Proc.devRef .tc main_arg3) := StableHlo.after_of_writes_sub hostOps0 _ hostOps0_writes (by decide)
    _ = m ((c : Thread nD τ).loc main_arg3) := rfl

theorem B14_main_arg4 (c : Dev nD) : B14 m c (Proc.devRef .tc main_arg4) = m ((c : Thread nD τ).loc main_arg4) :=
  calc B14 m c (Proc.devRef .tc main_arg4)
    _ = B13 m c (Proc.devRef .tc main_arg4) := B14_of_ne m c main_arg4 (by decide)
    _ = B12 m c (Proc.devRef .tc main_arg4) := StableHlo.after_of_writes_sub hostOps6_1 _ hostOps6_1_writes (by decide)
    _ = B11 m c (Proc.devRef .tc main_arg4) := StableHlo.after_of_writes_sub hostOps6 _ hostOps6_writes (by decide)
    _ = B10 m c (Proc.devRef .tc main_arg4) := B11_of_ne m c main_arg4 (by decide)
    _ = B9 m c (Proc.devRef .tc main_arg4) := StableHlo.after_of_writes_sub hostOps5 _ hostOps5_writes (by decide)
    _ = B8 m c (Proc.devRef .tc main_arg4) := B9_of_ne m c main_arg4 (by decide)
    _ = B7 m c (Proc.devRef .tc main_arg4) := B8_of_ne m c main_arg4 (by decide)
    _ = B6 m c (Proc.devRef .tc main_arg4) := StableHlo.after_of_writes_sub hostOps3 _ hostOps3_writes (by decide)
    _ = B5 m c (Proc.devRef .tc main_arg4) := B6_of_ne m c main_arg4 (by decide)
    _ = B4 m c (Proc.devRef .tc main_arg4) := B5_of_ne m c main_arg4 (by decide)
    _ = B3 m c (Proc.devRef .tc main_arg4) := StableHlo.after_of_writes_sub hostOps1 _ hostOps1_writes (by decide)
    _ = B2 m c (Proc.devRef .tc main_arg4) := B3_of_ne m c main_arg4 (by decide)
    _ = B1 m c (Proc.devRef .tc main_arg4) := StableHlo.after_of_writes_sub hostOps0_1 _ hostOps0_1_writes (by decide)
    _ = B0 m c (Proc.devRef .tc main_arg4) := StableHlo.after_of_writes_sub hostOps0 _ hostOps0_writes (by decide)
    _ = m ((c : Thread nD τ).loc main_arg4) := rfl

theorem B14_main_arg5 (c : Dev nD) : B14 m c (Proc.devRef .tc main_arg5) = m ((c : Thread nD τ).loc main_arg5) :=
  calc B14 m c (Proc.devRef .tc main_arg5)
    _ = B13 m c (Proc.devRef .tc main_arg5) := B14_of_ne m c main_arg5 (by decide)
    _ = B12 m c (Proc.devRef .tc main_arg5) := StableHlo.after_of_writes_sub hostOps6_1 _ hostOps6_1_writes (by decide)
    _ = B11 m c (Proc.devRef .tc main_arg5) := StableHlo.after_of_writes_sub hostOps6 _ hostOps6_writes (by decide)
    _ = B10 m c (Proc.devRef .tc main_arg5) := B11_of_ne m c main_arg5 (by decide)
    _ = B9 m c (Proc.devRef .tc main_arg5) := StableHlo.after_of_writes_sub hostOps5 _ hostOps5_writes (by decide)
    _ = B8 m c (Proc.devRef .tc main_arg5) := B9_of_ne m c main_arg5 (by decide)
    _ = B7 m c (Proc.devRef .tc main_arg5) := B8_of_ne m c main_arg5 (by decide)
    _ = B6 m c (Proc.devRef .tc main_arg5) := StableHlo.after_of_writes_sub hostOps3 _ hostOps3_writes (by decide)
    _ = B5 m c (Proc.devRef .tc main_arg5) := (B6_arr m c 1).trans (((NodeLinear2.dat (E5 m) c).arrAt_in 1 rfl _).trans (NodeLinear2.dat_A (E5 m) c 1))
    _ = B4 m c (Proc.devRef .tc main_arg5) := B5_of_ne m c main_arg5 (by decide)
    _ = B3 m c (Proc.devRef .tc main_arg5) := StableHlo.after_of_writes_sub hostOps1 _ hostOps1_writes (by decide)
    _ = B2 m c (Proc.devRef .tc main_arg5) := B3_of_ne m c main_arg5 (by decide)
    _ = B1 m c (Proc.devRef .tc main_arg5) := StableHlo.after_of_writes_sub hostOps0_1 _ hostOps0_1_writes (by decide)
    _ = B0 m c (Proc.devRef .tc main_arg5) := StableHlo.after_of_writes_sub hostOps0 _ hostOps0_writes (by decide)
    _ = m ((c : Thread nD τ).loc main_arg5) := rfl

theorem B14_main_arg6 (c : Dev nD) : B14 m c (Proc.devRef .tc main_arg6) = m ((c : Thread nD τ).loc main_arg6) :=
  calc B14 m c (Proc.devRef .tc main_arg6)
    _ = B13 m c (Proc.devRef .tc main_arg6) := B14_of_ne m c main_arg6 (by decide)
    _ = B12 m c (Proc.devRef .tc main_arg6) := StableHlo.after_of_writes_sub hostOps6_1 _ hostOps6_1_writes (by decide)
    _ = B11 m c (Proc.devRef .tc main_arg6) := StableHlo.after_of_writes_sub hostOps6 _ hostOps6_writes (by decide)
    _ = B10 m c (Proc.devRef .tc main_arg6) := B11_of_ne m c main_arg6 (by decide)
    _ = B9 m c (Proc.devRef .tc main_arg6) := StableHlo.after_of_writes_sub hostOps5 _ hostOps5_writes (by decide)
    _ = B8 m c (Proc.devRef .tc main_arg6) := B9_of_ne m c main_arg6 (by decide)
    _ = B7 m c (Proc.devRef .tc main_arg6) := B8_of_ne m c main_arg6 (by decide)
    _ = B6 m c (Proc.devRef .tc main_arg6) := StableHlo.after_of_writes_sub hostOps3 _ hostOps3_writes (by decide)
    _ = B5 m c (Proc.devRef .tc main_arg6) := B6_of_ne m c main_arg6 (by decide)
    _ = B4 m c (Proc.devRef .tc main_arg6) := B5_of_ne m c main_arg6 (by decide)
    _ = B3 m c (Proc.devRef .tc main_arg6) := StableHlo.after_of_writes_sub hostOps1 _ hostOps1_writes (by decide)
    _ = B2 m c (Proc.devRef .tc main_arg6) := B3_of_ne m c main_arg6 (by decide)
    _ = B1 m c (Proc.devRef .tc main_arg6) := StableHlo.after_of_writes_sub hostOps0_1 _ hostOps0_1_writes (by decide)
    _ = B0 m c (Proc.devRef .tc main_arg6) := StableHlo.after_of_writes_sub hostOps0 _ hostOps0_writes (by decide)
    _ = m ((c : Thread nD τ).loc main_arg6) := rfl

theorem B14_main_arg7 (c : Dev nD) : B14 m c (Proc.devRef .tc main_arg7) = m ((c : Thread nD τ).loc main_arg7) :=
  calc B14 m c (Proc.devRef .tc main_arg7)
    _ = B13 m c (Proc.devRef .tc main_arg7) := B14_of_ne m c main_arg7 (by decide)
    _ = B12 m c (Proc.devRef .tc main_arg7) := StableHlo.after_of_writes_sub hostOps6_1 _ hostOps6_1_writes (by decide)
    _ = B11 m c (Proc.devRef .tc main_arg7) := StableHlo.after_of_writes_sub hostOps6 _ hostOps6_writes (by decide)
    _ = B10 m c (Proc.devRef .tc main_arg7) := B11_of_ne m c main_arg7 (by decide)
    _ = B9 m c (Proc.devRef .tc main_arg7) := StableHlo.after_of_writes_sub hostOps5 _ hostOps5_writes (by decide)
    _ = B8 m c (Proc.devRef .tc main_arg7) := (B9_arr m c 1).trans (((NodeLinear3.dat (E8 m) c).arrAt_in 1 rfl _).trans (NodeLinear3.dat_A (E8 m) c 1))
    _ = B7 m c (Proc.devRef .tc main_arg7) := B8_of_ne m c main_arg7 (by decide)
    _ = B6 m c (Proc.devRef .tc main_arg7) := StableHlo.after_of_writes_sub hostOps3 _ hostOps3_writes (by decide)
    _ = B5 m c (Proc.devRef .tc main_arg7) := B6_of_ne m c main_arg7 (by decide)
    _ = B4 m c (Proc.devRef .tc main_arg7) := B5_of_ne m c main_arg7 (by decide)
    _ = B3 m c (Proc.devRef .tc main_arg7) := StableHlo.after_of_writes_sub hostOps1 _ hostOps1_writes (by decide)
    _ = B2 m c (Proc.devRef .tc main_arg7) := B3_of_ne m c main_arg7 (by decide)
    _ = B1 m c (Proc.devRef .tc main_arg7) := StableHlo.after_of_writes_sub hostOps0_1 _ hostOps0_1_writes (by decide)
    _ = B0 m c (Proc.devRef .tc main_arg7) := StableHlo.after_of_writes_sub hostOps0 _ hostOps0_writes (by decide)
    _ = m ((c : Thread nD τ).loc main_arg7) := rfl

theorem B14_main_arg8 (c : Dev nD) : B14 m c (Proc.devRef .tc main_arg8) = m ((c : Thread nD τ).loc main_arg8) :=
  calc B14 m c (Proc.devRef .tc main_arg8)
    _ = B13 m c (Proc.devRef .tc main_arg8) := B14_of_ne m c main_arg8 (by decide)
    _ = B12 m c (Proc.devRef .tc main_arg8) := StableHlo.after_of_writes_sub hostOps6_1 _ hostOps6_1_writes (by decide)
    _ = B11 m c (Proc.devRef .tc main_arg8) := StableHlo.after_of_writes_sub hostOps6 _ hostOps6_writes (by decide)
    _ = B10 m c (Proc.devRef .tc main_arg8) := B11_of_ne m c main_arg8 (by decide)
    _ = B9 m c (Proc.devRef .tc main_arg8) := StableHlo.after_of_writes_sub hostOps5 _ hostOps5_writes (by decide)
    _ = B8 m c (Proc.devRef .tc main_arg8) := B9_of_ne m c main_arg8 (by decide)
    _ = B7 m c (Proc.devRef .tc main_arg8) := B8_of_ne m c main_arg8 (by decide)
    _ = B6 m c (Proc.devRef .tc main_arg8) := StableHlo.after_of_writes_sub hostOps3 _ hostOps3_writes (by decide)
    _ = B5 m c (Proc.devRef .tc main_arg8) := B6_of_ne m c main_arg8 (by decide)
    _ = B4 m c (Proc.devRef .tc main_arg8) := B5_of_ne m c main_arg8 (by decide)
    _ = B3 m c (Proc.devRef .tc main_arg8) := StableHlo.after_of_writes_sub hostOps1 _ hostOps1_writes (by decide)
    _ = B2 m c (Proc.devRef .tc main_arg8) := B3_of_ne m c main_arg8 (by decide)
    _ = B1 m c (Proc.devRef .tc main_arg8) := StableHlo.after_of_writes_sub hostOps0_1 _ hostOps0_1_writes (by decide)
    _ = B0 m c (Proc.devRef .tc main_arg8) := StableHlo.after_of_writes_sub hostOps0 _ hostOps0_writes (by decide)
    _ = m ((c : Thread nD τ).loc main_arg8) := rfl

theorem B14_main_arg9 (c : Dev nD) : B14 m c (Proc.devRef .tc main_arg9) = m ((c : Thread nD τ).loc main_arg9) :=
  calc B14 m c (Proc.devRef .tc main_arg9)
    _ = B13 m c (Proc.devRef .tc main_arg9) := B14_of_ne m c main_arg9 (by decide)
    _ = B12 m c (Proc.devRef .tc main_arg9) := StableHlo.after_of_writes_sub hostOps6_1 _ hostOps6_1_writes (by decide)
    _ = B11 m c (Proc.devRef .tc main_arg9) := StableHlo.after_of_writes_sub hostOps6 _ hostOps6_writes (by decide)
    _ = B10 m c (Proc.devRef .tc main_arg9) := B11_of_ne m c main_arg9 (by decide)
    _ = B9 m c (Proc.devRef .tc main_arg9) := StableHlo.after_of_writes_sub hostOps5 _ hostOps5_writes (by decide)
    _ = B8 m c (Proc.devRef .tc main_arg9) := B9_of_ne m c main_arg9 (by decide)
    _ = B7 m c (Proc.devRef .tc main_arg9) := B8_of_ne m c main_arg9 (by decide)
    _ = B6 m c (Proc.devRef .tc main_arg9) := StableHlo.after_of_writes_sub hostOps3 _ hostOps3_writes (by decide)
    _ = B5 m c (Proc.devRef .tc main_arg9) := B6_of_ne m c main_arg9 (by decide)
    _ = B4 m c (Proc.devRef .tc main_arg9) := B5_of_ne m c main_arg9 (by decide)
    _ = B3 m c (Proc.devRef .tc main_arg9) := StableHlo.after_of_writes_sub hostOps1 _ hostOps1_writes (by decide)
    _ = B2 m c (Proc.devRef .tc main_arg9) := B3_of_ne m c main_arg9 (by decide)
    _ = B1 m c (Proc.devRef .tc main_arg9) := StableHlo.after_of_writes_sub hostOps0_1 _ hostOps0_1_writes (by decide)
    _ = B0 m c (Proc.devRef .tc main_arg9) := StableHlo.after_of_writes_sub hostOps0 _ hostOps0_writes (by decide)
    _ = m ((c : Thread nD τ).loc main_arg9) := rfl

theorem B14_main_arg10 (c : Dev nD) : B14 m c (Proc.devRef .tc main_arg10) = m ((c : Thread nD τ).loc main_arg10) :=
  calc B14 m c (Proc.devRef .tc main_arg10)
    _ = B13 m c (Proc.devRef .tc main_arg10) := B14_of_ne m c main_arg10 (by decide)
    _ = B12 m c (Proc.devRef .tc main_arg10) := StableHlo.after_of_writes_sub hostOps6_1 _ hostOps6_1_writes (by decide)
    _ = B11 m c (Proc.devRef .tc main_arg10) := StableHlo.after_of_writes_sub hostOps6 _ hostOps6_writes (by decide)
    _ = B10 m c (Proc.devRef .tc main_arg10) := B11_of_ne m c main_arg10 (by decide)
    _ = B9 m c (Proc.devRef .tc main_arg10) := StableHlo.after_of_writes_sub hostOps5 _ hostOps5_writes (by decide)
    _ = B8 m c (Proc.devRef .tc main_arg10) := B9_of_ne m c main_arg10 (by decide)
    _ = B7 m c (Proc.devRef .tc main_arg10) := B8_of_ne m c main_arg10 (by decide)
    _ = B6 m c (Proc.devRef .tc main_arg10) := StableHlo.after_of_writes_sub hostOps3 _ hostOps3_writes (by decide)
    _ = B5 m c (Proc.devRef .tc main_arg10) := B6_of_ne m c main_arg10 (by decide)
    _ = B4 m c (Proc.devRef .tc main_arg10) := B5_of_ne m c main_arg10 (by decide)
    _ = B3 m c (Proc.devRef .tc main_arg10) := StableHlo.after_of_writes_sub hostOps1 _ hostOps1_writes (by decide)
    _ = B2 m c (Proc.devRef .tc main_arg10) := B3_of_ne m c main_arg10 (by decide)
    _ = B1 m c (Proc.devRef .tc main_arg10) := StableHlo.after_of_writes_sub hostOps0_1 _ hostOps0_1_writes (by decide)
    _ = B0 m c (Proc.devRef .tc main_arg10) := StableHlo.after_of_writes_sub hostOps0 _ hostOps0_writes (by decide)
    _ = m ((c : Thread nD τ).loc main_arg10) := rfl

theorem B14_main_arg11 (c : Dev nD) : B14 m c (Proc.devRef .tc main_arg11) = m ((c : Thread nD τ).loc main_arg11) :=
  calc B14 m c (Proc.devRef .tc main_arg11)
    _ = B13 m c (Proc.devRef .tc main_arg11) := B14_of_ne m c main_arg11 (by decide)
    _ = B12 m c (Proc.devRef .tc main_arg11) := StableHlo.after_of_writes_sub hostOps6_1 _ hostOps6_1_writes (by decide)
    _ = B11 m c (Proc.devRef .tc main_arg11) := StableHlo.after_of_writes_sub hostOps6 _ hostOps6_writes (by decide)
    _ = B10 m c (Proc.devRef .tc main_arg11) := B11_of_ne m c main_arg11 (by decide)
    _ = B9 m c (Proc.devRef .tc main_arg11) := StableHlo.after_of_writes_sub hostOps5 _ hostOps5_writes (by decide)
    _ = B8 m c (Proc.devRef .tc main_arg11) := B9_of_ne m c main_arg11 (by decide)
    _ = B7 m c (Proc.devRef .tc main_arg11) := B8_of_ne m c main_arg11 (by decide)
    _ = B6 m c (Proc.devRef .tc main_arg11) := StableHlo.after_of_writes_sub hostOps3 _ hostOps3_writes (by decide)
    _ = B5 m c (Proc.devRef .tc main_arg11) := B6_of_ne m c main_arg11 (by decide)
    _ = B4 m c (Proc.devRef .tc main_arg11) := B5_of_ne m c main_arg11 (by decide)
    _ = B3 m c (Proc.devRef .tc main_arg11) := StableHlo.after_of_writes_sub hostOps1 _ hostOps1_writes (by decide)
    _ = B2 m c (Proc.devRef .tc main_arg11) := B3_of_ne m c main_arg11 (by decide)
    _ = B1 m c (Proc.devRef .tc main_arg11) := StableHlo.after_of_writes_sub hostOps0_1 _ hostOps0_1_writes (by decide)
    _ = B0 m c (Proc.devRef .tc main_arg11) := StableHlo.after_of_writes_sub hostOps0 _ hostOps0_writes (by decide)
    _ = m ((c : Thread nD τ).loc main_arg11) := rfl

theorem B14_main_arg12 (c : Dev nD) : B14 m c (Proc.devRef .tc main_arg12) = m ((c : Thread nD τ).loc main_arg12) :=
  calc B14 m c (Proc.devRef .tc main_arg12)
    _ = B13 m c (Proc.devRef .tc main_arg12) := B14_of_ne m c main_arg12 (by decide)
    _ = B12 m c (Proc.devRef .tc main_arg12) := StableHlo.after_of_writes_sub hostOps6_1 _ hostOps6_1_writes (by decide)
    _ = B11 m c (Proc.devRef .tc main_arg12) := StableHlo.after_of_writes_sub hostOps6 _ hostOps6_writes (by decide)
    _ = B10 m c (Proc.devRef .tc main_arg12) := B11_of_ne m c main_arg12 (by decide)
    _ = B9 m c (Proc.devRef .tc main_arg12) := StableHlo.after_of_writes_sub hostOps5 _ hostOps5_writes (by decide)
    _ = B8 m c (Proc.devRef .tc main_arg12) := B9_of_ne m c main_arg12 (by decide)
    _ = B7 m c (Proc.devRef .tc main_arg12) := B8_of_ne m c main_arg12 (by decide)
    _ = B6 m c (Proc.devRef .tc main_arg12) := StableHlo.after_of_writes_sub hostOps3 _ hostOps3_writes (by decide)
    _ = B5 m c (Proc.devRef .tc main_arg12) := B6_of_ne m c main_arg12 (by decide)
    _ = B4 m c (Proc.devRef .tc main_arg12) := B5_of_ne m c main_arg12 (by decide)
    _ = B3 m c (Proc.devRef .tc main_arg12) := StableHlo.after_of_writes_sub hostOps1 _ hostOps1_writes (by decide)
    _ = B2 m c (Proc.devRef .tc main_arg12) := B3_of_ne m c main_arg12 (by decide)
    _ = B1 m c (Proc.devRef .tc main_arg12) := StableHlo.after_of_writes_sub hostOps0_1 _ hostOps0_1_writes (by decide)
    _ = B0 m c (Proc.devRef .tc main_arg12) := StableHlo.after_of_writes_sub hostOps0 _ hostOps0_writes (by decide)
    _ = m ((c : Thread nD τ).loc main_arg12) := rfl

theorem B14_main_arg13 (c : Dev nD) : B14 m c (Proc.devRef .tc main_arg13) = m ((c : Thread nD τ).loc main_arg13) :=
  calc B14 m c (Proc.devRef .tc main_arg13)
    _ = B13 m c (Proc.devRef .tc main_arg13) := B14_of_ne m c main_arg13 (by decide)
    _ = B12 m c (Proc.devRef .tc main_arg13) := StableHlo.after_of_writes_sub hostOps6_1 _ hostOps6_1_writes (by decide)
    _ = B11 m c (Proc.devRef .tc main_arg13) := StableHlo.after_of_writes_sub hostOps6 _ hostOps6_writes (by decide)
    _ = B10 m c (Proc.devRef .tc main_arg13) := B11_of_ne m c main_arg13 (by decide)
    _ = B9 m c (Proc.devRef .tc main_arg13) := StableHlo.after_of_writes_sub hostOps5 _ hostOps5_writes (by decide)
    _ = B8 m c (Proc.devRef .tc main_arg13) := B9_of_ne m c main_arg13 (by decide)
    _ = B7 m c (Proc.devRef .tc main_arg13) := B8_of_ne m c main_arg13 (by decide)
    _ = B6 m c (Proc.devRef .tc main_arg13) := StableHlo.after_of_writes_sub hostOps3 _ hostOps3_writes (by decide)
    _ = B5 m c (Proc.devRef .tc main_arg13) := B6_of_ne m c main_arg13 (by decide)
    _ = B4 m c (Proc.devRef .tc main_arg13) := B5_of_ne m c main_arg13 (by decide)
    _ = B3 m c (Proc.devRef .tc main_arg13) := StableHlo.after_of_writes_sub hostOps1 _ hostOps1_writes (by decide)
    _ = B2 m c (Proc.devRef .tc main_arg13) := B3_of_ne m c main_arg13 (by decide)
    _ = B1 m c (Proc.devRef .tc main_arg13) := StableHlo.after_of_writes_sub hostOps0_1 _ hostOps0_1_writes (by decide)
    _ = B0 m c (Proc.devRef .tc main_arg13) := StableHlo.after_of_writes_sub hostOps0 _ hostOps0_writes (by decide)
    _ = m ((c : Thread nD τ).loc main_arg13) := rfl

theorem B14_main_arg14 (c : Dev nD) : B14 m c (Proc.devRef .tc main_arg14) = m ((c : Thread nD τ).loc main_arg14) :=
  calc B14 m c (Proc.devRef .tc main_arg14)
    _ = B13 m c (Proc.devRef .tc main_arg14) := B14_of_ne m c main_arg14 (by decide)
    _ = B12 m c (Proc.devRef .tc main_arg14) := StableHlo.after_of_writes_sub hostOps6_1 _ hostOps6_1_writes (by decide)
    _ = B11 m c (Proc.devRef .tc main_arg14) := StableHlo.after_of_writes_sub hostOps6 _ hostOps6_writes (by decide)
    _ = B10 m c (Proc.devRef .tc main_arg14) := B11_of_ne m c main_arg14 (by decide)
    _ = B9 m c (Proc.devRef .tc main_arg14) := StableHlo.after_of_writes_sub hostOps5 _ hostOps5_writes (by decide)
    _ = B8 m c (Proc.devRef .tc main_arg14) := B9_of_ne m c main_arg14 (by decide)
    _ = B7 m c (Proc.devRef .tc main_arg14) := B8_of_ne m c main_arg14 (by decide)
    _ = B6 m c (Proc.devRef .tc main_arg14) := StableHlo.after_of_writes_sub hostOps3 _ hostOps3_writes (by decide)
    _ = B5 m c (Proc.devRef .tc main_arg14) := B6_of_ne m c main_arg14 (by decide)
    _ = B4 m c (Proc.devRef .tc main_arg14) := B5_of_ne m c main_arg14 (by decide)
    _ = B3 m c (Proc.devRef .tc main_arg14) := StableHlo.after_of_writes_sub hostOps1 _ hostOps1_writes (by decide)
    _ = B2 m c (Proc.devRef .tc main_arg14) := B3_of_ne m c main_arg14 (by decide)
    _ = B1 m c (Proc.devRef .tc main_arg14) := StableHlo.after_of_writes_sub hostOps0_1 _ hostOps0_1_writes (by decide)
    _ = B0 m c (Proc.devRef .tc main_arg14) := StableHlo.after_of_writes_sub hostOps0 _ hostOps0_writes (by decide)
    _ = m ((c : Thread nD τ).loc main_arg14) := rfl

theorem B14_main_arg15 (c : Dev nD) : B14 m c (Proc.devRef .tc main_arg15) = m ((c : Thread nD τ).loc main_arg15) :=
  calc B14 m c (Proc.devRef .tc main_arg15)
    _ = B13 m c (Proc.devRef .tc main_arg15) := B14_of_ne m c main_arg15 (by decide)
    _ = B12 m c (Proc.devRef .tc main_arg15) := StableHlo.after_of_writes_sub hostOps6_1 _ hostOps6_1_writes (by decide)
    _ = B11 m c (Proc.devRef .tc main_arg15) := StableHlo.after_of_writes_sub hostOps6 _ hostOps6_writes (by decide)
    _ = B10 m c (Proc.devRef .tc main_arg15) := B11_of_ne m c main_arg15 (by decide)
    _ = B9 m c (Proc.devRef .tc main_arg15) := StableHlo.after_of_writes_sub hostOps5 _ hostOps5_writes (by decide)
    _ = B8 m c (Proc.devRef .tc main_arg15) := B9_of_ne m c main_arg15 (by decide)
    _ = B7 m c (Proc.devRef .tc main_arg15) := B8_of_ne m c main_arg15 (by decide)
    _ = B6 m c (Proc.devRef .tc main_arg15) := StableHlo.after_of_writes_sub hostOps3 _ hostOps3_writes (by decide)
    _ = B5 m c (Proc.devRef .tc main_arg15) := B6_of_ne m c main_arg15 (by decide)
    _ = B4 m c (Proc.devRef .tc main_arg15) := B5_of_ne m c main_arg15 (by decide)
    _ = B3 m c (Proc.devRef .tc main_arg15) := StableHlo.after_of_writes_sub hostOps1 _ hostOps1_writes (by decide)
    _ = B2 m c (Proc.devRef .tc main_arg15) := B3_of_ne m c main_arg15 (by decide)
    _ = B1 m c (Proc.devRef .tc main_arg15) := StableHlo.after_of_writes_sub hostOps0_1 _ hostOps0_1_writes (by decide)
    _ = B0 m c (Proc.devRef .tc main_arg15) := StableHlo.after_of_writes_sub hostOps0 _ hostOps0_writes (by decide)
    _ = m ((c : Thread nD τ).loc main_arg15) := rfl

theorem B14_main_arg16 (c : Dev nD) : B14 m c (Proc.devRef .tc main_arg16) = m ((c : Thread nD τ).loc main_arg16) :=
  calc B14 m c (Proc.devRef .tc main_arg16)
    _ = B13 m c (Proc.devRef .tc main_arg16) := B14_of_ne m c main_arg16 (by decide)
    _ = B12 m c (Proc.devRef .tc main_arg16) := StableHlo.after_of_writes_sub hostOps6_1 _ hostOps6_1_writes (by decide)
    _ = B11 m c (Proc.devRef .tc main_arg16) := StableHlo.after_of_writes_sub hostOps6 _ hostOps6_writes (by decide)
    _ = B10 m c (Proc.devRef .tc main_arg16) := B11_of_ne m c main_arg16 (by decide)
    _ = B9 m c (Proc.devRef .tc main_arg16) := StableHlo.after_of_writes_sub hostOps5 _ hostOps5_writes (by decide)
    _ = B8 m c (Proc.devRef .tc main_arg16) := B9_of_ne m c main_arg16 (by decide)
    _ = B7 m c (Proc.devRef .tc main_arg16) := B8_of_ne m c main_arg16 (by decide)
    _ = B6 m c (Proc.devRef .tc main_arg16) := StableHlo.after_of_writes_sub hostOps3 _ hostOps3_writes (by decide)
    _ = B5 m c (Proc.devRef .tc main_arg16) := B6_of_ne m c main_arg16 (by decide)
    _ = B4 m c (Proc.devRef .tc main_arg16) := B5_of_ne m c main_arg16 (by decide)
    _ = B3 m c (Proc.devRef .tc main_arg16) := StableHlo.after_of_writes_sub hostOps1 _ hostOps1_writes (by decide)
    _ = B2 m c (Proc.devRef .tc main_arg16) := B3_of_ne m c main_arg16 (by decide)
    _ = B1 m c (Proc.devRef .tc main_arg16) := StableHlo.after_of_writes_sub hostOps0_1 _ hostOps0_1_writes (by decide)
    _ = B0 m c (Proc.devRef .tc main_arg16) := StableHlo.after_of_writes_sub hostOps0 _ hostOps0_writes (by decide)
    _ = m ((c : Thread nD τ).loc main_arg16) := rfl

theorem B14_main_arg17 (c : Dev nD) : B14 m c (Proc.devRef .tc main_arg17) = m ((c : Thread nD τ).loc main_arg17) :=
  calc B14 m c (Proc.devRef .tc main_arg17)
    _ = B13 m c (Proc.devRef .tc main_arg17) := B14_of_ne m c main_arg17 (by decide)
    _ = B12 m c (Proc.devRef .tc main_arg17) := StableHlo.after_of_writes_sub hostOps6_1 _ hostOps6_1_writes (by decide)
    _ = B11 m c (Proc.devRef .tc main_arg17) := StableHlo.after_of_writes_sub hostOps6 _ hostOps6_writes (by decide)
    _ = B10 m c (Proc.devRef .tc main_arg17) := B11_of_ne m c main_arg17 (by decide)
    _ = B9 m c (Proc.devRef .tc main_arg17) := StableHlo.after_of_writes_sub hostOps5 _ hostOps5_writes (by decide)
    _ = B8 m c (Proc.devRef .tc main_arg17) := B9_of_ne m c main_arg17 (by decide)
    _ = B7 m c (Proc.devRef .tc main_arg17) := B8_of_ne m c main_arg17 (by decide)
    _ = B6 m c (Proc.devRef .tc main_arg17) := StableHlo.after_of_writes_sub hostOps3 _ hostOps3_writes (by decide)
    _ = B5 m c (Proc.devRef .tc main_arg17) := B6_of_ne m c main_arg17 (by decide)
    _ = B4 m c (Proc.devRef .tc main_arg17) := B5_of_ne m c main_arg17 (by decide)
    _ = B3 m c (Proc.devRef .tc main_arg17) := StableHlo.after_of_writes_sub hostOps1 _ hostOps1_writes (by decide)
    _ = B2 m c (Proc.devRef .tc main_arg17) := B3_of_ne m c main_arg17 (by decide)
    _ = B1 m c (Proc.devRef .tc main_arg17) := StableHlo.after_of_writes_sub hostOps0_1 _ hostOps0_1_writes (by decide)
    _ = B0 m c (Proc.devRef .tc main_arg17) := StableHlo.after_of_writes_sub hostOps0 _ hostOps0_writes (by decide)
    _ = m ((c : Thread nD τ).loc main_arg17) := rfl

theorem B14_main_arg18 (c : Dev nD) : B14 m c (Proc.devRef .tc main_arg18) = m ((c : Thread nD τ).loc main_arg18) :=
  calc B14 m c (Proc.devRef .tc main_arg18)
    _ = B13 m c (Proc.devRef .tc main_arg18) := B14_of_ne m c main_arg18 (by decide)
    _ = B12 m c (Proc.devRef .tc main_arg18) := StableHlo.after_of_writes_sub hostOps6_1 _ hostOps6_1_writes (by decide)
    _ = B11 m c (Proc.devRef .tc main_arg18) := StableHlo.after_of_writes_sub hostOps6 _ hostOps6_writes (by decide)
    _ = B10 m c (Proc.devRef .tc main_arg18) := B11_of_ne m c main_arg18 (by decide)
    _ = B9 m c (Proc.devRef .tc main_arg18) := StableHlo.after_of_writes_sub hostOps5 _ hostOps5_writes (by decide)
    _ = B8 m c (Proc.devRef .tc main_arg18) := B9_of_ne m c main_arg18 (by decide)
    _ = B7 m c (Proc.devRef .tc main_arg18) := B8_of_ne m c main_arg18 (by decide)
    _ = B6 m c (Proc.devRef .tc main_arg18) := StableHlo.after_of_writes_sub hostOps3 _ hostOps3_writes (by decide)
    _ = B5 m c (Proc.devRef .tc main_arg18) := B6_of_ne m c main_arg18 (by decide)
    _ = B4 m c (Proc.devRef .tc main_arg18) := B5_of_ne m c main_arg18 (by decide)
    _ = B3 m c (Proc.devRef .tc main_arg18) := StableHlo.after_of_writes_sub hostOps1 _ hostOps1_writes (by decide)
    _ = B2 m c (Proc.devRef .tc main_arg18) := B3_of_ne m c main_arg18 (by decide)
    _ = B1 m c (Proc.devRef .tc main_arg18) := StableHlo.after_of_writes_sub hostOps0_1 _ hostOps0_1_writes (by decide)
    _ = B0 m c (Proc.devRef .tc main_arg18) := StableHlo.after_of_writes_sub hostOps0 _ hostOps0_writes (by decide)
    _ = m ((c : Thread nD τ).loc main_arg18) := rfl

theorem B14_main_arg19 (c : Dev nD) : B14 m c (Proc.devRef .tc main_arg19) = m ((c : Thread nD τ).loc main_arg19) :=
  calc B14 m c (Proc.devRef .tc main_arg19)
    _ = B13 m c (Proc.devRef .tc main_arg19) := B14_of_ne m c main_arg19 (by decide)
    _ = B12 m c (Proc.devRef .tc main_arg19) := StableHlo.after_of_writes_sub hostOps6_1 _ hostOps6_1_writes (by decide)
    _ = B11 m c (Proc.devRef .tc main_arg19) := StableHlo.after_of_writes_sub hostOps6 _ hostOps6_writes (by decide)
    _ = B10 m c (Proc.devRef .tc main_arg19) := B11_of_ne m c main_arg19 (by decide)
    _ = B9 m c (Proc.devRef .tc main_arg19) := StableHlo.after_of_writes_sub hostOps5 _ hostOps5_writes (by decide)
    _ = B8 m c (Proc.devRef .tc main_arg19) := B9_of_ne m c main_arg19 (by decide)
    _ = B7 m c (Proc.devRef .tc main_arg19) := B8_of_ne m c main_arg19 (by decide)
    _ = B6 m c (Proc.devRef .tc main_arg19) := StableHlo.after_of_writes_sub hostOps3 _ hostOps3_writes (by decide)
    _ = B5 m c (Proc.devRef .tc main_arg19) := B6_of_ne m c main_arg19 (by decide)
    _ = B4 m c (Proc.devRef .tc main_arg19) := B5_of_ne m c main_arg19 (by decide)
    _ = B3 m c (Proc.devRef .tc main_arg19) := StableHlo.after_of_writes_sub hostOps1 _ hostOps1_writes (by decide)
    _ = B2 m c (Proc.devRef .tc main_arg19) := B3_of_ne m c main_arg19 (by decide)
    _ = B1 m c (Proc.devRef .tc main_arg19) := StableHlo.after_of_writes_sub hostOps0_1 _ hostOps0_1_writes (by decide)
    _ = B0 m c (Proc.devRef .tc main_arg19) := StableHlo.after_of_writes_sub hostOps0 _ hostOps0_writes (by decide)
    _ = m ((c : Thread nD τ).loc main_arg19) := rfl

theorem B14_main_arg20 (c : Dev nD) : B14 m c (Proc.devRef .tc main_arg20) = m ((c : Thread nD τ).loc main_arg20) :=
  calc B14 m c (Proc.devRef .tc main_arg20)
    _ = B13 m c (Proc.devRef .tc main_arg20) := B14_of_ne m c main_arg20 (by decide)
    _ = B12 m c (Proc.devRef .tc main_arg20) := StableHlo.after_of_writes_sub hostOps6_1 _ hostOps6_1_writes (by decide)
    _ = B11 m c (Proc.devRef .tc main_arg20) := StableHlo.after_of_writes_sub hostOps6 _ hostOps6_writes (by decide)
    _ = B10 m c (Proc.devRef .tc main_arg20) := B11_of_ne m c main_arg20 (by decide)
    _ = B9 m c (Proc.devRef .tc main_arg20) := StableHlo.after_of_writes_sub hostOps5 _ hostOps5_writes (by decide)
    _ = B8 m c (Proc.devRef .tc main_arg20) := B9_of_ne m c main_arg20 (by decide)
    _ = B7 m c (Proc.devRef .tc main_arg20) := B8_of_ne m c main_arg20 (by decide)
    _ = B6 m c (Proc.devRef .tc main_arg20) := StableHlo.after_of_writes_sub hostOps3 _ hostOps3_writes (by decide)
    _ = B5 m c (Proc.devRef .tc main_arg20) := B6_of_ne m c main_arg20 (by decide)
    _ = B4 m c (Proc.devRef .tc main_arg20) := B5_of_ne m c main_arg20 (by decide)
    _ = B3 m c (Proc.devRef .tc main_arg20) := StableHlo.after_of_writes_sub hostOps1 _ hostOps1_writes (by decide)
    _ = B2 m c (Proc.devRef .tc main_arg20) := B3_of_ne m c main_arg20 (by decide)
    _ = B1 m c (Proc.devRef .tc main_arg20) := StableHlo.after_of_writes_sub hostOps0_1 _ hostOps0_1_writes (by decide)
    _ = B0 m c (Proc.devRef .tc main_arg20) := StableHlo.after_of_writes_sub hostOps0 _ hostOps0_writes (by decide)
    _ = m ((c : Thread nD τ).loc main_arg20) := rfl

theorem B14_main_arg21 (c : Dev nD) : B14 m c (Proc.devRef .tc main_arg21) = m ((c : Thread nD τ).loc main_arg21) :=
  calc B14 m c (Proc.devRef .tc main_arg21)
    _ = B13 m c (Proc.devRef .tc main_arg21) := (B14_arr m c 1).trans (((EdgeMlp.dat (E13 m) c).arrAt_in 1 rfl _).trans (EdgeMlp.dat_A (E13 m) c 1))
    _ = B12 m c (Proc.devRef .tc main_arg21) := StableHlo.after_of_writes_sub hostOps6_1 _ hostOps6_1_writes (by decide)
    _ = B11 m c (Proc.devRef .tc main_arg21) := StableHlo.after_of_writes_sub hostOps6 _ hostOps6_writes (by decide)
    _ = B10 m c (Proc.devRef .tc main_arg21) := B11_of_ne m c main_arg21 (by decide)
    _ = B9 m c (Proc.devRef .tc main_arg21) := StableHlo.after_of_writes_sub hostOps5 _ hostOps5_writes (by decide)
    _ = B8 m c (Proc.devRef .tc main_arg21) := B9_of_ne m c main_arg21 (by decide)
    _ = B7 m c (Proc.devRef .tc main_arg21) := B8_of_ne m c main_arg21 (by decide)
    _ = B6 m c (Proc.devRef .tc main_arg21) := StableHlo.after_of_writes_sub hostOps3 _ hostOps3_writes (by decide)
    _ = B5 m c (Proc.devRef .tc main_arg21) := B6_of_ne m c main_arg21 (by decide)
    _ = B4 m c (Proc.devRef .tc main_arg21) := B5_of_ne m c main_arg21 (by decide)
    _ = B3 m c (Proc.devRef .tc main_arg21) := StableHlo.after_of_writes_sub hostOps1 _ hostOps1_writes (by decide)
    _ = B2 m c (Proc.devRef .tc main_arg21) := B3_of_ne m c main_arg21 (by decide)
    _ = B1 m c (Proc.devRef .tc main_arg21) := StableHlo.after_of_writes_sub hostOps0_1 _ hostOps0_1_writes (by decide)
    _ = B0 m c (Proc.devRef .tc main_arg21) := StableHlo.after_of_writes_sub hostOps0 _ hostOps0_writes (by decide)
    _ = m ((c : Thread nD τ).loc main_arg21) := rfl

theorem B14_main_arg22 (c : Dev nD) : B14 m c (Proc.devRef .tc main_arg22) = m ((c : Thread nD τ).loc main_arg22) :=
  calc B14 m c (Proc.devRef .tc main_arg22)
    _ = B13 m c (Proc.devRef .tc main_arg22) := B14_of_ne m c main_arg22 (by decide)
    _ = B12 m c (Proc.devRef .tc main_arg22) := StableHlo.after_of_writes_sub hostOps6_1 _ hostOps6_1_writes (by decide)
    _ = B11 m c (Proc.devRef .tc main_arg22) := StableHlo.after_of_writes_sub hostOps6 _ hostOps6_writes (by decide)
    _ = B10 m c (Proc.devRef .tc main_arg22) := B11_of_ne m c main_arg22 (by decide)
    _ = B9 m c (Proc.devRef .tc main_arg22) := StableHlo.after_of_writes_sub hostOps5 _ hostOps5_writes (by decide)
    _ = B8 m c (Proc.devRef .tc main_arg22) := B9_of_ne m c main_arg22 (by decide)
    _ = B7 m c (Proc.devRef .tc main_arg22) := B8_of_ne m c main_arg22 (by decide)
    _ = B6 m c (Proc.devRef .tc main_arg22) := StableHlo.after_of_writes_sub hostOps3 _ hostOps3_writes (by decide)
    _ = B5 m c (Proc.devRef .tc main_arg22) := B6_of_ne m c main_arg22 (by decide)
    _ = B4 m c (Proc.devRef .tc main_arg22) := B5_of_ne m c main_arg22 (by decide)
    _ = B3 m c (Proc.devRef .tc main_arg22) := StableHlo.after_of_writes_sub hostOps1 _ hostOps1_writes (by decide)
    _ = B2 m c (Proc.devRef .tc main_arg22) := B3_of_ne m c main_arg22 (by decide)
    _ = B1 m c (Proc.devRef .tc main_arg22) := StableHlo.after_of_writes_sub hostOps0_1 _ hostOps0_1_writes (by decide)
    _ = B0 m c (Proc.devRef .tc main_arg22) := StableHlo.after_of_writes_sub hostOps0 _ hostOps0_writes (by decide)
    _ = m ((c : Thread nD τ).loc main_arg22) := rfl

theorem B14_main_arg23 (c : Dev nD) : B14 m c (Proc.devRef .tc main_arg23) = m ((c : Thread nD τ).loc main_arg23) :=
  calc B14 m c (Proc.devRef .tc main_arg23)
    _ = B13 m c (Proc.devRef .tc main_arg23) := (B14_arr m c 3).trans (((EdgeMlp.dat (E13 m) c).arrAt_in 3 rfl _).trans (EdgeMlp.dat_A (E13 m) c 3))
    _ = B12 m c (Proc.devRef .tc main_arg23) := StableHlo.after_of_writes_sub hostOps6_1 _ hostOps6_1_writes (by decide)
    _ = B11 m c (Proc.devRef .tc main_arg23) := StableHlo.after_of_writes_sub hostOps6 _ hostOps6_writes (by decide)
    _ = B10 m c (Proc.devRef .tc main_arg23) := B11_of_ne m c main_arg23 (by decide)
    _ = B9 m c (Proc.devRef .tc main_arg23) := StableHlo.after_of_writes_sub hostOps5 _ hostOps5_writes (by decide)
    _ = B8 m c (Proc.devRef .tc main_arg23) := B9_of_ne m c main_arg23 (by decide)
    _ = B7 m c (Proc.devRef .tc main_arg23) := B8_of_ne m c main_arg23 (by decide)
    _ = B6 m c (Proc.devRef .tc main_arg23) := StableHlo.after_of_writes_sub hostOps3 _ hostOps3_writes (by decide)
    _ = B5 m c (Proc.devRef .tc main_arg23) := B6_of_ne m c main_arg23 (by decide)
    _ = B4 m c (Proc.devRef .tc main_arg23) := B5_of_ne m c main_arg23 (by decide)
    _ = B3 m c (Proc.devRef .tc main_arg23) := StableHlo.after_of_writes_sub hostOps1 _ hostOps1_writes (by decide)
    _ = B2 m c (Proc.devRef .tc main_arg23) := B3_of_ne m c main_arg23 (by decide)
    _ = B1 m c (Proc.devRef .tc main_arg23) := StableHlo.after_of_writes_sub hostOps0_1 _ hostOps0_1_writes (by decide)
    _ = B0 m c (Proc.devRef .tc main_arg23) := StableHlo.after_of_writes_sub hostOps0 _ hostOps0_writes (by decide)
    _ = m ((c : Thread nD τ).loc main_arg23) := rfl

theorem B14_main_arg24 (c : Dev nD) : B14 m c (Proc.devRef .tc main_arg24) = m ((c : Thread nD τ).loc main_arg24) :=
  calc B14 m c (Proc.devRef .tc main_arg24)
    _ = B13 m c (Proc.devRef .tc main_arg24) := B14_of_ne m c main_arg24 (by decide)
    _ = B12 m c (Proc.devRef .tc main_arg24) := StableHlo.after_of_writes_sub hostOps6_1 _ hostOps6_1_writes (by decide)
    _ = B11 m c (Proc.devRef .tc main_arg24) := StableHlo.after_of_writes_sub hostOps6 _ hostOps6_writes (by decide)
    _ = B10 m c (Proc.devRef .tc main_arg24) := B11_of_ne m c main_arg24 (by decide)
    _ = B9 m c (Proc.devRef .tc main_arg24) := StableHlo.after_of_writes_sub hostOps5 _ hostOps5_writes (by decide)
    _ = B8 m c (Proc.devRef .tc main_arg24) := B9_of_ne m c main_arg24 (by decide)
    _ = B7 m c (Proc.devRef .tc main_arg24) := B8_of_ne m c main_arg24 (by decide)
    _ = B6 m c (Proc.devRef .tc main_arg24) := StableHlo.after_of_writes_sub hostOps3 _ hostOps3_writes (by decide)
    _ = B5 m c (Proc.devRef .tc main_arg24) := B6_of_ne m c main_arg24 (by decide)
    _ = B4 m c (Proc.devRef .tc main_arg24) := B5_of_ne m c main_arg24 (by decide)
    _ = B3 m c (Proc.devRef .tc main_arg24) := StableHlo.after_of_writes_sub hostOps1 _ hostOps1_writes (by decide)
    _ = B2 m c (Proc.devRef .tc main_arg24) := B3_of_ne m c main_arg24 (by decide)
    _ = B1 m c (Proc.devRef .tc main_arg24) := StableHlo.after_of_writes_sub hostOps0_1 _ hostOps0_1_writes (by decide)
    _ = B0 m c (Proc.devRef .tc main_arg24) := StableHlo.after_of_writes_sub hostOps0 _ hostOps0_writes (by decide)
    _ = m ((c : Thread nD τ).loc main_arg24) := rfl

theorem B14_main_arg25 (c : Dev nD) : B14 m c (Proc.devRef .tc main_arg25) = m ((c : Thread nD τ).loc main_arg25) :=
  calc B14 m c (Proc.devRef .tc main_arg25)
    _ = B13 m c (Proc.devRef .tc main_arg25) := (B14_arr m c 5).trans (((EdgeMlp.dat (E13 m) c).arrAt_in 5 rfl _).trans (EdgeMlp.dat_A (E13 m) c 5))
    _ = B12 m c (Proc.devRef .tc main_arg25) := StableHlo.after_of_writes_sub hostOps6_1 _ hostOps6_1_writes (by decide)
    _ = B11 m c (Proc.devRef .tc main_arg25) := StableHlo.after_of_writes_sub hostOps6 _ hostOps6_writes (by decide)
    _ = B10 m c (Proc.devRef .tc main_arg25) := B11_of_ne m c main_arg25 (by decide)
    _ = B9 m c (Proc.devRef .tc main_arg25) := StableHlo.after_of_writes_sub hostOps5 _ hostOps5_writes (by decide)
    _ = B8 m c (Proc.devRef .tc main_arg25) := B9_of_ne m c main_arg25 (by decide)
    _ = B7 m c (Proc.devRef .tc main_arg25) := B8_of_ne m c main_arg25 (by decide)
    _ = B6 m c (Proc.devRef .tc main_arg25) := StableHlo.after_of_writes_sub hostOps3 _ hostOps3_writes (by decide)
    _ = B5 m c (Proc.devRef .tc main_arg25) := B6_of_ne m c main_arg25 (by decide)
    _ = B4 m c (Proc.devRef .tc main_arg25) := B5_of_ne m c main_arg25 (by decide)
    _ = B3 m c (Proc.devRef .tc main_arg25) := StableHlo.after_of_writes_sub hostOps1 _ hostOps1_writes (by decide)
    _ = B2 m c (Proc.devRef .tc main_arg25) := B3_of_ne m c main_arg25 (by decide)
    _ = B1 m c (Proc.devRef .tc main_arg25) := StableHlo.after_of_writes_sub hostOps0_1 _ hostOps0_1_writes (by decide)
    _ = B0 m c (Proc.devRef .tc main_arg25) := StableHlo.after_of_writes_sub hostOps0 _ hostOps0_writes (by decide)
    _ = m ((c : Thread nD τ).loc main_arg25) := rfl

theorem B14_main_arg26 (c : Dev nD) : B14 m c (Proc.devRef .tc main_arg26) = m ((c : Thread nD τ).loc main_arg26) :=
  calc B14 m c (Proc.devRef .tc main_arg26)
    _ = B13 m c (Proc.devRef .tc main_arg26) := B14_of_ne m c main_arg26 (by decide)
    _ = B12 m c (Proc.devRef .tc main_arg26) := StableHlo.after_of_writes_sub hostOps6_1 _ hostOps6_1_writes (by decide)
    _ = B11 m c (Proc.devRef .tc main_arg26) := StableHlo.after_of_writes_sub hostOps6 _ hostOps6_writes (by decide)
    _ = B10 m c (Proc.devRef .tc main_arg26) := B11_of_ne m c main_arg26 (by decide)
    _ = B9 m c (Proc.devRef .tc main_arg26) := StableHlo.after_of_writes_sub hostOps5 _ hostOps5_writes (by decide)
    _ = B8 m c (Proc.devRef .tc main_arg26) := B9_of_ne m c main_arg26 (by decide)
    _ = B7 m c (Proc.devRef .tc main_arg26) := B8_of_ne m c main_arg26 (by decide)
    _ = B6 m c (Proc.devRef .tc main_arg26) := StableHlo.after_of_writes_sub hostOps3 _ hostOps3_writes (by decide)
    _ = B5 m c (Proc.devRef .tc main_arg26) := B6_of_ne m c main_arg26 (by decide)
    _ = B4 m c (Proc.devRef .tc main_arg26) := B5_of_ne m c main_arg26 (by decide)
    _ = B3 m c (Proc.devRef .tc main_arg26) := StableHlo.after_of_writes_sub hostOps1 _ hostOps1_writes (by decide)
    _ = B2 m c (Proc.devRef .tc main_arg26) := B3_of_ne m c main_arg26 (by decide)
    _ = B1 m c (Proc.devRef .tc main_arg26) := StableHlo.after_of_writes_sub hostOps0_1 _ hostOps0_1_writes (by decide)
    _ = B0 m c (Proc.devRef .tc main_arg26) := StableHlo.after_of_writes_sub hostOps0 _ hostOps0_writes (by decide)
    _ = m ((c : Thread nD τ).loc main_arg26) := rfl

/-! ## The regions as segments of the execution -/

/-- No region reads a prefetched table. -/
abbrev noTables : (p : Fin 7) → (pcfgs (F := F) p).Adm := fun p => (cfgs p).toPCfg_adm
/-- Every region's bookkeeping, each at the contents its region is entered from. -/
def family : (p : Fin 7) → (c : Dev nD) → Dat τ (Elt F) Unit ℕ (Pipeline.UD sig nD τ) ℕ (Pipeline.pin (pcfgs (F := F)) noTables p) c
  | ⟨0, _⟩ => fun c => NodeLinear1.dat (E2 m) c
  | ⟨1, _⟩ => fun c => Combine1.dat (E4 m) c
  | ⟨2, _⟩ => fun c => NodeLinear2.dat (E5 m) c
  | ⟨3, _⟩ => fun c => Combine2.dat (E7 m) c
  | ⟨4, _⟩ => fun c => NodeLinear3.dat (E8 m) c
  | ⟨5, _⟩ => fun c => Combine3.dat (E10 m) c
  | ⟨6, _⟩ => fun c => EdgeMlp.dat (E13 m) c
abbrev 𝒱₀ : Variants := Variants.none
abbrev L : GSem nD τ sig → Finset Unit := fun _ => ∅
abbrev lv : GSem nD τ sig → Unit → ℕ := fun _ _ => 0
/-- What rides beside the buffers through every item: the core's generator register at some state, and the core owing nothing. -/
abbrev ride (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (B14 m c) ∗ ∃ r, prngReg c r)

set_option backward.isDefEq.respectTransparency.types false in
/-- Region 0 as a segment: entered with every unscoped buffer at `B2`, left with them at `B3`. Its windows' arrays are split out of the unscoped buffers on entry and put back, at their final contents, on exit; the generator register passes through the loop invariant; nothing is owed; the body has no semaphore of its own. -/
def region0 : Pipeline.RegionSeg (pcfgs (F := F)) noTables (family m) () defs₀ 𝒱₀ L lv 0 where
  win := launch0.win.to₀
  block_pos := launch0.block_pos
  stage_whole := launch0.stage_whole
  K := PEmpty
  osem k := k.elim
  ho := Pipeline.OwnSemFacts.none _
  hbody c := (NodeLinear1.body_obligation (E2 m) c).loose
  hwaits := Pipeline.hwaits_of_owed_zero _ _ _ _ L lv 0 fun _ _ => rfl
  pre c := iprop(StableHlo.held (c : Thread nD τ) (Pipeline.ucRefs τ sig) (B2 m c) ∗ ride c)
  post c := iprop(StableHlo.held (c : Thread nD τ) (Pipeline.ucRefs τ sig) (B3 m c) ∗ ride c)
  X c := iprop(∃ r, prngReg c r)
  Y c := iprop(∃ r, prngReg c r)
  Z c := Pipeline.unscopedRest (Ix := Unit) (Name := ℕ) (U := Pipeline.UD sig nD τ) (Lvl := ℕ) spec0 c (E2 m c)
  hentry c := by
    rw [Pipeline.ownSems0_none]
    have hsplit := Pipeline.arrays_of_unscopedBufs (p := 0) (pcfgs (F := F)) noTables (family m) launch0.win launch0.arr_whole c
      ((family m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 0 c).Φ 0 = Pipeline.ΦA spec0 c from rfl]; unfold Pipeline.ΦA
    iintro ⟨Hp, -, Hr⟩
    isplitl [Hr]; · iexact Hr
    iexact Hp
  hout c := by
    rw [Pipeline.ownSems0_none, show (family m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := Pipeline.UD sig nD τ) (Lvl := ℕ)
      launch0.win launch0.arr_whole c (family m) ((family m 0 c).share_full fun _ => rfl)
      (E2 m c) (X3 m c) ((family m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B4`, left with them at `B5`. Its windows' arrays are split out of the unscoped buffers on entry and put back, at their final contents, on exit; the generator register passes through the loop invariant; nothing is owed; the body has no semaphore of its own. -/
def region1 : Pipeline.RegionSeg (pcfgs (F := F)) noTables (family m) () defs₀ 𝒱₀ L lv 1 where
  win := launch1.win.to₀
  block_pos := launch1.block_pos
  stage_whole := launch1.stage_whole
  K := PEmpty
  osem k := k.elim
  ho := Pipeline.OwnSemFacts.none _
  hbody c := (Combine1.body_obligation (E4 m) c).loose
  hwaits := Pipeline.hwaits_of_owed_zero _ _ _ _ L lv 1 fun _ _ => rfl
  pre c := iprop(StableHlo.held (c : Thread nD τ) (Pipeline.ucRefs τ sig) (B4 m c) ∗ ride c)
  post c := iprop(StableHlo.held (c : Thread nD τ) (Pipeline.ucRefs τ sig) (B5 m c) ∗ ride c)
  X c := iprop(∃ r, prngReg c r)
  Y c := iprop(∃ r, prngReg c r)
  Z c := Pipeline.unscopedRest (Ix := Unit) (Name := ℕ) (U := Pipeline.UD sig nD τ) (Lvl := ℕ) spec1 c (E4 m c)
  hentry c := by
    rw [Pipeline.ownSems0_none]
    have hsplit := Pipeline.arrays_of_unscopedBufs (p := 1) (pcfgs (F := F)) noTables (family m) launch1.win launch1.arr_whole c
      ((family m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 1 c).Φ 0 = Pipeline.ΦA spec1 c from rfl]; unfold Pipeline.ΦA
    iintro ⟨Hp, -, Hr⟩
    isplitl [Hr]; · iexact Hr
    iexact Hp
  hout c := by
    rw [Pipeline.ownSems0_none, show (family m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := Pipeline.UD sig nD τ) (Lvl := ℕ)
      launch1.win launch1.arr_whole c (family m) ((family m 1 c).share_full fun _ => rfl)
      (E4 m c) (X5 m c) ((family m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B5`, left with them at `B6`. Its windows' arrays are split out of the unscoped buffers on entry and put back, at their final contents, on exit; the generator register passes through the loop invariant; nothing is owed; the body has no semaphore of its own. -/
def region2 : Pipeline.RegionSeg (pcfgs (F := F)) noTables (family m) () defs₀ 𝒱₀ L lv 2 where
  win := launch2.win.to₀
  block_pos := launch2.block_pos
  stage_whole := launch2.stage_whole
  K := PEmpty
  osem k := k.elim
  ho := Pipeline.OwnSemFacts.none _
  hbody c := (NodeLinear2.body_obligation (E5 m) c).loose
  hwaits := Pipeline.hwaits_of_owed_zero _ _ _ _ L lv 2 fun _ _ => rfl
  pre c := iprop(StableHlo.held (c : Thread nD τ) (Pipeline.ucRefs τ sig) (B5 m c) ∗ ride c)
  post c := iprop(StableHlo.held (c : Thread nD τ) (Pipeline.ucRefs τ sig) (B6 m c) ∗ ride c)
  X c := iprop(∃ r, prngReg c r)
  Y c := iprop(∃ r, prngReg c r)
  Z c := Pipeline.unscopedRest (Ix := Unit) (Name := ℕ) (U := Pipeline.UD sig nD τ) (Lvl := ℕ) spec2 c (E5 m c)
  hentry c := by
    rw [Pipeline.ownSems0_none]
    have hsplit := Pipeline.arrays_of_unscopedBufs (p := 2) (pcfgs (F := F)) noTables (family m) launch2.win launch2.arr_whole c
      ((family m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 2 c).Φ 0 = Pipeline.ΦA spec2 c from rfl]; unfold Pipeline.ΦA
    iintro ⟨Hp, -, Hr⟩
    isplitl [Hr]; · iexact Hr
    iexact Hp
  hout c := by
    rw [Pipeline.ownSems0_none, show (family m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := Pipeline.UD sig nD τ) (Lvl := ℕ)
      launch2.win launch2.arr_whole c (family m) ((family m 2 c).share_full fun _ => rfl)
      (E5 m c) (X6 m c) ((family m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `B7`, left with them at `B8`. Its windows' arrays are split out of the unscoped buffers on entry and put back, at their final contents, on exit; the generator register passes through the loop invariant; nothing is owed; the body has no semaphore of its own. -/
def region3 : Pipeline.RegionSeg (pcfgs (F := F)) noTables (family m) () defs₀ 𝒱₀ L lv 3 where
  win := launch3.win.to₀
  block_pos := launch3.block_pos
  stage_whole := launch3.stage_whole
  K := PEmpty
  osem k := k.elim
  ho := Pipeline.OwnSemFacts.none _
  hbody c := (Combine2.body_obligation (E7 m) c).loose
  hwaits := Pipeline.hwaits_of_owed_zero _ _ _ _ L lv 3 fun _ _ => rfl
  pre c := iprop(StableHlo.held (c : Thread nD τ) (Pipeline.ucRefs τ sig) (B7 m c) ∗ ride c)
  post c := iprop(StableHlo.held (c : Thread nD τ) (Pipeline.ucRefs τ sig) (B8 m c) ∗ ride c)
  X c := iprop(∃ r, prngReg c r)
  Y c := iprop(∃ r, prngReg c r)
  Z c := Pipeline.unscopedRest (Ix := Unit) (Name := ℕ) (U := Pipeline.UD sig nD τ) (Lvl := ℕ) spec3 c (E7 m c)
  hentry c := by
    rw [Pipeline.ownSems0_none]
    have hsplit := Pipeline.arrays_of_unscopedBufs (p := 3) (pcfgs (F := F)) noTables (family m) launch3.win launch3.arr_whole c
      ((family m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 3 c).Φ 0 = Pipeline.ΦA spec3 c from rfl]; unfold Pipeline.ΦA
    iintro ⟨Hp, -, Hr⟩
    isplitl [Hr]; · iexact Hr
    iexact Hp
  hout c := by
    rw [Pipeline.ownSems0_none, show (family m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := Pipeline.UD sig nD τ) (Lvl := ℕ)
      launch3.win launch3.arr_whole c (family m) ((family m 3 c).share_full fun _ => rfl)
      (E7 m c) (X8 m c) ((family m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `B8`, left with them at `B9`. Its windows' arrays are split out of the unscoped buffers on entry and put back, at their final contents, on exit; the generator register passes through the loop invariant; nothing is owed; the body has no semaphore of its own. -/
def region4 : Pipeline.RegionSeg (pcfgs (F := F)) noTables (family m) () defs₀ 𝒱₀ L lv 4 where
  win := launch4.win.to₀
  block_pos := launch4.block_pos
  stage_whole := launch4.stage_whole
  K := PEmpty
  osem k := k.elim
  ho := Pipeline.OwnSemFacts.none _
  hbody c := (NodeLinear3.body_obligation (E8 m) c).loose
  hwaits := Pipeline.hwaits_of_owed_zero _ _ _ _ L lv 4 fun _ _ => rfl
  pre c := iprop(StableHlo.held (c : Thread nD τ) (Pipeline.ucRefs τ sig) (B8 m c) ∗ ride c)
  post c := iprop(StableHlo.held (c : Thread nD τ) (Pipeline.ucRefs τ sig) (B9 m c) ∗ ride c)
  X c := iprop(∃ r, prngReg c r)
  Y c := iprop(∃ r, prngReg c r)
  Z c := Pipeline.unscopedRest (Ix := Unit) (Name := ℕ) (U := Pipeline.UD sig nD τ) (Lvl := ℕ) spec4 c (E8 m c)
  hentry c := by
    rw [Pipeline.ownSems0_none]
    have hsplit := Pipeline.arrays_of_unscopedBufs (p := 4) (pcfgs (F := F)) noTables (family m) launch4.win launch4.arr_whole c
      ((family m 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 4 c).Φ 0 = Pipeline.ΦA spec4 c from rfl]; unfold Pipeline.ΦA
    iintro ⟨Hp, -, Hr⟩
    isplitl [Hr]; · iexact Hr
    iexact Hp
  hout c := by
    rw [Pipeline.ownSems0_none, show (family m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := Pipeline.UD sig nD τ) (Lvl := ℕ)
      launch4.win launch4.arr_whole c (family m) ((family m 4 c).share_full fun _ => rfl)
      (E8 m c) (X9 m c) ((family m 4 c).arrAt · cfg4.N) (exit_arrays4 m c) (exit_rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `B10`, left with them at `B11`. Its windows' arrays are split out of the unscoped buffers on entry and put back, at their final contents, on exit; the generator register passes through the loop invariant; nothing is owed; the body has no semaphore of its own. -/
def region5 : Pipeline.RegionSeg (pcfgs (F := F)) noTables (family m) () defs₀ 𝒱₀ L lv 5 where
  win := launch5.win.to₀
  block_pos := launch5.block_pos
  stage_whole := launch5.stage_whole
  K := PEmpty
  osem k := k.elim
  ho := Pipeline.OwnSemFacts.none _
  hbody c := (Combine3.body_obligation (E10 m) c).loose
  hwaits := Pipeline.hwaits_of_owed_zero _ _ _ _ L lv 5 fun _ _ => rfl
  pre c := iprop(StableHlo.held (c : Thread nD τ) (Pipeline.ucRefs τ sig) (B10 m c) ∗ ride c)
  post c := iprop(StableHlo.held (c : Thread nD τ) (Pipeline.ucRefs τ sig) (B11 m c) ∗ ride c)
  X c := iprop(∃ r, prngReg c r)
  Y c := iprop(∃ r, prngReg c r)
  Z c := Pipeline.unscopedRest (Ix := Unit) (Name := ℕ) (U := Pipeline.UD sig nD τ) (Lvl := ℕ) spec5 c (E10 m c)
  hentry c := by
    rw [Pipeline.ownSems0_none]
    have hsplit := Pipeline.arrays_of_unscopedBufs (p := 5) (pcfgs (F := F)) noTables (family m) launch5.win launch5.arr_whole c
      ((family m 5 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 5 c).Φ 0 = Pipeline.ΦA spec5 c from rfl]; unfold Pipeline.ΦA
    iintro ⟨Hp, -, Hr⟩
    isplitl [Hr]; · iexact Hr
    iexact Hp
  hout c := by
    rw [Pipeline.ownSems0_none, show (family m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := Pipeline.UD sig nD τ) (Lvl := ℕ)
      launch5.win launch5.arr_whole c (family m) ((family m 5 c).share_full fun _ => rfl)
      (E10 m c) (X11 m c) ((family m 5 c).arrAt · cfg5.N) (exit_arrays5 m c) (exit_rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered with every unscoped buffer at `B13`, left with them at `B14`. Its windows' arrays are split out of the unscoped buffers on entry and put back, at their final contents, on exit; the generator register passes through the loop invariant; nothing is owed; the body has no semaphore of its own. -/
def region6 : Pipeline.RegionSeg (pcfgs (F := F)) noTables (family m) () defs₀ 𝒱₀ L lv 6 where
  win := launch6.win.to₀
  block_pos := launch6.block_pos
  stage_whole := launch6.stage_whole
  K := PEmpty
  osem k := k.elim
  ho := Pipeline.OwnSemFacts.none _
  hbody c := (EdgeMlp.body_obligation (E13 m) c).loose
  hwaits := Pipeline.hwaits_of_owed_zero _ _ _ _ L lv 6 fun _ _ => rfl
  pre c := iprop(StableHlo.held (c : Thread nD τ) (Pipeline.ucRefs τ sig) (B13 m c) ∗ ride c)
  post c := iprop(StableHlo.held (c : Thread nD τ) (Pipeline.ucRefs τ sig) (B14 m c) ∗ ride c)
  X c := iprop(∃ r, prngReg c r)
  Y c := iprop(∃ r, prngReg c r)
  Z c := Pipeline.unscopedRest (Ix := Unit) (Name := ℕ) (U := Pipeline.UD sig nD τ) (Lvl := ℕ) spec6 c (E13 m c)
  hentry c := by
    rw [Pipeline.ownSems0_none]
    have hsplit := Pipeline.arrays_of_unscopedBufs (p := 6) (pcfgs (F := F)) noTables (family m) launch6.win launch6.arr_whole c
      ((family m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 6 c).Φ 0 = Pipeline.ΦA spec6 c from rfl]; unfold Pipeline.ΦA
    iintro ⟨Hp, -, Hr⟩
    isplitl [Hr]; · iexact Hr
    iexact Hp
  hout c := by
    rw [Pipeline.ownSems0_none, show (family m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := Pipeline.UD sig nD τ) (Lvl := ℕ)
      launch6.win launch6.arr_whole c (family m) ((family m 6 c).share_full fun _ => rfl)
      (E13 m c) (X14 m c) ((family m 6 c).arrAt · cfg6.N) (exit_arrays6 m c) (exit_rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the whole execution -/

abbrev segments : List (Pipeline.Seg (pcfgs (F := F)) noTables (family m) () defs₀ 𝒱₀ L lv) :=
  [
    .host (hostSeg hostOps0 hostOps0_sub hostOps0_fresh (B0 m)),
    .host (hostSeg hostOps0_1 hostOps0_1_sub hostOps0_1_fresh (B1 m)),
    .region (region0 m),
    .host (hostSeg hostOps1 hostOps1_sub hostOps1_fresh (B3 m)),
    .region (region1 m),
    .region (region2 m),
    .host (hostSeg hostOps3 hostOps3_sub hostOps3_fresh (B6 m)),
    .region (region3 m),
    .region (region4 m),
    .host (hostSeg hostOps5 hostOps5_sub hostOps5_fresh (B9 m)),
    .region (region5 m),
    .host (hostSeg hostOps6 hostOps6_sub hostOps6_fresh (B11 m)),
    .host (hostSeg hostOps6_1 hostOps6_1_sub hostOps6_1_fresh (B12 m)),
    .region (region6 m) ]

theorem main_is_segments (c : Dev nD) : main (F := F) c = Pipeline.Seg.run (segments m) := (main_chain c).trans (by chain_rfl)

set_option backward.isDefEq.respectTransparency.types false in
/-- From any memory with zero counters every weakly fair execution terminates, nothing faulting; at the end the result array holds what the last region's write-backs leave, and every argument array is as launched. -/
theorem execution (ρ : Dev nD → PrngReg) : θ_run defs (onTc (τ := τ) (main (F := F))) ⟨m, fun _ => 0, ρ⟩ (fun r => ∀ c : Dev nD,
      r.2.mem ((c.tc : Thread nD τ).loc main_v128) = B14 m c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) noTables (family m) () cellOf_inj embL defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B14 m c) ∗ ride c) ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c =>
      ⟨h c _ (uc_mem main_v128 (by decide)),
       (h c _ (uc_mem main_arg0 (by decide))).trans (B14_main_arg0 m c),
       (h c _ (uc_mem main_arg1 (by decide))).trans (B14_main_arg1 m c),
       (h c _ (uc_mem main_arg2 (by decide))).trans (B14_main_arg2 m c),
       (h c _ (uc_mem main_arg3 (by decide))).trans (B14_main_arg3 m c),
       (h c _ (uc_mem main_arg4 (by decide))).trans (B14_main_arg4 m c),
       (h c _ (uc_mem main_arg5 (by decide))).trans (B14_main_arg5 m c),
       (h c _ (uc_mem main_arg6 (by decide))).trans (B14_main_arg6 m c),
       (h c _ (uc_mem main_arg7 (by decide))).trans (B14_main_arg7 m c),
       (h c _ (uc_mem main_arg8 (by decide))).trans (B14_main_arg8 m c),
       (h c _ (uc_mem main_arg9 (by decide))).trans (B14_main_arg9 m c),
       (h c _ (uc_mem main_arg10 (by decide))).trans (B14_main_arg10 m c),
       (h c _ (uc_mem main_arg11 (by decide))).trans (B14_main_arg11 m c),
       (h c _ (uc_mem main_arg12 (by decide))).trans (B14_main_arg12 m c),
       (h c _ (uc_mem main_arg13 (by decide))).trans (B14_main_arg13 m c),
       (h c _ (uc_mem main_arg14 (by decide))).trans (B14_main_arg14 m c),
       (h c _ (uc_mem main_arg15 (by decide))).trans (B14_main_arg15 m c),
       (h c _ (uc_mem main_arg16 (by decide))).trans (B14_main_arg16 m c),
       (h c _ (uc_mem main_arg17 (by decide))).trans (B14_main_arg17 m c),
       (h c _ (uc_mem main_arg18 (by decide))).trans (B14_main_arg18 m c),
       (h c _ (uc_mem main_arg19 (by decide))).trans (B14_main_arg19 m c),
       (h c _ (uc_mem main_arg20 (by decide))).trans (B14_main_arg20 m c),
       (h c _ (uc_mem main_arg21 (by decide))).trans (B14_main_arg21 m c),
       (h c _ (uc_mem main_arg22 (by decide))).trans (B14_main_arg22 m c),
       (h c _ (uc_mem main_arg23 (by decide))).trans (B14_main_arg23 m c),
       (h c _ (uc_mem main_arg24 (by decide))).trans (B14_main_arg24 m c),
       (h c _ (uc_mem main_arg25 (by decide))).trans (B14_main_arg25 m c),
       (h c _ (uc_mem main_arg26 (by decide))).trans (B14_main_arg26 m c)⟩)

end Cert.Kernel.Run

end
-- ==== Proof.Ideal.NodeLinear1.lean ====
/-
  Dense node layer 1, as one pipelined region: the node features [100000, 128] are cut into 10 row blocks of 10000
  rows; at each grid point the body reads one row block and the whole weight matrix [128, 64] and writes the block's
  product, a [10000, 64] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeLinear1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x128 := Rect.unit (s := S10000x128) ![0, 0] S10000x128.size inb_S10000x128_S10000x128_0_0
abbrev rect_weights : Rect S128x64 := Rect.unit (s := S128x64) ![0, 0] S128x64.size inb_S128x64_S128x64_0_0
abbrev rect_out : Rect S10000x64 := Rect.unit (s := S10000x64) ![0, 0] S10000x64.size inb_S10000x64_S10000x64_0_0

/-- The output buffer after the body: its one store, of the product of the row block with the weight matrix. -/
def result (x : Vec F S10000x128 .f32) (w : Vec F S128x64 .f32) : Vec F S10000x64 .f32 :=
  View.canon [⟨rect_out, k0_pay1 (View.ld x rect_rows) (View.ld w rect_weights)⟩]

/-- That one store covers the whole output buffer. -/
theorem store_covers (p : Vec F S10000x64 .f32) (y : S10000x64.Idx) :
    ∃ pc ∈ ([⟨rect_out, p⟩] : List (View.Piece (Elt F) S10000x64 .f32)), y ∈ pc.1.set :=
  View.cover_of_tiled [⟨rect_out, p⟩] S10000x64.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x : Vec F S10000x128 .f32) (w : Vec F S128x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => result (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_out (c : Dev nD) (t : Fin cfg0.N) : (dat V c).after 2 t = result (blockAt V c 0 t) (blockAt V c 1 t) := by dsimp only [dat]

theorem before_rows (c : Dev nD) (t : Fin cfg0.N) (d) : (dat V c).before 0 t d = blockAt V c 0 t :=
  staged_rows V (dat V c) (dat_A V c 0) (after_rows V c) t d
theorem before_weights (c : Dev nD) (t : Fin cfg0.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid0.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact body_at V c t

end Cert.KernelIdeal.NodeLinear1

end
-- ==== Proof.Ideal.Combine1.lean ====
/-
  The fused combine of layer 1, as one pipelined region over 10 row blocks of 10000 nodes: at each grid point the body
  reads the block's neighbour sums and self terms [10000, 64] and the three rows bias, scale, shift [1, 64], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The neighbour-sum window's staging buffer holds the point's row block whenever the body starts. -/
theorem staged_agg {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x64 := Rect.unit (s := S10000x64) ![0, 0] S10000x64.size inb_S10000x64_S10000x64_0_0
abbrev rect_self : Rect S10000x64 := Rect.unit (s := S10000x64) ![0, 0] S10000x64.size inb_S10000x64_S10000x64_0_0
abbrev rect_bias : Rect S1x64 := Rect.unit (s := S1x64) ![0, 0] S1x64.size inb_S1x64_S1x64_0_0
abbrev rect_scale : Rect S1x64 := Rect.unit (s := S1x64) ![0, 0] S1x64.size inb_S1x64_S1x64_0_0
abbrev rect_shift : Rect S1x64 := Rect.unit (s := S1x64) ![0, 0] S1x64.size inb_S1x64_S1x64_0_0
abbrev rect_out : Rect S10000x64 := Rect.unit (s := S10000x64) ![0, 0] S10000x64.size inb_S10000x64_S10000x64_0_0

/-- The output buffer after the body: its one store, the rectified affine combination of the two row blocks with the three rows. -/
def result (a : Vec F S10000x64 .f32) (s : Vec F S10000x64 .f32) (b : Vec F S1x64 .f32) (sc : Vec F S1x64 .f32) (sh : Vec F S1x64 .f32) : Vec F S10000x64 .f32 :=
  View.canon [⟨rect_out, k1_pay1 (View.ld a rect_agg) (View.ld s rect_self) (View.ld b rect_bias) (View.ld sc rect_scale) (View.ld sh rect_shift)⟩]

/-- That one store covers the whole output buffer. -/
theorem store_covers (p : Vec F S10000x64 .f32) (y : S10000x64.Idx) :
    ∃ pc ∈ ([⟨rect_out, p⟩] : List (View.Piece (Elt F) S10000x64 .f32)), y ∈ pc.1.set :=
  View.cover_of_tiled [⟨rect_out, p⟩] S10000x64.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (a : Vec F S10000x64 .f32) (s : Vec F S10000x64 .f32) (b : Vec F S1x64 .f32) (sc : Vec F S1x64 .f32) (sh : Vec F S1x64 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc1__combine_bn_relu_kernel i arg1 harg1 arg2 harg2 arg3 harg3 arg4 harg4 arg5 harg5 arg6 harg6) K := by
  simp only [cc1__combine_bn_relu_kernel_eq_skeleton]; unfold cc1__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec1 c
  q _ := fullShare
  owed _ := 0

theorem dat_A (c : Dev nD) (w : Fin cfg1.W) : (dat V c).A w = V c (Pipeline.arrRef spec1 w) := by
  dsimp only [dat]

theorem after_agg (c : Dev nD) (t : Fin cfg1.N) : (dat V c).after 0 t = blockAt V c 0 t := by dsimp only [dat]
theorem after_self (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_scale (c : Dev nD) (t : Fin cfg1.N) : (dat V c).after 3 t = blockAt V c 3 t := by dsimp only [dat]
theorem after_shift (c : Dev nD) (t : Fin cfg1.N) : (dat V c).after 4 t = blockAt V c 4 t := by dsimp only [dat]
theorem after_out (c : Dev nD) (t : Fin cfg1.N) : (dat V c).after 5 t = result (blockAt V c 0 t) (blockAt V c 1 t) (blockAt V c 2 t) (blockAt V c 3 t) (blockAt V c 4 t) := by dsimp only [dat]

theorem before_agg (c : Dev nD) (t : Fin cfg1.N) (d) : (dat V c).before 0 t d = blockAt V c 0 t :=
  staged_agg V (dat V c) (dat_A V c 0) (after_agg V c) t d
theorem before_self (c : Dev nD) (t : Fin cfg1.N) (d) : (dat V c).before 1 t d = blockAt V c 1 t :=
  staged_self V (dat V c) (dat_A V c 1) (after_self V c) t d
theorem before_bias (c : Dev nD) (t : Fin cfg1.N) (d) : (dat V c).before 2 t d = blockAt V c 2 t :=
  staged_bias V (dat V c) (dat_A V c 2) (after_bias V c) t d
theorem before_scale (c : Dev nD) (t : Fin cfg1.N) (d) : (dat V c).before 3 t d = blockAt V c 3 t :=
  staged_scale V (dat V c) (dat_A V c 3) (after_scale V c) t d
theorem before_shift (c : Dev nD) (t : Fin cfg1.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid1.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact body_at V c t

end Cert.KernelIdeal.Combine1

end
-- ==== Proof.Ideal.NodeLinear2.lean ====
/-
  Dense node layer 2, as one pipelined region: the node features [100000, 64] are cut into 10 row blocks of 10000
  rows; at each grid point the body reads one row block and the whole weight matrix [64, 32] and writes the block's
  product, a [10000, 32] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeLinear2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x64 := Rect.unit (s := S10000x64) ![0, 0] S10000x64.size inb_S10000x64_S10000x64_0_0
abbrev rect_weights : Rect S64x32 := Rect.unit (s := S64x32) ![0, 0] S64x32.size inb_S64x32_S64x32_0_0
abbrev rect_out : Rect S10000x32 := Rect.unit (s := S10000x32) ![0, 0] S10000x32.size inb_S10000x32_S10000x32_0_0

/-- The output buffer after the body: its one store, of the product of the row block with the weight matrix. -/
def result (x : Vec F S10000x64 .f32) (w : Vec F S64x32 .f32) : Vec F S10000x32 .f32 :=
  View.canon [⟨rect_out, k2_pay1 (View.ld x rect_rows) (View.ld w rect_weights)⟩]

/-- That one store covers the whole output buffer. -/
theorem store_covers (p : Vec F S10000x32 .f32) (y : S10000x32.Idx) :
    ∃ pc ∈ ([⟨rect_out, p⟩] : List (View.Piece (Elt F) S10000x32 .f32)), y ∈ pc.1.set :=
  View.cover_of_tiled [⟨rect_out, p⟩] S10000x32.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid2.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x : Vec F S10000x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg2 c where
  A w := V c (Pipeline.arrRef spec2 w)
  after w t := match w with
    | ⟨0, _⟩ => blockAt V c 0 t
    | ⟨1, _⟩ => blockAt V c 1 t
    | ⟨2, _⟩ => result (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem after_rows (c : Dev nD) (t : Fin cfg2.N) : (dat V c).after 0 t = blockAt V c 0 t := by dsimp only [dat]
theorem after_weights (c : Dev nD) (t : Fin cfg2.N) : (dat V c).after 1 t = blockAt V c 1 t := by dsimp only [dat]
theorem after_out (c : Dev nD) (t : Fin cfg2.N) : (dat V c).after 2 t = result (blockAt V c 0 t) (blockAt V c 1 t) := by dsimp only [dat]

theorem before_rows (c : Dev nD) (t : Fin cfg2.N) (d) : (dat V c).before 0 t d = blockAt V c 0 t :=
  staged_rows V (dat V c) (dat_A V c 0) (after_rows V c) t d
theorem before_weights (c : Dev nD) (t : Fin cfg2.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid2.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact body_at V c t

end Cert.KernelIdeal.NodeLinear2

end
-- ==== Proof.Ideal.Combine2.lean ====
/-
  The fused combine of layer 2, as one pipelined region over 10 row blocks of 10000 nodes: at each grid point the body
  reads the block's neighbour sums and self terms [10000, 32] and the three rows bias, scale, shift [1, 32], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The neighbour-sum window's staging buffer holds the point's row block whenever the body starts. -/
theorem staged_agg {c : Dev nD} (dat : Dat τ (Elt F) Unit ℕ (Pipeline.UD sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x32 := Rect.unit (s := S10000x32) ![0, 0] S10000x32.size inb_S10000x32_S10000x32_0_0
abbrev rect_self : Rect S10000x32 := Rect.unit (s := S10000x32) ![0, 0] S10000x32.size inb_S10000x32_S10000x32_0_0
abbrev rect_bias : Rect S1x32 := Rect.unit (s := S1x32) ![0, 0] S1x32.size inb_S1x32_S1x32_0_0
abbrev rect_scale : Rect S1x32 := Rect.unit (s := S1x32) ![0, 0] S1x32.size inb_S1x32_S1x32_0_0
abbrev rect_shift : Rect S1x32 := Rect.unit (s := S1x32) ![0, 0] S1x32.size inb_S1x32_S1x32_0_0
abbrev rect_out : Rect S10000x32 := Rect.unit (s := S10000x32) ![0, 0] S10000x32.size inb_S10000x32_S10000x32_0_0

/-- The output buffer after the body: its one store, the rectified affine combination of the two row blocks with the three rows. -/
def result (a : Vec F S10000x32 .f32) (s : Vec F S10000x32 .f32) (b : Vec F S1x32 .f32) (sc : Vec F S1x32 .f32) (sh : Vec F S1x32 .f32) : Vec F S10000x32 .f32 :=
  View.canon [⟨rect_out, k3_pay1 (View.ld a rect_agg) (View.ld s rect_self) (View.ld b rect_bias) (View.ld sc rect_scale) (View.ld sh rect_shift)⟩]

/-- That one store covers the whole output buffer. -/
theorem store_covers (p : Vec F S10000x32 .f32) (y : S10000x32.Idx) :
    ∃ pc ∈ ([⟨rect_out, p⟩] : List (View.Piece (Elt F) S10000x32 .f32)), y ∈ pc.1.set :=
  View.cover_of_tiled [⟨rect_out, p⟩] S10000x32.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid3.Coords) (arg1 : Memref sig .tc .vmem S10000x32 .f32) (harg1 : arg1.IsWhole) (arg2 : Memref sig .tc .vmem S10000x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (a : Vec F S10000x32 .f32) (s : Vec F S10000x32 .f32) (b : Vec F S1x32 .f32) (sc : Vec F S1x32 .f32) (sh : Vec F S1x32 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc3__combine_bn_relu_kernel i arg1 harg1 arg2 harg2 arg3 harg3 arg4 harg4 arg5 harg5 arg6 harg6) K := by
  simp only [cc3__combine_bn_relu_kernel_eq_skeleton]; unfold cc3__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after_agg (c : Dev nD) (t : Fin cfg3.N) : (dat V c).after 0 t = blockAt V c 0 t := by dsimp only [dat]
theorem after_self (c : Dev nD) (t : Fin cfg3.N) : (dat V c).after 1 t = blockAt V c 1 t := by dsimp only [dat]
theorem after_bias (c : Dev nD) (t : Fin cfg3.N) : (dat V c).after 2 t = blockAt V c 2 t := by dsimp only [dat]
theorem after_scale (c : Dev nD) (t : Fin cfg3.N) : (dat V c).after 3 t = blockAt V c 3 t := by dsimp only [dat]
theorem after_shift (c : Dev nD) (t : Fin cfg3.N) : (dat V c).after 4 t = blockAt V c 4 t := by dsimp only [dat]
theorem after_out (c : Dev nD) (t : Fin cfg3.N) : (dat V c).after 5 t = result (blockAt V c 0 t) (blockAt V c 1 t) (blockAt V c 2 t) (blockAt V c 3 t) (blockAt V c 4 t) := by dsimp only [dat]

theorem before_agg (c : Dev nD) (t : Fin cfg3.N) (d) : (dat V c).before 0 t d = blockAt V c 0 t :=
  staged_agg V (dat V c) (dat_A V c 0) (after_agg V c) t d
theorem before_self (c : Dev nD) (t : Fin cfg3.N) (d) : (dat V c).before 1 t d = blockAt V c 1 t :=
  staged_self V (dat V c) (dat_A V c 1) (after_self V c) t d
theorem before_bias (c : Dev nD) (t : Fin cfg3.N) (d) : (dat V c).before 2 t d = blockAt V c 2 t :=
  staged_bias V (dat V c) (dat_A V c 2) (after_bias V c) t d
theorem before_scale (c : Dev nD) (t : Fin cfg3.N) (d) : (dat V c).before 3 t d = blockAt V c 3 t :=
  staged_scale V (dat V c) (dat_A V c 3) (after_scale V c) t d
theorem before_shift (c : Dev nD) (t : Fin cfg3.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid3.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W3, bigSep_W3]
  exact body_at V c t

end Cert.KernelIdeal.Combine2

end
-- ==== Proof.Ideal.NodeLinear3.lean ====
/-
  Dense node layer 3, as one pipelined region: the node features [100000, 32] are cut into 10 row blocks of 10000
  rows; at each grid point the body reads one row block and the whole weight matrix [32, 16] and writes the block's
  product, a [10000, 16] row block of the output. Nothing is carried from one point to the next.

  Stated at ANY contents `V` of the core's buffers on entry, and at any float instance: what each staging buffer holds
  before and after the body at a point, and that the body, run on those buffers, terminates without fault and leaves
  exactly that.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeLinear3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row window's staging buffer holds the point's row block whenever the body starts, for any bookkeeping whose array is the entry contents and whose body leaves the block in place. -/
theorem staged_rows {c : Dev nD} (dat : Dat τ (Elt F) Unit ℕ (Pipeline.UD sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window's staging buffer holds the whole weight matrix whenever the body starts: it is copied in at the first point and its block index never moves afterwards. -/
theorem staged_weights {c : Dev nD} (dat : Dat τ (Elt F) Unit ℕ (Pipeline.UD sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_rows : Rect S10000x32 := Rect.unit (s := S10000x32) ![0, 0] S10000x32.size inb_S10000x32_S10000x32_0_0
abbrev rect_weights : Rect S32x16 := Rect.unit (s := S32x16) ![0, 0] S32x16.size inb_S32x16_S32x16_0_0
abbrev rect_out : Rect S10000x16 := Rect.unit (s := S10000x16) ![0, 0] S10000x16.size inb_S10000x16_S10000x16_0_0

/-- The output buffer after the body: its one store, of the product of the row block with the weight matrix. -/
def result (x : Vec F S10000x32 .f32) (w : Vec F S32x16 .f32) : Vec F S10000x16 .f32 :=
  View.canon [⟨rect_out, k4_pay1 (View.ld x rect_rows) (View.ld w rect_weights)⟩]

/-- That one store covers the whole output buffer. -/
theorem store_covers (p : Vec F S10000x16 .f32) (y : S10000x16.Idx) :
    ∃ pc ∈ ([⟨rect_out, p⟩] : List (View.Piece (Elt F) S10000x16 .f32)), y ∈ pc.1.set :=
  View.cover_of_tiled [⟨rect_out, p⟩] S10000x16.size (by rfl) y

/-! ## The body -/

set_option maxHeartbeats 1000000 in
/-- On whole staging buffers holding a row block `x`, the weights `w` and anything in the output buffer, the body terminates without fault, leaves `x` and `w` in place and the output buffer at `result x w`. (It also reads the output buffer's old contents, and does not use them.) -/
theorem body_sound (c : Dev nD) (E : Set ℕ) (i : grid4.Coords) (arg1 : Memref sig .tc .vmem S10000x32 .f32) (harg1 : arg1.IsWhole) (arg2 : Memref sig .tc .vmem S32x16 .f32) (harg2 : arg2.IsWhole) (arg3 : Memref sig .tc .vmem S10000x16 .f32) (harg3 : arg3.IsWhole)
    (x : Vec F S10000x32 .f32) (w : Vec F S32x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (result x w)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg4 c where
  A w := V c (Pipeline.arrRef spec4 w)
  after w t := match w with
    | ⟨0, _⟩ => blockAt V c 0 t
    | ⟨1, _⟩ => blockAt V c 1 t
    | ⟨2, _⟩ => result (blockAt V c 0 t) (blockAt V c 1 t)
  Φ _ := Pipeline.ΦA spec4 c
  q _ := fullShare
  owed _ := 0

theorem dat_A (c : Dev nD) (w : Fin cfg4.W) : (dat V c).A w = V c (Pipeline.arrRef spec4 w) := by
  dsimp only [dat]

theorem after_rows (c : Dev nD) (t : Fin cfg4.N) : (dat V c).after 0 t = blockAt V c 0 t := by dsimp only [dat]
theorem after_weights (c : Dev nD) (t : Fin cfg4.N) : (dat V c).after 1 t = blockAt V c 1 t := by dsimp only [dat]
theorem after_out (c : Dev nD) (t : Fin cfg4.N) : (dat V c).after 2 t = result (blockAt V c 0 t) (blockAt V c 1 t) := by dsimp only [dat]

theorem before_rows (c : Dev nD) (t : Fin cfg4.N) (d) : (dat V c).before 0 t d = blockAt V c 0 t :=
  staged_rows V (dat V c) (dat_A V c 0) (after_rows V c) t d
theorem before_weights (c : Dev nD) (t : Fin cfg4.N) (d) : (dat V c).before 1 t d = blockAt V c 1 t :=
  staged_weights V (dat V c) (dat_A V c 1) (after_weights V c) t d

/-! ## The body's obligation at every grid point -/

/-- What the body is entered with at point `t`, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t))

theorem body_at (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_sound c Set.univ (grid4.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W4, bigSep_W4]
  exact body_at V c t

end Cert.KernelIdeal.NodeLinear3

end
-- ==== Proof.Ideal.Combine3.lean ====
/-
  The fused combine of layer 3, as one pipelined region over 10 row blocks of 10000 nodes: at each grid point the body
  reads the block's neighbour sums and self terms [10000, 16] and the three rows bias, scale, shift [1, 16], and writes
  max((neighbour sum + self term + bias) * scale + shift, 0) entry by entry, each row laid along the block's rows.
  Nothing is carried from one point to the next.

  Stated at ANY contents `V` of the core's buffers on entry, and at any float instance.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The neighbour-sum window's staging buffer holds the point's row block whenever the body starts. -/
theorem staged_agg {c : Dev nD} (dat : Dat τ (Elt F) Unit ℕ (Pipeline.UD sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The self-term window's staging buffer holds the point's row block whenever the body starts. -/
theorem staged_self {c : Dev nD} (dat : Dat τ (Elt F) Unit ℕ (Pipeline.UD sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row is copied in at the first point and stays: its block index never moves. -/
theorem staged_bias {c : Dev nD} (dat : Dat τ (Elt F) Unit ℕ (Pipeline.UD sig nD τ) ℕ cfg5 c) (hA : dat.A 2 = V c (Pipeline.arrRef spec5 2))
    (hafter : ∀ t, dat.after 2 t = blockAt V c 2 t) (t : Fin cfg5.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The scale row is copied in at the first point and stays: its block index never moves. -/
theorem staged_scale {c : Dev nD} (dat : Dat τ (Elt F) Unit ℕ (Pipeline.UD sig nD τ) ℕ cfg5 c) (hA : dat.A 3 = V c (Pipeline.arrRef spec5 3))
    (hafter : ∀ t, dat.after 3 t = blockAt V c 3 t) (t : Fin cfg5.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The shift row is copied in at the first point and stays: its block index never moves. -/
theorem staged_shift {c : Dev nD} (dat : Dat τ (Elt F) Unit ℕ (Pipeline.UD sig nD τ) ℕ cfg5 c) (hA : dat.A 4 = V c (Pipeline.arrRef spec5 4))
    (hafter : ∀ t, dat.after 4 t = blockAt V c 4 t) (t : Fin cfg5.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_agg : Rect S10000x16 := Rect.unit (s := S10000x16) ![0, 0] S10000x16.size inb_S10000x16_S10000x16_0_0
abbrev rect_self : Rect S10000x16 := Rect.unit (s := S10000x16) ![0, 0] S10000x16.size inb_S10000x16_S10000x16_0_0
abbrev rect_bias : Rect S1x16 := Rect.unit (s := S1x16) ![0, 0] S1x16.size inb_S1x16_S1x16_0_0
abbrev rect_scale : Rect S1x16 := Rect.unit (s := S1x16) ![0, 0] S1x16.size inb_S1x16_S1x16_0_0
abbrev rect_shift : Rect S1x16 := Rect.unit (s := S1x16) ![0, 0] S1x16.size inb_S1x16_S1x16_0_0
abbrev rect_out : Rect S10000x16 := Rect.unit (s := S10000x16) ![0, 0] S10000x16.size inb_S10000x16_S10000x16_0_0

/-- The output buffer after the body: its one store, the rectified affine combination of the two row blocks with the three rows. -/
def result (a : Vec F S10000x16 .f32) (s : Vec F S10000x16 .f32) (b : Vec F S1x16 .f32) (sc : Vec F S1x16 .f32) (sh : Vec F S1x16 .f32) : Vec F S10000x16 .f32 :=
  View.canon [⟨rect_out, k5_pay1 (View.ld a rect_agg) (View.ld s rect_self) (View.ld b rect_bias) (View.ld sc rect_scale) (View.ld sh rect_shift)⟩]

/-- That one store covers the whole output buffer. -/
theorem store_covers (p : Vec F S10000x16 .f32) (y : S10000x16.Idx) :
    ∃ pc ∈ ([⟨rect_out, p⟩] : List (View.Piece (Elt F) S10000x16 .f32)), y ∈ pc.1.set :=
  View.cover_of_tiled [⟨rect_out, p⟩] S10000x16.size (by rfl) y

/-! ## The body -/

set_option maxHeartbeats 1000000 in
/-- On whole staging buffers holding the two row blocks and the three rows, and anything in the output buffer, the body terminates without fault, leaves the inputs in place and the output buffer at `result` of them. (It also reads the output buffer's old contents, and does not use them.) -/
theorem body_sound (c : Dev nD) (E : Set ℕ) (i : grid5.Coords) (arg1 : Memref sig .tc .vmem S10000x16 .f32) (harg1 : arg1.IsWhole) (arg2 : Memref sig .tc .vmem S10000x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S1x16 .f32) (harg5 : arg5.IsWhole) (arg6 : Memref sig .tc .vmem S10000x16 .f32) (harg6 : arg6.IsWhole)
    (a : Vec F S10000x16 .f32) (s : Vec F S10000x16 .f32) (b : Vec F S1x16 .f32) (sc : Vec F S1x16 .f32) (sh : Vec F S1x16 .f32) (K : PUnit → sProp 𝕄) :
    iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ (∃ d, owns (c : Thread nD τ) arg6 fullShare d)
        ∗ (iprop(owns (c : Thread nD τ) arg1 fullShare a ∗ owns (c : Thread nD τ) arg2 fullShare s ∗ owns (c : Thread nD τ) arg3 fullShare b ∗ owns (c : Thread nD τ) arg4 fullShare sc ∗ owns (c : Thread nD τ) arg5 fullShare sh ∗ owns (c : Thread nD τ) arg6 fullShare (result a s b sc sh)) -∗ K ⟨⟩))
      ⊢ wp frame (wpE (defs₀ (F := F)) Variants.none c none) E (cc5__combine_bn_relu_kernel i arg1 harg1 arg2 harg2 arg3 harg3 arg4 harg4 arg5 harg5 arg6 harg6) K := by
  simp only [cc5__combine_bn_relu_kernel_eq_skeleton]; unfold cc5__combine_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg5 c where
  A w := V c (Pipeline.arrRef spec5 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => result (blockAt V c 0 t) (blockAt V c 1 t) (blockAt V c 2 t) (blockAt V c 3 t) (blockAt V c 4 t)
  Φ _ := Pipeline.ΦA spec5 c
  q _ := fullShare
  owed _ := 0

theorem dat_A (c : Dev nD) (w : Fin cfg5.W) : (dat V c).A w = V c (Pipeline.arrRef spec5 w) := by
  dsimp only [dat]

theorem after_agg (c : Dev nD) (t : Fin cfg5.N) : (dat V c).after 0 t = blockAt V c 0 t := by dsimp only [dat]
theorem after_self (c : Dev nD) (t : Fin cfg5.N) : (dat V c).after 1 t = blockAt V c 1 t := by dsimp only [dat]
theorem after_bias (c : Dev nD) (t : Fin cfg5.N) : (dat V c).after 2 t = blockAt V c 2 t := by dsimp only [dat]
theorem after_scale (c : Dev nD) (t : Fin cfg5.N) : (dat V c).after 3 t = blockAt V c 3 t := by dsimp only [dat]
theorem after_shift (c : Dev nD) (t : Fin cfg5.N) : (dat V c).after 4 t = blockAt V c 4 t := by dsimp only [dat]
theorem after_out (c : Dev nD) (t : Fin cfg5.N) : (dat V c).after 5 t = result (blockAt V c 0 t) (blockAt V c 1 t) (blockAt V c 2 t) (blockAt V c 3 t) (blockAt V c 4 t) := by dsimp only [dat]

theorem before_agg (c : Dev nD) (t : Fin cfg5.N) (d) : (dat V c).before 0 t d = blockAt V c 0 t :=
  staged_agg V (dat V c) (dat_A V c 0) (after_agg V c) t d
theorem before_self (c : Dev nD) (t : Fin cfg5.N) (d) : (dat V c).before 1 t d = blockAt V c 1 t :=
  staged_self V (dat V c) (dat_A V c 1) (after_self V c) t d
theorem before_bias (c : Dev nD) (t : Fin cfg5.N) (d) : (dat V c).before 2 t d = blockAt V c 2 t :=
  staged_bias V (dat V c) (dat_A V c 2) (after_bias V c) t d
theorem before_scale (c : Dev nD) (t : Fin cfg5.N) (d) : (dat V c).before 3 t d = blockAt V c 3 t :=
  staged_scale V (dat V c) (dat_A V c 3) (after_scale V c) t d
theorem before_shift (c : Dev nD) (t : Fin cfg5.N) (d) : (dat V c).before 4 t d = blockAt V c 4 t :=
  staged_shift V (dat V c) (dat_A V c 4) (after_shift V c) t d

/-! ## The body's obligation at every grid point -/

/-- What the body is entered with at point `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t))

theorem body_at (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_agg, before_self, before_bias, before_scale, before_shift]
  rw [show (dat V c).Φ t.succ = (dat V c).Φ t.castSucc from rfl,
    show (dat V c).owesAt () t.succ = (dat V c).owesAt () t.castSucc from rfl,
    after_agg, after_self, after_bias, after_scale, after_shift, after_out]
  iintro ⟨HΦ, Ho, ⟨%d0, H0⟩, ⟨%d1, H1⟩, ⟨%d2, H2⟩, ⟨%d3, H3⟩, ⟨%d4, H4⟩, ⟨%d5, H5⟩⟩
  iapply (body_sound c Set.univ (grid5.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W5, bigSep_W5]
  exact body_at V c t

end Cert.KernelIdeal.Combine3

end
-- ==== Proof.Ideal.EdgeMlp.lean ====
/-
  The edge classifier, as one pipelined region over 400 blocks of 8000 edges: at each grid point the body reads the block's
  edge features [8000, 40] and the three dense layers' weights and bias rows, applies dense, rectify, dense, rectify,
  dense, then replaces an infinite entry by the largest finite value of its sign, and writes the [8000, 2] block of
  scores. Nothing is carried from one point to the next.

  Stated at ANY contents `V` of the core's buffers on entry, and at any float instance.
-/
import proofs.«114179_j13726715478162_1_alg».proof.Proof.Gen.KernelIdeal.Launch
import proofs.«114179_j13726715478162_1_alg».proof.Proof.Gen.KernelIdeal.Skeleton
import proofs.«114179_j13726715478162_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The blocks -/

/-- Window `w`'s block at grid point `t`, read off the window's array as the region finds it. -/
def blockAt (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The edge-feature window's staging buffer holds the point's block of 8000 edges whenever the body starts. -/
theorem staged_feats {c : Dev nD} (dat : Dat τ (Elt F) Unit ℕ (Pipeline.UD sig nD τ) ℕ cfg6 c) (hA : dat.A 0 = V c (Pipeline.arrRef spec6 0))
    (hafter : ∀ t, dat.after 0 t = blockAt V c 0 t) (t : Fin cfg6.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The first weight matrix is copied in at the first point and stays. -/
theorem staged_w1 {c : Dev nD} (dat : Dat τ (Elt F) Unit ℕ (Pipeline.UD sig nD τ) ℕ cfg6 c) (hA : dat.A 1 = V c (Pipeline.arrRef spec6 1))
    (hafter : ∀ t, dat.after 1 t = blockAt V c 1 t) (t : Fin cfg6.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The first bias row is copied in at the first point and stays. -/
theorem staged_b1 {c : Dev nD} (dat : Dat τ (Elt F) Unit ℕ (Pipeline.UD sig nD τ) ℕ cfg6 c) (hA : dat.A 2 = V c (Pipeline.arrRef spec6 2))
    (hafter : ∀ t, dat.after 2 t = blockAt V c 2 t) (t : Fin cfg6.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The second weight matrix is copied in at the first point and stays. -/
theorem staged_w2 {c : Dev nD} (dat : Dat τ (Elt F) Unit ℕ (Pipeline.UD sig nD τ) ℕ cfg6 c) (hA : dat.A 3 = V c (Pipeline.arrRef spec6 3))
    (hafter : ∀ t, dat.after 3 t = blockAt V c 3 t) (t : Fin cfg6.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- The second bias row is copied in at the first point and stays. -/
theorem staged_b2 {c : Dev nD} (dat : Dat τ (Elt F) Unit ℕ (Pipeline.UD sig nD τ) ℕ cfg6 c) (hA : dat.A 4 = V c (Pipeline.arrRef spec6 4))
    (hafter : ∀ t, dat.after 4 t = blockAt V c 4 t) (t : Fin cfg6.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The third weight matrix is copied in at the first point and stays. -/
theorem staged_w3 {c : Dev nD} (dat : Dat τ (Elt F) Unit ℕ (Pipeline.UD sig nD τ) ℕ cfg6 c) (hA : dat.A 5 = V c (Pipeline.arrRef spec6 5))
    (hafter : ∀ t, dat.after 5 t = blockAt V c 5 t) (t : Fin cfg6.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- The third bias row is copied in at the first point and stays. -/
theorem staged_b3 {c : Dev nD} (dat : Dat τ (Elt F) Unit ℕ (Pipeline.UD sig nD τ) ℕ cfg6 c) (hA : dat.A 6 = V c (Pipeline.arrRef spec6 6))
    (hafter : ∀ t, dat.after 6 t = blockAt V c 6 t) (t : Fin cfg6.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and writes: each buffer through one rectangle that is all of it -/

abbrev rect_feats : Rect S8000x40 := Rect.unit (s := S8000x40) ![0, 0] S8000x40.size inb_S8000x40_S8000x40_0_0
abbrev rect_w1 : Rect S40x32 := Rect.unit (s := S40x32) ![0, 0] S40x32.size inb_S40x32_S40x32_0_0
abbrev rect_b1 : Rect S1x32 := Rect.unit (s := S1x32) ![0, 0] S1x32.size inb_S1x32_S1x32_0_0
abbrev rect_w2 : Rect S32x16 := Rect.unit (s := S32x16) ![0, 0] S32x16.size inb_S32x16_S32x16_0_0
abbrev rect_b2 : Rect S1x16 := Rect.unit (s := S1x16) ![0, 0] S1x16.size inb_S1x16_S1x16_0_0
abbrev rect_w3 : Rect S16x2 := Rect.unit (s := S16x2) ![0, 0] S16x2.size inb_S16x2_S16x2_0_0
abbrev rect_b3 : Rect S1x2 := Rect.unit (s := S1x2) ![0, 0] S1x2.size inb_S1x2_S1x2_0_0
abbrev rect_out : Rect S8000x2 := Rect.unit (s := S8000x2) ![0, 0] S8000x2.size inb_S8000x2_S8000x2_0_0

/-- The output buffer after the body: its one store, the clamped scores of the block's edges. -/
def result (e : Vec F S8000x40 .f32) (w1 : Vec F S40x32 .f32) (b1 : Vec F S1x32 .f32) (w2 : Vec F S32x16 .f32) (b2 : Vec F S1x16 .f32) (w3 : Vec F S16x2 .f32) (b3 : Vec F S1x2 .f32) : Vec F S8000x2 .f32 :=
  View.canon [⟨rect_out, k6_pay1 (k6_pay2 (View.ld e rect_feats) (View.ld w1 rect_w1) (View.ld b1 rect_b1) (View.ld w2 rect_w2) (View.ld b2 rect_b2) (View.ld w3 rect_w3) (View.ld b3 rect_b3))⟩]

/-- That one store covers the whole output buffer. -/
theorem store_covers (p : Vec F S8000x2 .f32) (y : S8000x2.Idx) :
    ∃ pc ∈ ([⟨rect_out, p⟩] : List (View.Piece (Elt F) S8000x2 .f32)), y ∈ pc.1.set :=
  View.cover_of_tiled [⟨rect_out, p⟩] S8000x2.size (by rfl) y

/-! ## The body -/

set_option maxHeartbeats 2000000 in
/-- On whole staging buffers holding the block's edge features and the six parameter arrays, and anything in the output buffer, the body terminates without fault, leaves the inputs in place and the output buffer at `result` of them. (It also reads the output buffer's old contents, and does not use them.) -/
theorem body_sound (c : Dev nD) (E : Set ℕ) (i : grid6.Coords) (arg1 : Memref sig .tc .vmem S8000x40 .f32) (harg1 : arg1.IsWhole) (arg2 : Memref sig .tc .vmem S40x32 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S1x16 .f32) (harg5 : arg5.IsWhole) (arg6 : Memref sig .tc .vmem S16x2 .f32) (harg6 : arg6.IsWhole) (arg7 : Memref sig .tc .vmem S1x2 .f32) (harg7 : arg7.IsWhole) (arg8 : Memref sig .tc .vmem S8000x2 .f32) (harg8 : arg8.IsWhole)
    (e : Vec F S8000x40 .f32) (w1 : Vec F S40x32 .f32) (b1 : Vec F S1x32 .f32) (w2 : Vec F S32x16 .f32) (b2 : Vec F S1x16 .f32) (w3 : Vec F S16x2 .f32) (b3 : Vec F S1x2 .f32) (K : PUnit → sProp 𝕄) :
    iprop(owns (c : Thread nD τ) arg1 fullShare e ∗ owns (c : Thread nD τ) arg2 fullShare w1 ∗ owns (c : Thread nD τ) arg3 fullShare b1 ∗ owns (c : Thread nD τ) arg4 fullShare w2 ∗ owns (c : Thread nD τ) arg5 fullShare b2 ∗ owns (c : Thread nD τ) arg6 fullShare w3 ∗ owns (c : Thread nD τ) arg7 fullShare b3 ∗ (∃ d, owns (c : Thread nD τ) arg8 fullShare d)
        ∗ (iprop(owns (c : Thread nD τ) arg1 fullShare e ∗ owns (c : Thread nD τ) arg2 fullShare w1 ∗ owns (c : Thread nD τ) arg3 fullShare b1 ∗ owns (c : Thread nD τ) arg4 fullShare w2 ∗ owns (c : Thread nD τ) arg5 fullShare b2 ∗ owns (c : Thread nD τ) arg6 fullShare w3 ∗ owns (c : Thread nD τ) arg7 fullShare b3 ∗ owns (c : Thread nD τ) arg8 fullShare (result e w1 b1 w2 b2 w3 b3)) -∗ K ⟨⟩))
      ⊢ wp frame (wpE (defs₀ (F := F)) Variants.none c none) E (cc6__edge_mlp_kernel i arg1 harg1 arg2 harg2 arg3 harg3 arg4 harg4 arg5 harg5 arg6 harg6 arg7 harg7 arg8 harg8) K := by
  simp only [cc6__edge_mlp_kernel_eq_skeleton]; unfold cc6__edge_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (store_covers _)

/-! ## The bookkeeping of the pipeline -/

/-- On core `c`: the arrays as found on entry; after the body at point `t` every input buffer holds its block and the
    output buffer `result` of those blocks; the loop invariant is the untouched rest; nothing is owed; every share is
    whole. -/
def dat (c : Dev nD) : Dat τ (Elt F) Unit ℕ (Pipeline.UD sig nD τ) ℕ cfg6 c where
  A w := V c (Pipeline.arrRef spec6 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => result (blockAt V c 0 t) (blockAt V c 1 t) (blockAt V c 2 t) (blockAt V c 3 t) (blockAt V c 4 t) (blockAt V c 5 t) (blockAt V c 6 t)
  Φ _ := Pipeline.ΦA spec6 c
  q _ := fullShare
  owed _ := 0

theorem dat_A (c : Dev nD) (w : Fin cfg6.W) : (dat V c).A w = V c (Pipeline.arrRef spec6 w) := by
  dsimp only [dat]

theorem after_feats (c : Dev nD) (t : Fin cfg6.N) : (dat V c).after 0 t = blockAt V c 0 t := by dsimp only [dat]
theorem after_w1 (c : Dev nD) (t : Fin cfg6.N) : (dat V c).after 1 t = blockAt V c 1 t := by dsimp only [dat]
theorem after_b1 (c : Dev nD) (t : Fin cfg6.N) : (dat V c).after 2 t = blockAt V c 2 t := by dsimp only [dat]
theorem after_w2 (c : Dev nD) (t : Fin cfg6.N) : (dat V c).after 3 t = blockAt V c 3 t := by dsimp only [dat]
theorem after_b2 (c : Dev nD) (t : Fin cfg6.N) : (dat V c).after 4 t = blockAt V c 4 t := by dsimp only [dat]
theorem after_w3 (c : Dev nD) (t : Fin cfg6.N) : (dat V c).after 5 t = blockAt V c 5 t := by dsimp only [dat]
theorem after_b3 (c : Dev nD) (t : Fin cfg6.N) : (dat V c).after 6 t = blockAt V c 6 t := by dsimp only [dat]
theorem after_out (c : Dev nD) (t : Fin cfg6.N) : (dat V c).after 7 t = result (blockAt V c 0 t) (blockAt V c 1 t) (blockAt V c 2 t) (blockAt V c 3 t) (blockAt V c 4 t) (blockAt V c 5 t) (blockAt V c 6 t) := by dsimp only [dat]

theorem before_feats (c : Dev nD) (t : Fin cfg6.N) (d) : (dat V c).before 0 t d = blockAt V c 0 t :=
  staged_feats V (dat V c) (dat_A V c 0) (after_feats V c) t d
theorem before_w1 (c : Dev nD) (t : Fin cfg6.N) (d) : (dat V c).before 1 t d = blockAt V c 1 t :=
  staged_w1 V (dat V c) (dat_A V c 1) (after_w1 V c) t d
theorem before_b1 (c : Dev nD) (t : Fin cfg6.N) (d) : (dat V c).before 2 t d = blockAt V c 2 t :=
  staged_b1 V (dat V c) (dat_A V c 2) (after_b1 V c) t d
theorem before_w2 (c : Dev nD) (t : Fin cfg6.N) (d) : (dat V c).before 3 t d = blockAt V c 3 t :=
  staged_w2 V (dat V c) (dat_A V c 3) (after_w2 V c) t d
theorem before_b2 (c : Dev nD) (t : Fin cfg6.N) (d) : (dat V c).before 4 t d = blockAt V c 4 t :=
  staged_b2 V (dat V c) (dat_A V c 4) (after_b2 V c) t d
theorem before_w3 (c : Dev nD) (t : Fin cfg6.N) (d) : (dat V c).before 5 t d = blockAt V c 5 t :=
  staged_w3 V (dat V c) (dat_A V c 5) (after_w3 V c) t d
theorem before_b3 (c : Dev nD) (t : Fin cfg6.N) (d) : (dat V c).before 6 t d = blockAt V c 6 t :=
  staged_b3 V (dat V c) (dat_A V c 6) (after_b3 V c) t d

/-! ## The body's obligation at every grid point -/

/-- What the body is entered with at point `t`, -/
def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d))
    ∗ (∃ d, owns (c : Thread nD τ) (st6_4 t) fullShare ((dat V c).before 4 t d))
    ∗ (∃ d, owns (c : Thread nD τ) (st6_5 t) fullShare ((dat V c).before 5 t d))
    ∗ (∃ d, owns (c : Thread nD τ) (st6_6 t) fullShare ((dat V c).before 6 t d))
    ∗ (∃ d, owns (c : Thread nD τ) (st6_7 t) fullShare ((dat V c).before 7 t d)))

/-- and what it returns. -/
def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t)
    ∗ owns (c : Thread nD τ) (st6_4 t) fullShare ((dat V c).after 4 t)
    ∗ owns (c : Thread nD τ) (st6_5 t) fullShare ((dat V c).after 5 t)
    ∗ owns (c : Thread nD τ) (st6_6 t) fullShare ((dat V c).after 6 t)
    ∗ owns (c : Thread nD τ) (st6_7 t) fullShare ((dat V c).after 7 t))

theorem body_at (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_feats, before_w1, before_b1, before_w2, before_b2, before_w3, before_b3]
  rw [show (dat V c).Φ t.succ = (dat V c).Φ t.castSucc from rfl,
    show (dat V c).owesAt () t.succ = (dat V c).owesAt () t.castSucc from rfl,
    after_feats, after_w1, after_b1, after_w2, after_b2, after_w3, after_b3, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_sound c Set.univ (grid6.coords t) _ _ _ _ _ _ _ _ _ _ _ _ _ _ _ _ (blockAt V c 0 t) (blockAt V c 1 t) (blockAt V c 2 t) (blockAt V c 3 t) (blockAt V c 4 t) (blockAt V c 5 t) (blockAt V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W6, bigSep_W6]
  exact body_at V c t

end Cert.KernelIdeal.EdgeMlp

end
-- ==== Proof.Ideal.Run.lean ====
/-
  The whole execution of the program, from launch to return, at any float instance.

  The program is fourteen items in a row: stretches of array operations computed in place (degree and normalisation,
  gathers and segment sums, the rows of scale and shift, the edge features) and seven pipelined regions (three dense node
  layers, three fused combines, the edge classifier). What every buffer holds is followed from one item to the next:
  a stretch applies its operations to the contents before it; a region replaces the arrays of its windows by what the
  write-backs of all its grid points leave and touches nothing else. An argument array is written by no stretch and is
  at most an INPUT window of a region, so it is carried unchanged to the end; the result is the output window's array
  of the last region.
-/
import proofs.«114179_j13726715478162_1_alg».proof.Proof.Ideal.NodeLinear1
import proofs.«114179_j13726715478162_1_alg».proof.Proof.Ideal.Combine1
import proofs.«114179_j13726715478162_1_alg».proof.Proof.Ideal.NodeLinear2
import proofs.«114179_j13726715478162_1_alg».proof.Proof.Ideal.Combine2
import proofs.«114179_j13726715478162_1_alg».proof.Proof.Ideal.NodeLinear3
import proofs.«114179_j13726715478162_1_alg».proof.Proof.Ideal.Combine3
import proofs.«114179_j13726715478162_1_alg».proof.Proof.Ideal.EdgeMlp
import proofs.«114179_j13726715478162_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What every buffer holds between two items -/

/-- At launch. -/
abbrev B0 : Dev nD → Valuation τ sig (Elt F) := fun c b => m (c, b)
/-- After the host stretch `hostOps0`. -/
abbrev B1 : Dev nD → Valuation τ sig (Elt F) := fun c => StableHlo.after hostOps0 (B0 m c)

/-- After the host stretch `hostOps0_1`. -/
abbrev B2 : Dev nD → Valuation τ sig (Elt F) := fun c => StableHlo.after hostOps0_1 (B1 m c)

/-- The contents region 0 is entered from, read at the core's own references. -/
abbrev E2 : (c : Dev nD) → (b : Ref sig .tc) → Buf (Elt F) ((c : Thread nD τ).loc b) := fun c b => B2 m c b
/-- After region 0: each of its windows' arrays at what the write-backs of all grid points leave (an input's array as entered), every other buffer as entered. -/
def B3 (c : Dev nD) : Valuation τ sig (Elt F) :=
  Pipeline.withArrays spec0 c (B2 m c) fun w => (NodeLinear1.dat (E2 m) c).arrAt w cfg0.N
theorem B3_arr (c : Dev nD) (w : Fin cfg0.W) :
    B3 m c (Proc.devRef .tc (Pipeline.arrRef spec0 w)) = (NodeLinear1.dat (E2 m) c).arrAt w cfg0.N := by
  unfold B3; exact Pipeline.withArrays_arr spec0 launch0.win.arr_inj c _ _ w
theorem B3_of_ne (c : Dev nD) (b : Ref sig .tc) (hb : ∀ w, Pipeline.arrRef spec0 w ≠ b) :
    B3 m c (Proc.devRef .tc b) = B2 m c (Proc.devRef .tc b) := by
  unfold B3; exact Pipeline.withArrays_of_ne spec0 c _ _ b hb
abbrev X3 : (c : Dev nD) → (b : Ref sig .tc) → Buf (Elt F) ((c : Thread nD τ).loc b) := fun c b => B3 m c b
theorem exit_arrays0 (c : Dev nD) (w : Fin cfg0.W) : (NodeLinear1.dat (E2 m) c).arrAt w cfg0.N = X3 m c (Pipeline.arrRef spec0 w) :=
  (B3_arr m c w).symm
theorem exit_rest0 (c : Dev nD) : ∀ b, b ∉ Finset.univ.image (Pipeline.arrRef spec0) → X3 m c b = E2 m c b :=
  fun b hb => B3_of_ne m c b fun w e => hb (Finset.mem_image.mpr ⟨w, Finset.mem_univ _, e⟩)

/-- After the host stretch `hostOps1`. -/
abbrev B4 : Dev nD → Valuation τ sig (Elt F) := fun c => StableHlo.after hostOps1 (B3 m c)

/-- The contents region 1 is entered from, read at the core's own references. -/
abbrev E4 : (c : Dev nD) → (b : Ref sig .tc) → Buf (Elt F) ((c : Thread nD τ).loc b) := fun c b => B4 m c b
/-- After region 1: each of its windows' arrays at what the write-backs of all grid points leave (an input's array as entered), every other buffer as entered. -/
def B5 (c : Dev nD) : Valuation τ sig (Elt F) :=
  Pipeline.withArrays spec1 c (B4 m c) fun w => (Combine1.dat (E4 m) c).arrAt w cfg1.N
theorem B5_arr (c : Dev nD) (w : Fin cfg1.W) :
    B5 m c (Proc.devRef .tc (Pipeline.arrRef spec1 w)) = (Combine1.dat (E4 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev X5 : (c : Dev nD) → (b : Ref sig .tc) → Buf (Elt F) ((c : Thread nD τ).loc b) := fun c b => B5 m c b
theorem exit_arrays1 (c : Dev nD) (w : Fin cfg1.W) : (Combine1.dat (E4 m) c).arrAt w cfg1.N = X5 m c (Pipeline.arrRef spec1 w) :=
  (B5_arr m c w).symm
theorem exit_rest1 (c : Dev nD) : ∀ b, b ∉ Finset.univ.image (Pipeline.arrRef spec1) → X5 m c b = E4 m c b :=
  fun b hb => B5_of_ne m c b fun w e => hb (Finset.mem_image.mpr ⟨w, Finset.mem_univ _, e⟩)

/-- The contents region 2 is entered from, read at the core's own references. -/
abbrev E5 : (c : Dev nD) → (b : Ref sig .tc) → Buf (Elt F) ((c : Thread nD τ).loc b) := fun c b => B5 m c b
/-- After region 2: each of its windows' arrays at what the write-backs of all grid points leave (an input's array as entered), every other buffer as entered. -/
def B6 (c : Dev nD) : Valuation τ sig (Elt F) :=
  Pipeline.withArrays spec2 c (B5 m c) fun w => (NodeLinear2.dat (E5 m) c).arrAt w cfg2.N
theorem B6_arr (c : Dev nD) (w : Fin cfg2.W) :
    B6 m c (Proc.devRef .tc (Pipeline.arrRef spec2 w)) = (NodeLinear2.dat (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev X6 : (c : Dev nD) → (b : Ref sig .tc) → Buf (Elt F) ((c : Thread nD τ).loc b) := fun c b => B6 m c b
theorem exit_arrays2 (c : Dev nD) (w : Fin cfg2.W) : (NodeLinear2.dat (E5 m) c).arrAt w cfg2.N = X6 m c (Pipeline.arrRef spec2 w) :=
  (B6_arr m c w).symm
theorem exit_rest2 (c : Dev nD) : ∀ b, b ∉ Finset.univ.image (Pipeline.arrRef spec2) → X6 m c b = E5 m c b :=
  fun b hb => B6_of_ne m c b fun w e => hb (Finset.mem_image.mpr ⟨w, Finset.mem_univ _, e⟩)

/-- After the host stretch `hostOps3`. -/
abbrev B7 : Dev nD → Valuation τ sig (Elt F) := fun c => StableHlo.after hostOps3 (B6 m c)

/-- The contents region 3 is entered from, read at the core's own references. -/
abbrev E7 : (c : Dev nD) → (b : Ref sig .tc) → Buf (Elt F) ((c : Thread nD τ).loc b) := fun c b => B7 m c b
/-- After region 3: each of its windows' arrays at what the write-backs of all grid points leave (an input's array as entered), every other buffer as entered. -/
def B8 (c : Dev nD) : Valuation τ sig (Elt F) :=
  Pipeline.withArrays spec3 c (B7 m c) fun w => (Combine2.dat (E7 m) c).arrAt w cfg3.N
theorem B8_arr (c : Dev nD) (w : Fin cfg3.W) :
    B8 m c (Proc.devRef .tc (Pipeline.arrRef spec3 w)) = (Combine2.dat (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev X8 : (c : Dev nD) → (b : Ref sig .tc) → Buf (Elt F) ((c : Thread nD τ).loc b) := fun c b => B8 m c b
theorem exit_arrays3 (c : Dev nD) (w : Fin cfg3.W) : (Combine2.dat (E7 m) c).arrAt w cfg3.N = X8 m c (Pipeline.arrRef spec3 w) :=
  (B8_arr m c w).symm
theorem exit_rest3 (c : Dev nD) : ∀ b, b ∉ Finset.univ.image (Pipeline.arrRef spec3) → X8 m c b = E7 m c b :=
  fun b hb => B8_of_ne m c b fun w e => hb (Finset.mem_image.mpr ⟨w, Finset.mem_univ _, e⟩)

/-- The contents region 4 is entered from, read at the core's own references. -/
abbrev E8 : (c : Dev nD) → (b : Ref sig .tc) → Buf (Elt F) ((c : Thread nD τ).loc b) := fun c b => B8 m c b
/-- After region 4: each of its windows' arrays at what the write-backs of all grid points leave (an input's array as entered), every other buffer as entered. -/
def B9 (c : Dev nD) : Valuation τ sig (Elt F) :=
  Pipeline.withArrays spec4 c (B8 m c) fun w => (NodeLinear3.dat (E8 m) c).arrAt w cfg4.N
theorem B9_arr (c : Dev nD) (w : Fin cfg4.W) :
    B9 m c (Proc.devRef .tc (Pipeline.arrRef spec4 w)) = (NodeLinear3.dat (E8 m) c).arrAt w cfg4.N := by
  unfold B9; exact Pipeline.withArrays_arr spec4 launch4.win.arr_inj c _ _ w
theorem B9_of_ne (c : Dev nD) (b : Ref sig .tc) (hb : ∀ w, Pipeline.arrRef spec4 w ≠ b) :
    B9 m c (Proc.devRef .tc b) = B8 m c (Proc.devRef .tc b) := by
  unfold B9; exact Pipeline.withArrays_of_ne spec4 c _ _ b hb
abbrev X9 : (c : Dev nD) → (b : Ref sig .tc) → Buf (Elt F) ((c : Thread nD τ).loc b) := fun c b => B9 m c b
theorem exit_arrays4 (c : Dev nD) (w : Fin cfg4.W) : (NodeLinear3.dat (E8 m) c).arrAt w cfg4.N = X9 m c (Pipeline.arrRef spec4 w) :=
  (B9_arr m c w).symm
theorem exit_rest4 (c : Dev nD) : ∀ b, b ∉ Finset.univ.image (Pipeline.arrRef spec4) → X9 m c b = E8 m c b :=
  fun b hb => B9_of_ne m c b fun w e => hb (Finset.mem_image.mpr ⟨w, Finset.mem_univ _, e⟩)

/-- After the host stretch `hostOps5`. -/
abbrev B10 : Dev nD → Valuation τ sig (Elt F) := fun c => StableHlo.after hostOps5 (B9 m c)

/-- The contents region 5 is entered from, read at the core's own references. -/
abbrev E10 : (c : Dev nD) → (b : Ref sig .tc) → Buf (Elt F) ((c : Thread nD τ).loc b) := fun c b => B10 m c b
/-- After region 5: each of its windows' arrays at what the write-backs of all grid points leave (an input's array as entered), every other buffer as entered. -/
def B11 (c : Dev nD) : Valuation τ sig (Elt F) :=
  Pipeline.withArrays spec5 c (B10 m c) fun w => (Combine3.dat (E10 m) c).arrAt w cfg5.N
theorem B11_arr (c : Dev nD) (w : Fin cfg5.W) :
    B11 m c (Proc.devRef .tc (Pipeline.arrRef spec5 w)) = (Combine3.dat (E10 m) c).arrAt w cfg5.N := by
  unfold B11; exact Pipeline.withArrays_arr spec5 launch5.win.arr_inj c _ _ w
theorem B11_of_ne (c : Dev nD) (b : Ref sig .tc) (hb : ∀ w, Pipeline.arrRef spec5 w ≠ b) :
    B11 m c (Proc.devRef .tc b) = B10 m c (Proc.devRef .tc b) := by
  unfold B11; exact Pipeline.withArrays_of_ne spec5 c _ _ b hb
abbrev X11 : (c : Dev nD) → (b : Ref sig .tc) → Buf (Elt F) ((c : Thread nD τ).loc b) := fun c b => B11 m c b
theorem exit_arrays5 (c : Dev nD) (w : Fin cfg5.W) : (Combine3.dat (E10 m) c).arrAt w cfg5.N = X11 m c (Pipeline.arrRef spec5 w) :=
  (B11_arr m c w).symm
theorem exit_rest5 (c : Dev nD) : ∀ b, b ∉ Finset.univ.image (Pipeline.arrRef spec5) → X11 m c b = E10 m c b :=
  fun b hb => B11_of_ne m c b fun w e => hb (Finset.mem_image.mpr ⟨w, Finset.mem_univ _, e⟩)

/-- After the host stretch `hostOps6`. -/
abbrev B12 : Dev nD → Valuation τ sig (Elt F) := fun c => StableHlo.after hostOps6 (B11 m c)

/-- After the host stretch `hostOps6_1`. -/
abbrev B13 : Dev nD → Valuation τ sig (Elt F) := fun c => StableHlo.after hostOps6_1 (B12 m c)

/-- The contents region 6 is entered from, read at the core's own references. -/
abbrev E13 : (c : Dev nD) → (b : Ref sig .tc) → Buf (Elt F) ((c : Thread nD τ).loc b) := fun c b => B13 m c b
/-- After region 6: each of its windows' arrays at what the write-backs of all grid points leave (an input's array as entered), every other buffer as entered. -/
def B14 (c : Dev nD) : Valuation τ sig (Elt F) :=
  Pipeline.withArrays spec6 c (B13 m c) fun w => (EdgeMlp.dat (E13 m) c).arrAt w cfg6.N
theorem B14_arr (c : Dev nD) (w : Fin cfg6.W) :
    B14 m c (Proc.devRef .tc (Pipeline.arrRef spec6 w)) = (EdgeMlp.dat (E13 m) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m c (Proc.devRef .tc b) = B13 m c (Proc.devRef .tc b) := by
  unfold B14; exact Pipeline.withArrays_of_ne spec6 c _ _ b hb
abbrev X14 : (c : Dev nD) → (b : Ref sig .tc) → Buf (Elt F) ((c : Thread nD τ).loc b) := fun c b => B14 m c b
theorem exit_arrays6 (c : Dev nD) (w : Fin cfg6.W) : (EdgeMlp.dat (E13 m) c).arrAt w cfg6.N = X14 m c (Pipeline.arrRef spec6 w) :=
  (B14_arr m c w).symm
theorem exit_rest6 (c : Dev nD) : ∀ b, b ∉ Finset.univ.image (Pipeline.arrRef spec6) → X14 m c b = E13 m c b :=
  fun b hb => B14_of_ne m c b fun w e => hb (Finset.mem_image.mpr ⟨w, Finset.mem_univ _, e⟩)

/-! ## An argument array ends as launched -/

theorem B14_main_arg0 (c : Dev nD) : B14 m c (Proc.devRef .tc main_arg0) = m ((c : Thread nD τ).loc main_arg0) :=
  calc B14 m c (Proc.devRef .tc main_arg0)
    _ = B13 m c (Proc.devRef .tc main_arg0) := B14_of_ne m c main_arg0 (by decide)
    _ = B12 m c (Proc.devRef .tc main_arg0) := StableHlo.after_of_writes_sub hostOps6_1 _ hostOps6_1_writes (by decide)
    _ = B11 m c (Proc.devRef .tc main_arg0) := StableHlo.after_of_writes_sub hostOps6 _ hostOps6_writes (by decide)
    _ = B10 m c (Proc.devRef .tc main_arg0) := B11_of_ne m c main_arg0 (by decide)
    _ = B9 m c (Proc.devRef .tc main_arg0) := StableHlo.after_of_writes_sub hostOps5 _ hostOps5_writes (by decide)
    _ = B8 m c (Proc.devRef .tc main_arg0) := B9_of_ne m c main_arg0 (by decide)
    _ = B7 m c (Proc.devRef .tc main_arg0) := B8_of_ne m c main_arg0 (by decide)
    _ = B6 m c (Proc.devRef .tc main_arg0) := StableHlo.after_of_writes_sub hostOps3 _ hostOps3_writes (by decide)
    _ = B5 m c (Proc.devRef .tc main_arg0) := B6_of_ne m c main_arg0 (by decide)
    _ = B4 m c (Proc.devRef .tc main_arg0) := B5_of_ne m c main_arg0 (by decide)
    _ = B3 m c (Proc.devRef .tc main_arg0) := StableHlo.after_of_writes_sub hostOps1 _ hostOps1_writes (by decide)
    _ = B2 m c (Proc.devRef .tc main_arg0) := B3_of_ne m c main_arg0 (by decide)
    _ = B1 m c (Proc.devRef .tc main_arg0) := StableHlo.after_of_writes_sub hostOps0_1 _ hostOps0_1_writes (by decide)
    _ = B0 m c (Proc.devRef .tc main_arg0) := StableHlo.after_of_writes_sub hostOps0 _ hostOps0_writes (by decide)
    _ = m ((c : Thread nD τ).loc main_arg0) := rfl

theorem B14_main_arg1 (c : Dev nD) : B14 m c (Proc.devRef .tc main_arg1) = m ((c : Thread nD τ).loc main_arg1) :=
  calc B14 m c (Proc.devRef .tc main_arg1)
    _ = B13 m c (Proc.devRef .tc main_arg1) := B14_of_ne m c main_arg1 (by decide)
    _ = B12 m c (Proc.devRef .tc main_arg1) := StableHlo.after_of_writes_sub hostOps6_1 _ hostOps6_1_writes (by decide)
    _ = B11 m c (Proc.devRef .tc main_arg1) := StableHlo.after_of_writes_sub hostOps6 _ hostOps6_writes (by decide)
    _ = B10 m c (Proc.devRef .tc main_arg1) := B11_of_ne m c main_arg1 (by decide)
    _ = B9 m c (Proc.devRef .tc main_arg1) := StableHlo.after_of_writes_sub hostOps5 _ hostOps5_writes (by decide)
    _ = B8 m c (Proc.devRef .tc main_arg1) := B9_of_ne m c main_arg1 (by decide)
    _ = B7 m c (Proc.devRef .tc main_arg1) := B8_of_ne m c main_arg1 (by decide)
    _ = B6 m c (Proc.devRef .tc main_arg1) := StableHlo.after_of_writes_sub hostOps3 _ hostOps3_writes (by decide)
    _ = B5 m c (Proc.devRef .tc main_arg1) := B6_of_ne m c main_arg1 (by decide)
    _ = B4 m c (Proc.devRef .tc main_arg1) := B5_of_ne m c main_arg1 (by decide)
    _ = B3 m c (Proc.devRef .tc main_arg1) := StableHlo.after_of_writes_sub hostOps1 _ hostOps1_writes (by decide)
    _ = B2 m c (Proc.devRef .tc main_arg1) := B3_of_ne m c main_arg1 (by decide)
    _ = B1 m c (Proc.devRef .tc main_arg1) := StableHlo.after_of_writes_sub hostOps0_1 _ hostOps0_1_writes (by decide)
    _ = B0 m c (Proc.devRef .tc main_arg1) := StableHlo.after_of_writes_sub hostOps0 _ hostOps0_writes (by decide)
    _ = m ((c : Thread nD τ).loc main_arg1) := rfl

theorem B14_main_arg2 (c : Dev nD) : B14 m c (Proc.devRef .tc main_arg2) = m ((c : Thread nD τ).loc main_arg2) :=
  calc B14 m c (Proc.devRef .tc main_arg2)
    _ = B13 m c (Proc.devRef .tc main_arg2) := B14_of_ne m c main_arg2 (by decide)
    _ = B12 m c (Proc.devRef .tc main_arg2) := StableHlo.after_of_writes_sub hostOps6_1 _ hostOps6_1_writes (by decide)
    _ = B11 m c (Proc.devRef .tc main_arg2) := StableHlo.after_of_writes_sub hostOps6 _ hostOps6_writes (by decide)
    _ = B10 m c (Proc.devRef .tc main_arg2) := B11_of_ne m c main_arg2 (by decide)
    _ = B9 m c (Proc.devRef .tc main_arg2) := StableHlo.after_of_writes_sub hostOps5 _ hostOps5_writes (by decide)
    _ = B8 m c (Proc.devRef .tc main_arg2) := B9_of_ne m c main_arg2 (by decide)
    _ = B7 m c (Proc.devRef .tc main_arg2) := B8_of_ne m c main_arg2 (by decide)
    _ = B6 m c (Proc.devRef .tc main_arg2) := StableHlo.after_of_writes_sub hostOps3 _ hostOps3_writes (by decide)
    _ = B5 m c (Proc.devRef .tc main_arg2) := B6_of_ne m c main_arg2 (by decide)
    _ = B4 m c (Proc.devRef .tc main_arg2) := B5_of_ne m c main_arg2 (by decide)
    _ = B3 m c (Proc.devRef .tc main_arg2) := StableHlo.after_of_writes_sub hostOps1 _ hostOps1_writes (by decide)
    _ = B2 m c (Proc.devRef .tc main_arg2) := B3_of_ne m c main_arg2 (by decide)
    _ = B1 m c (Proc.devRef .tc main_arg2) := StableHlo.after_of_writes_sub hostOps0_1 _ hostOps0_1_writes (by decide)
    _ = B0 m c (Proc.devRef .tc main_arg2) := StableHlo.after_of_writes_sub hostOps0 _ hostOps0_writes (by decide)
    _ = m ((c : Thread nD τ).loc main_arg2) := rfl

theorem B14_main_arg3 (c : Dev nD) : B14 m c (Proc.devRef .tc main_arg3) = m ((c : Thread nD τ).loc main_arg3) :=
  calc B14 m c (Proc.devRef .tc main_arg3)
    _ = B13 m c (Proc.devRef .tc main_arg3) := B14_of_ne m c main_arg3 (by decide)
    _ = B12 m c (Proc.devRef .tc main_arg3) := StableHlo.after_of_writes_sub hostOps6_1 _ hostOps6_1_writes (by decide)
    _ = B11 m c (Proc.devRef .tc main_arg3) := StableHlo.after_of_writes_sub hostOps6 _ hostOps6_writes (by decide)
    _ = B10 m c (Proc.devRef .tc main_arg3) := B11_of_ne m c main_arg3 (by decide)
    _ = B9 m c (Proc.devRef .tc main_arg3) := StableHlo.after_of_writes_sub hostOps5 _ hostOps5_writes (by decide)
    _ = B8 m c (Proc.devRef .tc main_arg3) := B9_of_ne m c main_arg3 (by decide)
    _ = B7 m c (Proc.devRef .tc main_arg3) := B8_of_ne m c main_arg3 (by decide)
    _ = B6 m c (Proc.devRef .tc main_arg3) := StableHlo.after_of_writes_sub hostOps3 _ hostOps3_writes (by decide)
    _ = B5 m c (Proc.devRef .tc main_arg3) := B6_of_ne m c main_arg3 (by decide)
    _ = B4 m c (Proc.devRef .tc main_arg3) := B5_of_ne m c main_arg3 (by decide)
    _ = B3 m c (Proc.devRef .tc main_arg3) := StableHlo.after_of_writes_sub hostOps1 _ hostOps1_writes (by decide)
    _ = B2 m c (Proc.devRef .tc main_arg3) := (B3_arr m c 1).trans (((NodeLinear1.dat (E2 m) c).arrAt_in 1 rfl _).trans (NodeLinear1.dat_A (E2 m) c 1))
    _ = B1 m c (Proc.devRef .tc main_arg3) := StableHlo.after_of_writes_sub hostOps0_1 _ hostOps0_1_writes (by decide)
    _ = B0 m c (Proc.devRef .tc main_arg3) := StableHlo.after_of_writes_sub hostOps0 _ hostOps0_writes (by decide)
    _ = m ((c : Thread nD τ).loc main_arg3) := rfl

theorem B14_main_arg4 (c : Dev nD) : B14 m c (Proc.devRef .tc main_arg4) = m ((c : Thread nD τ).loc main_arg4) :=
  calc B14 m c (Proc.devRef .tc main_arg4)
    _ = B13 m c (Proc.devRef .tc main_arg4) := B14_of_ne m c main_arg4 (by decide)
    _ = B12 m c (Proc.devRef .tc main_arg4) := StableHlo.after_of_writes_sub hostOps6_1 _ hostOps6_1_writes (by decide)
    _ = B11 m c (Proc.devRef .tc main_arg4) := StableHlo.after_of_writes_sub hostOps6 _ hostOps6_writes (by decide)
    _ = B10 m c (Proc.devRef .tc main_arg4) := B11_of_ne m c main_arg4 (by decide)
    _ = B9 m c (Proc.devRef .tc main_arg4) := StableHlo.after_of_writes_sub hostOps5 _ hostOps5_writes (by decide)
    _ = B8 m c (Proc.devRef .tc main_arg4) := B9_of_ne m c main_arg4 (by decide)
    _ = B7 m c (Proc.devRef .tc main_arg4) := B8_of_ne m c main_arg4 (by decide)
    _ = B6 m c (Proc.devRef .tc main_arg4) := StableHlo.after_of_writes_sub hostOps3 _ hostOps3_writes (by decide)
    _ = B5 m c (Proc.devRef .tc main_arg4) := B6_of_ne m c main_arg4 (by decide)
    _ = B4 m c (Proc.devRef .tc main_arg4) := B5_of_ne m c main_arg4 (by decide)
    _ = B3 m c (Proc.devRef .tc main_arg4) := StableHlo.after_of_writes_sub hostOps1 _ hostOps1_writes (by decide)
    _ = B2 m c (Proc.devRef .tc main_arg4) := B3_of_ne m c main_arg4 (by decide)
    _ = B1 m c (Proc.devRef .tc main_arg4) := StableHlo.after_of_writes_sub hostOps0_1 _ hostOps0_1_writes (by decide)
    _ = B0 m c (Proc.devRef .tc main_arg4) := StableHlo.after_of_writes_sub hostOps0 _ hostOps0_writes (by decide)
    _ = m ((c : Thread nD τ).loc main_arg4) := rfl

theorem B14_main_arg5 (c : Dev nD) : B14 m c (Proc.devRef .tc main_arg5) = m ((c : Thread nD τ).loc main_arg5) :=
  calc B14 m c (Proc.devRef .tc main_arg5)
    _ = B13 m c (Proc.devRef .tc main_arg5) := B14_of_ne m c main_arg5 (by decide)
    _ = B12 m c (Proc.devRef .tc main_arg5) := StableHlo.after_of_writes_sub hostOps6_1 _ hostOps6_1_writes (by decide)
    _ = B11 m c (Proc.devRef .tc main_arg5) := StableHlo.after_of_writes_sub hostOps6 _ hostOps6_writes (by decide)
    _ = B10 m c (Proc.devRef .tc main_arg5) := B11_of_ne m c main_arg5 (by decide)
    _ = B9 m c (Proc.devRef .tc main_arg5) := StableHlo.after_of_writes_sub hostOps5 _ hostOps5_writes (by decide)
    _ = B8 m c (Proc.devRef .tc main_arg5) := B9_of_ne m c main_arg5 (by decide)
    _ = B7 m c (Proc.devRef .tc main_arg5) := B8_of_ne m c main_arg5 (by decide)
    _ = B6 m c (Proc.devRef .tc main_arg5) := StableHlo.after_of_writes_sub hostOps3 _ hostOps3_writes (by decide)
    _ = B5 m c (Proc.devRef .tc main_arg5) := (B6_arr m c 1).trans (((NodeLinear2.dat (E5 m) c).arrAt_in 1 rfl _).trans (NodeLinear2.dat_A (E5 m) c 1))
    _ = B4 m c (Proc.devRef .tc main_arg5) := B5_of_ne m c main_arg5 (by decide)
    _ = B3 m c (Proc.devRef .tc main_arg5) := StableHlo.after_of_writes_sub hostOps1 _ hostOps1_writes (by decide)
    _ = B2 m c (Proc.devRef .tc main_arg5) := B3_of_ne m c main_arg5 (by decide)
    _ = B1 m c (Proc.devRef .tc main_arg5) := StableHlo.after_of_writes_sub hostOps0_1 _ hostOps0_1_writes (by decide)
    _ = B0 m c (Proc.devRef .tc main_arg5) := StableHlo.after_of_writes_sub hostOps0 _ hostOps0_writes (by decide)
    _ = m ((c : Thread nD τ).loc main_arg5) := rfl

theorem B14_main_arg6 (c : Dev nD) : B14 m c (Proc.devRef .tc main_arg6) = m ((c : Thread nD τ).loc main_arg6) :=
  calc B14 m c (Proc.devRef .tc main_arg6)
    _ = B13 m c (Proc.devRef .tc main_arg6) := B14_of_ne m c main_arg6 (by decide)
    _ = B12 m c (Proc.devRef .tc main_arg6) := StableHlo.after_of_writes_sub hostOps6_1 _ hostOps6_1_writes (by decide)
    _ = B11 m c (Proc.devRef .tc main_arg6) := StableHlo.after_of_writes_sub hostOps6 _ hostOps6_writes (by decide)
    _ = B10 m c (Proc.devRef .tc main_arg6) := B11_of_ne m c main_arg6 (by decide)
    _ = B9 m c (Proc.devRef .tc main_arg6) := StableHlo.after_of_writes_sub hostOps5 _ hostOps5_writes (by decide)
    _ = B8 m c (Proc.devRef .tc main_arg6) := B9_of_ne m c main_arg6 (by decide)
    _ = B7 m c (Proc.devRef .tc main_arg6) := B8_of_ne m c main_arg6 (by decide)
    _ = B6 m c (Proc.devRef .tc main_arg6) := StableHlo.after_of_writes_sub hostOps3 _ hostOps3_writes (by decide)
    _ = B5 m c (Proc.devRef .tc main_arg6) := B6_of_ne m c main_arg6 (by decide)
    _ = B4 m c (Proc.devRef .tc main_arg6) := B5_of_ne m c main_arg6 (by decide)
    _ = B3 m c (Proc.devRef .tc main_arg6) := StableHlo.after_of_writes_sub hostOps1 _ hostOps1_writes (by decide)
    _ = B2 m c (Proc.devRef .tc main_arg6) := B3_of_ne m c main_arg6 (by decide)
    _ = B1 m c (Proc.devRef .tc main_arg6) := StableHlo.after_of_writes_sub hostOps0_1 _ hostOps0_1_writes (by decide)
    _ = B0 m c (Proc.devRef .tc main_arg6) := StableHlo.after_of_writes_sub hostOps0 _ hostOps0_writes (by decide)
    _ = m ((c : Thread nD τ).loc main_arg6) := rfl

theorem B14_main_arg7 (c : Dev nD) : B14 m c (Proc.devRef .tc main_arg7) = m ((c : Thread nD τ).loc main_arg7) :=
  calc B14 m c (Proc.devRef .tc main_arg7)
    _ = B13 m c (Proc.devRef .tc main_arg7) := B14_of_ne m c main_arg7 (by decide)
    _ = B12 m c (Proc.devRef .tc main_arg7) := StableHlo.after_of_writes_sub hostOps6_1 _ hostOps6_1_writes (by decide)
    _ = B11 m c (Proc.devRef .tc main_arg7) := StableHlo.after_of_writes_sub hostOps6 _ hostOps6_writes (by decide)
    _ = B10 m c (Proc.devRef .tc main_arg7) := B11_of_ne m c main_arg7 (by decide)
    _ = B9 m c (Proc.devRef .tc main_arg7) := StableHlo.after_of_writes_sub hostOps5 _ hostOps5_writes (by decide)
    _ = B8 m c (Proc.devRef .tc main_arg7) := (B9_arr m c 1).trans (((NodeLinear3.dat (E8 m) c).arrAt_in 1 rfl _).trans (NodeLinear3.dat_A (E8 m) c 1))
    _ = B7 m c (Proc.devRef .tc main_arg7) := B8_of_ne m c main_arg7 (by decide)
    _ = B6 m c (Proc.devRef .tc main_arg7) := StableHlo.after_of_writes_sub hostOps3 _ hostOps3_writes (by decide)
    _ = B5 m c (Proc.devRef .tc main_arg7) := B6_of_ne m c main_arg7 (by decide)
    _ = B4 m c (Proc.devRef .tc main_arg7) := B5_of_ne m c main_arg7 (by decide)
    _ = B3 m c (Proc.devRef .tc main_arg7) := StableHlo.after_of_writes_sub hostOps1 _ hostOps1_writes (by decide)
    _ = B2 m c (Proc.devRef .tc main_arg7) := B3_of_ne m c main_arg7 (by decide)
    _ = B1 m c (Proc.devRef .tc main_arg7) := StableHlo.after_of_writes_sub hostOps0_1 _ hostOps0_1_writes (by decide)
    _ = B0 m c (Proc.devRef .tc main_arg7) := StableHlo.after_of_writes_sub hostOps0 _ hostOps0_writes (by decide)
    _ = m ((c : Thread nD τ).loc main_arg7) := rfl

theorem B14_main_arg8 (c : Dev nD) : B14 m c (Proc.devRef .tc main_arg8) = m ((c : Thread nD τ).loc main_arg8) :=
  calc B14 m c (Proc.devRef .tc main_arg8)
    _ = B13 m c (Proc.devRef .tc main_arg8) := B14_of_ne m c main_arg8 (by decide)
    _ = B12 m c (Proc.devRef .tc main_arg8) := StableHlo.after_of_writes_sub hostOps6_1 _ hostOps6_1_writes (by decide)
    _ = B11 m c (Proc.devRef .tc main_arg8) := StableHlo.after_of_writes_sub hostOps6 _ hostOps6_writes (by decide)
    _ = B10 m c (Proc.devRef .tc main_arg8) := B11_of_ne m c main_arg8 (by decide)
    _ = B9 m c (Proc.devRef .tc main_arg8) := StableHlo.after_of_writes_sub hostOps5 _ hostOps5_writes (by decide)
    _ = B8 m c (Proc.devRef .tc main_arg8) := B9_of_ne m c main_arg8 (by decide)
    _ = B7 m c (Proc.devRef .tc main_arg8) := B8_of_ne m c main_arg8 (by decide)
    _ = B6 m c (Proc.devRef .tc main_arg8) := StableHlo.after_of_writes_sub hostOps3 _ hostOps3_writes (by decide)
    _ = B5 m c (Proc.devRef .tc main_arg8) := B6_of_ne m c main_arg8 (by decide)
    _ = B4 m c (Proc.devRef .tc main_arg8) := B5_of_ne m c main_arg8 (by decide)
    _ = B3 m c (Proc.devRef .tc main_arg8) := StableHlo.after_of_writes_sub hostOps1 _ hostOps1_writes (by decide)
    _ = B2 m c (Proc.devRef .tc main_arg8) := B3_of_ne m c main_arg8 (by decide)
    _ = B1 m c (Proc.devRef .tc main_arg8) := StableHlo.after_of_writes_sub hostOps0_1 _ hostOps0_1_writes (by decide)
    _ = B0 m c (Proc.devRef .tc main_arg8) := StableHlo.after_of_writes_sub hostOps0 _ hostOps0_writes (by decide)
    _ = m ((c : Thread nD τ).loc main_arg8) := rfl

theorem B14_main_arg9 (c : Dev nD) : B14 m c (Proc.devRef .tc main_arg9) = m ((c : Thread nD τ).loc main_arg9) :=
  calc B14 m c (Proc.devRef .tc main_arg9)
    _ = B13 m c (Proc.devRef .tc main_arg9) := B14_of_ne m c main_arg9 (by decide)
    _ = B12 m c (Proc.devRef .tc main_arg9) := StableHlo.after_of_writes_sub hostOps6_1 _ hostOps6_1_writes (by decide)
    _ = B11 m c (Proc.devRef .tc main_arg9) := StableHlo.after_of_writes_sub hostOps6 _ hostOps6_writes (by decide)
    _ = B10 m c (Proc.devRef .tc main_arg9) := B11_of_ne m c main_arg9 (by decide)
    _ = B9 m c (Proc.devRef .tc main_arg9) := StableHlo.after_of_writes_sub hostOps5 _ hostOps5_writes (by decide)
    _ = B8 m c (Proc.devRef .tc main_arg9) := B9_of_ne m c main_arg9 (by decide)
    _ = B7 m c (Proc.devRef .tc main_arg9) := B8_of_ne m c main_arg9 (by decide)
    _ = B6 m c (Proc.devRef .tc main_arg9) := StableHlo.after_of_writes_sub hostOps3 _ hostOps3_writes (by decide)
    _ = B5 m c (Proc.devRef .tc main_arg9) := B6_of_ne m c main_arg9 (by decide)
    _ = B4 m c (Proc.devRef .tc main_arg9) := B5_of_ne m c main_arg9 (by decide)
    _ = B3 m c (Proc.devRef .tc main_arg9) := StableHlo.after_of_writes_sub hostOps1 _ hostOps1_writes (by decide)
    _ = B2 m c (Proc.devRef .tc main_arg9) := B3_of_ne m c main_arg9 (by decide)
    _ = B1 m c (Proc.devRef .tc main_arg9) := StableHlo.after_of_writes_sub hostOps0_1 _ hostOps0_1_writes (by decide)
    _ = B0 m c (Proc.devRef .tc main_arg9) := StableHlo.after_of_writes_sub hostOps0 _ hostOps0_writes (by decide)
    _ = m ((c : Thread nD τ).loc main_arg9) := rfl

theorem B14_main_arg10 (c : Dev nD) : B14 m c (Proc.devRef .tc main_arg10) = m ((c : Thread nD τ).loc main_arg10) :=
  calc B14 m c (Proc.devRef .tc main_arg10)
    _ = B13 m c (Proc.devRef .tc main_arg10) := B14_of_ne m c main_arg10 (by decide)
    _ = B12 m c (Proc.devRef .tc main_arg10) := StableHlo.after_of_writes_sub hostOps6_1 _ hostOps6_1_writes (by decide)
    _ = B11 m c (Proc.devRef .tc main_arg10) := StableHlo.after_of_writes_sub hostOps6 _ hostOps6_writes (by decide)
    _ = B10 m c (Proc.devRef .tc main_arg10) := B11_of_ne m c main_arg10 (by decide)
    _ = B9 m c (Proc.devRef .tc main_arg10) := StableHlo.after_of_writes_sub hostOps5 _ hostOps5_writes (by decide)
    _ = B8 m c (Proc.devRef .tc main_arg10) := B9_of_ne m c main_arg10 (by decide)
    _ = B7 m c (Proc.devRef .tc main_arg10) := B8_of_ne m c main_arg10 (by decide)
    _ = B6 m c (Proc.devRef .tc main_arg10) := StableHlo.after_of_writes_sub hostOps3 _ hostOps3_writes (by decide)
    _ = B5 m c (Proc.devRef .tc main_arg10) := B6_of_ne m c main_arg10 (by decide)
    _ = B4 m c (Proc.devRef .tc main_arg10) := B5_of_ne m c main_arg10 (by decide)
    _ = B3 m c (Proc.devRef .tc main_arg10) := StableHlo.after_of_writes_sub hostOps1 _ hostOps1_writes (by decide)
    _ = B2 m c (Proc.devRef .tc main_arg10) := B3_of_ne m c main_arg10 (by decide)
    _ = B1 m c (Proc.devRef .tc main_arg10) := StableHlo.after_of_writes_sub hostOps0_1 _ hostOps0_1_writes (by decide)
    _ = B0 m c (Proc.devRef .tc main_arg10) := StableHlo.after_of_writes_sub hostOps0 _ hostOps0_writes (by decide)
    _ = m ((c : Thread nD τ).loc main_arg10) := rfl

theorem B14_main_arg11 (c : Dev nD) : B14 m c (Proc.devRef .tc main_arg11) = m ((c : Thread nD τ).loc main_arg11) :=
  calc B14 m c (Proc.devRef .tc main_arg11)
    _ = B13 m c (Proc.devRef .tc main_arg11) := B14_of_ne m c main_arg11 (by decide)
    _ = B12 m c (Proc.devRef .tc main_arg11) := StableHlo.after_of_writes_sub hostOps6_1 _ hostOps6_1_writes (by decide)
    _ = B11 m c (Proc.devRef .tc main_arg11) := StableHlo.after_of_writes_sub hostOps6 _ hostOps6_writes (by decide)
    _ = B10 m c (Proc.devRef .tc main_arg11) := B11_of_ne m c main_arg11 (by decide)
    _ = B9 m c (Proc.devRef .tc main_arg11) := StableHlo.after_of_writes_sub hostOps5 _ hostOps5_writes (by decide)
    _ = B8 m c (Proc.devRef .tc main_arg11) := B9_of_ne m c main_arg11 (by decide)
    _ = B7 m c (Proc.devRef .tc main_arg11) := B8_of_ne m c main_arg11 (by decide)
    _ = B6 m c (Proc.devRef .tc main_arg11) := StableHlo.after_of_writes_sub hostOps3 _ hostOps3_writes (by decide)
    _ = B5 m c (Proc.devRef .tc main_arg11) := B6_of_ne m c main_arg11 (by decide)
    _ = B4 m c (Proc.devRef .tc main_arg11) := B5_of_ne m c main_arg11 (by decide)
    _ = B3 m c (Proc.devRef .tc main_arg11) := StableHlo.after_of_writes_sub hostOps1 _ hostOps1_writes (by decide)
    _ = B2 m c (Proc.devRef .tc main_arg11) := B3_of_ne m c main_arg11 (by decide)
    _ = B1 m c (Proc.devRef .tc main_arg11) := StableHlo.after_of_writes_sub hostOps0_1 _ hostOps0_1_writes (by decide)
    _ = B0 m c (Proc.devRef .tc main_arg11) := StableHlo.after_of_writes_sub hostOps0 _ hostOps0_writes (by decide)
    _ = m ((c : Thread nD τ).loc main_arg11) := rfl

theorem B14_main_arg12 (c : Dev nD) : B14 m c (Proc.devRef .tc main_arg12) = m ((c : Thread nD τ).loc main_arg12) :=
  calc B14 m c (Proc.devRef .tc main_arg12)
    _ = B13 m c (Proc.devRef .tc main_arg12) := B14_of_ne m c main_arg12 (by decide)
    _ = B12 m c (Proc.devRef .tc main_arg12) := StableHlo.after_of_writes_sub hostOps6_1 _ hostOps6_1_writes (by decide)
    _ = B11 m c (Proc.devRef .tc main_arg12) := StableHlo.after_of_writes_sub hostOps6 _ hostOps6_writes (by decide)
    _ = B10 m c (Proc.devRef .tc main_arg12) := B11_of_ne m c main_arg12 (by decide)
    _ = B9 m c (Proc.devRef .tc main_arg12) := StableHlo.after_of_writes_sub hostOps5 _ hostOps5_writes (by decide)
    _ = B8 m c (Proc.devRef .tc main_arg12) := B9_of_ne m c main_arg12 (by decide)
    _ = B7 m c (Proc.devRef .tc main_arg12) := B8_of_ne m c main_arg12 (by decide)
    _ = B6 m c (Proc.devRef .tc main_arg12) := StableHlo.after_of_writes_sub hostOps3 _ hostOps3_writes (by decide)
    _ = B5 m c (Proc.devRef .tc main_arg12) := B6_of_ne m c main_arg12 (by decide)
    _ = B4 m c (Proc.devRef .tc main_arg12) := B5_of_ne m c main_arg12 (by decide)
    _ = B3 m c (Proc.devRef .tc main_arg12) := StableHlo.after_of_writes_sub hostOps1 _ hostOps1_writes (by decide)
    _ = B2 m c (Proc.devRef .tc main_arg12) := B3_of_ne m c main_arg12 (by decide)
    _ = B1 m c (Proc.devRef .tc main_arg12) := StableHlo.after_of_writes_sub hostOps0_1 _ hostOps0_1_writes (by decide)
    _ = B0 m c (Proc.devRef .tc main_arg12) := StableHlo.after_of_writes_sub hostOps0 _ hostOps0_writes (by decide)
    _ = m ((c : Thread nD τ).loc main_arg12) := rfl

theorem B14_main_arg13 (c : Dev nD) : B14 m c (Proc.devRef .tc main_arg13) = m ((c : Thread nD τ).loc main_arg13) :=
  calc B14 m c (Proc.devRef .tc main_arg13)
    _ = B13 m c (Proc.devRef .tc main_arg13) := B14_of_ne m c main_arg13 (by decide)
    _ = B12 m c (Proc.devRef .tc main_arg13) := StableHlo.after_of_writes_sub hostOps6_1 _ hostOps6_1_writes (by decide)
    _ = B11 m c (Proc.devRef .tc main_arg13) := StableHlo.after_of_writes_sub hostOps6 _ hostOps6_writes (by decide)
    _ = B10 m c (Proc.devRef .tc main_arg13) := B11_of_ne m c main_arg13 (by decide)
    _ = B9 m c (Proc.devRef .tc main_arg13) := StableHlo.after_of_writes_sub hostOps5 _ hostOps5_writes (by decide)
    _ = B8 m c (Proc.devRef .tc main_arg13) := B9_of_ne m c main_arg13 (by decide)
    _ = B7 m c (Proc.devRef .tc main_arg13) := B8_of_ne m c main_arg13 (by decide)
    _ = B6 m c (Proc.devRef .tc main_arg13) := StableHlo.after_of_writes_sub hostOps3 _ hostOps3_writes (by decide)
    _ = B5 m c (Proc.devRef .tc main_arg13) := B6_of_ne m c main_arg13 (by decide)
    _ = B4 m c (Proc.devRef .tc main_arg13) := B5_of_ne m c main_arg13 (by decide)
    _ = B3 m c (Proc.devRef .tc main_arg13) := StableHlo.after_of_writes_sub hostOps1 _ hostOps1_writes (by decide)
    _ = B2 m c (Proc.devRef .tc main_arg13) := B3_of_ne m c main_arg13 (by decide)
    _ = B1 m c (Proc.devRef .tc main_arg13) := StableHlo.after_of_writes_sub hostOps0_1 _ hostOps0_1_writes (by decide)
    _ = B0 m c (Proc.devRef .tc main_arg13) := StableHlo.after_of_writes_sub hostOps0 _ hostOps0_writes (by decide)
    _ = m ((c : Thread nD τ).loc main_arg13) := rfl

theorem B14_main_arg14 (c : Dev nD) : B14 m c (Proc.devRef .tc main_arg14) = m ((c : Thread nD τ).loc main_arg14) :=
  calc B14 m c (Proc.devRef .tc main_arg14)
    _ = B13 m c (Proc.devRef .tc main_arg14) := B14_of_ne m c main_arg14 (by decide)
    _ = B12 m c (Proc.devRef .tc main_arg14) := StableHlo.after_of_writes_sub hostOps6_1 _ hostOps6_1_writes (by decide)
    _ = B11 m c (Proc.devRef .tc main_arg14) := StableHlo.after_of_writes_sub hostOps6 _ hostOps6_writes (by decide)
    _ = B10 m c (Proc.devRef .tc main_arg14) := B11_of_ne m c main_arg14 (by decide)
    _ = B9 m c (Proc.devRef .tc main_arg14) := StableHlo.after_of_writes_sub hostOps5 _ hostOps5_writes (by decide)
    _ = B8 m c (Proc.devRef .tc main_arg14) := B9_of_ne m c main_arg14 (by decide)
    _ = B7 m c (Proc.devRef .tc main_arg14) := B8_of_ne m c main_arg14 (by decide)
    _ = B6 m c (Proc.devRef .tc main_arg14) := StableHlo.after_of_writes_sub hostOps3 _ hostOps3_writes (by decide)
    _ = B5 m c (Proc.devRef .tc main_arg14) := B6_of_ne m c main_arg14 (by decide)
    _ = B4 m c (Proc.devRef .tc main_arg14) := B5_of_ne m c main_arg14 (by decide)
    _ = B3 m c (Proc.devRef .tc main_arg14) := StableHlo.after_of_writes_sub hostOps1 _ hostOps1_writes (by decide)
    _ = B2 m c (Proc.devRef .tc main_arg14) := B3_of_ne m c main_arg14 (by decide)
    _ = B1 m c (Proc.devRef .tc main_arg14) := StableHlo.after_of_writes_sub hostOps0_1 _ hostOps0_1_writes (by decide)
    _ = B0 m c (Proc.devRef .tc main_arg14) := StableHlo.after_of_writes_sub hostOps0 _ hostOps0_writes (by decide)
    _ = m ((c : Thread nD τ).loc main_arg14) := rfl

theorem B14_main_arg15 (c : Dev nD) : B14 m c (Proc.devRef .tc main_arg15) = m ((c : Thread nD τ).loc main_arg15) :=
  calc B14 m c (Proc.devRef .tc main_arg15)
    _ = B13 m c (Proc.devRef .tc main_arg15) := B14_of_ne m c main_arg15 (by decide)
    _ = B12 m c (Proc.devRef .tc main_arg15) := StableHlo.after_of_writes_sub hostOps6_1 _ hostOps6_1_writes (by decide)
    _ = B11 m c (Proc.devRef .tc main_arg15) := StableHlo.after_of_writes_sub hostOps6 _ hostOps6_writes (by decide)
    _ = B10 m c (Proc.devRef .tc main_arg15) := B11_of_ne m c main_arg15 (by decide)
    _ = B9 m c (Proc.devRef .tc main_arg15) := StableHlo.after_of_writes_sub hostOps5 _ hostOps5_writes (by decide)
    _ = B8 m c (Proc.devRef .tc main_arg15) := B9_of_ne m c main_arg15 (by decide)
    _ = B7 m c (Proc.devRef .tc main_arg15) := B8_of_ne m c main_arg15 (by decide)
    _ = B6 m c (Proc.devRef .tc main_arg15) := StableHlo.after_of_writes_sub hostOps3 _ hostOps3_writes (by decide)
    _ = B5 m c (Proc.devRef .tc main_arg15) := B6_of_ne m c main_arg15 (by decide)
    _ = B4 m c (Proc.devRef .tc main_arg15) := B5_of_ne m c main_arg15 (by decide)
    _ = B3 m c (Proc.devRef .tc main_arg15) := StableHlo.after_of_writes_sub hostOps1 _ hostOps1_writes (by decide)
    _ = B2 m c (Proc.devRef .tc main_arg15) := B3_of_ne m c main_arg15 (by decide)
    _ = B1 m c (Proc.devRef .tc main_arg15) := StableHlo.after_of_writes_sub hostOps0_1 _ hostOps0_1_writes (by decide)
    _ = B0 m c (Proc.devRef .tc main_arg15) := StableHlo.after_of_writes_sub hostOps0 _ hostOps0_writes (by decide)
    _ = m ((c : Thread nD τ).loc main_arg15) := rfl

theorem B14_main_arg16 (c : Dev nD) : B14 m c (Proc.devRef .tc main_arg16) = m ((c : Thread nD τ).loc main_arg16) :=
  calc B14 m c (Proc.devRef .tc main_arg16)
    _ = B13 m c (Proc.devRef .tc main_arg16) := B14_of_ne m c main_arg16 (by decide)
    _ = B12 m c (Proc.devRef .tc main_arg16) := StableHlo.after_of_writes_sub hostOps6_1 _ hostOps6_1_writes (by decide)
    _ = B11 m c (Proc.devRef .tc main_arg16) := StableHlo.after_of_writes_sub hostOps6 _ hostOps6_writes (by decide)
    _ = B10 m c (Proc.devRef .tc main_arg16) := B11_of_ne m c main_arg16 (by decide)
    _ = B9 m c (Proc.devRef .tc main_arg16) := StableHlo.after_of_writes_sub hostOps5 _ hostOps5_writes (by decide)
    _ = B8 m c (Proc.devRef .tc main_arg16) := B9_of_ne m c main_arg16 (by decide)
    _ = B7 m c (Proc.devRef .tc main_arg16) := B8_of_ne m c main_arg16 (by decide)
    _ = B6 m c (Proc.devRef .tc main_arg16) := StableHlo.after_of_writes_sub hostOps3 _ hostOps3_writes (by decide)
    _ = B5 m c (Proc.devRef .tc main_arg16) := B6_of_ne m c main_arg16 (by decide)
    _ = B4 m c (Proc.devRef .tc main_arg16) := B5_of_ne m c main_arg16 (by decide)
    _ = B3 m c (Proc.devRef .tc main_arg16) := StableHlo.after_of_writes_sub hostOps1 _ hostOps1_writes (by decide)
    _ = B2 m c (Proc.devRef .tc main_arg16) := B3_of_ne m c main_arg16 (by decide)
    _ = B1 m c (Proc.devRef .tc main_arg16) := StableHlo.after_of_writes_sub hostOps0_1 _ hostOps0_1_writes (by decide)
    _ = B0 m c (Proc.devRef .tc main_arg16) := StableHlo.after_of_writes_sub hostOps0 _ hostOps0_writes (by decide)
    _ = m ((c : Thread nD τ).loc main_arg16) := rfl

theorem B14_main_arg17 (c : Dev nD) : B14 m c (Proc.devRef .tc main_arg17) = m ((c : Thread nD τ).loc main_arg17) :=
  calc B14 m c (Proc.devRef .tc main_arg17)
    _ = B13 m c (Proc.devRef .tc main_arg17) := B14_of_ne m c main_arg17 (by decide)
    _ = B12 m c (Proc.devRef .tc main_arg17) := StableHlo.after_of_writes_sub hostOps6_1 _ hostOps6_1_writes (by decide)
    _ = B11 m c (Proc.devRef .tc main_arg17) := StableHlo.after_of_writes_sub hostOps6 _ hostOps6_writes (by decide)
    _ = B10 m c (Proc.devRef .tc main_arg17) := B11_of_ne m c main_arg17 (by decide)
    _ = B9 m c (Proc.devRef .tc main_arg17) := StableHlo.after_of_writes_sub hostOps5 _ hostOps5_writes (by decide)
    _ = B8 m c (Proc.devRef .tc main_arg17) := B9_of_ne m c main_arg17 (by decide)
    _ = B7 m c (Proc.devRef .tc main_arg17) := B8_of_ne m c main_arg17 (by decide)
    _ = B6 m c (Proc.devRef .tc main_arg17) := StableHlo.after_of_writes_sub hostOps3 _ hostOps3_writes (by decide)
    _ = B5 m c (Proc.devRef .tc main_arg17) := B6_of_ne m c main_arg17 (by decide)
    _ = B4 m c (Proc.devRef .tc main_arg17) := B5_of_ne m c main_arg17 (by decide)
    _ = B3 m c (Proc.devRef .tc main_arg17) := StableHlo.after_of_writes_sub hostOps1 _ hostOps1_writes (by decide)
    _ = B2 m c (Proc.devRef .tc main_arg17) := B3_of_ne m c main_arg17 (by decide)
    _ = B1 m c (Proc.devRef .tc main_arg17) := StableHlo.after_of_writes_sub hostOps0_1 _ hostOps0_1_writes (by decide)
    _ = B0 m c (Proc.devRef .tc main_arg17) := StableHlo.after_of_writes_sub hostOps0 _ hostOps0_writes (by decide)
    _ = m ((c : Thread nD τ).loc main_arg17) := rfl

theorem B14_main_arg18 (c : Dev nD) : B14 m c (Proc.devRef .tc main_arg18) = m ((c : Thread nD τ).loc main_arg18) :=
  calc B14 m c (Proc.devRef .tc main_arg18)
    _ = B13 m c (Proc.devRef .tc main_arg18) := B14_of_ne m c main_arg18 (by decide)
    _ = B12 m c (Proc.devRef .tc main_arg18) := StableHlo.after_of_writes_sub hostOps6_1 _ hostOps6_1_writes (by decide)
    _ = B11 m c (Proc.devRef .tc main_arg18) := StableHlo.after_of_writes_sub hostOps6 _ hostOps6_writes (by decide)
    _ = B10 m c (Proc.devRef .tc main_arg18) := B11_of_ne m c main_arg18 (by decide)
    _ = B9 m c (Proc.devRef .tc main_arg18) := StableHlo.after_of_writes_sub hostOps5 _ hostOps5_writes (by decide)
    _ = B8 m c (Proc.devRef .tc main_arg18) := B9_of_ne m c main_arg18 (by decide)
    _ = B7 m c (Proc.devRef .tc main_arg18) := B8_of_ne m c main_arg18 (by decide)
    _ = B6 m c (Proc.devRef .tc main_arg18) := StableHlo.after_of_writes_sub hostOps3 _ hostOps3_writes (by decide)
    _ = B5 m c (Proc.devRef .tc main_arg18) := B6_of_ne m c main_arg18 (by decide)
    _ = B4 m c (Proc.devRef .tc main_arg18) := B5_of_ne m c main_arg18 (by decide)
    _ = B3 m c (Proc.devRef .tc main_arg18) := StableHlo.after_of_writes_sub hostOps1 _ hostOps1_writes (by decide)
    _ = B2 m c (Proc.devRef .tc main_arg18) := B3_of_ne m c main_arg18 (by decide)
    _ = B1 m c (Proc.devRef .tc main_arg18) := StableHlo.after_of_writes_sub hostOps0_1 _ hostOps0_1_writes (by decide)
    _ = B0 m c (Proc.devRef .tc main_arg18) := StableHlo.after_of_writes_sub hostOps0 _ hostOps0_writes (by decide)
    _ = m ((c : Thread nD τ).loc main_arg18) := rfl

theorem B14_main_arg19 (c : Dev nD) : B14 m c (Proc.devRef .tc main_arg19) = m ((c : Thread nD τ).loc main_arg19) :=
  calc B14 m c (Proc.devRef .tc main_arg19)
    _ = B13 m c (Proc.devRef .tc main_arg19) := B14_of_ne m c main_arg19 (by decide)
    _ = B12 m c (Proc.devRef .tc main_arg19) := StableHlo.after_of_writes_sub hostOps6_1 _ hostOps6_1_writes (by decide)
    _ = B11 m c (Proc.devRef .tc main_arg19) := StableHlo.after_of_writes_sub hostOps6 _ hostOps6_writes (by decide)
    _ = B10 m c (Proc.devRef .tc main_arg19) := B11_of_ne m c main_arg19 (by decide)
    _ = B9 m c (Proc.devRef .tc main_arg19) := StableHlo.after_of_writes_sub hostOps5 _ hostOps5_writes (by decide)
    _ = B8 m c (Proc.devRef .tc main_arg19) := B9_of_ne m c main_arg19 (by decide)
    _ = B7 m c (Proc.devRef .tc main_arg19) := B8_of_ne m c main_arg19 (by decide)
    _ = B6 m c (Proc.devRef .tc main_arg19) := StableHlo.after_of_writes_sub hostOps3 _ hostOps3_writes (by decide)
    _ = B5 m c (Proc.devRef .tc main_arg19) := B6_of_ne m c main_arg19 (by decide)
    _ = B4 m c (Proc.devRef .tc main_arg19) := B5_of_ne m c main_arg19 (by decide)
    _ = B3 m c (Proc.devRef .tc main_arg19) := StableHlo.after_of_writes_sub hostOps1 _ hostOps1_writes (by decide)
    _ = B2 m c (Proc.devRef .tc main_arg19) := B3_of_ne m c main_arg19 (by decide)
    _ = B1 m c (Proc.devRef .tc main_arg19) := StableHlo.after_of_writes_sub hostOps0_1 _ hostOps0_1_writes (by decide)
    _ = B0 m c (Proc.devRef .tc main_arg19) := StableHlo.after_of_writes_sub hostOps0 _ hostOps0_writes (by decide)
    _ = m ((c : Thread nD τ).loc main_arg19) := rfl

theorem B14_main_arg20 (c : Dev nD) : B14 m c (Proc.devRef .tc main_arg20) = m ((c : Thread nD τ).loc main_arg20) :=
  calc B14 m c (Proc.devRef .tc main_arg20)
    _ = B13 m c (Proc.devRef .tc main_arg20) := B14_of_ne m c main_arg20 (by decide)
    _ = B12 m c (Proc.devRef .tc main_arg20) := StableHlo.after_of_writes_sub hostOps6_1 _ hostOps6_1_writes (by decide)
    _ = B11 m c (Proc.devRef .tc main_arg20) := StableHlo.after_of_writes_sub hostOps6 _ hostOps6_writes (by decide)
    _ = B10 m c (Proc.devRef .tc main_arg20) := B11_of_ne m c main_arg20 (by decide)
    _ = B9 m c (Proc.devRef .tc main_arg20) := StableHlo.after_of_writes_sub hostOps5 _ hostOps5_writes (by decide)
    _ = B8 m c (Proc.devRef .tc main_arg20) := B9_of_ne m c main_arg20 (by decide)
    _ = B7 m c (Proc.devRef .tc main_arg20) := B8_of_ne m c main_arg20 (by decide)
    _ = B6 m c (Proc.devRef .tc main_arg20) := StableHlo.after_of_writes_sub hostOps3 _ hostOps3_writes (by decide)
    _ = B5 m c (Proc.devRef .tc main_arg20) := B6_of_ne m c main_arg20 (by decide)
    _ = B4 m c (Proc.devRef .tc main_arg20) := B5_of_ne m c main_arg20 (by decide)
    _ = B3 m c (Proc.devRef .tc main_arg20) := StableHlo.after_of_writes_sub hostOps1 _ hostOps1_writes (by decide)
    _ = B2 m c (Proc.devRef .tc main_arg20) := B3_of_ne m c main_arg20 (by decide)
    _ = B1 m c (Proc.devRef .tc main_arg20) := StableHlo.after_of_writes_sub hostOps0_1 _ hostOps0_1_writes (by decide)
    _ = B0 m c (Proc.devRef .tc main_arg20) := StableHlo.after_of_writes_sub hostOps0 _ hostOps0_writes (by decide)
    _ = m ((c : Thread nD τ).loc main_arg20) := rfl

theorem B14_main_arg21 (c : Dev nD) : B14 m c (Proc.devRef .tc main_arg21) = m ((c : Thread nD τ).loc main_arg21) :=
  calc B14 m c (Proc.devRef .tc main_arg21)
    _ = B13 m c (Proc.devRef .tc main_arg21) := (B14_arr m c 1).trans (((EdgeMlp.dat (E13 m) c).arrAt_in 1 rfl _).trans (EdgeMlp.dat_A (E13 m) c 1))
    _ = B12 m c (Proc.devRef .tc main_arg21) := StableHlo.after_of_writes_sub hostOps6_1 _ hostOps6_1_writes (by decide)
    _ = B11 m c (Proc.devRef .tc main_arg21) := StableHlo.after_of_writes_sub hostOps6 _ hostOps6_writes (by decide)
    _ = B10 m c (Proc.devRef .tc main_arg21) := B11_of_ne m c main_arg21 (by decide)
    _ = B9 m c (Proc.devRef .tc main_arg21) := StableHlo.after_of_writes_sub hostOps5 _ hostOps5_writes (by decide)
    _ = B8 m c (Proc.devRef .tc main_arg21) := B9_of_ne m c main_arg21 (by decide)
    _ = B7 m c (Proc.devRef .tc main_arg21) := B8_of_ne m c main_arg21 (by decide)
    _ = B6 m c (Proc.devRef .tc main_arg21) := StableHlo.after_of_writes_sub hostOps3 _ hostOps3_writes (by decide)
    _ = B5 m c (Proc.devRef .tc main_arg21) := B6_of_ne m c main_arg21 (by decide)
    _ = B4 m c (Proc.devRef .tc main_arg21) := B5_of_ne m c main_arg21 (by decide)
    _ = B3 m c (Proc.devRef .tc main_arg21) := StableHlo.after_of_writes_sub hostOps1 _ hostOps1_writes (by decide)
    _ = B2 m c (Proc.devRef .tc main_arg21) := B3_of_ne m c main_arg21 (by decide)
    _ = B1 m c (Proc.devRef .tc main_arg21) := StableHlo.after_of_writes_sub hostOps0_1 _ hostOps0_1_writes (by decide)
    _ = B0 m c (Proc.devRef .tc main_arg21) := StableHlo.after_of_writes_sub hostOps0 _ hostOps0_writes (by decide)
    _ = m ((c : Thread nD τ).loc main_arg21) := rfl

theorem B14_main_arg22 (c : Dev nD) : B14 m c (Proc.devRef .tc main_arg22) = m ((c : Thread nD τ).loc main_arg22) :=
  calc B14 m c (Proc.devRef .tc main_arg22)
    _ = B13 m c (Proc.devRef .tc main_arg22) := B14_of_ne m c main_arg22 (by decide)
    _ = B12 m c (Proc.devRef .tc main_arg22) := StableHlo.after_of_writes_sub hostOps6_1 _ hostOps6_1_writes (by decide)
    _ = B11 m c (Proc.devRef .tc main_arg22) := StableHlo.after_of_writes_sub hostOps6 _ hostOps6_writes (by decide)
    _ = B10 m c (Proc.devRef .tc main_arg22) := B11_of_ne m c main_arg22 (by decide)
    _ = B9 m c (Proc.devRef .tc main_arg22) := StableHlo.after_of_writes_sub hostOps5 _ hostOps5_writes (by decide)
    _ = B8 m c (Proc.devRef .tc main_arg22) := B9_of_ne m c main_arg22 (by decide)
    _ = B7 m c (Proc.devRef .tc main_arg22) := B8_of_ne m c main_arg22 (by decide)
    _ = B6 m c (Proc.devRef .tc main_arg22) := StableHlo.after_of_writes_sub hostOps3 _ hostOps3_writes (by decide)
    _ = B5 m c (Proc.devRef .tc main_arg22) := B6_of_ne m c main_arg22 (by decide)
    _ = B4 m c (Proc.devRef .tc main_arg22) := B5_of_ne m c main_arg22 (by decide)
    _ = B3 m c (Proc.devRef .tc main_arg22) := StableHlo.after_of_writes_sub hostOps1 _ hostOps1_writes (by decide)
    _ = B2 m c (Proc.devRef .tc main_arg22) := B3_of_ne m c main_arg22 (by decide)
    _ = B1 m c (Proc.devRef .tc main_arg22) := StableHlo.after_of_writes_sub hostOps0_1 _ hostOps0_1_writes (by decide)
    _ = B0 m c (Proc.devRef .tc main_arg22) := StableHlo.after_of_writes_sub hostOps0 _ hostOps0_writes (by decide)
    _ = m ((c : Thread nD τ).loc main_arg22) := rfl

theorem B14_main_arg23 (c : Dev nD) : B14 m c (Proc.devRef .tc main_arg23) = m ((c : Thread nD τ).loc main_arg23) :=
  calc B14 m c (Proc.devRef .tc main_arg23)
    _ = B13 m c (Proc.devRef .tc main_arg23) := (B14_arr m c 3).trans (((EdgeMlp.dat (E13 m) c).arrAt_in 3 rfl _).trans (EdgeMlp.dat_A (E13 m) c 3))
    _ = B12 m c (Proc.devRef .tc main_arg23) := StableHlo.after_of_writes_sub hostOps6_1 _ hostOps6_1_writes (by decide)
    _ = B11 m c (Proc.devRef .tc main_arg23) := StableHlo.after_of_writes_sub hostOps6 _ hostOps6_writes (by decide)
    _ = B10 m c (Proc.devRef .tc main_arg23) := B11_of_ne m c main_arg23 (by decide)
    _ = B9 m c (Proc.devRef .tc main_arg23) := StableHlo.after_of_writes_sub hostOps5 _ hostOps5_writes (by decide)
    _ = B8 m c (Proc.devRef .tc main_arg23) := B9_of_ne m c main_arg23 (by decide)
    _ = B7 m c (Proc.devRef .tc main_arg23) := B8_of_ne m c main_arg23 (by decide)
    _ = B6 m c (Proc.devRef .tc main_arg23) := StableHlo.after_of_writes_sub hostOps3 _ hostOps3_writes (by decide)
    _ = B5 m c (Proc.devRef .tc main_arg23) := B6_of_ne m c main_arg23 (by decide)
    _ = B4 m c (Proc.devRef .tc main_arg23) := B5_of_ne m c main_arg23 (by decide)
    _ = B3 m c (Proc.devRef .tc main_arg23) := StableHlo.after_of_writes_sub hostOps1 _ hostOps1_writes (by decide)
    _ = B2 m c (Proc.devRef .tc main_arg23) := B3_of_ne m c main_arg23 (by decide)
    _ = B1 m c (Proc.devRef .tc main_arg23) := StableHlo.after_of_writes_sub hostOps0_1 _ hostOps0_1_writes (by decide)
    _ = B0 m c (Proc.devRef .tc main_arg23) := StableHlo.after_of_writes_sub hostOps0 _ hostOps0_writes (by decide)
    _ = m ((c : Thread nD τ).loc main_arg23) := rfl

theorem B14_main_arg24 (c : Dev nD) : B14 m c (Proc.devRef .tc main_arg24) = m ((c : Thread nD τ).loc main_arg24) :=
  calc B14 m c (Proc.devRef .tc main_arg24)
    _ = B13 m c (Proc.devRef .tc main_arg24) := B14_of_ne m c main_arg24 (by decide)
    _ = B12 m c (Proc.devRef .tc main_arg24) := StableHlo.after_of_writes_sub hostOps6_1 _ hostOps6_1_writes (by decide)
    _ = B11 m c (Proc.devRef .tc main_arg24) := StableHlo.after_of_writes_sub hostOps6 _ hostOps6_writes (by decide)
    _ = B10 m c (Proc.devRef .tc main_arg24) := B11_of_ne m c main_arg24 (by decide)
    _ = B9 m c (Proc.devRef .tc main_arg24) := StableHlo.after_of_writes_sub hostOps5 _ hostOps5_writes (by decide)
    _ = B8 m c (Proc.devRef .tc main_arg24) := B9_of_ne m c main_arg24 (by decide)
    _ = B7 m c (Proc.devRef .tc main_arg24) := B8_of_ne m c main_arg24 (by decide)
    _ = B6 m c (Proc.devRef .tc main_arg24) := StableHlo.after_of_writes_sub hostOps3 _ hostOps3_writes (by decide)
    _ = B5 m c (Proc.devRef .tc main_arg24) := B6_of_ne m c main_arg24 (by decide)
    _ = B4 m c (Proc.devRef .tc main_arg24) := B5_of_ne m c main_arg24 (by decide)
    _ = B3 m c (Proc.devRef .tc main_arg24) := StableHlo.after_of_writes_sub hostOps1 _ hostOps1_writes (by decide)
    _ = B2 m c (Proc.devRef .tc main_arg24) := B3_of_ne m c main_arg24 (by decide)
    _ = B1 m c (Proc.devRef .tc main_arg24) := StableHlo.after_of_writes_sub hostOps0_1 _ hostOps0_1_writes (by decide)
    _ = B0 m c (Proc.devRef .tc main_arg24) := StableHlo.after_of_writes_sub hostOps0 _ hostOps0_writes (by decide)
    _ = m ((c : Thread nD τ).loc main_arg24) := rfl

theorem B14_main_arg25 (c : Dev nD) : B14 m c (Proc.devRef .tc main_arg25) = m ((c : Thread nD τ).loc main_arg25) :=
  calc B14 m c (Proc.devRef .tc main_arg25)
    _ = B13 m c (Proc.devRef .tc main_arg25) := (B14_arr m c 5).trans (((EdgeMlp.dat (E13 m) c).arrAt_in 5 rfl _).trans (EdgeMlp.dat_A (E13 m) c 5))
    _ = B12 m c (Proc.devRef .tc main_arg25) := StableHlo.after_of_writes_sub hostOps6_1 _ hostOps6_1_writes (by decide)
    _ = B11 m c (Proc.devRef .tc main_arg25) := StableHlo.after_of_writes_sub hostOps6 _ hostOps6_writes (by decide)
    _ = B10 m c (Proc.devRef .tc main_arg25) := B11_of_ne m c main_arg25 (by decide)
    _ = B9 m c (Proc.devRef .tc main_arg25) := StableHlo.after_of_writes_sub hostOps5 _ hostOps5_writes (by decide)
    _ = B8 m c (Proc.devRef .tc main_arg25) := B9_of_ne m c main_arg25 (by decide)
    _ = B7 m c (Proc.devRef .tc main_arg25) := B8_of_ne m c main_arg25 (by decide)
    _ = B6 m c (Proc.devRef .tc main_arg25) := StableHlo.after_of_writes_sub hostOps3 _ hostOps3_writes (by decide)
    _ = B5 m c (Proc.devRef .tc main_arg25) := B6_of_ne m c main_arg25 (by decide)
    _ = B4 m c (Proc.devRef .tc main_arg25) := B5_of_ne m c main_arg25 (by decide)
    _ = B3 m c (Proc.devRef .tc main_arg25) := StableHlo.after_of_writes_sub hostOps1 _ hostOps1_writes (by decide)
    _ = B2 m c (Proc.devRef .tc main_arg25) := B3_of_ne m c main_arg25 (by decide)
    _ = B1 m c (Proc.devRef .tc main_arg25) := StableHlo.after_of_writes_sub hostOps0_1 _ hostOps0_1_writes (by decide)
    _ = B0 m c (Proc.devRef .tc main_arg25) := StableHlo.after_of_writes_sub hostOps0 _ hostOps0_writes (by decide)
    _ = m ((c : Thread nD τ).loc main_arg25) := rfl

theorem B14_main_arg26 (c : Dev nD) : B14 m c (Proc.devRef .tc main_arg26) = m ((c : Thread nD τ).loc main_arg26) :=
  calc B14 m c (Proc.devRef .tc main_arg26)
    _ = B13 m c (Proc.devRef .tc main_arg26) := B14_of_ne m c main_arg26 (by decide)
    _ = B12 m c (Proc.devRef .tc main_arg26) := StableHlo.after_of_writes_sub hostOps6_1 _ hostOps6_1_writes (by decide)
    _ = B11 m c (Proc.devRef .tc main_arg26) := StableHlo.after_of_writes_sub hostOps6 _ hostOps6_writes (by decide)
    _ = B10 m c (Proc.devRef .tc main_arg26) := B11_of_ne m c main_arg26 (by decide)
    _ = B9 m c (Proc.devRef .tc main_arg26) := StableHlo.after_of_writes_sub hostOps5 _ hostOps5_writes (by decide)
    _ = B8 m c (Proc.devRef .tc main_arg26) := B9_of_ne m c main_arg26 (by decide)
    _ = B7 m c (Proc.devRef .tc main_arg26) := B8_of_ne m c main_arg26 (by decide)
    _ = B6 m c (Proc.devRef .tc main_arg26) := StableHlo.after_of_writes_sub hostOps3 _ hostOps3_writes (by decide)
    _ = B5 m c (Proc.devRef .tc main_arg26) := B6_of_ne m c main_arg26 (by decide)
    _ = B4 m c (Proc.devRef .tc main_arg26) := B5_of_ne m c main_arg26 (by decide)
    _ = B3 m c (Proc.devRef .tc main_arg26) := StableHlo.after_of_writes_sub hostOps1 _ hostOps1_writes (by decide)
    _ = B2 m c (Proc.devRef .tc main_arg26) := B3_of_ne m c main_arg26 (by decide)
    _ = B1 m c (Proc.devRef .tc main_arg26) := StableHlo.after_of_writes_sub hostOps0_1 _ hostOps0_1_writes (by decide)
    _ = B0 m c (Proc.devRef .tc main_arg26) := StableHlo.after_of_writes_sub hostOps0 _ hostOps0_writes (by decide)
    _ = m ((c : Thread nD τ).loc main_arg26) := rfl

theorem B2_main_arg3 (c : Dev nD) : B2 m c (Proc.devRef .tc main_arg3) = B0 m c (Proc.devRef .tc main_arg3) :=
  calc B2 m c (Proc.devRef .tc main_arg3)
    _ = B1 m c (Proc.devRef .tc main_arg3) := StableHlo.after_of_writes_sub hostOps0_1 _ hostOps0_1_writes (by decide)
    _ = B0 m c (Proc.devRef .tc main_arg3) := StableHlo.after_of_writes_sub hostOps0 _ hostOps0_writes (by decide)

theorem B3_main_arg4 (c : Dev nD) : B3 m c (Proc.devRef .tc main_arg4) = B0 m c (Proc.devRef .tc main_arg4) :=
  calc B3 m c (Proc.devRef .tc main_arg4)
    _ = B2 m c (Proc.devRef .tc main_arg4) := B3_of_ne m c main_arg4 (by decide)
    _ = B1 m c (Proc.devRef .tc main_arg4) := StableHlo.after_of_writes_sub hostOps0_1 _ hostOps0_1_writes (by decide)
    _ = B0 m c (Proc.devRef .tc main_arg4) := StableHlo.after_of_writes_sub hostOps0 _ hostOps0_writes (by decide)

theorem B3_main_arg9 (c : Dev nD) : B3 m c (Proc.devRef .tc main_arg9) = B0 m c (Proc.devRef .tc main_arg9) :=
  calc B3 m c (Proc.devRef .tc main_arg9)
    _ = B2 m c (Proc.devRef .tc main_arg9) := B3_of_ne m c main_arg9 (by decide)
    _ = B1 m c (Proc.devRef .tc main_arg9) := StableHlo.after_of_writes_sub hostOps0_1 _ hostOps0_1_writes (by decide)
    _ = B0 m c (Proc.devRef .tc main_arg9) := StableHlo.after_of_writes_sub hostOps0 _ hostOps0_writes (by decide)

theorem B3_main_arg10 (c : Dev nD) : B3 m c (Proc.devRef .tc main_arg10) = B0 m c (Proc.devRef .tc main_arg10) :=
  calc B3 m c (Proc.devRef .tc main_arg10)
    _ = B2 m c (Proc.devRef .tc main_arg10) := B3_of_ne m c main_arg10 (by decide)
    _ = B1 m c (Proc.devRef .tc main_arg10) := StableHlo.after_of_writes_sub hostOps0_1 _ hostOps0_1_writes (by decide)
    _ = B0 m c (Proc.devRef .tc main_arg10) := StableHlo.after_of_writes_sub hostOps0 _ hostOps0_writes (by decide)

theorem B3_main_arg11 (c : Dev nD) : B3 m c (Proc.devRef .tc main_arg11) = B0 m c (Proc.devRef .tc main_arg11) :=
  calc B3 m c (Proc.devRef .tc main_arg11)
    _ = B2 m c (Proc.devRef .tc main_arg11) := B3_of_ne m c main_arg11 (by decide)
    _ = B1 m c (Proc.devRef .tc main_arg11) := StableHlo.after_of_writes_sub hostOps0_1 _ hostOps0_1_writes (by decide)
    _ = B0 m c (Proc.devRef .tc main_arg11) := StableHlo.after_of_writes_sub hostOps0 _ hostOps0_writes (by decide)

theorem B3_main_arg12 (c : Dev nD) : B3 m c (Proc.devRef .tc main_arg12) = B0 m c (Proc.devRef .tc main_arg12) :=
  calc B3 m c (Proc.devRef .tc main_arg12)
    _ = B2 m c (Proc.devRef .tc main_arg12) := B3_of_ne m c main_arg12 (by decide)
    _ = B1 m c (Proc.devRef .tc main_arg12) := StableHlo.after_of_writes_sub hostOps0_1 _ hostOps0_1_writes (by decide)
    _ = B0 m c (Proc.devRef .tc main_arg12) := StableHlo.after_of_writes_sub hostOps0 _ hostOps0_writes (by decide)

theorem B5_main_arg5 (c : Dev nD) : B5 m c (Proc.devRef .tc main_arg5) = B0 m c (Proc.devRef .tc main_arg5) :=
  calc B5 m c (Proc.devRef .tc main_arg5)
    _ = B4 m c (Proc.devRef .tc main_arg5) := B5_of_ne m c main_arg5 (by decide)
    _ = B3 m c (Proc.devRef .tc main_arg5) := StableHlo.after_of_writes_sub hostOps1 _ hostOps1_writes (by decide)
    _ = B2 m c (Proc.devRef .tc main_arg5) := B3_of_ne m c main_arg5 (by decide)
    _ = B1 m c (Proc.devRef .tc main_arg5) := StableHlo.after_of_writes_sub hostOps0_1 _ hostOps0_1_writes (by decide)
    _ = B0 m c (Proc.devRef .tc main_arg5) := StableHlo.after_of_writes_sub hostOps0 _ hostOps0_writes (by decide)

theorem B6_main_arg6 (c : Dev nD) : B6 m c (Proc.devRef .tc main_arg6) = B0 m c (Proc.devRef .tc main_arg6) :=
  calc B6 m c (Proc.devRef .tc main_arg6)
    _ = B5 m c (Proc.devRef .tc main_arg6) := B6_of_ne m c main_arg6 (by decide)
    _ = B4 m c (Proc.devRef .tc main_arg6) := B5_of_ne m c main_arg6 (by decide)
    _ = B3 m c (Proc.devRef .tc main_arg6) := StableHlo.after_of_writes_sub hostOps1 _ hostOps1_writes (by decide)
    _ = B2 m c (Proc.devRef .tc main_arg6) := B3_of_ne m c main_arg6 (by decide)
    _ = B1 m c (Proc.devRef .tc main_arg6) := StableHlo.after_of_writes_sub hostOps0_1 _ hostOps0_1_writes (by decide)
    _ = B0 m c (Proc.devRef .tc main_arg6) := StableHlo.after_of_writes_sub hostOps0 _ hostOps0_writes (by decide)

theorem B6_main_arg13 (c : Dev nD) : B6 m c (Proc.devRef .tc main_arg13) = B0 m c (Proc.devRef .tc main_arg13) :=
  calc B6 m c (Proc.devRef .tc main_arg13)
    _ = B5 m c (Proc.devRef .tc main_arg13) := B6_of_ne m c main_arg13 (by decide)
    _ = B4 m c (Proc.devRef .tc main_arg13) := B5_of_ne m c main_arg13 (by decide)
    _ = B3 m c (Proc.devRef .tc main_arg13) := StableHlo.after_of_writes_sub hostOps1 _ hostOps1_writes (by decide)
    _ = B2 m c (Proc.devRef .tc main_arg13) := B3_of_ne m c main_arg13 (by decide)
    _ = B1 m c (Proc.devRef .tc main_arg13) := StableHlo.after_of_writes_sub hostOps0_1 _ hostOps0_1_writes (by decide)
    _ = B0 m c (Proc.devRef .tc main_arg13) := StableHlo.after_of_writes_sub hostOps0 _ hostOps0_writes (by decide)

theorem B6_main_arg14 (c : Dev nD) : B6 m c (Proc.devRef .tc main_arg14) = B0 m c (Proc.devRef .tc main_arg14) :=
  calc B6 m c (Proc.devRef .tc main_arg14)
    _ = B5 m c (Proc.devRef .tc main_arg14) := B6_of_ne m c main_arg14 (by decide)
    _ = B4 m c (Proc.devRef .tc main_arg14) := B5_of_ne m c main_arg14 (by decide)
    _ = B3 m c (Proc.devRef .tc main_arg14) := StableHlo.after_of_writes_sub hostOps1 _ hostOps1_writes (by decide)
    _ = B2 m c (Proc.devRef .tc main_arg14) := B3_of_ne m c main_arg14 (by decide)
    _ = B1 m c (Proc.devRef .tc main_arg14) := StableHlo.after_of_writes_sub hostOps0_1 _ hostOps0_1_writes (by decide)
    _ = B0 m c (Proc.devRef .tc main_arg14) := StableHlo.after_of_writes_sub hostOps0 _ hostOps0_writes (by decide)

theorem B6_main_arg15 (c : Dev nD) : B6 m c (Proc.devRef .tc main_arg15) = B0 m c (Proc.devRef .tc main_arg15) :=
  calc B6 m c (Proc.devRef .tc main_arg15)
    _ = B5 m c (Proc.devRef .tc main_arg15) := B6_of_ne m c main_arg15 (by decide)
    _ = B4 m c (Proc.devRef .tc main_arg15) := B5_of_ne m c main_arg15 (by decide)
    _ = B3 m c (Proc.devRef .tc main_arg15) := StableHlo.after_of_writes_sub hostOps1 _ hostOps1_writes (by decide)
    _ = B2 m c (Proc.devRef .tc main_arg15) := B3_of_ne m c main_arg15 (by decide)
    _ = B1 m c (Proc.devRef .tc main_arg15) := StableHlo.after_of_writes_sub hostOps0_1 _ hostOps0_1_writes (by decide)
    _ = B0 m c (Proc.devRef .tc main_arg15) := StableHlo.after_of_writes_sub hostOps0 _ hostOps0_writes (by decide)

theorem B6_main_arg16 (c : Dev nD) : B6 m c (Proc.devRef .tc main_arg16) = B0 m c (Proc.devRef .tc main_arg16) :=
  calc B6 m c (Proc.devRef .tc main_arg16)
    _ = B5 m c (Proc.devRef .tc main_arg16) := B6_of_ne m c main_arg16 (by decide)
    _ = B4 m c (Proc.devRef .tc main_arg16) := B5_of_ne m c main_arg16 (by decide)
    _ = B3 m c (Proc.devRef .tc main_arg16) := StableHlo.after_of_writes_sub hostOps1 _ hostOps1_writes (by decide)
    _ = B2 m c (Proc.devRef .tc main_arg16) := B3_of_ne m c main_arg16 (by decide)
    _ = B1 m c (Proc.devRef .tc main_arg16) := StableHlo.after_of_writes_sub hostOps0_1 _ hostOps0_1_writes (by decide)
    _ = B0 m c (Proc.devRef .tc main_arg16) := StableHlo.after_of_writes_sub hostOps0 _ hostOps0_writes (by decide)

theorem B8_main_arg7 (c : Dev nD) : B8 m c (Proc.devRef .tc main_arg7) = B0 m c (Proc.devRef .tc main_arg7) :=
  calc B8 m c (Proc.devRef .tc main_arg7)
    _ = B7 m c (Proc.devRef .tc main_arg7) := B8_of_ne m c main_arg7 (by decide)
    _ = B6 m c (Proc.devRef .tc main_arg7) := StableHlo.after_of_writes_sub hostOps3 _ hostOps3_writes (by decide)
    _ = B5 m c (Proc.devRef .tc main_arg7) := B6_of_ne m c main_arg7 (by decide)
    _ = B4 m c (Proc.devRef .tc main_arg7) := B5_of_ne m c main_arg7 (by decide)
    _ = B3 m c (Proc.devRef .tc main_arg7) := StableHlo.after_of_writes_sub hostOps1 _ hostOps1_writes (by decide)
    _ = B2 m c (Proc.devRef .tc main_arg7) := B3_of_ne m c main_arg7 (by decide)
    _ = B1 m c (Proc.devRef .tc main_arg7) := StableHlo.after_of_writes_sub hostOps0_1 _ hostOps0_1_writes (by decide)
    _ = B0 m c (Proc.devRef .tc main_arg7) := StableHlo.after_of_writes_sub hostOps0 _ hostOps0_writes (by decide)

theorem B9_main_arg8 (c : Dev nD) : B9 m c (Proc.devRef .tc main_arg8) = B0 m c (Proc.devRef .tc main_arg8) :=
  calc B9 m c (Proc.devRef .tc main_arg8)
    _ = B8 m c (Proc.devRef .tc main_arg8) := B9_of_ne m c main_arg8 (by decide)
    _ = B7 m c (Proc.devRef .tc main_arg8) := B8_of_ne m c main_arg8 (by decide)
    _ = B6 m c (Proc.devRef .tc main_arg8) := StableHlo.after_of_writes_sub hostOps3 _ hostOps3_writes (by decide)
    _ = B5 m c (Proc.devRef .tc main_arg8) := B6_of_ne m c main_arg8 (by decide)
    _ = B4 m c (Proc.devRef .tc main_arg8) := B5_of_ne m c main_arg8 (by decide)
    _ = B3 m c (Proc.devRef .tc main_arg8) := StableHlo.after_of_writes_sub hostOps1 _ hostOps1_writes (by decide)
    _ = B2 m c (Proc.devRef .tc main_arg8) := B3_of_ne m c main_arg8 (by decide)
    _ = B1 m c (Proc.devRef .tc main_arg8) := StableHlo.after_of_writes_sub hostOps0_1 _ hostOps0_1_writes (by decide)
    _ = B0 m c (Proc.devRef .tc main_arg8) := StableHlo.after_of_writes_sub hostOps0 _ hostOps0_writes (by decide)

theorem B9_main_arg17 (c : Dev nD) : B9 m c (Proc.devRef .tc main_arg17) = B0 m c (Proc.devRef .tc main_arg17) :=
  calc B9 m c (Proc.devRef .tc main_arg17)
    _ = B8 m c (Proc.devRef .tc main_arg17) := B9_of_ne m c main_arg17 (by decide)
    _ = B7 m c (Proc.devRef .tc main_arg17) := B8_of_ne m c main_arg17 (by decide)
    _ = B6 m c (Proc.devRef .tc main_arg17) := StableHlo.after_of_writes_sub hostOps3 _ hostOps3_writes (by decide)
    _ = B5 m c (Proc.devRef .tc main_arg17) := B6_of_ne m c main_arg17 (by decide)
    _ = B4 m c (Proc.devRef .tc main_arg17) := B5_of_ne m c main_arg17 (by decide)
    _ = B3 m c (Proc.devRef .tc main_arg17) := StableHlo.after_of_writes_sub hostOps1 _ hostOps1_writes (by decide)
    _ = B2 m c (Proc.devRef .tc main_arg17) := B3_of_ne m c main_arg17 (by decide)
    _ = B1 m c (Proc.devRef .tc main_arg17) := StableHlo.after_of_writes_sub hostOps0_1 _ hostOps0_1_writes (by decide)
    _ = B0 m c (Proc.devRef .tc main_arg17) := StableHlo.after_of_writes_sub hostOps0 _ hostOps0_writes (by decide)

theorem B9_main_arg18 (c : Dev nD) : B9 m c (Proc.devRef .tc main_arg18) = B0 m c (Proc.devRef .tc main_arg18) :=
  calc B9 m c (Proc.devRef .tc main_arg18)
    _ = B8 m c (Proc.devRef .tc main_arg18) := B9_of_ne m c main_arg18 (by decide)
    _ = B7 m c (Proc.devRef .tc main_arg18) := B8_of_ne m c main_arg18 (by decide)
    _ = B6 m c (Proc.devRef .tc main_arg18) := StableHlo.after_of_writes_sub hostOps3 _ hostOps3_writes (by decide)
    _ = B5 m c (Proc.devRef .tc main_arg18) := B6_of_ne m c main_arg18 (by decide)
    _ = B4 m c (Proc.devRef .tc main_arg18) := B5_of_ne m c main_arg18 (by decide)
    _ = B3 m c (Proc.devRef .tc main_arg18) := StableHlo.after_of_writes_sub hostOps1 _ hostOps1_writes (by decide)
    _ = B2 m c (Proc.devRef .tc main_arg18) := B3_of_ne m c main_arg18 (by decide)
    _ = B1 m c (Proc.devRef .tc main_arg18) := StableHlo.after_of_writes_sub hostOps0_1 _ hostOps0_1_writes (by decide)
    _ = B0 m c (Proc.devRef .tc main_arg18) := StableHlo.after_of_writes_sub hostOps0 _ hostOps0_writes (by decide)

theorem B9_main_arg19 (c : Dev nD) : B9 m c (Proc.devRef .tc main_arg19) = B0 m c (Proc.devRef .tc main_arg19) :=
  calc B9 m c (Proc.devRef .tc main_arg19)
    _ = B8 m c (Proc.devRef .tc main_arg19) := B9_of_ne m c main_arg19 (by decide)
    _ = B7 m c (Proc.devRef .tc main_arg19) := B8_of_ne m c main_arg19 (by decide)
    _ = B6 m c (Proc.devRef .tc main_arg19) := StableHlo.after_of_writes_sub hostOps3 _ hostOps3_writes (by decide)
    _ = B5 m c (Proc.devRef .tc main_arg19) := B6_of_ne m c main_arg19 (by decide)
    _ = B4 m c (Proc.devRef .tc main_arg19) := B5_of_ne m c main_arg19 (by decide)
    _ = B3 m c (Proc.devRef .tc main_arg19) := StableHlo.after_of_writes_sub hostOps1 _ hostOps1_writes (by decide)
    _ = B2 m c (Proc.devRef .tc main_arg19) := B3_of_ne m c main_arg19 (by decide)
    _ = B1 m c (Proc.devRef .tc main_arg19) := StableHlo.after_of_writes_sub hostOps0_1 _ hostOps0_1_writes (by decide)
    _ = B0 m c (Proc.devRef .tc main_arg19) := StableHlo.after_of_writes_sub hostOps0 _ hostOps0_writes (by decide)

theorem B9_main_arg20 (c : Dev nD) : B9 m c (Proc.devRef .tc main_arg20) = B0 m c (Proc.devRef .tc main_arg20) :=
  calc B9 m c (Proc.devRef .tc main_arg20)
    _ = B8 m c (Proc.devRef .tc main_arg20) := B9_of_ne m c main_arg20 (by decide)
    _ = B7 m c (Proc.devRef .tc main_arg20) := B8_of_ne m c main_arg20 (by decide)
    _ = B6 m c (Proc.devRef .tc main_arg20) := StableHlo.after_of_writes_sub hostOps3 _ hostOps3_writes (by decide)
    _ = B5 m c (Proc.devRef .tc main_arg20) := B6_of_ne m c main_arg20 (by decide)
    _ = B4 m c (Proc.devRef .tc main_arg20) := B5_of_ne m c main_arg20 (by decide)
    _ = B3 m c (Proc.devRef .tc main_arg20) := StableHlo.after_of_writes_sub hostOps1 _ hostOps1_writes (by decide)
    _ = B2 m c (Proc.devRef .tc main_arg20) := B3_of_ne m c main_arg20 (by decide)
    _ = B1 m c (Proc.devRef .tc main_arg20) := StableHlo.after_of_writes_sub hostOps0_1 _ hostOps0_1_writes (by decide)
    _ = B0 m c (Proc.devRef .tc main_arg20) := StableHlo.after_of_writes_sub hostOps0 _ hostOps0_writes (by decide)

theorem B12_main_arg22 (c : Dev nD) : B12 m c (Proc.devRef .tc main_arg22) = B0 m c (Proc.devRef .tc main_arg22) :=
  calc B12 m c (Proc.devRef .tc main_arg22)
    _ = B11 m c (Proc.devRef .tc main_arg22) := StableHlo.after_of_writes_sub hostOps6 _ hostOps6_writes (by decide)
    _ = B10 m c (Proc.devRef .tc main_arg22) := B11_of_ne m c main_arg22 (by decide)
    _ = B9 m c (Proc.devRef .tc main_arg22) := StableHlo.after_of_writes_sub hostOps5 _ hostOps5_writes (by decide)
    _ = B8 m c (Proc.devRef .tc main_arg22) := B9_of_ne m c main_arg22 (by decide)
    _ = B7 m c (Proc.devRef .tc main_arg22) := B8_of_ne m c main_arg22 (by decide)
    _ = B6 m c (Proc.devRef .tc main_arg22) := StableHlo.after_of_writes_sub hostOps3 _ hostOps3_writes (by decide)
    _ = B5 m c (Proc.devRef .tc main_arg22) := B6_of_ne m c main_arg22 (by decide)
    _ = B4 m c (Proc.devRef .tc main_arg22) := B5_of_ne m c main_arg22 (by decide)
    _ = B3 m c (Proc.devRef .tc main_arg22) := StableHlo.after_of_writes_sub hostOps1 _ hostOps1_writes (by decide)
    _ = B2 m c (Proc.devRef .tc main_arg22) := B3_of_ne m c main_arg22 (by decide)
    _ = B1 m c (Proc.devRef .tc main_arg22) := StableHlo.after_of_writes_sub hostOps0_1 _ hostOps0_1_writes (by decide)
    _ = B0 m c (Proc.devRef .tc main_arg22) := StableHlo.after_of_writes_sub hostOps0 _ hostOps0_writes (by decide)

theorem B12_main_arg24 (c : Dev nD) : B12 m c (Proc.devRef .tc main_arg24) = B0 m c (Proc.devRef .tc main_arg24) :=
  calc B12 m c (Proc.devRef .tc main_arg24)
    _ = B11 m c (Proc.devRef .tc main_arg24) := StableHlo.after_of_writes_sub hostOps6 _ hostOps6_writes (by decide)
    _ = B10 m c (Proc.devRef .tc main_arg24) := B11_of_ne m c main_arg24 (by decide)
    _ = B9 m c (Proc.devRef .tc main_arg24) := StableHlo.after_of_writes_sub hostOps5 _ hostOps5_writes (by decide)
    _ = B8 m c (Proc.devRef .tc main_arg24) := B9_of_ne m c main_arg24 (by decide)
    _ = B7 m c (Proc.devRef .tc main_arg24) := B8_of_ne m c main_arg24 (by decide)
    _ = B6 m c (Proc.devRef .tc main_arg24) := StableHlo.after_of_writes_sub hostOps3 _ hostOps3_writes (by decide)
    _ = B5 m c (Proc.devRef .tc main_arg24) := B6_of_ne m c main_arg24 (by decide)
    _ = B4 m c (Proc.devRef .tc main_arg24) := B5_of_ne m c main_arg24 (by decide)
    _ = B3 m c (Proc.devRef .tc main_arg24) := StableHlo.after_of_writes_sub hostOps1 _ hostOps1_writes (by decide)
    _ = B2 m c (Proc.devRef .tc main_arg24) := B3_of_ne m c main_arg24 (by decide)
    _ = B1 m c (Proc.devRef .tc main_arg24) := StableHlo.after_of_writes_sub hostOps0_1 _ hostOps0_1_writes (by decide)
    _ = B0 m c (Proc.devRef .tc main_arg24) := StableHlo.after_of_writes_sub hostOps0 _ hostOps0_writes (by decide)

theorem B12_main_arg26 (c : Dev nD) : B12 m c (Proc.devRef .tc main_arg26) = B0 m c (Proc.devRef .tc main_arg26) :=
  calc B12 m c (Proc.devRef .tc main_arg26)
    _ = B11 m c (Proc.devRef .tc main_arg26) := StableHlo.after_of_writes_sub hostOps6 _ hostOps6_writes (by decide)
    _ = B10 m c (Proc.devRef .tc main_arg26) := B11_of_ne m c main_arg26 (by decide)
    _ = B9 m c (Proc.devRef .tc main_arg26) := StableHlo.after_of_writes_sub hostOps5 _ hostOps5_writes (by decide)
    _ = B8 m c (Proc.devRef .tc main_arg26) := B9_of_ne m c main_arg26 (by decide)
    _ = B7 m c (Proc.devRef .tc main_arg26) := B8_of_ne m c main_arg26 (by decide)
    _ = B6 m c (Proc.devRef .tc main_arg26) := StableHlo.after_of_writes_sub hostOps3 _ hostOps3_writes (by decide)
    _ = B5 m c (Proc.devRef .tc main_arg26) := B6_of_ne m c main_arg26 (by decide)
    _ = B4 m c (Proc.devRef .tc main_arg26) := B5_of_ne m c main_arg26 (by decide)
    _ = B3 m c (Proc.devRef .tc main_arg26) := StableHlo.after_of_writes_sub hostOps1 _ hostOps1_writes (by decide)
    _ = B2 m c (Proc.devRef .tc main_arg26) := B3_of_ne m c main_arg26 (by decide)
    _ = B1 m c (Proc.devRef .tc main_arg26) := StableHlo.after_of_writes_sub hostOps0_1 _ hostOps0_1_writes (by decide)
    _ = B0 m c (Proc.devRef .tc main_arg26) := StableHlo.after_of_writes_sub hostOps0 _ hostOps0_writes (by decide)

theorem B13_main_arg21 (c : Dev nD) : B13 m c (Proc.devRef .tc main_arg21) = B0 m c (Proc.devRef .tc main_arg21) :=
  calc B13 m c (Proc.devRef .tc main_arg21)
    _ = B12 m c (Proc.devRef .tc main_arg21) := StableHlo.after_of_writes_sub hostOps6_1 _ hostOps6_1_writes (by decide)
    _ = B11 m c (Proc.devRef .tc main_arg21) := StableHlo.after_of_writes_sub hostOps6 _ hostOps6_writes (by decide)
    _ = B10 m c (Proc.devRef .tc main_arg21) := B11_of_ne m c main_arg21 (by decide)
    _ = B9 m c (Proc.devRef .tc main_arg21) := StableHlo.after_of_writes_sub hostOps5 _ hostOps5_writes (by decide)
    _ = B8 m c (Proc.devRef .tc main_arg21) := B9_of_ne m c main_arg21 (by decide)
    _ = B7 m c (Proc.devRef .tc main_arg21) := B8_of_ne m c main_arg21 (by decide)
    _ = B6 m c (Proc.devRef .tc main_arg21) := StableHlo.after_of_writes_sub hostOps3 _ hostOps3_writes (by decide)
    _ = B5 m c (Proc.devRef .tc main_arg21) := B6_of_ne m c main_arg21 (by decide)
    _ = B4 m c (Proc.devRef .tc main_arg21) := B5_of_ne m c main_arg21 (by decide)
    _ = B3 m c (Proc.devRef .tc main_arg21) := StableHlo.after_of_writes_sub hostOps1 _ hostOps1_writes (by decide)
    _ = B2 m c (Proc.devRef .tc main_arg21) := B3_of_ne m c main_arg21 (by decide)
    _ = B1 m c (Proc.devRef .tc main_arg21) := StableHlo.after_of_writes_sub hostOps0_1 _ hostOps0_1_writes (by decide)
    _ = B0 m c (Proc.devRef .tc main_arg21) := StableHlo.after_of_writes_sub hostOps0 _ hostOps0_writes (by decide)

theorem B13_main_arg23 (c : Dev nD) : B13 m c (Proc.devRef .tc main_arg23) = B0 m c (Proc.devRef .tc main_arg23) :=
  calc B13 m c (Proc.devRef .tc main_arg23)
    _ = B12 m c (Proc.devRef .tc main_arg23) := StableHlo.after_of_writes_sub hostOps6_1 _ hostOps6_1_writes (by decide)
    _ = B11 m c (Proc.devRef .tc main_arg23) := StableHlo.after_of_writes_sub hostOps6 _ hostOps6_writes (by decide)
    _ = B10 m c (Proc.devRef .tc main_arg23) := B11_of_ne m c main_arg23 (by decide)
    _ = B9 m c (Proc.devRef .tc main_arg23) := StableHlo.after_of_writes_sub hostOps5 _ hostOps5_writes (by decide)
    _ = B8 m c (Proc.devRef .tc main_arg23) := B9_of_ne m c main_arg23 (by decide)
    _ = B7 m c (Proc.devRef .tc main_arg23) := B8_of_ne m c main_arg23 (by decide)
    _ = B6 m c (Proc.devRef .tc main_arg23) := StableHlo.after_of_writes_sub hostOps3 _ hostOps3_writes (by decide)
    _ = B5 m c (Proc.devRef .tc main_arg23) := B6_of_ne m c main_arg23 (by decide)
    _ = B4 m c (Proc.devRef .tc main_arg23) := B5_of_ne m c main_arg23 (by decide)
    _ = B3 m c (Proc.devRef .tc main_arg23) := StableHlo.after_of_writes_sub hostOps1 _ hostOps1_writes (by decide)
    _ = B2 m c (Proc.devRef .tc main_arg23) := B3_of_ne m c main_arg23 (by decide)
    _ = B1 m c (Proc.devRef .tc main_arg23) := StableHlo.after_of_writes_sub hostOps0_1 _ hostOps0_1_writes (by decide)
    _ = B0 m c (Proc.devRef .tc main_arg23) := StableHlo.after_of_writes_sub hostOps0 _ hostOps0_writes (by decide)

theorem B13_main_arg25 (c : Dev nD) : B13 m c (Proc.devRef .tc main_arg25) = B0 m c (Proc.devRef .tc main_arg25) :=
  calc B13 m c (Proc.devRef .tc main_arg25)
    _ = B12 m c (Proc.devRef .tc main_arg25) := StableHlo.after_of_writes_sub hostOps6_1 _ hostOps6_1_writes (by decide)
    _ = B11 m c (Proc.devRef .tc main_arg25) := StableHlo.after_of_writes_sub hostOps6 _ hostOps6_writes (by decide)
    _ = B10 m c (Proc.devRef .tc main_arg25) := B11_of_ne m c main_arg25 (by decide)
    _ = B9 m c (Proc.devRef .tc main_arg25) := StableHlo.after_of_writes_sub hostOps5 _ hostOps5_writes (by decide)
    _ = B8 m c (Proc.devRef .tc main_arg25) := B9_of_ne m c main_arg25 (by decide)
    _ = B7 m c (Proc.devRef .tc main_arg25) := B8_of_ne m c main_arg25 (by decide)
    _ = B6 m c (Proc.devRef .tc main_arg25) := StableHlo.after_of_writes_sub hostOps3 _ hostOps3_writes (by decide)
    _ = B5 m c (Proc.devRef .tc main_arg25) := B6_of_ne m c main_arg25 (by decide)
    _ = B4 m c (Proc.devRef .tc main_arg25) := B5_of_ne m c main_arg25 (by decide)
    _ = B3 m c (Proc.devRef .tc main_arg25) := StableHlo.after_of_writes_sub hostOps1 _ hostOps1_writes (by decide)
    _ = B2 m c (Proc.devRef .tc main_arg25) := B3_of_ne m c main_arg25 (by decide)
    _ = B1 m c (Proc.devRef .tc main_arg25) := StableHlo.after_of_writes_sub hostOps0_1 _ hostOps0_1_writes (by decide)
    _ = B0 m c (Proc.devRef .tc main_arg25) := StableHlo.after_of_writes_sub hostOps0 _ hostOps0_writes (by decide)

/-! ## The regions as segments of the execution -/

/-- No region reads a prefetched table. -/
abbrev noTables : (p : Fin 7) → (pcfgs (F := F) p).Adm := fun p => (cfgs p).toPCfg_adm
/-- Every region's bookkeeping, each at the contents its region is entered from. -/
def family : (p : Fin 7) → (c : Dev nD) → Dat τ (Elt F) Unit ℕ (Pipeline.UD sig nD τ) ℕ (Pipeline.pin (pcfgs (F := F)) noTables p) c
  | ⟨0, _⟩ => fun c => NodeLinear1.dat (E2 m) c
  | ⟨1, _⟩ => fun c => Combine1.dat (E4 m) c
  | ⟨2, _⟩ => fun c => NodeLinear2.dat (E5 m) c
  | ⟨3, _⟩ => fun c => Combine2.dat (E7 m) c
  | ⟨4, _⟩ => fun c => NodeLinear3.dat (E8 m) c
  | ⟨5, _⟩ => fun c => Combine3.dat (E10 m) c
  | ⟨6, _⟩ => fun c => EdgeMlp.dat (E13 m) c
abbrev 𝒱₀ : Variants := Variants.none
abbrev L : GSem nD τ sig → Finset Unit := fun _ => ∅
abbrev lv : GSem nD τ sig → Unit → ℕ := fun _ _ => 0
/-- What rides beside the buffers through every item: the core's generator register at some state, and the core owing nothing. -/
abbrev ride (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev lastState (c : Dev nD) : sProp 𝕄 := iprop(StableHlo.held (c : Thread nD τ) (Pipeline.ucRefs τ sig) (B14 m c) ∗ ∃ r, prngReg c r)

set_option backward.isDefEq.respectTransparency.types false in
/-- Region 0 as a segment: entered with every unscoped buffer at `B2`, left with them at `B3`. Its windows' arrays are split out of the unscoped buffers on entry and put back, at their final contents, on exit; the generator register passes through the loop invariant; nothing is owed; the body has no semaphore of its own. -/
def region0 : Pipeline.RegionSeg (pcfgs (F := F)) noTables (family m) () defs₀ 𝒱₀ L lv 0 where
  win := launch0.win.to₀
  block_pos := launch0.block_pos
  stage_whole := launch0.stage_whole
  K := PEmpty
  osem k := k.elim
  ho := Pipeline.OwnSemFacts.none _
  hbody c := (NodeLinear1.body_obligation (E2 m) c).loose
  hwaits := Pipeline.hwaits_of_owed_zero _ _ _ _ L lv 0 fun _ _ => rfl
  pre c := iprop(StableHlo.held (c : Thread nD τ) (Pipeline.ucRefs τ sig) (B2 m c) ∗ ride c)
  post c := iprop(StableHlo.held (c : Thread nD τ) (Pipeline.ucRefs τ sig) (B3 m c) ∗ ride c)
  X c := iprop(∃ r, prngReg c r)
  Y c := iprop(∃ r, prngReg c r)
  Z c := Pipeline.unscopedRest (Ix := Unit) (Name := ℕ) (U := Pipeline.UD sig nD τ) (Lvl := ℕ) spec0 c (E2 m c)
  hentry c := by
    rw [Pipeline.ownSems0_none]
    have hsplit := Pipeline.arrays_of_unscopedBufs (p := 0) (pcfgs (F := F)) noTables (family m) launch0.win launch0.arr_whole c
      ((family m 0 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 0 c).Φ 0 = Pipeline.ΦA spec0 c from rfl]; unfold Pipeline.ΦA
    iintro ⟨Hp, -, Hr⟩
    isplitl [Hr]; · iexact Hr
    iexact Hp
  hout c := by
    rw [Pipeline.ownSems0_none, show (family m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := Pipeline.UD sig nD τ) (Lvl := ℕ)
      launch0.win launch0.arr_whole c (family m) ((family m 0 c).share_full fun _ => rfl)
      (E2 m c) (X3 m c) ((family m 0 c).arrAt · cfg0.N) (exit_arrays0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B4`, left with them at `B5`. Its windows' arrays are split out of the unscoped buffers on entry and put back, at their final contents, on exit; the generator register passes through the loop invariant; nothing is owed; the body has no semaphore of its own. -/
def region1 : Pipeline.RegionSeg (pcfgs (F := F)) noTables (family m) () defs₀ 𝒱₀ L lv 1 where
  win := launch1.win.to₀
  block_pos := launch1.block_pos
  stage_whole := launch1.stage_whole
  K := PEmpty
  osem k := k.elim
  ho := Pipeline.OwnSemFacts.none _
  hbody c := (Combine1.body_obligation (E4 m) c).loose
  hwaits := Pipeline.hwaits_of_owed_zero _ _ _ _ L lv 1 fun _ _ => rfl
  pre c := iprop(StableHlo.held (c : Thread nD τ) (Pipeline.ucRefs τ sig) (B4 m c) ∗ ride c)
  post c := iprop(StableHlo.held (c : Thread nD τ) (Pipeline.ucRefs τ sig) (B5 m c) ∗ ride c)
  X c := iprop(∃ r, prngReg c r)
  Y c := iprop(∃ r, prngReg c r)
  Z c := Pipeline.unscopedRest (Ix := Unit) (Name := ℕ) (U := Pipeline.UD sig nD τ) (Lvl := ℕ) spec1 c (E4 m c)
  hentry c := by
    rw [Pipeline.ownSems0_none]
    have hsplit := Pipeline.arrays_of_unscopedBufs (p := 1) (pcfgs (F := F)) noTables (family m) launch1.win launch1.arr_whole c
      ((family m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 1 c).Φ 0 = Pipeline.ΦA spec1 c from rfl]; unfold Pipeline.ΦA
    iintro ⟨Hp, -, Hr⟩
    isplitl [Hr]; · iexact Hr
    iexact Hp
  hout c := by
    rw [Pipeline.ownSems0_none, show (family m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := Pipeline.UD sig nD τ) (Lvl := ℕ)
      launch1.win launch1.arr_whole c (family m) ((family m 1 c).share_full fun _ => rfl)
      (E4 m c) (X5 m c) ((family m 1 c).arrAt · cfg1.N) (exit_arrays1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B5`, left with them at `B6`. Its windows' arrays are split out of the unscoped buffers on entry and put back, at their final contents, on exit; the generator register passes through the loop invariant; nothing is owed; the body has no semaphore of its own. -/
def region2 : Pipeline.RegionSeg (pcfgs (F := F)) noTables (family m) () defs₀ 𝒱₀ L lv 2 where
  win := launch2.win.to₀
  block_pos := launch2.block_pos
  stage_whole := launch2.stage_whole
  K := PEmpty
  osem k := k.elim
  ho := Pipeline.OwnSemFacts.none _
  hbody c := (NodeLinear2.body_obligation (E5 m) c).loose
  hwaits := Pipeline.hwaits_of_owed_zero _ _ _ _ L lv 2 fun _ _ => rfl
  pre c := iprop(StableHlo.held (c : Thread nD τ) (Pipeline.ucRefs τ sig) (B5 m c) ∗ ride c)
  post c := iprop(StableHlo.held (c : Thread nD τ) (Pipeline.ucRefs τ sig) (B6 m c) ∗ ride c)
  X c := iprop(∃ r, prngReg c r)
  Y c := iprop(∃ r, prngReg c r)
  Z c := Pipeline.unscopedRest (Ix := Unit) (Name := ℕ) (U := Pipeline.UD sig nD τ) (Lvl := ℕ) spec2 c (E5 m c)
  hentry c := by
    rw [Pipeline.ownSems0_none]
    have hsplit := Pipeline.arrays_of_unscopedBufs (p := 2) (pcfgs (F := F)) noTables (family m) launch2.win launch2.arr_whole c
      ((family m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 2 c).Φ 0 = Pipeline.ΦA spec2 c from rfl]; unfold Pipeline.ΦA
    iintro ⟨Hp, -, Hr⟩
    isplitl [Hr]; · iexact Hr
    iexact Hp
  hout c := by
    rw [Pipeline.ownSems0_none, show (family m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := Pipeline.UD sig nD τ) (Lvl := ℕ)
      launch2.win launch2.arr_whole c (family m) ((family m 2 c).share_full fun _ => rfl)
      (E5 m c) (X6 m c) ((family m 2 c).arrAt · cfg2.N) (exit_arrays2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `B7`, left with them at `B8`. Its windows' arrays are split out of the unscoped buffers on entry and put back, at their final contents, on exit; the generator register passes through the loop invariant; nothing is owed; the body has no semaphore of its own. -/
def region3 : Pipeline.RegionSeg (pcfgs (F := F)) noTables (family m) () defs₀ 𝒱₀ L lv 3 where
  win := launch3.win.to₀
  block_pos := launch3.block_pos
  stage_whole := launch3.stage_whole
  K := PEmpty
  osem k := k.elim
  ho := Pipeline.OwnSemFacts.none _
  hbody c := (Combine2.body_obligation (E7 m) c).loose
  hwaits := Pipeline.hwaits_of_owed_zero _ _ _ _ L lv 3 fun _ _ => rfl
  pre c := iprop(StableHlo.held (c : Thread nD τ) (Pipeline.ucRefs τ sig) (B7 m c) ∗ ride c)
  post c := iprop(StableHlo.held (c : Thread nD τ) (Pipeline.ucRefs τ sig) (B8 m c) ∗ ride c)
  X c := iprop(∃ r, prngReg c r)
  Y c := iprop(∃ r, prngReg c r)
  Z c := Pipeline.unscopedRest (Ix := Unit) (Name := ℕ) (U := Pipeline.UD sig nD τ) (Lvl := ℕ) spec3 c (E7 m c)
  hentry c := by
    rw [Pipeline.ownSems0_none]
    have hsplit := Pipeline.arrays_of_unscopedBufs (p := 3) (pcfgs (F := F)) noTables (family m) launch3.win launch3.arr_whole c
      ((family m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 3 c).Φ 0 = Pipeline.ΦA spec3 c from rfl]; unfold Pipeline.ΦA
    iintro ⟨Hp, -, Hr⟩
    isplitl [Hr]; · iexact Hr
    iexact Hp
  hout c := by
    rw [Pipeline.ownSems0_none, show (family m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := Pipeline.UD sig nD τ) (Lvl := ℕ)
      launch3.win launch3.arr_whole c (family m) ((family m 3 c).share_full fun _ => rfl)
      (E7 m c) (X8 m c) ((family m 3 c).arrAt · cfg3.N) (exit_arrays3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at `B8`, left with them at `B9`. Its windows' arrays are split out of the unscoped buffers on entry and put back, at their final contents, on exit; the generator register passes through the loop invariant; nothing is owed; the body has no semaphore of its own. -/
def region4 : Pipeline.RegionSeg (pcfgs (F := F)) noTables (family m) () defs₀ 𝒱₀ L lv 4 where
  win := launch4.win.to₀
  block_pos := launch4.block_pos
  stage_whole := launch4.stage_whole
  K := PEmpty
  osem k := k.elim
  ho := Pipeline.OwnSemFacts.none _
  hbody c := (NodeLinear3.body_obligation (E8 m) c).loose
  hwaits := Pipeline.hwaits_of_owed_zero _ _ _ _ L lv 4 fun _ _ => rfl
  pre c := iprop(StableHlo.held (c : Thread nD τ) (Pipeline.ucRefs τ sig) (B8 m c) ∗ ride c)
  post c := iprop(StableHlo.held (c : Thread nD τ) (Pipeline.ucRefs τ sig) (B9 m c) ∗ ride c)
  X c := iprop(∃ r, prngReg c r)
  Y c := iprop(∃ r, prngReg c r)
  Z c := Pipeline.unscopedRest (Ix := Unit) (Name := ℕ) (U := Pipeline.UD sig nD τ) (Lvl := ℕ) spec4 c (E8 m c)
  hentry c := by
    rw [Pipeline.ownSems0_none]
    have hsplit := Pipeline.arrays_of_unscopedBufs (p := 4) (pcfgs (F := F)) noTables (family m) launch4.win launch4.arr_whole c
      ((family m 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 4 c).Φ 0 = Pipeline.ΦA spec4 c from rfl]; unfold Pipeline.ΦA
    iintro ⟨Hp, -, Hr⟩
    isplitl [Hr]; · iexact Hr
    iexact Hp
  hout c := by
    rw [Pipeline.ownSems0_none, show (family m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := Pipeline.UD sig nD τ) (Lvl := ℕ)
      launch4.win launch4.arr_whole c (family m) ((family m 4 c).share_full fun _ => rfl)
      (E8 m c) (X9 m c) ((family m 4 c).arrAt · cfg4.N) (exit_arrays4 m c) (exit_rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at `B10`, left with them at `B11`. Its windows' arrays are split out of the unscoped buffers on entry and put back, at their final contents, on exit; the generator register passes through the loop invariant; nothing is owed; the body has no semaphore of its own. -/
def region5 : Pipeline.RegionSeg (pcfgs (F := F)) noTables (family m) () defs₀ 𝒱₀ L lv 5 where
  win := launch5.win.to₀
  block_pos := launch5.block_pos
  stage_whole := launch5.stage_whole
  K := PEmpty
  osem k := k.elim
  ho := Pipeline.OwnSemFacts.none _
  hbody c := (Combine3.body_obligation (E10 m) c).loose
  hwaits := Pipeline.hwaits_of_owed_zero _ _ _ _ L lv 5 fun _ _ => rfl
  pre c := iprop(StableHlo.held (c : Thread nD τ) (Pipeline.ucRefs τ sig) (B10 m c) ∗ ride c)
  post c := iprop(StableHlo.held (c : Thread nD τ) (Pipeline.ucRefs τ sig) (B11 m c) ∗ ride c)
  X c := iprop(∃ r, prngReg c r)
  Y c := iprop(∃ r, prngReg c r)
  Z c := Pipeline.unscopedRest (Ix := Unit) (Name := ℕ) (U := Pipeline.UD sig nD τ) (Lvl := ℕ) spec5 c (E10 m c)
  hentry c := by
    rw [Pipeline.ownSems0_none]
    have hsplit := Pipeline.arrays_of_unscopedBufs (p := 5) (pcfgs (F := F)) noTables (family m) launch5.win launch5.arr_whole c
      ((family m 5 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 5 c).Φ 0 = Pipeline.ΦA spec5 c from rfl]; unfold Pipeline.ΦA
    iintro ⟨Hp, -, Hr⟩
    isplitl [Hr]; · iexact Hr
    iexact Hp
  hout c := by
    rw [Pipeline.ownSems0_none, show (family m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := Pipeline.UD sig nD τ) (Lvl := ℕ)
      launch5.win launch5.arr_whole c (family m) ((family m 5 c).share_full fun _ => rfl)
      (E10 m c) (X11 m c) ((family m 5 c).arrAt · cfg5.N) (exit_arrays5 m c) (exit_rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered with every unscoped buffer at `B13`, left with them at `B14`. Its windows' arrays are split out of the unscoped buffers on entry and put back, at their final contents, on exit; the generator register passes through the loop invariant; nothing is owed; the body has no semaphore of its own. -/
def region6 : Pipeline.RegionSeg (pcfgs (F := F)) noTables (family m) () defs₀ 𝒱₀ L lv 6 where
  win := launch6.win.to₀
  block_pos := launch6.block_pos
  stage_whole := launch6.stage_whole
  K := PEmpty
  osem k := k.elim
  ho := Pipeline.OwnSemFacts.none _
  hbody c := (EdgeMlp.body_obligation (E13 m) c).loose
  hwaits := Pipeline.hwaits_of_owed_zero _ _ _ _ L lv 6 fun _ _ => rfl
  pre c := iprop(StableHlo.held (c : Thread nD τ) (Pipeline.ucRefs τ sig) (B13 m c) ∗ ride c)
  post c := iprop(StableHlo.held (c : Thread nD τ) (Pipeline.ucRefs τ sig) (B14 m c) ∗ ride c)
  X c := iprop(∃ r, prngReg c r)
  Y c := iprop(∃ r, prngReg c r)
  Z c := Pipeline.unscopedRest (Ix := Unit) (Name := ℕ) (U := Pipeline.UD sig nD τ) (Lvl := ℕ) spec6 c (E13 m c)
  hentry c := by
    rw [Pipeline.ownSems0_none]
    have hsplit := Pipeline.arrays_of_unscopedBufs (p := 6) (pcfgs (F := F)) noTables (family m) launch6.win launch6.arr_whole c
      ((family m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (family m 6 c).Φ 0 = Pipeline.ΦA spec6 c from rfl]; unfold Pipeline.ΦA
    iintro ⟨Hp, -, Hr⟩
    isplitl [Hr]; · iexact Hr
    iexact Hp
  hout c := by
    rw [Pipeline.ownSems0_none, show (family m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := Pipeline.UD sig nD τ) (Lvl := ℕ)
      launch6.win launch6.arr_whole c (family m) ((family m 6 c).share_full fun _ => rfl)
      (E13 m c) (X14 m c) ((family m 6 c).arrAt · cfg6.N) (exit_arrays6 m c) (exit_rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the whole execution -/

abbrev segments : List (Pipeline.Seg (pcfgs (F := F)) noTables (family m) () defs₀ 𝒱₀ L lv) :=
  [
    .host (hostSeg hostOps0 hostOps0_sub hostOps0_fresh (B0 m)),
    .host (hostSeg hostOps0_1 hostOps0_1_sub hostOps0_1_fresh (B1 m)),
    .region (region0 m),
    .host (hostSeg hostOps1 hostOps1_sub hostOps1_fresh (B3 m)),
    .region (region1 m),
    .region (region2 m),
    .host (hostSeg hostOps3 hostOps3_sub hostOps3_fresh (B6 m)),
    .region (region3 m),
    .region (region4 m),
    .host (hostSeg hostOps5 hostOps5_sub hostOps5_fresh (B9 m)),
    .region (region5 m),
    .host (hostSeg hostOps6 hostOps6_sub hostOps6_fresh (B11 m)),
    .host (hostSeg hostOps6_1 hostOps6_1_sub hostOps6_1_fresh (B12 m)),
    .region (region6 m) ]

theorem main_is_segments (c : Dev nD) : main (F := F) c = Pipeline.Seg.run (segments m) := (main_chain c).trans (by chain_rfl)

set_option backward.isDefEq.respectTransparency.types false in
/-- From any memory with zero counters every weakly fair execution terminates, nothing faulting; at the end the result array holds what the last region's write-backs leave, and every argument array is as launched. -/
theorem execution (ρ : Dev nD → PrngReg) : θ_run defs (onTc (τ := τ) (main (F := F))) ⟨m, fun _ => 0, ρ⟩ (fun r => ∀ c : Dev nD,
      r.2.mem ((c.tc : Thread nD τ).loc main_v128) = B14 m c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) noTables (family m) () cellOf_inj embL defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B14 m c) ∗ ride c) ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B14 m c b)
    (hfin := fun c s' => by
      iintro ⟨⟨Hh, -⟩, HSI⟩
      unfold StableHlo.held
      imodintro
      iapply (pointsTo_read_all (Pipeline.ucRefs τ sig) (fun b => (((c : Thread nD τ)).1, b)) (B14 m c) s')
      isplitl [Hh] <;> iassumption)
    (hQ := fun s h c =>
      ⟨h c _ (uc_mem main_v128 (by decide)),
       (h c _ (uc_mem main_arg0 (by decide))).trans (B14_main_arg0 m c),
       (h c _ (uc_mem main_arg1 (by decide))).trans (B14_main_arg1 m c),
       (h c _ (uc_mem main_arg2 (by decide))).trans (B14_main_arg2 m c),
       (h c _ (uc_mem main_arg3 (by decide))).trans (B14_main_arg3 m c),
       (h c _ (uc_mem main_arg4 (by decide))).trans (B14_main_arg4 m c),
       (h c _ (uc_mem main_arg5 (by decide))).trans (B14_main_arg5 m c),
       (h c _ (uc_mem main_arg6 (by decide))).trans (B14_main_arg6 m c),
       (h c _ (uc_mem main_arg7 (by decide))).trans (B14_main_arg7 m c),
       (h c _ (uc_mem main_arg8 (by decide))).trans (B14_main_arg8 m c),
       (h c _ (uc_mem main_arg9 (by decide))).trans (B14_main_arg9 m c),
       (h c _ (uc_mem main_arg10 (by decide))).trans (B14_main_arg10 m c),
       (h c _ (uc_mem main_arg11 (by decide))).trans (B14_main_arg11 m c),
       (h c _ (uc_mem main_arg12 (by decide))).trans (B14_main_arg12 m c),
       (h c _ (uc_mem main_arg13 (by decide))).trans (B14_main_arg13 m c),
       (h c _ (uc_mem main_arg14 (by decide))).trans (B14_main_arg14 m c),
       (h c _ (uc_mem main_arg15 (by decide))).trans (B14_main_arg15 m c),
       (h c _ (uc_mem main_arg16 (by decide))).trans (B14_main_arg16 m c),
       (h c _ (uc_mem main_arg17 (by decide))).trans (B14_main_arg17 m c),
       (h c _ (uc_mem main_arg18 (by decide))).trans (B14_main_arg18 m c),
       (h c _ (uc_mem main_arg19 (by decide))).trans (B14_main_arg19 m c),
       (h c _ (uc_mem main_arg20 (by decide))).trans (B14_main_arg20 m c),
       (h c _ (uc_mem main_arg21 (by decide))).trans (B14_main_arg21 m c),
       (h c _ (uc_mem main_arg22 (by decide))).trans (B14_main_arg22 m c),
       (h c _ (uc_mem main_arg23 (by decide))).trans (B14_main_arg23 m c),
       (h c _ (uc_mem main_arg24 (by decide))).trans (B14_main_arg24 m c),
       (h c _ (uc_mem main_arg25 (by decide))).trans (B14_main_arg25 m c),
       (h c _ (uc_mem main_arg26 (by decide))).trans (B14_main_arg26 m c)⟩)

end Cert.KernelIdeal.Run

end
-- ==== Proof.Reference.Ops.lean ====
/-
  The reference program's @main read as ONE list of StableHLO operations, in execution order.

  @main is a straight line: no loop, no kernel launch. Eight of its statements are calls of outlined helpers — the
  clamp of non-finite values (an unordered self-comparison selects zero for a NaN, then two equality tests against
  plus and minus infinity select the largest and the smallest finite value), and the rectifier (the maximum against a
  broadcast zero). A call executes the callee's body on the caller's operands, so here each call is replaced by the
  operations of that body over the buffers the call site owns: the callee's arguments become the caller's references,
  its local values the fields of the call's buffer record. Entry k of the list is the k-th operation a device executes.

  The same operations are listed a second time in five consecutive stretches, cut where the printed program cuts
  @main into consecutive windows; the full list is their concatenation (`ops_split`), which is how the equation
  between @main and the list is proved one window at a time.
-/
import proofs.«114179_j13726715478162_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 308 operations in execution order, the outlined calls unfolded at their sites. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.TRef.binary (.of main_arg0 : StableHlo.TRef sig ⟨S100000x128, .f32⟩) (.of main_arg0 : StableHlo.TRef sig ⟨S100000x128, .f32⟩) main_call0.v0 (cmpf .une),
    StableHlo.TRef.nullary main_call0.cst (constant S_ .f32 0x00000000#32),
    StableHlo.TRef.unary main_call0.cst main_call0.call0.v0 (broadcastInDim S100000x128 ![] bcast_S_S100000x128),
    StableHlo.TRef.ternary main_call0.v0 main_call0.call0.v0 (.of main_arg0 : StableHlo.TRef sig ⟨S100000x128, .f32⟩) main_call0.call0.v1 select,
    StableHlo.TRef.nullary main_call0.cst_0 (constant S_ .f32 0x7F800000#32),
    StableHlo.TRef.unary main_call0.cst_0 main_call0.v2 (broadcastInDim S100000x128 ![] bcast_S_S100000x128),
    StableHlo.TRef.binary main_call0.call0.v1 main_call0.v2 main_call0.v3 (cmpf .oeq),
    StableHlo.TRef.nullary main_call0.cst_1 (constant S_ .f32 0x7F7FFFFF#32),
    StableHlo.TRef.unary main_call0.cst_1 main_call0.call1.v0 (broadcastInDim S100000x128 ![] bcast_S_S100000x128),
    StableHlo.TRef.ternary main_call0.v3 main_call0.call1.v0 main_call0.call0.v1 main_call0.call1.v1 select,
    StableHlo.TRef.nullary main_call0.cst_2 (constant S_ .f32 0xFF800000#32),
    StableHlo.TRef.unary main_call0.cst_2 main_call0.v5 (broadcastInDim S100000x128 ![] bcast_S_S100000x128),
    StableHlo.TRef.binary main_call0.call1.v1 main_call0.v5 main_call0.v6 (cmpf .oeq),
    StableHlo.TRef.nullary main_call0.cst_3 (constant S_ .f32 0xFF7FFFFF#32),
    StableHlo.TRef.unary main_call0.cst_3 main_call0.call2.v0 (broadcastInDim S100000x128 ![] bcast_S_S100000x128),
    StableHlo.TRef.ternary main_call0.v6 main_call0.call2.v0 main_call0.call1.v1 main_call0.call2.v1 select,
    StableHlo.binary main_v4 main_arg3 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_cst (constant S_ .f32 0x3F800000#32),
    StableHlo.unary main_cst main_v6 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.unary main_v3 main_v8 (broadcastInDim S3200000x1 ![0] bcast_S3200000_S3200000x1_0 : (⟨S3200000, .i32⟩ : BufTy).Contents (Elt F) → (⟨S3200000x1, .i32⟩ : BufTy).Contents (Elt F)),
    StableHlo.ternary main_v7 main_v8 main_v6 main_v9 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x3F800000#32),
    StableHlo.unary main_cst_1 main_v10 (broadcastInDim S100000 ![] bcast_S_S100000 : (⟨S_, .f32⟩ : BufTy).Contents (Elt F) → (⟨S100000, .f32⟩ : BufTy).Contents (Elt F)),
    StableHlo.binary main_v9 main_v10 main_v11 (addf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S3200000 ![] bcast_S_S3200000 : (⟨S_, .i32⟩ : BufTy).Contents (Elt F) → (⟨S3200000, .i32⟩ : BufTy).Contents (Elt F)),
    StableHlo.binary main_v1 main_v13 main_v14 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v15 (broadcastInDim S3200000 ![] bcast_S_S3200000 : (⟨S_, .i32⟩ : BufTy).Contents (Elt F) → (⟨S3200000, .i32⟩ : BufTy).Contents (Elt F)),
    StableHlo.binary main_v1 main_v15 main_v16 (addi : (⟨S3200000, .i32⟩ : BufTy).Contents (Elt F) → (⟨S3200000, .i32⟩ : BufTy).Contents (Elt F) → (⟨S3200000, .i32⟩ : BufTy).Contents (Elt F)),
    StableHlo.ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v17 main_v18 (broadcastInDim S3200000x1 ![0] bcast_S3200000_S3200000x1_0 : (⟨S3200000, .i32⟩ : BufTy).Contents (Elt F) → (⟨S3200000x1, .i32⟩ : BufTy).Contents (Elt F)),
    StableHlo.binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_3 (constantI S_ 32 0#32),
    StableHlo.unary main_c_3 main_v20 (broadcastInDim S3200000 ![] bcast_S_S3200000 : (⟨S_, .i32⟩ : BufTy).Contents (Elt F) → (⟨S3200000, .i32⟩ : BufTy).Contents (Elt F)),
    StableHlo.binary main_v3 main_v20 main_v21 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v22 (broadcastInDim S3200000 ![] bcast_S_S3200000 : (⟨S_, .i32⟩ : BufTy).Contents (Elt F) → (⟨S3200000, .i32⟩ : BufTy).Contents (Elt F)),
    StableHlo.binary main_v3 main_v22 main_v23 (addi : (⟨S3200000, .i32⟩ : BufTy).Contents (Elt F) → (⟨S3200000, .i32⟩ : BufTy).Contents (Elt F) → (⟨S3200000, .i32⟩ : BufTy).Contents (Elt F)),
    StableHlo.ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v24 main_v25 (broadcastInDim S3200000x1 ![0] bcast_S3200000_S3200000x1_0 : (⟨S3200000, .i32⟩ : BufTy).Contents (Elt F) → (⟨S3200000x1, .i32⟩ : BufTy).Contents (Elt F)),
    StableHlo.binary main_v12 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v19 main_v26 main_v27 (mulf : (⟨S3200000, .f32⟩ : BufTy).Contents (Elt F) → (⟨S3200000, .f32⟩ : BufTy).Contents (Elt F) → (⟨S3200000, .f32⟩ : BufTy).Contents (Elt F)),
    StableHlo.nullary main_c_5 (constantI S_ 32 0#32),
    StableHlo.unary main_c_5 main_v28 (broadcastInDim S3200000 ![] bcast_S_S3200000 : (⟨S_, .i32⟩ : BufTy).Contents (Elt F) → (⟨S3200000, .i32⟩ : BufTy).Contents (Elt F)),
    StableHlo.binary main_v1 main_v28 main_v29 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v30 (broadcastInDim S3200000 ![] bcast_S_S3200000 : (⟨S_, .i32⟩ : BufTy).Contents (Elt F) → (⟨S3200000, .i32⟩ : BufTy).Contents (Elt F)),
    StableHlo.binary main_v1 main_v30 main_v31 (addi : (⟨S3200000, .i32⟩ : BufTy).Contents (Elt F) → (⟨S3200000, .i32⟩ : BufTy).Contents (Elt F) → (⟨S3200000, .i32⟩ : BufTy).Contents (Elt F)),
    StableHlo.ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v32 main_v33 (broadcastInDim S3200000x1 ![0] bcast_S3200000_S3200000x1_0 : (⟨S3200000, .i32⟩ : BufTy).Contents (Elt F) → (⟨S3200000x1, .i32⟩ : BufTy).Contents (Elt F)),
    StableHlo.binary main_v5 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v27 main_v35 (broadcastInDim S3200000x1 ![0] bcast_S3200000_S3200000x1_0 : (⟨S3200000, .f32⟩ : BufTy).Contents (Elt F) → (⟨S3200000x1, .f32⟩ : BufTy).Contents (Elt F)),
    StableHlo.unary main_v35 main_v36 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v34 main_v36 main_v37 (mulf : (⟨S3200000x64, .f32⟩ : BufTy).Contents (Elt F) → (⟨S3200000x64, .f32⟩ : BufTy).Contents (Elt F) → (⟨S3200000x64, .f32⟩ : BufTy).Contents (Elt F)),
    StableHlo.nullary main_cst_7 (constant S_ .f32 0x00000000#32),
    StableHlo.unary main_cst_7 main_v38 (broadcastInDim S100000x64 ![] bcast_S_S100000x64 : (⟨S_, .f32⟩ : BufTy).Contents (Elt F) → (⟨S100000x64, .f32⟩ : BufTy).Contents (Elt F)),
    StableHlo.unary main_v3 main_v39 (broadcastInDim S3200000x1 ![0] bcast_S3200000_S3200000x1_0 : (⟨S3200000, .i32⟩ : BufTy).Contents (Elt F) → (⟨S3200000x1, .i32⟩ : BufTy).Contents (Elt F)),
    StableHlo.ternary main_v38 main_v39 main_v37 main_v40 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v12 main_v12 main_v41 (mulf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x64 ![0, 1] bcast_S100000x1_S100000x64_0_1 : (⟨S100000x1, .f32⟩ : BufTy).Contents (Elt F) → (⟨S100000x64, .f32⟩ : BufTy).Contents (Elt F)),
    StableHlo.binary main_v5 main_v43 main_v44 (mulf : (⟨S100000x64, .f32⟩ : BufTy).Contents (Elt F) → (⟨S100000x64, .f32⟩ : BufTy).Contents (Elt F) → (⟨S100000x64, .f32⟩ : BufTy).Contents (Elt F)),
    StableHlo.binary main_v40 main_v44 main_v45 (addf : (⟨S100000x64, .f32⟩ : BufTy).Contents (Elt F) → (⟨S100000x64, .f32⟩ : BufTy).Contents (Elt F) → (⟨S100000x64, .f32⟩ : BufTy).Contents (Elt F)),
    StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    StableHlo.unary main_arg11 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v50 main_v51 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v52 (broadcastInDim S64 ![] bcast_S_S64 : (⟨S_, .f32⟩ : BufTy).Contents (Elt F) → (⟨S64, .f32⟩ : BufTy).Contents (Elt F)),
    StableHlo.binary main_arg12 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)),
    StableHlo.unary main_arg9 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (mulf : (⟨S100000x64, .f32⟩ : BufTy).Contents (Elt F) → (⟨S100000x64, .f32⟩ : BufTy).Contents (Elt F) → (⟨S100000x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v63 : StableHlo.TRef sig ⟨S100000x64, .f32⟩) main_call1.v0 main_call1.v1 maximumf,
    StableHlo.binary main_v64 main_arg5 main_v65 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_cst_9 (constant S_ .f32 0x3F800000#32),
    StableHlo.unary main_cst_9 main_v66 (broadcastInDim S3200000 ![] bcast_S_S3200000 : (⟨S_, .f32⟩ : BufTy).Contents (Elt F) → (⟨S3200000, .f32⟩ : BufTy).Contents (Elt F)),
    StableHlo.nullary main_cst_10 (constant S_ .f32 0x00000000#32),
    StableHlo.unary main_cst_10 main_v67 (broadcastInDim S100000 ![] bcast_S_S100000 : (⟨S_, .f32⟩ : BufTy).Contents (Elt F) → (⟨S100000, .f32⟩ : BufTy).Contents (Elt F)),
    StableHlo.unary main_v3 main_v68 (broadcastInDim S3200000x1 ![0] bcast_S3200000_S3200000x1_0 : (⟨S3200000, .i32⟩ : BufTy).Contents (Elt F) → (⟨S3200000x1, .i32⟩ : BufTy).Contents (Elt F)),
    StableHlo.ternary main_v67 main_v68 main_v66 main_v69 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_11 (constant S_ .f32 0x3F800000#32),
    StableHlo.unary main_cst_11 main_v70 (broadcastInDim S100000 ![] bcast_S_S100000 : (⟨S_, .f32⟩ : BufTy).Contents (Elt F) → (⟨S100000, .f32⟩ : BufTy).Contents (Elt F)),
    StableHlo.binary main_v69 main_v70 main_v71 (addf : (⟨S100000, .f32⟩ : BufTy).Contents (Elt F) → (⟨S100000, .f32⟩ : BufTy).Contents (Elt F) → (⟨S100000, .f32⟩ : BufTy).Contents (Elt F)),
    StableHlo.unary main_v71 main_v72 (Host.rsqrt : (⟨S100000, .f32⟩ : BufTy).Contents (Elt F) → (⟨S100000, .f32⟩ : BufTy).Contents (Elt F)),
    StableHlo.nullary main_c_12 (constantI S_ 32 0#32),
    StableHlo.unary main_c_12 main_v73 (broadcastInDim S3200000 ![] bcast_S_S3200000 : (⟨S_, .i32⟩ : BufTy).Contents (Elt F) → (⟨S3200000, .i32⟩ : BufTy).Contents (Elt F)),
    StableHlo.binary main_v1 main_v73 main_v74 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v75 (broadcastInDim S3200000 ![] bcast_S_S3200000 : (⟨S_, .i32⟩ : BufTy).Contents (Elt F) → (⟨S3200000, .i32⟩ : BufTy).Contents (Elt F)),
    StableHlo.binary main_v1 main_v75 main_v76 (addi : (⟨S3200000, .i32⟩ : BufTy).Contents (Elt F) → (⟨S3200000, .i32⟩ : BufTy).Contents (Elt F) → (⟨S3200000, .i32⟩ : BufTy).Contents (Elt F)),
    StableHlo.ternary main_v74 main_v76 main_v1 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v77 main_v78 (broadcastInDim S3200000x1 ![0] bcast_S3200000_S3200000x1_0 : (⟨S3200000, .i32⟩ : BufTy).Contents (Elt F) → (⟨S3200000x1, .i32⟩ : BufTy).Contents (Elt F)),
    StableHlo.binary main_v72 main_v78 main_v79 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_14 (constantI S_ 32 0#32),
    StableHlo.unary main_c_14 main_v80 (broadcastInDim S3200000 ![] bcast_S_S3200000 : (⟨S_, .i32⟩ : BufTy).Contents (Elt F) → (⟨S3200000, .i32⟩ : BufTy).Contents (Elt F)),
    StableHlo.binary main_v3 main_v80 main_v81 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v82 (broadcastInDim S3200000 ![] bcast_S_S3200000 : (⟨S_, .i32⟩ : BufTy).Contents (Elt F) → (⟨S3200000, .i32⟩ : BufTy).Contents (Elt F)),
    StableHlo.binary main_v3 main_v82 main_v83 (addi : (⟨S3200000, .i32⟩ : BufTy).Contents (Elt F) → (⟨S3200000, .i32⟩ : BufTy).Contents (Elt F) → (⟨S3200000, .i32⟩ : BufTy).Contents (Elt F)),
    StableHlo.ternary main_v81 main_v83 main_v3 main_v84 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v84 main_v85 (broadcastInDim S3200000x1 ![0] bcast_S3200000_S3200000x1_0 : (⟨S3200000, .i32⟩ : BufTy).Contents (Elt F) → (⟨S3200000x1, .i32⟩ : BufTy).Contents (Elt F)),
    StableHlo.binary main_v72 main_v85 main_v86 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v79 main_v86 main_v87 (mulf : (⟨S3200000, .f32⟩ : BufTy).Contents (Elt F) → (⟨S3200000, .f32⟩ : BufTy).Contents (Elt F) → (⟨S3200000, .f32⟩ : BufTy).Contents (Elt F)),
    StableHlo.nullary main_c_16 (constantI S_ 32 0#32),
    StableHlo.unary main_c_16 main_v88 (broadcastInDim S3200000 ![] bcast_S_S3200000 : (⟨S_, .i32⟩ : BufTy).Contents (Elt F) → (⟨S3200000, .i32⟩ : BufTy).Contents (Elt F)),
    StableHlo.binary main_v1 main_v88 main_v89 (cmpi .slt : (⟨S3200000, .i32⟩ : BufTy).Contents (Elt F) → (⟨S3200000, .i32⟩ : BufTy).Contents (Elt F) → (⟨S3200000, .i1⟩ : BufTy).Contents (Elt F)),
    StableHlo.nullary main_c_17 (constantI S_ 32 100000#32),
    StableHlo.unary main_c_17 main_v90 (broadcastInDim S3200000 ![] bcast_S_S3200000 : (⟨S_, .i32⟩ : BufTy).Contents (Elt F) → (⟨S3200000, .i32⟩ : BufTy).Contents (Elt F)),
    StableHlo.binary main_v1 main_v90 main_v91 (addi : (⟨S3200000, .i32⟩ : BufTy).Contents (Elt F) → (⟨S3200000, .i32⟩ : BufTy).Contents (Elt F) → (⟨S3200000, .i32⟩ : BufTy).Contents (Elt F)),
    StableHlo.ternary main_v89 main_v91 main_v1 main_v92 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v92 main_v93 (broadcastInDim S3200000x1 ![0] bcast_S3200000_S3200000x1_0 : (⟨S3200000, .i32⟩ : BufTy).Contents (Elt F) → (⟨S3200000x1, .i32⟩ : BufTy).Contents (Elt F)),
    StableHlo.binary main_v65 main_v93 main_v94 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v87 main_v95 (broadcastInDim S3200000x1 ![0] bcast_S3200000_S3200000x1_0 : (⟨S3200000, .f32⟩ : BufTy).Contents (Elt F) → (⟨S3200000x1, .f32⟩ : BufTy).Contents (Elt F)),
    StableHlo.unary main_v95 main_v96 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v94 main_v96 main_v97 (mulf : (⟨S3200000x32, .f32⟩ : BufTy).Contents (Elt F) → (⟨S3200000x32, .f32⟩ : BufTy).Contents (Elt F) → (⟨S3200000x32, .f32⟩ : BufTy).Contents (Elt F)),
    StableHlo.nullary main_cst_18 (constant S_ .f32 0x00000000#32),
    StableHlo.unary main_cst_18 main_v98 (broadcastInDim S100000x32 ![] bcast_S_S100000x32 : (⟨S_, .f32⟩ : BufTy).Contents (Elt F) → (⟨S100000x32, .f32⟩ : BufTy).Contents (Elt F)),
    StableHlo.unary main_v3 main_v99 (broadcastInDim S3200000x1 ![0] bcast_S3200000_S3200000x1_0 : (⟨S3200000, .i32⟩ : BufTy).Contents (Elt F) → (⟨S3200000x1, .i32⟩ : BufTy).Contents (Elt F)),
    StableHlo.ternary main_v98 main_v99 main_v97 main_v100 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v72 main_v72 main_v101 (mulf : (⟨S100000, .f32⟩ : BufTy).Contents (Elt F) → (⟨S100000, .f32⟩ : BufTy).Contents (Elt F) → (⟨S100000, .f32⟩ : BufTy).Contents (Elt F)),
    StableHlo.unary main_v101 main_v102 (broadcastInDim S100000x1 ![0] bcast_S100000_S100000x1_0 : (⟨S100000, .f32⟩ : BufTy).Contents (Elt F) → (⟨S100000x1, .f32⟩ : BufTy).Contents (Elt F)),
    StableHlo.unary main_v102 main_v103 (broadcastInDim S100000x32 ![0, 1] bcast_S100000x1_S100000x32_0_1 : (⟨S100000x1, .f32⟩ : BufTy).Contents (Elt F) → (⟨S100000x32, .f32⟩ : BufTy).Contents (Elt F)),
    StableHlo.binary main_v65 main_v103 main_v104 (mulf : (⟨S100000x32, .f32⟩ : BufTy).Contents (Elt F) → (⟨S100000x32, .f32⟩ : BufTy).Contents (Elt F) → (⟨S100000x32, .f32⟩ : BufTy).Contents (Elt F)),
    StableHlo.binary main_v100 main_v104 main_v105 (addf : (⟨S100000x32, .f32⟩ : BufTy).Contents (Elt F) → (⟨S100000x32, .f32⟩ : BufTy).Contents (Elt F) → (⟨S100000x32, .f32⟩ : BufTy).Contents (Elt F)),
    StableHlo.unary main_arg6 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v105 main_v107 main_v108 (addf : (⟨S100000x32, .f32⟩ : BufTy).Contents (Elt F) → (⟨S100000x32, .f32⟩ : BufTy).Contents (Elt F) → (⟨S100000x32, .f32⟩ : BufTy).Contents (Elt F)),
    StableHlo.unary main_arg15 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (subf : (⟨S100000x32, .f32⟩ : BufTy).Contents (Elt F) → (⟨S100000x32, .f32⟩ : BufTy).Contents (Elt F) → (⟨S100000x32, .f32⟩ : BufTy).Contents (Elt F)),
    StableHlo.nullary main_cst_19 (constant S_ .f32 0x3727C5AC#32),
    StableHlo.unary main_cst_19 main_v112 (broadcastInDim S32 ![] bcast_S_S32 : (⟨S_, .f32⟩ : BufTy).Contents (Elt F) → (⟨S32, .f32⟩ : BufTy).Contents (Elt F)),
    StableHlo.binary main_arg16 main_v112 main_v113 (addf : (⟨S32, .f32⟩ : BufTy).Contents (Elt F) → (⟨S32, .f32⟩ : BufTy).Contents (Elt F) → (⟨S32, .f32⟩ : BufTy).Contents (Elt F)),
    StableHlo.unary main_v113 main_v114 (Host.rsqrt : (⟨S32, .f32⟩ : BufTy).Contents (Elt F) → (⟨S32, .f32⟩ : BufTy).Contents (Elt F)),
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v116 main_v117 (mulf : (⟨S100000x32, .f32⟩ : BufTy).Contents (Elt F) → (⟨S100000x32, .f32⟩ : BufTy).Contents (Elt F) → (⟨S100000x32, .f32⟩ : BufTy).Contents (Elt F)),
    StableHlo.unary main_arg13 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S100000x32 ![0, 1] bcast_S1x32_S100000x32_0_1 : (⟨S1x32, .f32⟩ : BufTy).Contents (Elt F) → (⟨S100000x32, .f32⟩ : BufTy).Contents (Elt F)),
    StableHlo.binary main_v117 main_v119 main_v120 (mulf : (⟨S100000x32, .f32⟩ : BufTy).Contents (Elt F) → (⟨S100000x32, .f32⟩ : BufTy).Contents (Elt F) → (⟨S100000x32, .f32⟩ : BufTy).Contents (Elt F)),
    StableHlo.unary main_arg14 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
    StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v123 : StableHlo.TRef sig ⟨S100000x32, .f32⟩) main_call2.v0 main_call2.v1 maximumf,
    StableHlo.binary main_v124 main_arg7 main_v125 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.nullary main_cst_20 (constant S_ .f32 0x3F800000#32),
    StableHlo.unary main_cst_20 main_v126 (broadcastInDim S3200000 ![] bcast_S_S3200000 : (⟨S_, .f32⟩ : BufTy).Contents (Elt F) → (⟨S3200000, .f32⟩ : BufTy).Contents (Elt F)),
    StableHlo.nullary main_cst_21 (constant S_ .f32 0x00000000#32),
    StableHlo.unary main_cst_21 main_v127 (broadcastInDim S100000 ![] bcast_S_S100000 : (⟨S_, .f32⟩ : BufTy).Contents (Elt F) → (⟨S100000, .f32⟩ : BufTy).Contents (Elt F)),
    StableHlo.unary main_v3 main_v128 (broadcastInDim S3200000x1 ![0] bcast_S3200000_S3200000x1_0 : (⟨S3200000, .i32⟩ : BufTy).Contents (Elt F) → (⟨S3200000x1, .i32⟩ : BufTy).Contents (Elt F)),
    StableHlo.ternary main_v127 main_v128 main_v126 main_v129 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_22 (constant S_ .f32 0x3F800000#32),
    StableHlo.unary main_cst_22 main_v130 (broadcastInDim S100000 ![] bcast_S_S100000 : (⟨S_, .f32⟩ : BufTy).Contents (Elt F) → (⟨S100000, .f32⟩ : BufTy).Contents (Elt F)),
    StableHlo.binary main_v129 main_v130 main_v131 (addf : (⟨S100000, .f32⟩ : BufTy).Contents (Elt F) → (⟨S100000, .f32⟩ : BufTy).Contents (Elt F) → (⟨S100000, .f32⟩ : BufTy).Contents (Elt F)),
    StableHlo.unary main_v131 main_v132 (Host.rsqrt : (⟨S100000, .f32⟩ : BufTy).Contents (Elt F) → (⟨S100000, .f32⟩ : BufTy).Contents (Elt F)),
    StableHlo.nullary main_c_23 (constantI S_ 32 0#32),
    StableHlo.unary main_c_23 main_v133 (broadcastInDim S3200000 ![] bcast_S_S3200000 : (⟨S_, .i32⟩ : BufTy).Contents (Elt F) → (⟨S3200000, .i32⟩ : BufTy).Contents (Elt F)),
    StableHlo.binary main_v1 main_v133 main_v134 (cmpi .slt : (⟨S3200000, .i32⟩ : BufTy).Contents (Elt F) → (⟨S3200000, .i32⟩ : BufTy).Contents (Elt F) → (⟨S3200000, .i1⟩ : BufTy).Contents (Elt F)),
    StableHlo.nullary main_c_24 (constantI S_ 32 100000#32),
    StableHlo.unary main_c_24 main_v135 (broadcastInDim S3200000 ![] bcast_S_S3200000 : (⟨S_, .i32⟩ : BufTy).Contents (Elt F) → (⟨S3200000, .i32⟩ : BufTy).Contents (Elt F)),
    StableHlo.binary main_v1 main_v135 main_v136 (addi : (⟨S3200000, .i32⟩ : BufTy).Contents (Elt F) → (⟨S3200000, .i32⟩ : BufTy).Contents (Elt F) → (⟨S3200000, .i32⟩ : BufTy).Contents (Elt F)),
    StableHlo.ternary main_v134 main_v136 main_v1 main_v137 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v137 main_v138 (broadcastInDim S3200000x1 ![0] bcast_S3200000_S3200000x1_0 : (⟨S3200000, .i32⟩ : BufTy).Contents (Elt F) → (⟨S3200000x1, .i32⟩ : BufTy).Contents (Elt F)),
    StableHlo.binary main_v132 main_v138 main_v139 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_25 (constantI S_ 32 0#32),
    StableHlo.unary main_c_25 main_v140 (broadcastInDim S3200000 ![] bcast_S_S3200000 : (⟨S_, .i32⟩ : BufTy).Contents (Elt F) → (⟨S3200000, .i32⟩ : BufTy).Contents (Elt F)),
    StableHlo.binary main_v3 main_v140 main_v141 (cmpi .slt : (⟨S3200000, .i32⟩ : BufTy).Contents (Elt F) → (⟨S3200000, .i32⟩ : BufTy).Contents (Elt F) → (⟨S3200000, .i1⟩ : BufTy).Contents (Elt F)),
    StableHlo.nullary main_c_26 (constantI S_ 32 100000#32),
    StableHlo.unary main_c_26 main_v142 (broadcastInDim S3200000 ![] bcast_S_S3200000 : (⟨S_, .i32⟩ : BufTy).Contents (Elt F) → (⟨S3200000, .i32⟩ : BufTy).Contents (Elt F)),
    StableHlo.binary main_v3 main_v142 main_v143 (addi : (⟨S3200000, .i32⟩ : BufTy).Contents (Elt F) → (⟨S3200000, .i32⟩ : BufTy).Contents (Elt F) → (⟨S3200000, .i32⟩ : BufTy).Contents (Elt F)),
    StableHlo.ternary main_v141 main_v143 main_v3 main_v144 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v144 main_v145 (broadcastInDim S3200000x1 ![0] bcast_S3200000_S3200000x1_0 : (⟨S3200000, .i32⟩ : BufTy).Contents (Elt F) → (⟨S3200000x1, .i32⟩ : BufTy).Contents (Elt F)),
    StableHlo.binary main_v132 main_v145 main_v146 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v139 main_v146 main_v147 (mulf : (⟨S3200000, .f32⟩ : BufTy).Contents (Elt F) → (⟨S3200000, .f32⟩ : BufTy).Contents (Elt F) → (⟨S3200000, .f32⟩ : BufTy).Contents (Elt F)),
    StableHlo.nullary main_c_27 (constantI S_ 32 0#32),
    StableHlo.unary main_c_27 main_v148 (broadcastInDim S3200000 ![] bcast_S_S3200000 : (⟨S_, .i32⟩ : BufTy).Contents (Elt F) → (⟨S3200000, .i32⟩ : BufTy).Contents (Elt F)),
    StableHlo.binary main_v1 main_v148 main_v149 (cmpi .slt : (⟨S3200000, .i32⟩ : BufTy).Contents (Elt F) → (⟨S3200000, .i32⟩ : BufTy).Contents (Elt F) → (⟨S3200000, .i1⟩ : BufTy).Contents (Elt F)),
    StableHlo.nullary main_c_28 (constantI S_ 32 100000#32),
    StableHlo.unary main_c_28 main_v150 (broadcastInDim S3200000 ![] bcast_S_S3200000 : (⟨S_, .i32⟩ : BufTy).Contents (Elt F) → (⟨S3200000, .i32⟩ : BufTy).Contents (Elt F)),
    StableHlo.binary main_v1 main_v150 main_v151 (addi : (⟨S3200000, .i32⟩ : BufTy).Contents (Elt F) → (⟨S3200000, .i32⟩ : BufTy).Contents (Elt F) → (⟨S3200000, .i32⟩ : BufTy).Contents (Elt F)),
    StableHlo.ternary main_v149 main_v151 main_v1 main_v152 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v152 main_v153 (broadcastInDim S3200000x1 ![0] bcast_S3200000_S3200000x1_0 : (⟨S3200000, .i32⟩ : BufTy).Contents (Elt F) → (⟨S3200000x1, .i32⟩ : BufTy).Contents (Elt F)),
    StableHlo.binary main_v125 main_v153 main_v154 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_v147 main_v155 (broadcastInDim S3200000x1 ![0] bcast_S3200000_S3200000x1_0 : (⟨S3200000, .f32⟩ : BufTy).Contents (Elt F) → (⟨S3200000x1, .f32⟩ : BufTy).Contents (Elt F)),
    StableHlo.unary main_v155 main_v156 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v154 main_v156 main_v157 (mulf : (⟨S3200000x16, .f32⟩ : BufTy).Contents (Elt F) → (⟨S3200000x16, .f32⟩ : BufTy).Contents (Elt F) → (⟨S3200000x16, .f32⟩ : BufTy).Contents (Elt F)),
    StableHlo.nullary main_cst_29 (constant S_ .f32 0x00000000#32),
    StableHlo.unary main_cst_29 main_v158 (broadcastInDim S100000x16 ![] bcast_S_S100000x16 : (⟨S_, .f32⟩ : BufTy).Contents (Elt F) → (⟨S100000x16, .f32⟩ : BufTy).Contents (Elt F)),
    StableHlo.unary main_v3 main_v159 (broadcastInDim S3200000x1 ![0] bcast_S3200000_S3200000x1_0 : (⟨S3200000, .i32⟩ : BufTy).Contents (Elt F) → (⟨S3200000x1, .i32⟩ : BufTy).Contents (Elt F)),
    StableHlo.ternary main_v158 main_v159 main_v157 main_v160 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v132 main_v132 main_v161 (mulf : (⟨S100000, .f32⟩ : BufTy).Contents (Elt F) → (⟨S100000, .f32⟩ : BufTy).Contents (Elt F) → (⟨S100000, .f32⟩ : BufTy).Contents (Elt F)),
    StableHlo.unary main_v161 main_v162 (broadcastInDim S100000x1 ![0] bcast_S100000_S100000x1_0 : (⟨S100000, .f32⟩ : BufTy).Contents (Elt F) → (⟨S100000x1, .f32⟩ : BufTy).Contents (Elt F)),
    StableHlo.unary main_v162 main_v163 (broadcastInDim S100000x16 ![0, 1] bcast_S100000x1_S100000x16_0_1 : (⟨S100000x1, .f32⟩ : BufTy).Contents (Elt F) → (⟨S100000x16, .f32⟩ : BufTy).Contents (Elt F)),
    StableHlo.binary main_v125 main_v163 main_v164 (mulf : (⟨S100000x16, .f32⟩ : BufTy).Contents (Elt F) → (⟨S100000x16, .f32⟩ : BufTy).Contents (Elt F) → (⟨S100000x16, .f32⟩ : BufTy).Contents (Elt F)),
    StableHlo.binary main_v160 main_v164 main_v165 (addf : (⟨S100000x16, .f32⟩ : BufTy).Contents (Elt F) → (⟨S100000x16, .f32⟩ : BufTy).Contents (Elt F) → (⟨S100000x16, .f32⟩ : BufTy).Contents (Elt F)),
    StableHlo.unary main_arg8 main_v166 (broadcastInDim S1x16 ![1] bcast_S16_S1x16_1 : (⟨S16, .f32⟩ : BufTy).Contents (Elt F) → (⟨S1x16, .f32⟩ : BufTy).Contents (Elt F)),
    StableHlo.unary main_v166 main_v167 (broadcastInDim S100000x16 ![0, 1] bcast_S1x16_S100000x16_0_1 : (⟨S1x16, .f32⟩ : BufTy).Contents (Elt F) → (⟨S100000x16, .f32⟩ : BufTy).Contents (Elt F)),
    StableHlo.binary main_v165 main_v167 main_v168 (addf : (⟨S100000x16, .f32⟩ : BufTy).Contents (Elt F) → (⟨S100000x16, .f32⟩ : BufTy).Contents (Elt F) → (⟨S100000x16, .f32⟩ : BufTy).Contents (Elt F)),
    StableHlo.unary main_arg19 main_v169 (broadcastInDim S1x16 ![1] bcast_S16_S1x16_1 : (⟨S16, .f32⟩ : BufTy).Contents (Elt F) → (⟨S1x16, .f32⟩ : BufTy).Contents (Elt F)),
    StableHlo.unary main_v169 main_v170 (broadcastInDim S100000x16 ![0, 1] bcast_S1x16_S100000x16_0_1 : (⟨S1x16, .f32⟩ : BufTy).Contents (Elt F) → (⟨S100000x16, .f32⟩ : BufTy).Contents (Elt F)),
    StableHlo.binary main_v168 main_v170 main_v171 (subf : (⟨S100000x16, .f32⟩ : BufTy).Contents (Elt F) → (⟨S100000x16, .f32⟩ : BufTy).Contents (Elt F) → (⟨S100000x16, .f32⟩ : BufTy).Contents (Elt F)),
    StableHlo.nullary main_cst_30 (constant S_ .f32 0x3727C5AC#32),
    StableHlo.unary main_cst_30 main_v172 (broadcastInDim S16 ![] bcast_S_S16 : (⟨S_, .f32⟩ : BufTy).Contents (Elt F) → (⟨S16, .f32⟩ : BufTy).Contents (Elt F)),
    StableHlo.binary main_arg20 main_v172 main_v173 (addf : (⟨S16, .f32⟩ : BufTy).Contents (Elt F) → (⟨S16, .f32⟩ : BufTy).Contents (Elt F) → (⟨S16, .f32⟩ : BufTy).Contents (Elt F)),
    StableHlo.unary main_v173 main_v174 (Host.rsqrt : (⟨S16, .f32⟩ : BufTy).Contents (Elt F) → (⟨S16, .f32⟩ : BufTy).Contents (Elt F)),
    StableHlo.unary main_v174 main_v175 (broadcastInDim S1x16 ![1] bcast_S16_S1x16_1 : (⟨S16, .f32⟩ : BufTy).Contents (Elt F) → (⟨S1x16, .f32⟩ : BufTy).Contents (Elt F)),
    StableHlo.unary main_v175 main_v176 (broadcastInDim S100000x16 ![0, 1] bcast_S1x16_S100000x16_0_1 : (⟨S1x16, .f32⟩ : BufTy).Contents (Elt F) → (⟨S100000x16, .f32⟩ : BufTy).Contents (Elt F)),
    StableHlo.binary main_v171 main_v176 main_v177 (mulf : (⟨S100000x16, .f32⟩ : BufTy).Contents (Elt F) → (⟨S100000x16, .f32⟩ : BufTy).Contents (Elt F) → (⟨S100000x16, .f32⟩ : BufTy).Contents (Elt F)),
    StableHlo.unary main_arg17 main_v178 (broadcastInDim S1x16 ![1] bcast_S16_S1x16_1 : (⟨S16, .f32⟩ : BufTy).Contents (Elt F) → (⟨S1x16, .f32⟩ : BufTy).Contents (Elt F)),
    StableHlo.unary main_v178 main_v179 (broadcastInDim S100000x16 ![0, 1] bcast_S1x16_S100000x16_0_1 : (⟨S1x16, .f32⟩ : BufTy).Contents (Elt F) → (⟨S100000x16, .f32⟩ : BufTy).Contents (Elt F)),
    StableHlo.binary main_v177 main_v179 main_v180 (mulf : (⟨S100000x16, .f32⟩ : BufTy).Contents (Elt F) → (⟨S100000x16, .f32⟩ : BufTy).Contents (Elt F) → (⟨S100000x16, .f32⟩ : BufTy).Contents (Elt F)),
    StableHlo.unary main_arg18 main_v181 (broadcastInDim S1x16 ![1] bcast_S16_S1x16_1 : (⟨S16, .f32⟩ : BufTy).Contents (Elt F) → (⟨S1x16, .f32⟩ : BufTy).Contents (Elt F)),
    StableHlo.unary main_v181 main_v182 (broadcastInDim S100000x16 ![0, 1] bcast_S1x16_S100000x16_0_1 : (⟨S1x16, .f32⟩ : BufTy).Contents (Elt F) → (⟨S100000x16, .f32⟩ : BufTy).Contents (Elt F)),
    StableHlo.binary main_v180 main_v182 main_v183 (addf : (⟨S100000x16, .f32⟩ : BufTy).Contents (Elt F) → (⟨S100000x16, .f32⟩ : BufTy).Contents (Elt F) → (⟨S100000x16, .f32⟩ : BufTy).Contents (Elt F)),
    StableHlo.TRef.nullary main_call3.cst (constant S_ .f32 0x00000000#32),
    StableHlo.TRef.unary main_call3.cst main_call3.v0 (broadcastInDim S100000x16 ![] bcast_S_S100000x16),
    StableHlo.TRef.binary (.of main_v183 : StableHlo.TRef sig ⟨S100000x16, .f32⟩) main_call3.v0 main_call3.v1 maximumf,
    StableHlo.nullary main_c_31 (constantI S_ 32 0#32),
    StableHlo.unary main_c_31 main_v185 (broadcastInDim S3200000 ![] bcast_S_S3200000 : (⟨S_, .i32⟩ : BufTy).Contents (Elt F) → (⟨S3200000, .i32⟩ : BufTy).Contents (Elt F)),
    StableHlo.binary main_v1 main_v185 main_v186 (cmpi .slt : (⟨S3200000, .i32⟩ : BufTy).Contents (Elt F) → (⟨S3200000, .i32⟩ : BufTy).Contents (Elt F) → (⟨S3200000, .i1⟩ : BufTy).Contents (Elt F)),
    StableHlo.nullary main_c_32 (constantI S_ 32 100000#32),
    StableHlo.unary main_c_32 main_v187 (broadcastInDim S3200000 ![] bcast_S_S3200000 : (⟨S_, .i32⟩ : BufTy).Contents (Elt F) → (⟨S3200000, .i32⟩ : BufTy).Contents (Elt F)),
    StableHlo.binary main_v1 main_v187 main_v188 (addi : (⟨S3200000, .i32⟩ : BufTy).Contents (Elt F) → (⟨S3200000, .i32⟩ : BufTy).Contents (Elt F) → (⟨S3200000, .i32⟩ : BufTy).Contents (Elt F)),
    StableHlo.ternary main_v186 main_v188 main_v1 main_v189 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v189 main_v190 (broadcastInDim S3200000x1 ![0] bcast_S3200000_S3200000x1_0 : (⟨S3200000, .i32⟩ : BufTy).Contents (Elt F) → (⟨S3200000x1, .i32⟩ : BufTy).Contents (Elt F)),
    StableHlo.binary main_v184 main_v190 main_v191 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_c_33 (constantI S_ 32 0#32),
    StableHlo.unary main_c_33 main_v192 (broadcastInDim S3200000 ![] bcast_S_S3200000 : (⟨S_, .i32⟩ : BufTy).Contents (Elt F) → (⟨S3200000, .i32⟩ : BufTy).Contents (Elt F)),
    StableHlo.binary main_v3 main_v192 main_v193 (cmpi .slt : (⟨S3200000, .i32⟩ : BufTy).Contents (Elt F) → (⟨S3200000, .i32⟩ : BufTy).Contents (Elt F) → (⟨S3200000, .i1⟩ : BufTy).Contents (Elt F)),
    StableHlo.nullary main_c_34 (constantI S_ 32 100000#32),
    StableHlo.unary main_c_34 main_v194 (broadcastInDim S3200000 ![] bcast_S_S3200000 : (⟨S_, .i32⟩ : BufTy).Contents (Elt F) → (⟨S3200000, .i32⟩ : BufTy).Contents (Elt F)),
    StableHlo.binary main_v3 main_v194 main_v195 (addi : (⟨S3200000, .i32⟩ : BufTy).Contents (Elt F) → (⟨S3200000, .i32⟩ : BufTy).Contents (Elt F) → (⟨S3200000, .i32⟩ : BufTy).Contents (Elt F)),
    StableHlo.ternary main_v193 main_v195 main_v3 main_v196 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v196 main_v197 (broadcastInDim S3200000x1 ![0] bcast_S3200000_S3200000x1_0 : (⟨S3200000, .i32⟩ : BufTy).Contents (Elt F) → (⟨S3200000x1, .i32⟩ : BufTy).Contents (Elt F)),
    StableHlo.binary main_v184 main_v197 main_v198 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.TRef.binary (.of main_arg2 : StableHlo.TRef sig ⟨S3200000x8, .f32⟩) (.of main_arg2 : StableHlo.TRef sig ⟨S3200000x8, .f32⟩) main_call4.v0 (cmpf .une),
    StableHlo.TRef.nullary main_call4.cst (constant S_ .f32 0x00000000#32),
    StableHlo.TRef.unary main_call4.cst main_call4.call0.v0 (broadcastInDim S3200000x8 ![] bcast_S_S3200000x8),
    StableHlo.TRef.ternary main_call4.v0 main_call4.call0.v0 (.of main_arg2 : StableHlo.TRef sig ⟨S3200000x8, .f32⟩) main_call4.call0.v1 select,
    StableHlo.TRef.nullary main_call4.cst_0 (constant S_ .f32 0x7F800000#32),
    StableHlo.TRef.unary main_call4.cst_0 main_call4.v2 (broadcastInDim S3200000x8 ![] bcast_S_S3200000x8),
    StableHlo.TRef.binary main_call4.call0.v1 main_call4.v2 main_call4.v3 (cmpf .oeq),
    StableHlo.TRef.nullary main_call4.cst_1 (constant S_ .f32 0x7F7FFFFF#32),
    StableHlo.TRef.unary main_call4.cst_1 main_call4.call1.v0 (broadcastInDim S3200000x8 ![] bcast_S_S3200000x8),
    StableHlo.TRef.ternary main_call4.v3 main_call4.call1.v0 main_call4.call0.v1 main_call4.call1.v1 select,
    StableHlo.TRef.nullary main_call4.cst_2 (constant S_ .f32 0xFF800000#32),
    StableHlo.TRef.unary main_call4.cst_2 main_call4.v5 (broadcastInDim S3200000x8 ![] bcast_S_S3200000x8),
    StableHlo.TRef.binary main_call4.call1.v1 main_call4.v5 main_call4.v6 (cmpf .oeq),
    StableHlo.TRef.nullary main_call4.cst_3 (constant S_ .f32 0xFF7FFFFF#32),
    StableHlo.TRef.unary main_call4.cst_3 main_call4.call2.v0 (broadcastInDim S3200000x8 ![] bcast_S_S3200000x8),
    StableHlo.TRef.ternary main_call4.v6 main_call4.call2.v0 main_call4.call1.v1 main_call4.call2.v1 select,
    StableHlo.nary ![main_v191, main_v198, main_v199] main_v200 (fun u => concatenate S3200000x40 1 [⟨S3200000x16, u 0⟩, ⟨S3200000x16, u 1⟩, ⟨S3200000x8, u 2⟩] concatenates_S3200000x16_S3200000x16_S3200000x8_S3200000x40_d1),
    StableHlo.binary main_v200 main_arg21 main_v201 ((fun l r => Host.dotGeneral dot_S3200000x40_S40x32_S3200000x32_1_0_0_1_n_n none l r) : (⟨S3200000x40, .f32⟩ : BufTy).Contents (Elt F) → (⟨S40x32, .f32⟩ : BufTy).Contents (Elt F) → (⟨S3200000x32, .f32⟩ : BufTy).Contents (Elt F)),
    StableHlo.unary main_arg22 main_v202 (broadcastInDim S1x32 ![1] bcast_S32_S1x32_1 : (⟨S32, .f32⟩ : BufTy).Contents (Elt F) → (⟨S1x32, .f32⟩ : BufTy).Contents (Elt F)),
    StableHlo.unary main_v202 main_v203 (broadcastInDim S3200000x32 ![0, 1] bcast_S1x32_S3200000x32_0_1 : (⟨S1x32, .f32⟩ : BufTy).Contents (Elt F) → (⟨S3200000x32, .f32⟩ : BufTy).Contents (Elt F)),
    StableHlo.binary main_v201 main_v203 main_v204 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call5.cst (constant S_ .f32 0x00000000#32),
    StableHlo.TRef.unary main_call5.cst main_call5.v0 (broadcastInDim S3200000x32 ![] bcast_S_S3200000x32),
    StableHlo.TRef.binary (.of main_v204 : StableHlo.TRef sig ⟨S3200000x32, .f32⟩) main_call5.v0 main_call5.v1 maximumf,
    StableHlo.binary main_v205 main_arg23 main_v206 ((fun l r => Host.dotGeneral dot_S3200000x32_S32x16_S3200000x16_1_0_0_1_n_n none l r) : (⟨S3200000x32, .f32⟩ : BufTy).Contents (Elt F) → (⟨S32x16, .f32⟩ : BufTy).Contents (Elt F) → (⟨S3200000x16, .f32⟩ : BufTy).Contents (Elt F)),
    StableHlo.unary main_arg24 main_v207 (broadcastInDim S1x16 ![1] bcast_S16_S1x16_1 : (⟨S16, .f32⟩ : BufTy).Contents (Elt F) → (⟨S1x16, .f32⟩ : BufTy).Contents (Elt F)),
    StableHlo.unary main_v207 main_v208 (broadcastInDim S3200000x16 ![0, 1] bcast_S1x16_S3200000x16_0_1 : (⟨S1x16, .f32⟩ : BufTy).Contents (Elt F) → (⟨S3200000x16, .f32⟩ : BufTy).Contents (Elt F)),
    StableHlo.binary main_v206 main_v208 main_v209 (addf : (⟨S3200000x16, .f32⟩ : BufTy).Contents (Elt F) → (⟨S3200000x16, .f32⟩ : BufTy).Contents (Elt F) → (⟨S3200000x16, .f32⟩ : BufTy).Contents (Elt F)),
    StableHlo.TRef.nullary main_call6.cst (constant S_ .f32 0x00000000#32),
    StableHlo.TRef.unary main_call6.cst main_call6.v0 (broadcastInDim S3200000x16 ![] bcast_S_S3200000x16),
    StableHlo.TRef.binary (.of main_v209 : StableHlo.TRef sig ⟨S3200000x16, .f32⟩) main_call6.v0 main_call6.v1 maximumf,
    StableHlo.binary main_v210 main_arg25 main_v211 ((fun l r => Host.dotGeneral dot_S3200000x16_S16x2_S3200000x2_1_0_0_1_n_n none l r) : (⟨S3200000x16, .f32⟩ : BufTy).Contents (Elt F) → (⟨S16x2, .f32⟩ : BufTy).Contents (Elt F) → (⟨S3200000x2, .f32⟩ : BufTy).Contents (Elt F)),
    StableHlo.unary main_arg26 main_v212 (broadcastInDim S1x2 ![1] bcast_S2_S1x2_1 : (⟨S2, .f32⟩ : BufTy).Contents (Elt F) → (⟨S1x2, .f32⟩ : BufTy).Contents (Elt F)),
    StableHlo.unary main_v212 main_v213 (broadcastInDim S3200000x2 ![0, 1] bcast_S1x2_S3200000x2_0_1 : (⟨S1x2, .f32⟩ : BufTy).Contents (Elt F) → (⟨S3200000x2, .f32⟩ : BufTy).Contents (Elt F)),
    StableHlo.binary main_v211 main_v213 main_v214 (addf : (⟨S3200000x2, .f32⟩ : BufTy).Contents (Elt F) → (⟨S3200000x2, .f32⟩ : BufTy).Contents (Elt F) → (⟨S3200000x2, .f32⟩ : BufTy).Contents (Elt F)),
    StableHlo.TRef.binary (.of main_v214 : StableHlo.TRef sig ⟨S3200000x2, .f32⟩) (.of main_v214 : StableHlo.TRef sig ⟨S3200000x2, .f32⟩) main_call7.v0 (cmpf .une),
    StableHlo.TRef.nullary main_call7.cst (constant S_ .f32 0x00000000#32),
    StableHlo.TRef.unary main_call7.cst main_call7.call0.v0 (broadcastInDim S3200000x2 ![] bcast_S_S3200000x2),
    StableHlo.TRef.ternary main_call7.v0 main_call7.call0.v0 (.of main_v214 : StableHlo.TRef sig ⟨S3200000x2, .f32⟩) main_call7.call0.v1 select,
    StableHlo.TRef.nullary main_call7.cst_0 (constant S_ .f32 0x7F800000#32),
    StableHlo.TRef.unary main_call7.cst_0 main_call7.v2 (broadcastInDim S3200000x2 ![] bcast_S_S3200000x2),
    StableHlo.TRef.binary main_call7.call0.v1 main_call7.v2 main_call7.v3 (cmpf .oeq),
    StableHlo.TRef.nullary main_call7.cst_1 (constant S_ .f32 0x7F7FFFFF#32),
    StableHlo.TRef.unary main_call7.cst_1 main_call7.call1.v0 (broadcastInDim S3200000x2 ![] bcast_S_S3200000x2),
    StableHlo.TRef.ternary main_call7.v3 main_call7.call1.v0 main_call7.call0.v1 main_call7.call1.v1 select,
    StableHlo.TRef.nullary main_call7.cst_2 (constant S_ .f32 0xFF800000#32),
    StableHlo.TRef.unary main_call7.cst_2 main_call7.v5 (broadcastInDim S3200000x2 ![] bcast_S_S3200000x2),
    StableHlo.TRef.binary main_call7.call1.v1 main_call7.v5 main_call7.v6 (cmpf .oeq),
    StableHlo.TRef.nullary main_call7.cst_3 (constant S_ .f32 0xFF7FFFFF#32),
    StableHlo.TRef.unary main_call7.cst_3 main_call7.call2.v0 (broadcastInDim S3200000x2 ![] bcast_S_S3200000x2),
    StableHlo.TRef.ternary main_call7.v6 main_call7.call2.v0 main_call7.call1.v1 main_call7.call2.v1 select ]

/-- Operations 1 … 75 of `ops`: those of @main's window 0. -/
abbrev ops0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.TRef.binary (.of main_arg0 : StableHlo.TRef sig ⟨S100000x128, .f32⟩) (.of main_arg0 : StableHlo.TRef sig ⟨S100000x128, .f32⟩) main_call0.v0 (cmpf .une),
    StableHlo.TRef.nullary main_call0.cst (constant S_ .f32 0x00000000#32),
    StableHlo.TRef.unary main_call0.cst main_call0.call0.v0 (broadcastInDim S100000x128 ![] bcast_S_S100000x128),
    StableHlo.TRef.ternary main_call0.v0 main_call0.call0.v0 (.of main_arg0 : StableHlo.TRef sig ⟨S100000x128, .f32⟩) main_call0.call0.v1 select,
    StableHlo.TRef.nullary main_call0.cst_0 (constant S_ .f32 0x7F800000#32),
    StableHlo.TRef.unary main_call0.cst_0 main_call0.v2 (broadcastInDim S100000x128 ![] bcast_S_S100000x128),
    StableHlo.TRef.binary main_call0.call0.v1 main_call0.v2 main_call0.v3 (cmpf .oeq),
    StableHlo.TRef.nullary main_call0.cst_1 (constant S_ .f32 0x7F7FFFFF#32),
    StableHlo.TRef.unary main_call0.cst_1 main_call0.call1.v0 (broadcastInDim S100000x128 ![] bcast_S_S100000x128),
    StableHlo.TRef.ternary main_call0.v3 main_call0.call1.v0 main_call0.call0.v1 main_call0.call1.v1 select,
    StableHlo.TRef.nullary main_call0.cst_2 (constant S_ .f32 0xFF800000#32),
    StableHlo.TRef.unary main_call0.cst_2 main_call0.v5 (broadcastInDim S100000x128 ![] bcast_S_S100000x128),
    StableHlo.TRef.binary main_call0.call1.v1 main_call0.v5 main_call0.v6 (cmpf .oeq),
    StableHlo.TRef.nullary main_call0.cst_3 (constant S_ .f32 0xFF7FFFFF#32),
    StableHlo.TRef.unary main_call0.cst_3 main_call0.call2.v0 (broadcastInDim S100000x128 ![] bcast_S_S100000x128),
    StableHlo.TRef.ternary main_call0.v6 main_call0.call2.v0 main_call0.call1.v1 main_call0.call2.v1 select,
    StableHlo.binary main_v4 main_arg3 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_cst (constant S_ .f32 0x3F800000#32),
    StableHlo.unary main_cst main_v6 (broadcastInDim S3200000 ![] bcast_S_S3200000 : (⟨S_, .f32⟩ : BufTy).Contents (Elt F) → (⟨S3200000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.unary main_v3 main_v8 (broadcastInDim S3200000x1 ![0] bcast_S3200000_S3200000x1_0 : (⟨S3200000, .i32⟩ : BufTy).Contents (Elt F) → (⟨S3200000x1, .i32⟩ : BufTy).Contents (Elt F)),
    StableHlo.ternary main_v7 main_v8 main_v6 main_v9 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_1 (constant S_ .f32 0x3F800000#32),
    StableHlo.unary main_cst_1 main_v10 (broadcastInDim S100000 ![] bcast_S_S100000 : (⟨S_, .f32⟩ : BufTy).Contents (Elt F) → (⟨S100000, .f32⟩ : BufTy).Contents (Elt F)),
    StableHlo.binary main_v9 main_v10 main_v11 (addf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S3200000 ![] bcast_S_S3200000 : (⟨S_, .i32⟩ : BufTy).Contents (Elt F) → (⟨S3200000, .i32⟩ : BufTy).Contents (Elt F)),
    StableHlo.binary main_v1 main_v13 main_v14 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v15 (broadcastInDim S3200000 ![] bcast_S_S3200000 : (⟨S_, .i32⟩ : BufTy).Contents (Elt F) → (⟨S3200000, .i32⟩ : BufTy).Contents (Elt F)),
    StableHlo.binary main_v1 main_v15 main_v16 (addi : (⟨S3200000, .i32⟩ : BufTy).Contents (Elt F) → (⟨S3200000, .i32⟩ : BufTy).Contents (Elt F) → (⟨S3200000, .i32⟩ : BufTy).Contents (Elt F)),
    StableHlo.ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v17 main_v18 (broadcastInDim S3200000x1 ![0] bcast_S3200000_S3200000x1_0 : (⟨S3200000, .i32⟩ : BufTy).Contents (Elt F) → (⟨S3200000x1, .i32⟩ : BufTy).Contents (Elt F)),
    StableHlo.binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_3 (constantI S_ 32 0#32),
    StableHlo.unary main_c_3 main_v20 (broadcastInDim S3200000 ![] bcast_S_S3200000 : (⟨S_, .i32⟩ : BufTy).Contents (Elt F) → (⟨S3200000, .i32⟩ : BufTy).Contents (Elt F)),
    StableHlo.binary main_v3 main_v20 main_v21 (cmpi .slt : (⟨S3200000, .i32⟩ : BufTy).Contents (Elt F) → (⟨S3200000, .i32⟩ : BufTy).Contents (Elt F) → (⟨S3200000, .i1⟩ : BufTy).Contents (Elt F)),
    StableHlo.nullary main_c_4 (constantI S_ 32 100000#32),
    StableHlo.unary main_c_4 main_v22 (broadcastInDim S3200000 ![] bcast_S_S3200000 : (⟨S_, .i32⟩ : BufTy).Contents (Elt F) → (⟨S3200000, .i32⟩ : BufTy).Contents (Elt F)),
    StableHlo.binary main_v3 main_v22 main_v23 (addi : (⟨S3200000, .i32⟩ : BufTy).Contents (Elt F) → (⟨S3200000, .i32⟩ : BufTy).Contents (Elt F) → (⟨S3200000, .i32⟩ : BufTy).Contents (Elt F)),
    StableHlo.ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v24 main_v25 (broadcastInDim S3200000x1 ![0] bcast_S3200000_S3200000x1_0 : (⟨S3200000, .i32⟩ : BufTy).Contents (Elt F) → (⟨S3200000x1, .i32⟩ : BufTy).Contents (Elt F)),
    StableHlo.binary main_v12 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v19 main_v26 main_v27 (mulf : (⟨S3200000, .f32⟩ : BufTy).Contents (Elt F) → (⟨S3200000, .f32⟩ : BufTy).Contents (Elt F) → (⟨S3200000, .f32⟩ : BufTy).Contents (Elt F)),
    StableHlo.nullary main_c_5 (constantI S_ 32 0#32),
    StableHlo.unary main_c_5 main_v28 (broadcastInDim S3200000 ![] bcast_S_S3200000 : (⟨S_, .i32⟩ : BufTy).Contents (Elt F) → (⟨S3200000, .i32⟩ : BufTy).Contents (Elt F)),
    StableHlo.binary main_v1 main_v28 main_v29 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v30 (broadcastInDim S3200000 ![] bcast_S_S3200000 : (⟨S_, .i32⟩ : BufTy).Contents (Elt F) → (⟨S3200000, .i32⟩ : BufTy).Contents (Elt F)),
    StableHlo.binary main_v1 main_v30 main_v31 (addi : (⟨S3200000, .i32⟩ : BufTy).Contents (Elt F) → (⟨S3200000, .i32⟩ : BufTy).Contents (Elt F) → (⟨S3200000, .i32⟩ : BufTy).Contents (Elt F)),
    StableHlo.ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v32 main_v33 (broadcastInDim S3200000x1 ![0] bcast_S3200000_S3200000x1_0 : (⟨S3200000, .i32⟩ : BufTy).Contents (Elt F) → (⟨S3200000x1, .i32⟩ : BufTy).Contents (Elt F)),
    StableHlo.binary main_v5 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v27 main_v35 (broadcastInDim S3200000x1 ![0] bcast_S3200000_S3200000x1_0 : (⟨S3200000, .f32⟩ : BufTy).Contents (Elt F) → (⟨S3200000x1, .f32⟩ : BufTy).Contents (Elt F)),
    StableHlo.unary main_v35 main_v36 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v34 main_v36 main_v37 (mulf : (⟨S3200000x64, .f32⟩ : BufTy).Contents (Elt F) → (⟨S3200000x64, .f32⟩ : BufTy).Contents (Elt F) → (⟨S3200000x64, .f32⟩ : BufTy).Contents (Elt F)),
    StableHlo.nullary main_cst_7 (constant S_ .f32 0x00000000#32),
    StableHlo.unary main_cst_7 main_v38 (broadcastInDim S100000x64 ![] bcast_S_S100000x64 : (⟨S_, .f32⟩ : BufTy).Contents (Elt F) → (⟨S100000x64, .f32⟩ : BufTy).Contents (Elt F)),
    StableHlo.unary main_v3 main_v39 (broadcastInDim S3200000x1 ![0] bcast_S3200000_S3200000x1_0 : (⟨S3200000, .i32⟩ : BufTy).Contents (Elt F) → (⟨S3200000x1, .i32⟩ : BufTy).Contents (Elt F)),
    StableHlo.ternary main_v38 main_v39 main_v37 main_v40 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.binary main_v12 main_v12 main_v41 (mulf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x64 ![0, 1] bcast_S100000x1_S100000x64_0_1 : (⟨S100000x1, .f32⟩ : BufTy).Contents (Elt F) → (⟨S100000x64, .f32⟩ : BufTy).Contents (Elt F)),
    StableHlo.binary main_v5 main_v43 main_v44 (mulf : (⟨S100000x64, .f32⟩ : BufTy).Contents (Elt F) → (⟨S100000x64, .f32⟩ : BufTy).Contents (Elt F) → (⟨S100000x64, .f32⟩ : BufTy).Contents (Elt F)),
    StableHlo.binary main_v40 main_v44 main_v45 (addf : (⟨S100000x64, .f32⟩ : BufTy).Contents (Elt F) → (⟨S100000x64, .f32⟩ : BufTy).Contents (Elt F) → (⟨S100000x64, .f32⟩ : BufTy).Contents (Elt F)),
    StableHlo.unary main_arg4 main_v46 (broadcastInDim S1x64 ![1] bcast_S64_S1x64_1 : (⟨S64, .f32⟩ : BufTy).Contents (Elt F) → (⟨S1x64, .f32⟩ : BufTy).Contents (Elt F)),
    StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
    StableHlo.unary main_arg11 main_v49 (broadcastInDim S1x64 ![1] bcast_S64_S1x64_1 : (⟨S64, .f32⟩ : BufTy).Contents (Elt F) → (⟨S1x64, .f32⟩ : BufTy).Contents (Elt F)) ]

/-- Operations 76 … 137 of `ops`: those of @main's window 1. -/
abbrev ops1 : List (HloOp τ sig (Elt F)) :=
  [ StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v50 main_v51 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v52 (broadcastInDim S64 ![] bcast_S_S64 : (⟨S_, .f32⟩ : BufTy).Contents (Elt F) → (⟨S64, .f32⟩ : BufTy).Contents (Elt F)),
    StableHlo.binary main_arg12 main_v52 main_v53 (addf : (⟨S64, .f32⟩ : BufTy).Contents (Elt F) → (⟨S64, .f32⟩ : BufTy).Contents (Elt F) → (⟨S64, .f32⟩ : BufTy).Contents (Elt F)),
    StableHlo.unary main_v53 main_v54 (Host.rsqrt : (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)),
    StableHlo.unary main_arg9 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (mulf : (⟨S100000x64, .f32⟩ : BufTy).Contents (Elt F) → (⟨S100000x64, .f32⟩ : BufTy).Contents (Elt F) → (⟨S100000x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v63 : StableHlo.TRef sig ⟨S100000x64, .f32⟩) main_call1.v0 main_call1.v1 maximumf,
    StableHlo.binary main_v64 main_arg5 main_v65 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.nullary main_cst_9 (constant S_ .f32 0x3F800000#32),
    StableHlo.unary main_cst_9 main_v66 (broadcastInDim S3200000 ![] bcast_S_S3200000 : (⟨S_, .f32⟩ : BufTy).Contents (Elt F) → (⟨S3200000, .f32⟩ : BufTy).Contents (Elt F)),
    StableHlo.nullary main_cst_10 (constant S_ .f32 0x00000000#32),
    StableHlo.unary main_cst_10 main_v67 (broadcastInDim S100000 ![] bcast_S_S100000 : (⟨S_, .f32⟩ : BufTy).Contents (Elt F) → (⟨S100000, .f32⟩ : BufTy).Contents (Elt F)),
    StableHlo.unary main_v3 main_v68 (broadcastInDim S3200000x1 ![0] bcast_S3200000_S3200000x1_0 : (⟨S3200000, .i32⟩ : BufTy).Contents (Elt F) → (⟨S3200000x1, .i32⟩ : BufTy).Contents (Elt F)),
    StableHlo.ternary main_v67 main_v68 main_v66 main_v69 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_11 (constant S_ .f32 0x3F800000#32),
    StableHlo.unary main_cst_11 main_v70 (broadcastInDim S100000 ![] bcast_S_S100000 : (⟨S_, .f32⟩ : BufTy).Contents (Elt F) → (⟨S100000, .f32⟩ : BufTy).Contents (Elt F)),
    StableHlo.binary main_v69 main_v70 main_v71 (addf : (⟨S100000, .f32⟩ : BufTy).Contents (Elt F) → (⟨S100000, .f32⟩ : BufTy).Contents (Elt F) → (⟨S100000, .f32⟩ : BufTy).Contents (Elt F)),
    StableHlo.unary main_v71 main_v72 (Host.rsqrt : (⟨S100000, .f32⟩ : BufTy).Contents (Elt F) → (⟨S100000, .f32⟩ : BufTy).Contents (Elt F)),
    StableHlo.nullary main_c_12 (constantI S_ 32 0#32),
    StableHlo.unary main_c_12 main_v73 (broadcastInDim S3200000 ![] bcast_S_S3200000 : (⟨S_, .i32⟩ : BufTy).Contents (Elt F) → (⟨S3200000, .i32⟩ : BufTy).Contents (Elt F)),
    StableHlo.binary main_v1 main_v73 main_v74 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v75 (broadcastInDim S3200000 ![] bcast_S_S3200000 : (⟨S_, .i32⟩ : BufTy).Contents (Elt F) → (⟨S3200000, .i32⟩ : BufTy).Contents (Elt F)),
    StableHlo.binary main_v1 main_v75 main_v76 (addi : (⟨S3200000, .i32⟩ : BufTy).Contents (Elt F) → (⟨S3200000, .i32⟩ : BufTy).Contents (Elt F) → (⟨S3200000, .i32⟩ : BufTy).Contents (Elt F)),
    StableHlo.ternary main_v74 main_v76 main_v1 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v77 main_v78 (broadcastInDim S3200000x1 ![0] bcast_S3200000_S3200000x1_0 : (⟨S3200000, .i32⟩ : BufTy).Contents (Elt F) → (⟨S3200000x1, .i32⟩ : BufTy).Contents (Elt F)),
    StableHlo.binary main_v72 main_v78 main_v79 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_14 (constantI S_ 32 0#32),
    StableHlo.unary main_c_14 main_v80 (broadcastInDim S3200000 ![] bcast_S_S3200000 : (⟨S_, .i32⟩ : BufTy).Contents (Elt F) → (⟨S3200000, .i32⟩ : BufTy).Contents (Elt F)),
    StableHlo.binary main_v3 main_v80 main_v81 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v82 (broadcastInDim S3200000 ![] bcast_S_S3200000 : (⟨S_, .i32⟩ : BufTy).Contents (Elt F) → (⟨S3200000, .i32⟩ : BufTy).Contents (Elt F)),
    StableHlo.binary main_v3 main_v82 main_v83 (addi : (⟨S3200000, .i32⟩ : BufTy).Contents (Elt F) → (⟨S3200000, .i32⟩ : BufTy).Contents (Elt F) → (⟨S3200000, .i32⟩ : BufTy).Contents (Elt F)),
    StableHlo.ternary main_v81 main_v83 main_v3 main_v84 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v84 main_v85 (broadcastInDim S3200000x1 ![0] bcast_S3200000_S3200000x1_0 : (⟨S3200000, .i32⟩ : BufTy).Contents (Elt F) → (⟨S3200000x1, .i32⟩ : BufTy).Contents (Elt F)),
    StableHlo.binary main_v72 main_v85 main_v86 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v79 main_v86 main_v87 (mulf : (⟨S3200000, .f32⟩ : BufTy).Contents (Elt F) → (⟨S3200000, .f32⟩ : BufTy).Contents (Elt F) → (⟨S3200000, .f32⟩ : BufTy).Contents (Elt F)),
    StableHlo.nullary main_c_16 (constantI S_ 32 0#32),
    StableHlo.unary main_c_16 main_v88 (broadcastInDim S3200000 ![] bcast_S_S3200000 : (⟨S_, .i32⟩ : BufTy).Contents (Elt F) → (⟨S3200000, .i32⟩ : BufTy).Contents (Elt F)),
    StableHlo.binary main_v1 main_v88 main_v89 (cmpi .slt : (⟨S3200000, .i32⟩ : BufTy).Contents (Elt F) → (⟨S3200000, .i32⟩ : BufTy).Contents (Elt F) → (⟨S3200000, .i1⟩ : BufTy).Contents (Elt F)),
    StableHlo.nullary main_c_17 (constantI S_ 32 100000#32),
    StableHlo.unary main_c_17 main_v90 (broadcastInDim S3200000 ![] bcast_S_S3200000 : (⟨S_, .i32⟩ : BufTy).Contents (Elt F) → (⟨S3200000, .i32⟩ : BufTy).Contents (Elt F)),
    StableHlo.binary main_v1 main_v90 main_v91 (addi : (⟨S3200000, .i32⟩ : BufTy).Contents (Elt F) → (⟨S3200000, .i32⟩ : BufTy).Contents (Elt F) → (⟨S3200000, .i32⟩ : BufTy).Contents (Elt F)),
    StableHlo.ternary main_v89 main_v91 main_v1 main_v92 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v92 main_v93 (broadcastInDim S3200000x1 ![0] bcast_S3200000_S3200000x1_0 : (⟨S3200000, .i32⟩ : BufTy).Contents (Elt F) → (⟨S3200000x1, .i32⟩ : BufTy).Contents (Elt F)),
    StableHlo.binary main_v65 main_v93 main_v94 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v87 main_v95 (broadcastInDim S3200000x1 ![0] bcast_S3200000_S3200000x1_0 : (⟨S3200000, .f32⟩ : BufTy).Contents (Elt F) → (⟨S3200000x1, .f32⟩ : BufTy).Contents (Elt F)),
    StableHlo.unary main_v95 main_v96 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v94 main_v96 main_v97 (mulf : (⟨S3200000x32, .f32⟩ : BufTy).Contents (Elt F) → (⟨S3200000x32, .f32⟩ : BufTy).Contents (Elt F) → (⟨S3200000x32, .f32⟩ : BufTy).Contents (Elt F)),
    StableHlo.nullary main_cst_18 (constant S_ .f32 0x00000000#32),
    StableHlo.unary main_cst_18 main_v98 (broadcastInDim S100000x32 ![] bcast_S_S100000x32 : (⟨S_, .f32⟩ : BufTy).Contents (Elt F) → (⟨S100000x32, .f32⟩ : BufTy).Contents (Elt F)) ]

/-- Operations 138 … 199 of `ops`: those of @main's window 2. -/
abbrev ops2 : List (HloOp τ sig (Elt F)) :=
  [ StableHlo.unary main_v3 main_v99 (broadcastInDim S3200000x1 ![0] bcast_S3200000_S3200000x1_0 : (⟨S3200000, .i32⟩ : BufTy).Contents (Elt F) → (⟨S3200000x1, .i32⟩ : BufTy).Contents (Elt F)),
    StableHlo.ternary main_v98 main_v99 main_v97 main_v100 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v72 main_v72 main_v101 (mulf : (⟨S100000, .f32⟩ : BufTy).Contents (Elt F) → (⟨S100000, .f32⟩ : BufTy).Contents (Elt F) → (⟨S100000, .f32⟩ : BufTy).Contents (Elt F)),
    StableHlo.unary main_v101 main_v102 (broadcastInDim S100000x1 ![0] bcast_S100000_S100000x1_0 : (⟨S100000, .f32⟩ : BufTy).Contents (Elt F) → (⟨S100000x1, .f32⟩ : BufTy).Contents (Elt F)),
    StableHlo.unary main_v102 main_v103 (broadcastInDim S100000x32 ![0, 1] bcast_S100000x1_S100000x32_0_1 : (⟨S100000x1, .f32⟩ : BufTy).Contents (Elt F) → (⟨S100000x32, .f32⟩ : BufTy).Contents (Elt F)),
    StableHlo.binary main_v65 main_v103 main_v104 (mulf : (⟨S100000x32, .f32⟩ : BufTy).Contents (Elt F) → (⟨S100000x32, .f32⟩ : BufTy).Contents (Elt F) → (⟨S100000x32, .f32⟩ : BufTy).Contents (Elt F)),
    StableHlo.binary main_v100 main_v104 main_v105 (addf : (⟨S100000x32, .f32⟩ : BufTy).Contents (Elt F) → (⟨S100000x32, .f32⟩ : BufTy).Contents (Elt F) → (⟨S100000x32, .f32⟩ : BufTy).Contents (Elt F)),
    StableHlo.unary main_arg6 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v105 main_v107 main_v108 (addf : (⟨S100000x32, .f32⟩ : BufTy).Contents (Elt F) → (⟨S100000x32, .f32⟩ : BufTy).Contents (Elt F) → (⟨S100000x32, .f32⟩ : BufTy).Contents (Elt F)),
    StableHlo.unary main_arg15 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (subf : (⟨S100000x32, .f32⟩ : BufTy).Contents (Elt F) → (⟨S100000x32, .f32⟩ : BufTy).Contents (Elt F) → (⟨S100000x32, .f32⟩ : BufTy).Contents (Elt F)),
    StableHlo.nullary main_cst_19 (constant S_ .f32 0x3727C5AC#32),
    StableHlo.unary main_cst_19 main_v112 (broadcastInDim S32 ![] bcast_S_S32 : (⟨S_, .f32⟩ : BufTy).Contents (Elt F) → (⟨S32, .f32⟩ : BufTy).Contents (Elt F)),
    StableHlo.binary main_arg16 main_v112 main_v113 (addf : (⟨S32, .f32⟩ : BufTy).Contents (Elt F) → (⟨S32, .f32⟩ : BufTy).Contents (Elt F) → (⟨S32, .f32⟩ : BufTy).Contents (Elt F)),
    StableHlo.unary main_v113 main_v114 (Host.rsqrt : (⟨S32, .f32⟩ : BufTy).Contents (Elt F) → (⟨S32, .f32⟩ : BufTy).Contents (Elt F)),
    StableHlo.unary main_v114 main_v115 (broadcastInDim S1x32 ![1] bcast_S32_S1x32_1 : (⟨S32, .f32⟩ : BufTy).Contents (Elt F) → (⟨S1x32, .f32⟩ : BufTy).Contents (Elt F)),
    StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v116 main_v117 (mulf : (⟨S100000x32, .f32⟩ : BufTy).Contents (Elt F) → (⟨S100000x32, .f32⟩ : BufTy).Contents (Elt F) → (⟨S100000x32, .f32⟩ : BufTy).Contents (Elt F)),
    StableHlo.unary main_arg13 main_v118 (broadcastInDim S1x32 ![1] bcast_S32_S1x32_1 : (⟨S32, .f32⟩ : BufTy).Contents (Elt F) → (⟨S1x32, .f32⟩ : BufTy).Contents (Elt F)),
    StableHlo.unary main_v118 main_v119 (broadcastInDim S100000x32 ![0, 1] bcast_S1x32_S100000x32_0_1 : (⟨S1x32, .f32⟩ : BufTy).Contents (Elt F) → (⟨S100000x32, .f32⟩ : BufTy).Contents (Elt F)),
    StableHlo.binary main_v117 main_v119 main_v120 (mulf : (⟨S100000x32, .f32⟩ : BufTy).Contents (Elt F) → (⟨S100000x32, .f32⟩ : BufTy).Contents (Elt F) → (⟨S100000x32, .f32⟩ : BufTy).Contents (Elt F)),
    StableHlo.unary main_arg14 main_v121 (broadcastInDim S1x32 ![1] bcast_S32_S1x32_1 : (⟨S32, .f32⟩ : BufTy).Contents (Elt F) → (⟨S1x32, .f32⟩ : BufTy).Contents (Elt F)),
    StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
    StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v123 : StableHlo.TRef sig ⟨S100000x32, .f32⟩) main_call2.v0 main_call2.v1 maximumf,
    StableHlo.binary main_v124 main_arg7 main_v125 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.nullary main_cst_20 (constant S_ .f32 0x3F800000#32),
    StableHlo.unary main_cst_20 main_v126 (broadcastInDim S3200000 ![] bcast_S_S3200000 : (⟨S_, .f32⟩ : BufTy).Contents (Elt F) → (⟨S3200000, .f32⟩ : BufTy).Contents (Elt F)),
    StableHlo.nullary main_cst_21 (constant S_ .f32 0x00000000#32),
    StableHlo.unary main_cst_21 main_v127 (broadcastInDim S100000 ![] bcast_S_S100000 : (⟨S_, .f32⟩ : BufTy).Contents (Elt F) → (⟨S100000, .f32⟩ : BufTy).Contents (Elt F)),
    StableHlo.unary main_v3 main_v128 (broadcastInDim S3200000x1 ![0] bcast_S3200000_S3200000x1_0 : (⟨S3200000, .i32⟩ : BufTy).Contents (Elt F) → (⟨S3200000x1, .i32⟩ : BufTy).Contents (Elt F)),
    StableHlo.ternary main_v127 main_v128 main_v126 main_v129 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_22 (constant S_ .f32 0x3F800000#32),
    StableHlo.unary main_cst_22 main_v130 (broadcastInDim S100000 ![] bcast_S_S100000 : (⟨S_, .f32⟩ : BufTy).Contents (Elt F) → (⟨S100000, .f32⟩ : BufTy).Contents (Elt F)),
    StableHlo.binary main_v129 main_v130 main_v131 (addf : (⟨S100000, .f32⟩ : BufTy).Contents (Elt F) → (⟨S100000, .f32⟩ : BufTy).Contents (Elt F) → (⟨S100000, .f32⟩ : BufTy).Contents (Elt F)),
    StableHlo.unary main_v131 main_v132 (Host.rsqrt : (⟨S100000, .f32⟩ : BufTy).Contents (Elt F) → (⟨S100000, .f32⟩ : BufTy).Contents (Elt F)),
    StableHlo.nullary main_c_23 (constantI S_ 32 0#32),
    StableHlo.unary main_c_23 main_v133 (broadcastInDim S3200000 ![] bcast_S_S3200000 : (⟨S_, .i32⟩ : BufTy).Contents (Elt F) → (⟨S3200000, .i32⟩ : BufTy).Contents (Elt F)),
    StableHlo.binary main_v1 main_v133 main_v134 (cmpi .slt : (⟨S3200000, .i32⟩ : BufTy).Contents (Elt F) → (⟨S3200000, .i32⟩ : BufTy).Contents (Elt F) → (⟨S3200000, .i1⟩ : BufTy).Contents (Elt F)),
    StableHlo.nullary main_c_24 (constantI S_ 32 100000#32),
    StableHlo.unary main_c_24 main_v135 (broadcastInDim S3200000 ![] bcast_S_S3200000 : (⟨S_, .i32⟩ : BufTy).Contents (Elt F) → (⟨S3200000, .i32⟩ : BufTy).Contents (Elt F)),
    StableHlo.binary main_v1 main_v135 main_v136 (addi : (⟨S3200000, .i32⟩ : BufTy).Contents (Elt F) → (⟨S3200000, .i32⟩ : BufTy).Contents (Elt F) → (⟨S3200000, .i32⟩ : BufTy).Contents (Elt F)),
    StableHlo.ternary main_v134 main_v136 main_v1 main_v137 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v137 main_v138 (broadcastInDim S3200000x1 ![0] bcast_S3200000_S3200000x1_0 : (⟨S3200000, .i32⟩ : BufTy).Contents (Elt F) → (⟨S3200000x1, .i32⟩ : BufTy).Contents (Elt F)),
    StableHlo.binary main_v132 main_v138 main_v139 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_25 (constantI S_ 32 0#32),
    StableHlo.unary main_c_25 main_v140 (broadcastInDim S3200000 ![] bcast_S_S3200000 : (⟨S_, .i32⟩ : BufTy).Contents (Elt F) → (⟨S3200000, .i32⟩ : BufTy).Contents (Elt F)),
    StableHlo.binary main_v3 main_v140 main_v141 (cmpi .slt : (⟨S3200000, .i32⟩ : BufTy).Contents (Elt F) → (⟨S3200000, .i32⟩ : BufTy).Contents (Elt F) → (⟨S3200000, .i1⟩ : BufTy).Contents (Elt F)),
    StableHlo.nullary main_c_26 (constantI S_ 32 100000#32),
    StableHlo.unary main_c_26 main_v142 (broadcastInDim S3200000 ![] bcast_S_S3200000 : (⟨S_, .i32⟩ : BufTy).Contents (Elt F) → (⟨S3200000, .i32⟩ : BufTy).Contents (Elt F)),
    StableHlo.binary main_v3 main_v142 main_v143 (addi : (⟨S3200000, .i32⟩ : BufTy).Contents (Elt F) → (⟨S3200000, .i32⟩ : BufTy).Contents (Elt F) → (⟨S3200000, .i32⟩ : BufTy).Contents (Elt F)),
    StableHlo.ternary main_v141 main_v143 main_v3 main_v144 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v144 main_v145 (broadcastInDim S3200000x1 ![0] bcast_S3200000_S3200000x1_0 : (⟨S3200000, .i32⟩ : BufTy).Contents (Elt F) → (⟨S3200000x1, .i32⟩ : BufTy).Contents (Elt F)),
    StableHlo.binary main_v132 main_v145 main_v146 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v139 main_v146 main_v147 (mulf : (⟨S3200000, .f32⟩ : BufTy).Contents (Elt F) → (⟨S3200000, .f32⟩ : BufTy).Contents (Elt F) → (⟨S3200000, .f32⟩ : BufTy).Contents (Elt F)),
    StableHlo.nullary main_c_27 (constantI S_ 32 0#32),
    StableHlo.unary main_c_27 main_v148 (broadcastInDim S3200000 ![] bcast_S_S3200000 : (⟨S_, .i32⟩ : BufTy).Contents (Elt F) → (⟨S3200000, .i32⟩ : BufTy).Contents (Elt F)),
    StableHlo.binary main_v1 main_v148 main_v149 (cmpi .slt : (⟨S3200000, .i32⟩ : BufTy).Contents (Elt F) → (⟨S3200000, .i32⟩ : BufTy).Contents (Elt F) → (⟨S3200000, .i1⟩ : BufTy).Contents (Elt F)) ]

/-- Operations 200 … 276 of `ops`: those of @main's window 3. -/
abbrev ops3 : List (HloOp τ sig (Elt F)) :=
  [ StableHlo.nullary main_c_28 (constantI S_ 32 100000#32),
    StableHlo.unary main_c_28 main_v150 (broadcastInDim S3200000 ![] bcast_S_S3200000 : (⟨S_, .i32⟩ : BufTy).Contents (Elt F) → (⟨S3200000, .i32⟩ : BufTy).Contents (Elt F)),
    StableHlo.binary main_v1 main_v150 main_v151 (addi : (⟨S3200000, .i32⟩ : BufTy).Contents (Elt F) → (⟨S3200000, .i32⟩ : BufTy).Contents (Elt F) → (⟨S3200000, .i32⟩ : BufTy).Contents (Elt F)),
    StableHlo.ternary main_v149 main_v151 main_v1 main_v152 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v152 main_v153 (broadcastInDim S3200000x1 ![0] bcast_S3200000_S3200000x1_0 : (⟨S3200000, .i32⟩ : BufTy).Contents (Elt F) → (⟨S3200000x1, .i32⟩ : BufTy).Contents (Elt F)),
    StableHlo.binary main_v125 main_v153 main_v154 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.unary main_v147 main_v155 (broadcastInDim S3200000x1 ![0] bcast_S3200000_S3200000x1_0 : (⟨S3200000, .f32⟩ : BufTy).Contents (Elt F) → (⟨S3200000x1, .f32⟩ : BufTy).Contents (Elt F)),
    StableHlo.unary main_v155 main_v156 (broadcastInDim S3200000x16 ![0, 1] bcast_S3200000x1_S3200000x16_0_1 : (⟨S3200000x1, .f32⟩ : BufTy).Contents (Elt F) → (⟨S3200000x16, .f32⟩ : BufTy).Contents (Elt F)),
    StableHlo.binary main_v154 main_v156 main_v157 (mulf : (⟨S3200000x16, .f32⟩ : BufTy).Contents (Elt F) → (⟨S3200000x16, .f32⟩ : BufTy).Contents (Elt F) → (⟨S3200000x16, .f32⟩ : BufTy).Contents (Elt F)),
    StableHlo.nullary main_cst_29 (constant S_ .f32 0x00000000#32),
    StableHlo.unary main_cst_29 main_v158 (broadcastInDim S100000x16 ![] bcast_S_S100000x16 : (⟨S_, .f32⟩ : BufTy).Contents (Elt F) → (⟨S100000x16, .f32⟩ : BufTy).Contents (Elt F)),
    StableHlo.unary main_v3 main_v159 (broadcastInDim S3200000x1 ![0] bcast_S3200000_S3200000x1_0 : (⟨S3200000, .i32⟩ : BufTy).Contents (Elt F) → (⟨S3200000x1, .i32⟩ : BufTy).Contents (Elt F)),
    StableHlo.ternary main_v158 main_v159 main_v157 main_v160 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.binary main_v132 main_v132 main_v161 (mulf : (⟨S100000, .f32⟩ : BufTy).Contents (Elt F) → (⟨S100000, .f32⟩ : BufTy).Contents (Elt F) → (⟨S100000, .f32⟩ : BufTy).Contents (Elt F)),
    StableHlo.unary main_v161 main_v162 (broadcastInDim S100000x1 ![0] bcast_S100000_S100000x1_0 : (⟨S100000, .f32⟩ : BufTy).Contents (Elt F) → (⟨S100000x1, .f32⟩ : BufTy).Contents (Elt F)),
    StableHlo.unary main_v162 main_v163 (broadcastInDim S100000x16 ![0, 1] bcast_S100000x1_S100000x16_0_1 : (⟨S100000x1, .f32⟩ : BufTy).Contents (Elt F) → (⟨S100000x16, .f32⟩ : BufTy).Contents (Elt F)),
    StableHlo.binary main_v125 main_v163 main_v164 (mulf : (⟨S100000x16, .f32⟩ : BufTy).Contents (Elt F) → (⟨S100000x16, .f32⟩ : BufTy).Contents (Elt F) → (⟨S100000x16, .f32⟩ : BufTy).Contents (Elt F)),
    StableHlo.binary main_v160 main_v164 main_v165 (addf : (⟨S100000x16, .f32⟩ : BufTy).Contents (Elt F) → (⟨S100000x16, .f32⟩ : BufTy).Contents (Elt F) → (⟨S100000x16, .f32⟩ : BufTy).Contents (Elt F)),
    StableHlo.unary main_arg8 main_v166 (broadcastInDim S1x16 ![1] bcast_S16_S1x16_1 : (⟨S16, .f32⟩ : BufTy).Contents (Elt F) → (⟨S1x16, .f32⟩ : BufTy).Contents (Elt F)),
    StableHlo.unary main_v166 main_v167 (broadcastInDim S100000x16 ![0, 1] bcast_S1x16_S100000x16_0_1 : (⟨S1x16, .f32⟩ : BufTy).Contents (Elt F) → (⟨S100000x16, .f32⟩ : BufTy).Contents (Elt F)),
    StableHlo.binary main_v165 main_v167 main_v168 (addf : (⟨S100000x16, .f32⟩ : BufTy).Contents (Elt F) → (⟨S100000x16, .f32⟩ : BufTy).Contents (Elt F) → (⟨S100000x16, .f32⟩ : BufTy).Contents (Elt F)),
    StableHlo.unary main_arg19 main_v169 (broadcastInDim S1x16 ![1] bcast_S16_S1x16_1 : (⟨S16, .f32⟩ : BufTy).Contents (Elt F) → (⟨S1x16, .f32⟩ : BufTy).Contents (Elt F)),
    StableHlo.unary main_v169 main_v170 (broadcastInDim S100000x16 ![0, 1] bcast_S1x16_S100000x16_0_1 : (⟨S1x16, .f32⟩ : BufTy).Contents (Elt F) → (⟨S100000x16, .f32⟩ : BufTy).Contents (Elt F)),
    StableHlo.binary main_v168 main_v170 main_v171 (subf : (⟨S100000x16, .f32⟩ : BufTy).Contents (Elt F) → (⟨S100000x16, .f32⟩ : BufTy).Contents (Elt F) → (⟨S100000x16, .f32⟩ : BufTy).Contents (Elt F)),
    StableHlo.nullary main_cst_30 (constant S_ .f32 0x3727C5AC#32),
    StableHlo.unary main_cst_30 main_v172 (broadcastInDim S16 ![] bcast_S_S16 : (⟨S_, .f32⟩ : BufTy).Contents (Elt F) → (⟨S16, .f32⟩ : BufTy).Contents (Elt F)),
    StableHlo.binary main_arg20 main_v172 main_v173 (addf : (⟨S16, .f32⟩ : BufTy).Contents (Elt F) → (⟨S16, .f32⟩ : BufTy).Contents (Elt F) → (⟨S16, .f32⟩ : BufTy).Contents (Elt F)),
    StableHlo.unary main_v173 main_v174 (Host.rsqrt : (⟨S16, .f32⟩ : BufTy).Contents (Elt F) → (⟨S16, .f32⟩ : BufTy).Contents (Elt F)),
    StableHlo.unary main_v174 main_v175 (broadcastInDim S1x16 ![1] bcast_S16_S1x16_1 : (⟨S16, .f32⟩ : BufTy).Contents (Elt F) → (⟨S1x16, .f32⟩ : BufTy).Contents (Elt F)),
    StableHlo.unary main_v175 main_v176 (broadcastInDim S100000x16 ![0, 1] bcast_S1x16_S100000x16_0_1 : (⟨S1x16, .f32⟩ : BufTy).Contents (Elt F) → (⟨S100000x16, .f32⟩ : BufTy).Contents (Elt F)),
    StableHlo.binary main_v171 main_v176 main_v177 (mulf : (⟨S100000x16, .f32⟩ : BufTy).Contents (Elt F) → (⟨S100000x16, .f32⟩ : BufTy).Contents (Elt F) → (⟨S100000x16, .f32⟩ : BufTy).Contents (Elt F)),
    StableHlo.unary main_arg17 main_v178 (broadcastInDim S1x16 ![1] bcast_S16_S1x16_1 : (⟨S16, .f32⟩ : BufTy).Contents (Elt F) → (⟨S1x16, .f32⟩ : BufTy).Contents (Elt F)),
    StableHlo.unary main_v178 main_v179 (broadcastInDim S100000x16 ![0, 1] bcast_S1x16_S100000x16_0_1 : (⟨S1x16, .f32⟩ : BufTy).Contents (Elt F) → (⟨S100000x16, .f32⟩ : BufTy).Contents (Elt F)),
    StableHlo.binary main_v177 main_v179 main_v180 (mulf : (⟨S100000x16, .f32⟩ : BufTy).Contents (Elt F) → (⟨S100000x16, .f32⟩ : BufTy).Contents (Elt F) → (⟨S100000x16, .f32⟩ : BufTy).Contents (Elt F)),
    StableHlo.unary main_arg18 main_v181 (broadcastInDim S1x16 ![1] bcast_S16_S1x16_1 : (⟨S16, .f32⟩ : BufTy).Contents (Elt F) → (⟨S1x16, .f32⟩ : BufTy).Contents (Elt F)),
    StableHlo.unary main_v181 main_v182 (broadcastInDim S100000x16 ![0, 1] bcast_S1x16_S100000x16_0_1 : (⟨S1x16, .f32⟩ : BufTy).Contents (Elt F) → (⟨S100000x16, .f32⟩ : BufTy).Contents (Elt F)),
    StableHlo.binary main_v180 main_v182 main_v183 (addf : (⟨S100000x16, .f32⟩ : BufTy).Contents (Elt F) → (⟨S100000x16, .f32⟩ : BufTy).Contents (Elt F) → (⟨S100000x16, .f32⟩ : BufTy).Contents (Elt F)),
    StableHlo.TRef.nullary main_call3.cst (constant S_ .f32 0x00000000#32),
    StableHlo.TRef.unary main_call3.cst main_call3.v0 (broadcastInDim S100000x16 ![] bcast_S_S100000x16),
    StableHlo.TRef.binary (.of main_v183 : StableHlo.TRef sig ⟨S100000x16, .f32⟩) main_call3.v0 main_call3.v1 maximumf,
    StableHlo.nullary main_c_31 (constantI S_ 32 0#32),
    StableHlo.unary main_c_31 main_v185 (broadcastInDim S3200000 ![] bcast_S_S3200000 : (⟨S_, .i32⟩ : BufTy).Contents (Elt F) → (⟨S3200000, .i32⟩ : BufTy).Contents (Elt F)),
    StableHlo.binary main_v1 main_v185 main_v186 (cmpi .slt : (⟨S3200000, .i32⟩ : BufTy).Contents (Elt F) → (⟨S3200000, .i32⟩ : BufTy).Contents (Elt F) → (⟨S3200000, .i1⟩ : BufTy).Contents (Elt F)),
    StableHlo.nullary main_c_32 (constantI S_ 32 100000#32),
    StableHlo.unary main_c_32 main_v187 (broadcastInDim S3200000 ![] bcast_S_S3200000 : (⟨S_, .i32⟩ : BufTy).Contents (Elt F) → (⟨S3200000, .i32⟩ : BufTy).Contents (Elt F)),
    StableHlo.binary main_v1 main_v187 main_v188 (addi : (⟨S3200000, .i32⟩ : BufTy).Contents (Elt F) → (⟨S3200000, .i32⟩ : BufTy).Contents (Elt F) → (⟨S3200000, .i32⟩ : BufTy).Contents (Elt F)),
    StableHlo.ternary main_v186 main_v188 main_v1 main_v189 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v189 main_v190 (broadcastInDim S3200000x1 ![0] bcast_S3200000_S3200000x1_0 : (⟨S3200000, .i32⟩ : BufTy).Contents (Elt F) → (⟨S3200000x1, .i32⟩ : BufTy).Contents (Elt F)),
    StableHlo.binary main_v184 main_v190 main_v191 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_c_33 (constantI S_ 32 0#32),
    StableHlo.unary main_c_33 main_v192 (broadcastInDim S3200000 ![] bcast_S_S3200000 : (⟨S_, .i32⟩ : BufTy).Contents (Elt F) → (⟨S3200000, .i32⟩ : BufTy).Contents (Elt F)),
    StableHlo.binary main_v3 main_v192 main_v193 (cmpi .slt : (⟨S3200000, .i32⟩ : BufTy).Contents (Elt F) → (⟨S3200000, .i32⟩ : BufTy).Contents (Elt F) → (⟨S3200000, .i1⟩ : BufTy).Contents (Elt F)),
    StableHlo.nullary main_c_34 (constantI S_ 32 100000#32),
    StableHlo.unary main_c_34 main_v194 (broadcastInDim S3200000 ![] bcast_S_S3200000 : (⟨S_, .i32⟩ : BufTy).Contents (Elt F) → (⟨S3200000, .i32⟩ : BufTy).Contents (Elt F)),
    StableHlo.binary main_v3 main_v194 main_v195 (addi : (⟨S3200000, .i32⟩ : BufTy).Contents (Elt F) → (⟨S3200000, .i32⟩ : BufTy).Contents (Elt F) → (⟨S3200000, .i32⟩ : BufTy).Contents (Elt F)),
    StableHlo.ternary main_v193 main_v195 main_v3 main_v196 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v196 main_v197 (broadcastInDim S3200000x1 ![0] bcast_S3200000_S3200000x1_0 : (⟨S3200000, .i32⟩ : BufTy).Contents (Elt F) → (⟨S3200000x1, .i32⟩ : BufTy).Contents (Elt F)),
    StableHlo.binary main_v184 main_v197 main_v198 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.TRef.binary (.of main_arg2 : StableHlo.TRef sig ⟨S3200000x8, .f32⟩) (.of main_arg2 : StableHlo.TRef sig ⟨S3200000x8, .f32⟩) main_call4.v0 (cmpf .une),
    StableHlo.TRef.nullary main_call4.cst (constant S_ .f32 0x00000000#32),
    StableHlo.TRef.unary main_call4.cst main_call4.call0.v0 (broadcastInDim S3200000x8 ![] bcast_S_S3200000x8),
    StableHlo.TRef.ternary main_call4.v0 main_call4.call0.v0 (.of main_arg2 : StableHlo.TRef sig ⟨S3200000x8, .f32⟩) main_call4.call0.v1 select,
    StableHlo.TRef.nullary main_call4.cst_0 (constant S_ .f32 0x7F800000#32),
    StableHlo.TRef.unary main_call4.cst_0 main_call4.v2 (broadcastInDim S3200000x8 ![] bcast_S_S3200000x8),
    StableHlo.TRef.binary main_call4.call0.v1 main_call4.v2 main_call4.v3 (cmpf .oeq),
    StableHlo.TRef.nullary main_call4.cst_1 (constant S_ .f32 0x7F7FFFFF#32),
    StableHlo.TRef.unary main_call4.cst_1 main_call4.call1.v0 (broadcastInDim S3200000x8 ![] bcast_S_S3200000x8),
    StableHlo.TRef.ternary main_call4.v3 main_call4.call1.v0 main_call4.call0.v1 main_call4.call1.v1 select,
    StableHlo.TRef.nullary main_call4.cst_2 (constant S_ .f32 0xFF800000#32),
    StableHlo.TRef.unary main_call4.cst_2 main_call4.v5 (broadcastInDim S3200000x8 ![] bcast_S_S3200000x8),
    StableHlo.TRef.binary main_call4.call1.v1 main_call4.v5 main_call4.v6 (cmpf .oeq),
    StableHlo.TRef.nullary main_call4.cst_3 (constant S_ .f32 0xFF7FFFFF#32),
    StableHlo.TRef.unary main_call4.cst_3 main_call4.call2.v0 (broadcastInDim S3200000x8 ![] bcast_S_S3200000x8),
    StableHlo.TRef.ternary main_call4.v6 main_call4.call2.v0 main_call4.call1.v1 main_call4.call2.v1 select,
    StableHlo.nary ![main_v191, main_v198, main_v199] main_v200 (fun u => concatenate S3200000x40 1 [⟨S3200000x16, u 0⟩, ⟨S3200000x16, u 1⟩, ⟨S3200000x8, u 2⟩] concatenates_S3200000x16_S3200000x16_S3200000x8_S3200000x40_d1),
    StableHlo.binary main_v200 main_arg21 main_v201 ((fun l r => Host.dotGeneral dot_S3200000x40_S40x32_S3200000x32_1_0_0_1_n_n none l r) : (⟨S3200000x40, .f32⟩ : BufTy).Contents (Elt F) → (⟨S40x32, .f32⟩ : BufTy).Contents (Elt F) → (⟨S3200000x32, .f32⟩ : BufTy).Contents (Elt F)),
    StableHlo.unary main_arg22 main_v202 (broadcastInDim S1x32 ![1] bcast_S32_S1x32_1 : (⟨S32, .f32⟩ : BufTy).Contents (Elt F) → (⟨S1x32, .f32⟩ : BufTy).Contents (Elt F)) ]

/-- Operations 277 … 308 of `ops`: those of @main's window 4. -/
abbrev ops4 : List (HloOp τ sig (Elt F)) :=
  [ StableHlo.unary main_v202 main_v203 (broadcastInDim S3200000x32 ![0, 1] bcast_S1x32_S3200000x32_0_1 : (⟨S1x32, .f32⟩ : BufTy).Contents (Elt F) → (⟨S3200000x32, .f32⟩ : BufTy).Contents (Elt F)),
    StableHlo.binary main_v201 main_v203 main_v204 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call5.cst (constant S_ .f32 0x00000000#32),
    StableHlo.TRef.unary main_call5.cst main_call5.v0 (broadcastInDim S3200000x32 ![] bcast_S_S3200000x32),
    StableHlo.TRef.binary (.of main_v204 : StableHlo.TRef sig ⟨S3200000x32, .f32⟩) main_call5.v0 main_call5.v1 maximumf,
    StableHlo.binary main_v205 main_arg23 main_v206 ((fun l r => Host.dotGeneral dot_S3200000x32_S32x16_S3200000x16_1_0_0_1_n_n none l r) : (⟨S3200000x32, .f32⟩ : BufTy).Contents (Elt F) → (⟨S32x16, .f32⟩ : BufTy).Contents (Elt F) → (⟨S3200000x16, .f32⟩ : BufTy).Contents (Elt F)),
    StableHlo.unary main_arg24 main_v207 (broadcastInDim S1x16 ![1] bcast_S16_S1x16_1 : (⟨S16, .f32⟩ : BufTy).Contents (Elt F) → (⟨S1x16, .f32⟩ : BufTy).Contents (Elt F)),
    StableHlo.unary main_v207 main_v208 (broadcastInDim S3200000x16 ![0, 1] bcast_S1x16_S3200000x16_0_1 : (⟨S1x16, .f32⟩ : BufTy).Contents (Elt F) → (⟨S3200000x16, .f32⟩ : BufTy).Contents (Elt F)),
    StableHlo.binary main_v206 main_v208 main_v209 (addf : (⟨S3200000x16, .f32⟩ : BufTy).Contents (Elt F) → (⟨S3200000x16, .f32⟩ : BufTy).Contents (Elt F) → (⟨S3200000x16, .f32⟩ : BufTy).Contents (Elt F)),
    StableHlo.TRef.nullary main_call6.cst (constant S_ .f32 0x00000000#32),
    StableHlo.TRef.unary main_call6.cst main_call6.v0 (broadcastInDim S3200000x16 ![] bcast_S_S3200000x16),
    StableHlo.TRef.binary (.of main_v209 : StableHlo.TRef sig ⟨S3200000x16, .f32⟩) main_call6.v0 main_call6.v1 maximumf,
    StableHlo.binary main_v210 main_arg25 main_v211 ((fun l r => Host.dotGeneral dot_S3200000x16_S16x2_S3200000x2_1_0_0_1_n_n none l r) : (⟨S3200000x16, .f32⟩ : BufTy).Contents (Elt F) → (⟨S16x2, .f32⟩ : BufTy).Contents (Elt F) → (⟨S3200000x2, .f32⟩ : BufTy).Contents (Elt F)),
    StableHlo.unary main_arg26 main_v212 (broadcastInDim S1x2 ![1] bcast_S2_S1x2_1 : (⟨S2, .f32⟩ : BufTy).Contents (Elt F) → (⟨S1x2, .f32⟩ : BufTy).Contents (Elt F)),
    StableHlo.unary main_v212 main_v213 (broadcastInDim S3200000x2 ![0, 1] bcast_S1x2_S3200000x2_0_1 : (⟨S1x2, .f32⟩ : BufTy).Contents (Elt F) → (⟨S3200000x2, .f32⟩ : BufTy).Contents (Elt F)),
    StableHlo.binary main_v211 main_v213 main_v214 (addf : (⟨S3200000x2, .f32⟩ : BufTy).Contents (Elt F) → (⟨S3200000x2, .f32⟩ : BufTy).Contents (Elt F) → (⟨S3200000x2, .f32⟩ : BufTy).Contents (Elt F)),
    StableHlo.TRef.binary (.of main_v214 : StableHlo.TRef sig ⟨S3200000x2, .f32⟩) (.of main_v214 : StableHlo.TRef sig ⟨S3200000x2, .f32⟩) main_call7.v0 (cmpf .une),
    StableHlo.TRef.nullary main_call7.cst (constant S_ .f32 0x00000000#32),
    StableHlo.TRef.unary main_call7.cst main_call7.call0.v0 (broadcastInDim S3200000x2 ![] bcast_S_S3200000x2),
    StableHlo.TRef.ternary main_call7.v0 main_call7.call0.v0 (.of main_v214 : StableHlo.TRef sig ⟨S3200000x2, .f32⟩) main_call7.call0.v1 select,
    StableHlo.TRef.nullary main_call7.cst_0 (constant S_ .f32 0x7F800000#32),
    StableHlo.TRef.unary main_call7.cst_0 main_call7.v2 (broadcastInDim S3200000x2 ![] bcast_S_S3200000x2),
    StableHlo.TRef.binary main_call7.call0.v1 main_call7.v2 main_call7.v3 (cmpf .oeq),
    StableHlo.TRef.nullary main_call7.cst_1 (constant S_ .f32 0x7F7FFFFF#32),
    StableHlo.TRef.unary main_call7.cst_1 main_call7.call1.v0 (broadcastInDim S3200000x2 ![] bcast_S_S3200000x2),
    StableHlo.TRef.ternary main_call7.v3 main_call7.call1.v0 main_call7.call0.v1 main_call7.call1.v1 select,
    StableHlo.TRef.nullary main_call7.cst_2 (constant S_ .f32 0xFF800000#32),
    StableHlo.TRef.unary main_call7.cst_2 main_call7.v5 (broadcastInDim S3200000x2 ![] bcast_S_S3200000x2),
    StableHlo.TRef.binary main_call7.call1.v1 main_call7.v5 main_call7.v6 (cmpf .oeq),
    StableHlo.TRef.nullary main_call7.cst_3 (constant S_ .f32 0xFF7FFFFF#32),
    StableHlo.TRef.unary main_call7.cst_3 main_call7.call2.v0 (broadcastInDim S3200000x2 ![] bcast_S_S3200000x2),
    StableHlo.TRef.ternary main_call7.v6 main_call7.call2.v0 main_call7.call1.v1 main_call7.call2.v1 select ]

/-- The full list is the five stretches one after the other (both sides are literal lists: by computation). -/
theorem ops_split : (ops : List (HloOp τ sig (Elt F))) = ops0 ++ (ops1 ++ (ops2 ++ (ops3 ++ ops4))) := rfl

end Cert.ReferenceIdeal.HandRun

end
-- ==== Proof.Reference.Run.lean ====
/-
  The run of the reference program, read back through the list `ops` of its operations.

  1. @main equals the straight line `seq ops`. Each of @main's five windows is compared with its stretch of the
     list: unfolding the helpers at their call sites and re-associating the sequencing (associativity of bind, the
     left unit law) turns the window into one right-nested chain of steps, which is the stretch's chain; the windows
     in order are then the concatenation of the stretches.
  2. Every operation names TensorCore references only and determines its results, and the signature scopes no
     buffer and no semaphore; so from any memory with zero counters every weakly fair execution terminates, and each
     buffer of each device ends at the fold of the operations' results over what it held at launch (`run_all`).
  3. No operation writes an argument array: each operation writes exactly its one result reference, the 308
     result references are listed in `W`, and no argument is among them; a reference outside `W` keeps its
     launch contents through the whole fold (`frame`).
-/
import proofs.«114179_j13726715478162_1_alg».proof.Proof.Reference.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

set_option maxRecDepth 4096 in
/-- Window 0 of @main is the chain of steps of its stretch of the list. -/
theorem part0_eq (c : Dev nD) : main_part0 (F := F) c = seq ops0 := by
  simp only [main_part0, fn_where.body, fn_where_0.body, fn_nan_to_num.body, fn_relu.body, fn_relu_1.body, fn_relu_2.body, fn_where_4.body, fn_where_5.body, fn_nan_to_num_3.body, fn_relu_6.body, fn_relu_7.body, fn_where_9.body, fn_nan_to_num_8.body, seq, bind_assoc, pure_bind]
  rfl

set_option maxRecDepth 4096 in
/-- Window 1 of @main is the chain of steps of its stretch of the list. -/
theorem part1_eq (c : Dev nD) : main_part1 (F := F) c = seq ops1 := by
  simp only [main_part1, fn_where.body, fn_where_0.body, fn_nan_to_num.body, fn_relu.body, fn_relu_1.body, fn_relu_2.body, fn_where_4.body, fn_where_5.body, fn_nan_to_num_3.body, fn_relu_6.body, fn_relu_7.body, fn_where_9.body, fn_nan_to_num_8.body, seq, bind_assoc, pure_bind]
  rfl

set_option maxRecDepth 4096 in
/-- Window 2 of @main is the chain of steps of its stretch of the list. -/
theorem part2_eq (c : Dev nD) : main_part2 (F := F) c = seq ops2 := by
  simp only [main_part2, fn_where.body, fn_where_0.body, fn_nan_to_num.body, fn_relu.body, fn_relu_1.body, fn_relu_2.body, fn_where_4.body, fn_where_5.body, fn_nan_to_num_3.body, fn_relu_6.body, fn_relu_7.body, fn_where_9.body, fn_nan_to_num_8.body, seq, bind_assoc, pure_bind]
  rfl

set_option maxRecDepth 4096 in
/-- Window 3 of @main is the chain of steps of its stretch of the list. -/
theorem part3_eq (c : Dev nD) : main_part3 (F := F) c = seq ops3 := by
  simp only [main_part3, fn_where.body, fn_where_0.body, fn_nan_to_num.body, fn_relu.body, fn_relu_1.body, fn_relu_2.body, fn_where_4.body, fn_where_5.body, fn_nan_to_num_3.body, fn_relu_6.body, fn_relu_7.body, fn_where_9.body, fn_nan_to_num_8.body, seq, bind_assoc, pure_bind]
  rfl

set_option maxRecDepth 4096 in
/-- Window 4 of @main is the chain of steps of its stretch of the list. -/
theorem part4_eq (c : Dev nD) : main_part4 (F := F) c = seq ops4 := by
  simp only [main_part4, fn_where.body, fn_where_0.body, fn_nan_to_num.body, fn_relu.body, fn_relu_1.body, fn_relu_2.body, fn_where_4.body, fn_where_5.body, fn_nan_to_num_3.body, fn_relu_6.body, fn_relu_7.body, fn_where_9.body, fn_nan_to_num_8.body, seq, bind_assoc, pure_bind]

/-- @main runs its windows in order, and a concatenation runs as its pieces in order. -/
theorem main_eq (c : Dev nD) : main (F := F) c = seq ops := by
  rw [ops_split, seq_append, seq_append, seq_append, seq_append,
    ← part0_eq c, ← part1_eq c, ← part2_eq c, ← part3_eq c, ← part4_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., ternary_bufs_sub .., nary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub ..⟩

set_option maxRecDepth 8192 in
/-- Every operation determines its results (none allocates a buffer of unspecified contents). -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

/-- On every device, for any float values, from any memory with zero counters: every weakly fair execution of
    @main terminates, and every final state has each TensorCore buffer at the fold of the operations' results
    over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ op hop => List.forall_iff_forall_mem.mp ops_fresh op hop)

/-! ## The arguments are written by no operation -/

/-- The result reference of each operation of `ops`, in order: everything the line writes. -/
abbrev W : List (Ref sig .tc) :=
  [main_v0, main_v1, main_v2, main_v3, main_call0_v0, main_call0_cst, main_call0_call0_v0, main_call0_v1,
    main_call0_cst_0, main_call0_v2, main_call0_v3, main_call0_cst_1, main_call0_call1_v0, main_call0_v4, main_call0_cst_2, main_call0_v5,
    main_call0_v6, main_call0_cst_3, main_call0_call2_v0, main_v4, main_v5, main_cst, main_v6, main_cst_0,
    main_v7, main_v8, main_v9, main_cst_1, main_v10, main_v11, main_v12, main_c,
    main_v13, main_v14, main_c_2, main_v15, main_v16, main_v17, main_v18, main_v19,
    main_c_3, main_v20, main_v21, main_c_4, main_v22, main_v23, main_v24, main_v25,
    main_v26, main_v27, main_c_5, main_v28, main_v29, main_c_6, main_v30, main_v31,
    main_v32, main_v33, main_v34, main_v35, main_v36, main_v37, main_cst_7, main_v38,
    main_v39, main_v40, main_v41, main_v42, main_v43, main_v44, main_v45, main_v46,
    main_v47, main_v48, main_v49, main_v50, main_v51, main_cst_8, main_v52, main_v53,
    main_v54, main_v55, main_v56, main_v57, main_v58, main_v59, main_v60, main_v61,
    main_v62, main_v63, main_call1_cst, main_call1_v0, main_v64, main_v65, main_cst_9, main_v66,
    main_cst_10, main_v67, main_v68, main_v69, main_cst_11, main_v70, main_v71, main_v72,
    main_c_12, main_v73, main_v74, main_c_13, main_v75, main_v76, main_v77, main_v78,
    main_v79, main_c_14, main_v80, main_v81, main_c_15, main_v82, main_v83, main_v84,
    main_v85, main_v86, main_v87, main_c_16, main_v88, main_v89, main_c_17, main_v90,
    main_v91, main_v92, main_v93, main_v94, main_v95, main_v96, main_v97, main_cst_18,
    main_v98, main_v99, main_v100, main_v101, main_v102, main_v103, main_v104, main_v105,
    main_v106, main_v107, main_v108, main_v109, main_v110, main_v111, main_cst_19, main_v112,
    main_v113, main_v114, main_v115, main_v116, main_v117, main_v118, main_v119, main_v120,
    main_v121, main_v122, main_v123, main_call2_cst, main_call2_v0, main_v124, main_v125, main_cst_20,
    main_v126, main_cst_21, main_v127, main_v128, main_v129, main_cst_22, main_v130, main_v131,
    main_v132, main_c_23, main_v133, main_v134, main_c_24, main_v135, main_v136, main_v137,
    main_v138, main_v139, main_c_25, main_v140, main_v141, main_c_26, main_v142, main_v143,
    main_v144, main_v145, main_v146, main_v147, main_c_27, main_v148, main_v149, main_c_28,
    main_v150, main_v151, main_v152, main_v153, main_v154, main_v155, main_v156, main_v157,
    main_cst_29, main_v158, main_v159, main_v160, main_v161, main_v162, main_v163, main_v164,
    main_v165, main_v166, main_v167, main_v168, main_v169, main_v170, main_v171, main_cst_30,
    main_v172, main_v173, main_v174, main_v175, main_v176, main_v177, main_v178, main_v179,
    main_v180, main_v181, main_v182, main_v183, main_call3_cst, main_call3_v0, main_v184, main_c_31,
    main_v185, main_v186, main_c_32, main_v187, main_v188, main_v189, main_v190, main_v191,
    main_c_33, main_v192, main_v193, main_c_34, main_v194, main_v195, main_v196, main_v197,
    main_v198, main_call4_v0, main_call4_cst, main_call4_call0_v0, main_call4_v1, main_call4_cst_0, main_call4_v2, main_call4_v3,
    main_call4_cst_1, main_call4_call1_v0, main_call4_v4, main_call4_cst_2, main_call4_v5, main_call4_v6, main_call4_cst_3, main_call4_call2_v0,
    main_v199, main_v200, main_v201, main_v202, main_v203, main_v204, main_call5_cst, main_call5_v0,
    main_v205, main_v206, main_v207, main_v208, main_v209, main_call6_cst, main_call6_v0, main_v210,
    main_v211, main_v212, main_v213, main_v214, main_call7_v0, main_call7_cst, main_call7_call0_v0, main_call7_v1,
    main_call7_cst_0, main_call7_v2, main_call7_v3, main_call7_cst_1, main_call7_call1_v0, main_call7_v4, main_call7_cst_2, main_call7_v5,
    main_call7_v6, main_call7_cst_3, main_call7_call2_v0, main_v215]

/-- An operation whose written set is the single reference `y`, with `y` in a list, writes inside that list. -/
theorem writes_sub_of_mem {L : List (Ref sig .tc)} {op : HloOp τ sig (Elt F)} (y : Ref sig .tc)
    (h : op.writes = {Proc.devRef .tc y}) (hy : y ∈ L) :
    op.writes ⊆ (L.map (Proc.devRef (τ := τ) .tc)).toFinset := by
  rw [h, Finset.singleton_subset_iff, List.mem_toFinset]
  exact List.mem_map_of_mem hy

set_option maxRecDepth 8192 in
/-- Each operation writes its own result reference, which `W` lists. -/
theorem ops_writes : (ops : List (HloOp τ sig (Elt F))).Forall fun op =>
    op.writes ⊆ (W.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_call0_v0 rfl (by decide), writes_sub_of_mem main_call0_cst rfl (by decide),
    writes_sub_of_mem main_call0_call0_v0 rfl (by decide), writes_sub_of_mem main_call0_v1 rfl (by decide), writes_sub_of_mem main_call0_cst_0 rfl (by decide),
    writes_sub_of_mem main_call0_v2 rfl (by decide), writes_sub_of_mem main_call0_v3 rfl (by decide), writes_sub_of_mem main_call0_cst_1 rfl (by decide),
    writes_sub_of_mem main_call0_call1_v0 rfl (by decide), writes_sub_of_mem main_call0_v4 rfl (by decide), writes_sub_of_mem main_call0_cst_2 rfl (by decide),
    writes_sub_of_mem main_call0_v5 rfl (by decide), writes_sub_of_mem main_call0_v6 rfl (by decide), writes_sub_of_mem main_call0_cst_3 rfl (by decide),
    writes_sub_of_mem main_call0_call2_v0 rfl (by decide), writes_sub_of_mem main_v4 rfl (by decide), writes_sub_of_mem main_v5 rfl (by decide),
    writes_sub_of_mem main_cst rfl (by decide), writes_sub_of_mem main_v6 rfl (by decide), writes_sub_of_mem main_cst_0 rfl (by decide),
    writes_sub_of_mem main_v7 rfl (by decide), writes_sub_of_mem main_v8 rfl (by decide), writes_sub_of_mem main_v9 rfl (by decide),
    writes_sub_of_mem main_cst_1 rfl (by decide), writes_sub_of_mem main_v10 rfl (by decide), writes_sub_of_mem main_v11 rfl (by decide),
    writes_sub_of_mem main_v12 rfl (by decide), writes_sub_of_mem main_c rfl (by decide), writes_sub_of_mem main_v13 rfl (by decide),
    writes_sub_of_mem main_v14 rfl (by decide), writes_sub_of_mem main_c_2 rfl (by decide), writes_sub_of_mem main_v15 rfl (by decide),
    writes_sub_of_mem main_v16 rfl (by decide), writes_sub_of_mem main_v17 rfl (by decide), writes_sub_of_mem main_v18 rfl (by decide),
    writes_sub_of_mem main_v19 rfl (by decide), writes_sub_of_mem main_c_3 rfl (by decide), writes_sub_of_mem main_v20 rfl (by decide),
    writes_sub_of_mem main_v21 rfl (by decide), writes_sub_of_mem main_c_4 rfl (by decide), writes_sub_of_mem main_v22 rfl (by decide),
    writes_sub_of_mem main_v23 rfl (by decide), writes_sub_of_mem main_v24 rfl (by decide), writes_sub_of_mem main_v25 rfl (by decide),
    writes_sub_of_mem main_v26 rfl (by decide), writes_sub_of_mem main_v27 rfl (by decide), writes_sub_of_mem main_c_5 rfl (by decide),
    writes_sub_of_mem main_v28 rfl (by decide), writes_sub_of_mem main_v29 rfl (by decide), writes_sub_of_mem main_c_6 rfl (by decide),
    writes_sub_of_mem main_v30 rfl (by decide), writes_sub_of_mem main_v31 rfl (by decide), writes_sub_of_mem main_v32 rfl (by decide),
    writes_sub_of_mem main_v33 rfl (by decide), writes_sub_of_mem main_v34 rfl (by decide), writes_sub_of_mem main_v35 rfl (by decide),
    writes_sub_of_mem main_v36 rfl (by decide), writes_sub_of_mem main_v37 rfl (by decide), writes_sub_of_mem main_cst_7 rfl (by decide),
    writes_sub_of_mem main_v38 rfl (by decide), writes_sub_of_mem main_v39 rfl (by decide), writes_sub_of_mem main_v40 rfl (by decide),
    writes_sub_of_mem main_v41 rfl (by decide), writes_sub_of_mem main_v42 rfl (by decide), writes_sub_of_mem main_v43 rfl (by decide),
    writes_sub_of_mem main_v44 rfl (by decide), writes_sub_of_mem main_v45 rfl (by decide), writes_sub_of_mem main_v46 rfl (by decide),
    writes_sub_of_mem main_v47 rfl (by decide), writes_sub_of_mem main_v48 rfl (by decide), writes_sub_of_mem main_v49 rfl (by decide),
    writes_sub_of_mem main_v50 rfl (by decide), writes_sub_of_mem main_v51 rfl (by decide), writes_sub_of_mem main_cst_8 rfl (by decide),
    writes_sub_of_mem main_v52 rfl (by decide), writes_sub_of_mem main_v53 rfl (by decide), writes_sub_of_mem main_v54 rfl (by decide),
    writes_sub_of_mem main_v55 rfl (by decide), writes_sub_of_mem main_v56 rfl (by decide), writes_sub_of_mem main_v57 rfl (by decide),
    writes_sub_of_mem main_v58 rfl (by decide), writes_sub_of_mem main_v59 rfl (by decide), writes_sub_of_mem main_v60 rfl (by decide),
    writes_sub_of_mem main_v61 rfl (by decide), writes_sub_of_mem main_v62 rfl (by decide), writes_sub_of_mem main_v63 rfl (by decide),
    writes_sub_of_mem main_call1_cst rfl (by decide), writes_sub_of_mem main_call1_v0 rfl (by decide), writes_sub_of_mem main_v64 rfl (by decide),
    writes_sub_of_mem main_v65 rfl (by decide), writes_sub_of_mem main_cst_9 rfl (by decide), writes_sub_of_mem main_v66 rfl (by decide),
    writes_sub_of_mem main_cst_10 rfl (by decide), writes_sub_of_mem main_v67 rfl (by decide), writes_sub_of_mem main_v68 rfl (by decide),
    writes_sub_of_mem main_v69 rfl (by decide), writes_sub_of_mem main_cst_11 rfl (by decide), writes_sub_of_mem main_v70 rfl (by decide),
    writes_sub_of_mem main_v71 rfl (by decide), writes_sub_of_mem main_v72 rfl (by decide), writes_sub_of_mem main_c_12 rfl (by decide),
    writes_sub_of_mem main_v73 rfl (by decide), writes_sub_of_mem main_v74 rfl (by decide), writes_sub_of_mem main_c_13 rfl (by decide),
    writes_sub_of_mem main_v75 rfl (by decide), writes_sub_of_mem main_v76 rfl (by decide), writes_sub_of_mem main_v77 rfl (by decide),
    writes_sub_of_mem main_v78 rfl (by decide), writes_sub_of_mem main_v79 rfl (by decide), writes_sub_of_mem main_c_14 rfl (by decide),
    writes_sub_of_mem main_v80 rfl (by decide), writes_sub_of_mem main_v81 rfl (by decide), writes_sub_of_mem main_c_15 rfl (by decide),
    writes_sub_of_mem main_v82 rfl (by decide), writes_sub_of_mem main_v83 rfl (by decide), writes_sub_of_mem main_v84 rfl (by decide),
    writes_sub_of_mem main_v85 rfl (by decide), writes_sub_of_mem main_v86 rfl (by decide), writes_sub_of_mem main_v87 rfl (by decide),
    writes_sub_of_mem main_c_16 rfl (by decide), writes_sub_of_mem main_v88 rfl (by decide), writes_sub_of_mem main_v89 rfl (by decide),
    writes_sub_of_mem main_c_17 rfl (by decide), writes_sub_of_mem main_v90 rfl (by decide), writes_sub_of_mem main_v91 rfl (by decide),
    writes_sub_of_mem main_v92 rfl (by decide), writes_sub_of_mem main_v93 rfl (by decide), writes_sub_of_mem main_v94 rfl (by decide),
    writes_sub_of_mem main_v95 rfl (by decide), writes_sub_of_mem main_v96 rfl (by decide), writes_sub_of_mem main_v97 rfl (by decide),
    writes_sub_of_mem main_cst_18 rfl (by decide), writes_sub_of_mem main_v98 rfl (by decide), writes_sub_of_mem main_v99 rfl (by decide),
    writes_sub_of_mem main_v100 rfl (by decide), writes_sub_of_mem main_v101 rfl (by decide), writes_sub_of_mem main_v102 rfl (by decide),
    writes_sub_of_mem main_v103 rfl (by decide), writes_sub_of_mem main_v104 rfl (by decide), writes_sub_of_mem main_v105 rfl (by decide),
    writes_sub_of_mem main_v106 rfl (by decide), writes_sub_of_mem main_v107 rfl (by decide), writes_sub_of_mem main_v108 rfl (by decide),
    writes_sub_of_mem main_v109 rfl (by decide), writes_sub_of_mem main_v110 rfl (by decide), writes_sub_of_mem main_v111 rfl (by decide),
    writes_sub_of_mem main_cst_19 rfl (by decide), writes_sub_of_mem main_v112 rfl (by decide), writes_sub_of_mem main_v113 rfl (by decide),
    writes_sub_of_mem main_v114 rfl (by decide), writes_sub_of_mem main_v115 rfl (by decide), writes_sub_of_mem main_v116 rfl (by decide),
    writes_sub_of_mem main_v117 rfl (by decide), writes_sub_of_mem main_v118 rfl (by decide), writes_sub_of_mem main_v119 rfl (by decide),
    writes_sub_of_mem main_v120 rfl (by decide), writes_sub_of_mem main_v121 rfl (by decide), writes_sub_of_mem main_v122 rfl (by decide),
    writes_sub_of_mem main_v123 rfl (by decide), writes_sub_of_mem main_call2_cst rfl (by decide), writes_sub_of_mem main_call2_v0 rfl (by decide),
    writes_sub_of_mem main_v124 rfl (by decide), writes_sub_of_mem main_v125 rfl (by decide), writes_sub_of_mem main_cst_20 rfl (by decide),
    writes_sub_of_mem main_v126 rfl (by decide), writes_sub_of_mem main_cst_21 rfl (by decide), writes_sub_of_mem main_v127 rfl (by decide),
    writes_sub_of_mem main_v128 rfl (by decide), writes_sub_of_mem main_v129 rfl (by decide), writes_sub_of_mem main_cst_22 rfl (by decide),
    writes_sub_of_mem main_v130 rfl (by decide), writes_sub_of_mem main_v131 rfl (by decide), writes_sub_of_mem main_v132 rfl (by decide),
    writes_sub_of_mem main_c_23 rfl (by decide), writes_sub_of_mem main_v133 rfl (by decide), writes_sub_of_mem main_v134 rfl (by decide),
    writes_sub_of_mem main_c_24 rfl (by decide), writes_sub_of_mem main_v135 rfl (by decide), writes_sub_of_mem main_v136 rfl (by decide),
    writes_sub_of_mem main_v137 rfl (by decide), writes_sub_of_mem main_v138 rfl (by decide), writes_sub_of_mem main_v139 rfl (by decide),
    writes_sub_of_mem main_c_25 rfl (by decide), writes_sub_of_mem main_v140 rfl (by decide), writes_sub_of_mem main_v141 rfl (by decide),
    writes_sub_of_mem main_c_26 rfl (by decide), writes_sub_of_mem main_v142 rfl (by decide), writes_sub_of_mem main_v143 rfl (by decide),
    writes_sub_of_mem main_v144 rfl (by decide), writes_sub_of_mem main_v145 rfl (by decide), writes_sub_of_mem main_v146 rfl (by decide),
    writes_sub_of_mem main_v147 rfl (by decide), writes_sub_of_mem main_c_27 rfl (by decide), writes_sub_of_mem main_v148 rfl (by decide),
    writes_sub_of_mem main_v149 rfl (by decide), writes_sub_of_mem main_c_28 rfl (by decide), writes_sub_of_mem main_v150 rfl (by decide),
    writes_sub_of_mem main_v151 rfl (by decide), writes_sub_of_mem main_v152 rfl (by decide), writes_sub_of_mem main_v153 rfl (by decide),
    writes_sub_of_mem main_v154 rfl (by decide), writes_sub_of_mem main_v155 rfl (by decide), writes_sub_of_mem main_v156 rfl (by decide),
    writes_sub_of_mem main_v157 rfl (by decide), writes_sub_of_mem main_cst_29 rfl (by decide), writes_sub_of_mem main_v158 rfl (by decide),
    writes_sub_of_mem main_v159 rfl (by decide), writes_sub_of_mem main_v160 rfl (by decide), writes_sub_of_mem main_v161 rfl (by decide),
    writes_sub_of_mem main_v162 rfl (by decide), writes_sub_of_mem main_v163 rfl (by decide), writes_sub_of_mem main_v164 rfl (by decide),
    writes_sub_of_mem main_v165 rfl (by decide), writes_sub_of_mem main_v166 rfl (by decide), writes_sub_of_mem main_v167 rfl (by decide),
    writes_sub_of_mem main_v168 rfl (by decide), writes_sub_of_mem main_v169 rfl (by decide), writes_sub_of_mem main_v170 rfl (by decide),
    writes_sub_of_mem main_v171 rfl (by decide), writes_sub_of_mem main_cst_30 rfl (by decide), writes_sub_of_mem main_v172 rfl (by decide),
    writes_sub_of_mem main_v173 rfl (by decide), writes_sub_of_mem main_v174 rfl (by decide), writes_sub_of_mem main_v175 rfl (by decide),
    writes_sub_of_mem main_v176 rfl (by decide), writes_sub_of_mem main_v177 rfl (by decide), writes_sub_of_mem main_v178 rfl (by decide),
    writes_sub_of_mem main_v179 rfl (by decide), writes_sub_of_mem main_v180 rfl (by decide), writes_sub_of_mem main_v181 rfl (by decide),
    writes_sub_of_mem main_v182 rfl (by decide), writes_sub_of_mem main_v183 rfl (by decide), writes_sub_of_mem main_call3_cst rfl (by decide),
    writes_sub_of_mem main_call3_v0 rfl (by decide), writes_sub_of_mem main_v184 rfl (by decide), writes_sub_of_mem main_c_31 rfl (by decide),
    writes_sub_of_mem main_v185 rfl (by decide), writes_sub_of_mem main_v186 rfl (by decide), writes_sub_of_mem main_c_32 rfl (by decide),
    writes_sub_of_mem main_v187 rfl (by decide), writes_sub_of_mem main_v188 rfl (by decide), writes_sub_of_mem main_v189 rfl (by decide),
    writes_sub_of_mem main_v190 rfl (by decide), writes_sub_of_mem main_v191 rfl (by decide), writes_sub_of_mem main_c_33 rfl (by decide),
    writes_sub_of_mem main_v192 rfl (by decide), writes_sub_of_mem main_v193 rfl (by decide), writes_sub_of_mem main_c_34 rfl (by decide),
    writes_sub_of_mem main_v194 rfl (by decide), writes_sub_of_mem main_v195 rfl (by decide), writes_sub_of_mem main_v196 rfl (by decide),
    writes_sub_of_mem main_v197 rfl (by decide), writes_sub_of_mem main_v198 rfl (by decide), writes_sub_of_mem main_call4_v0 rfl (by decide),
    writes_sub_of_mem main_call4_cst rfl (by decide), writes_sub_of_mem main_call4_call0_v0 rfl (by decide), writes_sub_of_mem main_call4_v1 rfl (by decide),
    writes_sub_of_mem main_call4_cst_0 rfl (by decide), writes_sub_of_mem main_call4_v2 rfl (by decide), writes_sub_of_mem main_call4_v3 rfl (by decide),
    writes_sub_of_mem main_call4_cst_1 rfl (by decide), writes_sub_of_mem main_call4_call1_v0 rfl (by decide), writes_sub_of_mem main_call4_v4 rfl (by decide),
    writes_sub_of_mem main_call4_cst_2 rfl (by decide), writes_sub_of_mem main_call4_v5 rfl (by decide), writes_sub_of_mem main_call4_v6 rfl (by decide),
    writes_sub_of_mem main_call4_cst_3 rfl (by decide), writes_sub_of_mem main_call4_call2_v0 rfl (by decide), writes_sub_of_mem main_v199 rfl (by decide),
    writes_sub_of_mem main_v200 rfl (by decide), writes_sub_of_mem main_v201 rfl (by decide), writes_sub_of_mem main_v202 rfl (by decide),
    writes_sub_of_mem main_v203 rfl (by decide), writes_sub_of_mem main_v204 rfl (by decide), writes_sub_of_mem main_call5_cst rfl (by decide),
    writes_sub_of_mem main_call5_v0 rfl (by decide), writes_sub_of_mem main_v205 rfl (by decide), writes_sub_of_mem main_v206 rfl (by decide),
    writes_sub_of_mem main_v207 rfl (by decide), writes_sub_of_mem main_v208 rfl (by decide), writes_sub_of_mem main_v209 rfl (by decide),
    writes_sub_of_mem main_call6_cst rfl (by decide), writes_sub_of_mem main_call6_v0 rfl (by decide), writes_sub_of_mem main_v210 rfl (by decide),
    writes_sub_of_mem main_v211 rfl (by decide), writes_sub_of_mem main_v212 rfl (by decide), writes_sub_of_mem main_v213 rfl (by decide),
    writes_sub_of_mem main_v214 rfl (by decide), writes_sub_of_mem main_call7_v0 rfl (by decide), writes_sub_of_mem main_call7_cst rfl (by decide),
    writes_sub_of_mem main_call7_call0_v0 rfl (by decide), writes_sub_of_mem main_call7_v1 rfl (by decide), writes_sub_of_mem main_call7_cst_0 rfl (by decide),
    writes_sub_of_mem main_call7_v2 rfl (by decide), writes_sub_of_mem main_call7_v3 rfl (by decide), writes_sub_of_mem main_call7_cst_1 rfl (by decide),
    writes_sub_of_mem main_call7_call1_v0 rfl (by decide), writes_sub_of_mem main_call7_v4 rfl (by decide), writes_sub_of_mem main_call7_cst_2 rfl (by decide),
    writes_sub_of_mem main_call7_v5 rfl (by decide), writes_sub_of_mem main_call7_v6 rfl (by decide), writes_sub_of_mem main_call7_cst_3 rfl (by decide),
    writes_sub_of_mem main_call7_call2_v0 rfl (by decide), writes_sub_of_mem main_v215 rfl (by decide)⟩

/-- A reference outside `W` holds after the line what it held before. -/
theorem after_ops_of_not_mem (V : Valuation τ sig (Elt F)) {r : Ref sig .tc} (h : r ∉ W) :
    after ops V (Proc.devRef .tc r) = V (Proc.devRef .tc r) :=
  after_of_writes_sub ops V ops_writes h

set_option maxRecDepth 8192 in
/-- @main runs (terminates, nothing faulting) and its twenty-seven argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨(h c main_arg0).trans (after_ops_of_not_mem _ (by decide)),
      (h c main_arg1).trans (after_ops_of_not_mem _ (by decide)),
      (h c main_arg2).trans (after_ops_of_not_mem _ (by decide)),
      (h c main_arg3).trans (after_ops_of_not_mem _ (by decide)),
      (h c main_arg4).trans (after_ops_of_not_mem _ (by decide)),
      (h c main_arg5).trans (after_ops_of_not_mem _ (by decide)),
      (h c main_arg6).trans (after_ops_of_not_mem _ (by decide)),
      (h c main_arg7).trans (after_ops_of_not_mem _ (by decide)),
      (h c main_arg8).trans (after_ops_of_not_mem _ (by decide)),
      (h c main_arg9).trans (after_ops_of_not_mem _ (by decide)),
      (h c main_arg10).trans (after_ops_of_not_mem _ (by decide)),
      (h c main_arg11).trans (after_ops_of_not_mem _ (by decide)),
      (h c main_arg12).trans (after_ops_of_not_mem _ (by decide)),
      (h c main_arg13).trans (after_ops_of_not_mem _ (by decide)),
      (h c main_arg14).trans (after_ops_of_not_mem _ (by decide)),
      (h c main_arg15).trans (after_ops_of_not_mem _ (by decide)),
      (h c main_arg16).trans (after_ops_of_not_mem _ (by decide)),
      (h c main_arg17).trans (after_ops_of_not_mem _ (by decide)),
      (h c main_arg18).trans (after_ops_of_not_mem _ (by decide)),
      (h c main_arg19).trans (after_ops_of_not_mem _ (by decide)),
      (h c main_arg20).trans (after_ops_of_not_mem _ (by decide)),
      (h c main_arg21).trans (after_ops_of_not_mem _ (by decide)),
      (h c main_arg22).trans (after_ops_of_not_mem _ (by decide)),
      (h c main_arg23).trans (after_ops_of_not_mem _ (by decide)),
      (h c main_arg24).trans (after_ops_of_not_mem _ (by decide)),
      (h c main_arg25).trans (after_ops_of_not_mem _ (by decide)),
      (h c main_arg26).trans (after_ops_of_not_mem _ (by decide))⟩)
    (run_all m ρ)

end Cert.ReferenceIdeal.HandRun

end
-- ==== Proof.LibTypedRef.lean ====
/-
  A typed reference to a buffer carries a proof that the buffer's type is the value's type, and moves contents
  between the two along it. Moving a value to the buffer's type and back is the identity, and a value moved to the
  buffer's type is (heterogeneously) the value itself: the two facts that let a chain of host operations, written
  through typed references, be read as the plain composition of the operations.
-/
import Idealize.ShloMosaic.Lib.StableHlo

namespace Cert.Lib.TypedRef

open Idealize.ShloMosaic Idealize.ShloMosaic.StableHlo

variable {sig : RefSig} {Val : EltTy → Type} {T : BufTy}

/-- To the buffer's type and back. -/
theorem ofBuf_toBuf_id (x : TRef sig T) (v : T.Contents Val) : x.ofBuf (x.toBuf v) = v := by
  obtain ⟨r, h, h2, h3⟩ := x
  subst h
  rfl

/-- A value at the buffer's type is the value. -/
theorem toBuf_heq (x : TRef sig T) (v w : T.Contents Val) (h : v = w) : HEq (x.toBuf v) w := by
  subst h
  exact cast_heq _ _

end Cert.Lib.TypedRef
-- ==== Proof.Bridge.Setup.lean ====
/-
  The two programs side by side, at the exact (extended-real) values.

  On one core: the kernel program's buffers between its items (its execution, already followed item by item), and the
  reference program's buffers after all of its operations, from launch memories that agree on the 27 argument arrays.
  What follows compares them buffer by buffer: the cleaned node features first.
-/
import proofs.«114179_j13726715478162_1_alg».proof.Proof.Ideal.Run
import proofs.«114179_j13726715478162_1_alg».proof.Proof.Reference.Run
import proofs.«114179_j13726715478162_1_alg».proof.Proof.LibTypedRef
import Idealize.ShloMosaic.PureOps.Ideal

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The reference's launch contents on the core. -/
abbrev R0 : Valuation Cert.ReferenceIdeal.τ Cert.ReferenceIdeal.sig (Elt Ideal) := fun b => m' (c, b)

/-- The reference's buffers after all of its operations. -/
abbrev Rv : Valuation Cert.ReferenceIdeal.τ Cert.ReferenceIdeal.sig (Elt Ideal) :=
  StableHlo.after (Cert.ReferenceIdeal.HandRun.ops (F := Ideal)) (R0 m' c)

/-- The node features with infinities replaced by the largest finite values: the same three selections of the same
    array on both sides. -/
theorem cleaned_eq
    (hx : (R0 m' c (Proc.devRef .tc Cert.ReferenceIdeal.main_arg0) : Cert.KernelIdeal.S100000x128.Idx → EReal)
      = Cert.KernelIdeal.Run.B0 m c (Proc.devRef .tc Cert.KernelIdeal.main_arg0)) :
    (Cert.KernelIdeal.Run.B2 m c (Proc.devRef .tc Cert.KernelIdeal.main_v27) : Cert.KernelIdeal.S100000x128.Idx → EReal)
      = Rv m' c (Proc.devRef .tc Cert.ReferenceIdeal.main_v4) := by
  dsimp only [Cert.KernelIdeal.Run.B2, Cert.KernelIdeal.Run.B1, Cert.KernelIdeal.Gen.hostOps0_1, Rv, Cert.ReferenceIdeal.HandRun.ops]
  after_results_simp
  simp only [Cert.Lib.TypedRef.ofBuf_toBuf_id]
  rw [hx]

end Cert.Bridge

end
-- ==== Proof.Ideal.NodeLinear1Value.lean ====
/-
  Dense node layer 1: the output ARRAY after the region, at the exact (extended-real) values.

  Each grid point t writes rows 10000 t … 10000 t + 9999 of the output, and the entry (r, j) it writes is the sum over c
  of  x(r, c) · w(c, j) , x the node features and w the weights as the region finds them: a row of the product
  depends on the same row of x only, so it does not matter that x is read block by block. The ten blocks tile the
  100000 rows, so the whole output array is the whole product.
-/
import proofs.«114179_j13726715478162_1_alg».proof.Proof.Ideal.NodeLinear1
import Idealize.ShloMosaic.Lib.Pipeline.Value
import Idealize.ShloMosaic.Lib.ValueIdx

set_option maxRecDepth 16384

noncomputable section

namespace Cert.KernelIdeal.NodeLinear1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The whole product: entry (r, j) is the sum over c of x(r, c) · w(c, j). -/
def wholeProduct (X : S100000x128.Idx → EReal) (W : S128x64.Idx → EReal) : S100000x64.Idx → EReal :=
  fun i => ∑ c : Fin 128, X (ix2 (i 0) c) * W (ix2 c (i 1))

/-- Where the blocks sit: at point t the row windows are at block row t, block column 0; the weights at block (0, 0). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product, GIVEN the body's arithmetic at an entry. -/
theorem flushed_eq
    (hpay : ∀ (x : Vec Ideal S10000x128 .f32) (w : Vec Ideal S128x64 .f32) (p : Fin 10000) (q : Fin 64),
      k0_pay1 x w (ix2 p q) = ∑ c : Fin 128, x (ix2 p c) * w (ix2 c q))
    (c : Dev nD) (t : Fin cfg0.N) :
    (dat V c).flushed 2 t = ((cfg0.win 2).blk t).view.read (Elt Ideal) (wholeProduct (V c main_v27) (V c main_arg3)) := by
  show (cfg0.win 2).cut (grid0.coords t) ((dat V c).after 2 t) = _
  rw [after_out]
  unfold result
  rw [View.canon_unit_zero zeros2]
  simp only [View.ld_unit_zero (S := S10000x128) zeros2, View.ld_unit_zero (S := S128x64) zeros2]
  obtain ⟨e0, e1, e2, e3, e4, e5⟩ := block_positions t
  funext j
  obtain ⟨p, q, rfl⟩ : ∃ (p : Fin 10000) (q : Fin 64), j = ix2 p q := ⟨j 0, j 1, eq_ix2 j⟩
  show k0_pay1 (blockAt V c 0 t) (blockAt V c 1 t) (ix2 p q) = wholeProduct (V c main_v27) (V c main_arg3) (((cfg0.win 2).blk t).view.emb (ix2 p q))
  rw [hpay]
  unfold wholeProduct
  refine Finset.sum_congr rfl fun cc _ => ?_
  have hx : ((cfg0.win 0).blk t).view.emb (ix2 p cc) = ix2 ((((cfg0.win 2).blk t).view.emb (ix2 p q)) 0) cc := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * cc.val = cc.val; omega
  have hw : ((cfg0.win 1).blk t).view.emb (ix2 cc q) = ix2 cc ((((cfg0.win 2).blk t).view.emb (ix2 p q)) 1) := by
    funext a; apply Fin.ext
    match a with
    | ⟨0, _⟩ => show win0_1.index t (0 : Fin 2) * 128 + 1 * cc.val = cc.val; omega
    | ⟨1, _⟩ => show win0_1.index t (1 : Fin 2) * 64 + 1 * q.val = win0_2.index t (1 : Fin 2) * 64 + 1 * q.val; omega
  have h1 : blockAt V c 0 t (ix2 p cc) = V c main_v27 (ix2 ((((cfg0.win 2).blk t).view.emb (ix2 p q)) 0) cc) := congrArg (V c main_v27) hx
  have h2 : blockAt V c 1 t (ix2 cc q) = V c main_arg3 (ix2 cc ((((cfg0.win 2).blk t).view.emb (ix2 p q)) 1)) := congrArg (V c main_arg3) hw
  rw [h1, h2]

/-- An index of the output array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every row r of the output is written by the point r / 10000: the ten blocks tile the array. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := by show (i 0).val / 10000 < grid0.N; rw [N_0]; omega
  refine ⟨⟨(i 0).val / 10000, hN⟩, flush0_2 _, ?_⟩
  rw [mem_block]
  obtain ⟨e0, e1, e2, e3, e4, e5⟩ := block_positions ⟨(i 0).val / 10000, hN⟩
  have e4' : win0_2.index ⟨(i 0).val / 10000, hN⟩ (0 : Fin 2) = (i 0).val / 10000 := e4
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- After the region the output array is the whole product of the arrays the region found, given the body's
    arithmetic at an entry. -/
theorem array_eq
    (hpay : ∀ (x : Vec Ideal S10000x128 .f32) (w : Vec Ideal S128x64 .f32) (p : Fin 10000) (q : Fin 64),
      k0_pay1 x w (ix2 p q) = ∑ c : Fin 128, x (ix2 p c) * w (ix2 c q))
    (c : Dev nD) : (dat V c).arrAt 2 cfg0.N = wholeProduct (V c main_v27) (V c main_arg3) :=
  (dat V c).arrAt_eq_of_cover 2 _ (fun t _ => flushed_eq V hpay c t) covered

end Cert.KernelIdeal.NodeLinear1

end
-- ==== Proof.LibDense.lean ====
/-
  A dense layer read entry by entry, at the exact (extended-real) values.

  A dense layer takes an M × K array x, a K × N weight W and a bias of length N and returns the M × N array whose
  (p, q) entry is  Σ_c x(p, c) · W(c, q) + bias(q).  A kernel computes it on a block of rows with its matrix unit
  (a product accumulated into zeros) and adds the bias laid out as a 1 × N row repeated down the block; a host
  program computes it with a general product of the whole arrays and adds the bias laid out first as a 1 × N row
  and then as an M × N array.  Here both are read at an entry as that one expression, the sum running over the
  contracted coordinate itself.  Also here: a leading axis of extent one dropped or added reads at an entry as the
  same array at the entry with that coordinate left out or set to zero.
-/
import Idealize.ShloMosaic.Lib.ValueIdx
import Idealize.ShloMosaic.Lib.Pipeline.Value
import Idealize.ShloMosaic.Lib.StackMember
import Idealize.ShloMosaic.PureOps.Ideal.Laws

noncomputable section

namespace Cert.Lib.Dense

open Idealize.ShloMosaic Idealize.ShloMosaic.ValueIdx
open scoped BigOperators

variable {M K N : Nat}

/-- Entry (p, q) of x · W with the bias β added to every row:  Σ_c x(p, c) · W(c, q) + β(q). -/
def denseAt (x : (⟨2, ![M, K]⟩ : Shape).Idx → EReal) (W : (⟨2, ![K, N]⟩ : Shape).Idx → EReal) (β : Fin N → EReal)
    (p : Fin M) (q : Fin N) : EReal :=
  (∑ c : Fin K, x (ix2 p c) * W (ix2 c q)) + β q

/-- The M × N array of those entries. -/
def dense (x : (⟨2, ![M, K]⟩ : Shape).Idx → EReal) (W : (⟨2, ![K, N]⟩ : Shape).Idx → EReal) (β : Fin N → EReal) :
    (⟨2, ![M, N]⟩ : Shape).Idx → EReal :=
  fun i => denseAt x W β (i 0) (i 1)

theorem dense_ix2 (x : (⟨2, ![M, K]⟩ : Shape).Idx → EReal) (W : (⟨2, ![K, N]⟩ : Shape).Idx → EReal) (β : Fin N → EReal)
    (p : Fin M) (q : Fin N) : dense x W β (ix2 p q) = denseAt x W β p q := rfl

/-- The product of an M × K by a K × N matrix accumulated into zeros, at (a, b), is the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A 1 × N row repeated down M rows (a vector broadcast), at (p, q), is the row at q. -/
theorem broadcastTo_row_apply {α : Type} (r : (⟨2, ![1, N]⟩ : Shape).Idx → α)
    (h : (⟨2, ![1, N]⟩ : Shape).Broadcasts ⟨2, ![M, N]⟩) (p : Fin M) (q : Fin N) :
    broadcastTo ⟨2, ![M, N]⟩ r h (ix2 p q) = r (ix2 (0 : Fin 1) q) := by
  refine broadcastTo_apply r h (ix2 p q) (ix2 (0 : Fin 1) q) fun a => ?_
  match a with
  | ⟨0, _⟩ => rfl
  | ⟨1, _⟩ =>
    show q.val = if N = 1 then 0 else q.val
    split
    · have := q.isLt; omega
    · rfl

/-- A 1 × N row laid out as an M × N array (a broadcast along both axes in place), at (p, q), is the row at q. -/
theorem broadcastInDim_row_apply {α : Type} (r : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- A vector of length N laid out as a 1 × N row, at (0, q), is the vector at q. -/
theorem broadcastInDim_vec_row_apply {α : Type} (v : (⟨1, ![N]⟩ : Shape).Idx → α)
    (h : (⟨1, ![N]⟩ : Shape).BroadcastsInDim ⟨2, ![1, N]⟩ (![1] : Fin 1 → Fin 2)) (q : Fin N) :
    broadcastInDim ⟨2, ![1, N]⟩ (![1] : Fin 1 → Fin 2) h v (ix2 (0 : Fin 1) q) = v (ix1 q) := by
  refine broadcastInDim_apply _ h v (ix2 (0 : Fin 1) q) (ix1 q) fun a => ?_
  match a with
  | ⟨0, _⟩ =>
    show q.val = if N = 1 then 0 else q.val
    split
    · have := q.isLt; omega
    · rfl

/-- A vector of length N reshaped to a 1 × N row, at (0, q), is the vector at q. -/
theorem shapeCast_vec_row_apply {α : Type} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) := by
  refine shapeCast_apply v h _ _ ?_
  rw [Shape.rowMajor_val_two, Shape.rowMajor_val_one]
  show q.val = 0 * N + q.val
  omega

/-- The host's layer: the general product of the whole arrays, plus the bias laid out as a row and then as an
    array, is the array of dense entries. -/
theorem host_dense_eq {φ₁ φ₂ : FTy} (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec x W)
        (broadcastInDim ⟨2, ![M, N]⟩ (![0, 1] : Fin 2 → Fin 2) h2 (broadcastInDim ⟨2, ![1, N]⟩ (![1] : Fin 1 → Fin 2) h1 b))
      = dense x W (fun q => b (ix1 q)) := by
  funext i
  obtain ⟨p, q, rfl⟩ : ∃ (p : Fin M) (q : Fin N), i = ix2 p q := ⟨i 0, i 1, eq_ix2 i⟩
  rw [addf_apply, StackMember.dotGeneral_plain_apply, broadcastInDim_row_apply, broadcastInDim_vec_row_apply]
  rfl

/-- The kernel's layer on a block of rows: the product into zeros plus the bias row repeated down the block, at (p, q),
    is the dense entry. -/
theorem block_dense_apply {φ₁ φ₂ : FTy} (prec : Option ContractPrecision)
    (x : FVec Ideal ⟨2, ![M, K]⟩ φ₁) (W : FVec Ideal ⟨2, ![K, N]⟩ φ₂) (r : FVec Ideal ⟨2, ![1, N]⟩ .f32)
    (h : (⟨2, ![1, N]⟩ : Shape).Broadcasts ⟨2, ![M, N]⟩) (p : Fin M) (q : Fin N) :
    addf (FloatOps.matmul (DotDims.plain M K N) prec x W (constant (F := Ideal) ⟨2, ![M, N]⟩ .f32 0x00000000#32))
        (broadcastTo ⟨2, ![M, N]⟩ r h) (ix2 p q)
      = denseAt x W (fun q => r (ix2 (0 : Fin 1) q)) p q := by
  rw [addf_apply, matmul_plain_zero_apply, broadcastTo_row_apply]
  rfl

end Cert.Lib.Dense

end
-- ==== Proof.Payloads.lean ====
/-
  Each kernel body's stored value, read at one entry, at the exact (extended-real) values.

  Three kinds of body.  A matrix product accumulated into zeros: its (p, q) entry is the sum over the
  contracted coordinate c of x(p, c) · w(c, q); the narrowing of the operands before the product is
  the identity on exact values.  The fused combine: two arrays added, a bias row added to every row,
  the result scaled by a row and shifted by a row, then rectified (the maximum with 0).  The edge
  classifier: three dense layers, each a product plus a bias row, the first two rectified, followed
  by the replacement of the two infinities by the largest finite magnitudes of their sign.
-/
import proofs.«114179_j13726715478162_1_alg».proof.Proof.Gen.KernelIdeal.Skeleton
import proofs.«114179_j13726715478162_1_alg».proof.Proof.LibDense
import Idealize.ShloMosaic.Lib.ValueIdx
import Idealize.ShloMosaic.Lib.Pipeline.Value
import Idealize.ShloMosaic.PureOps.Ideal

noncomputable section

namespace Cert.Payloads

open Idealize.ShloMosaic Idealize.ShloMosaic.ValueIdx
open Cert.KernelIdeal Cert.KernelIdeal.Gen Cert.Lib.Dense
open scoped BigOperators

/-- The zero word, as a scalar constant, is the number 0. -/
theorem zero_scalar : Scalar.ofBits (F := Ideal) .f32 0x00000000#32 = (0 : EReal) := Ideal.ofBits_zero_f32

/-! ## The three products -/

/-- The first product, 10000 × 128 by 128 × 64, at (p, q): the narrowing of both operands is the identity on exact values, and the accumulator is zero. -/
theorem k0_pay1_entry (x : Vec Ideal S10000x128 .f32) (w : Vec Ideal S128x64 .f32) (p : Fin 10000) (q : Fin 64) :
    k0_pay1 (F := Ideal) x w (ix2 p q) = ∑ c : Fin 128, x (ix2 p c) * w (ix2 c q) := by
  have e : k0_pay1 (F := Ideal) x w
      = FloatOps.matmul (F := Ideal) (φ₁ := .bf16) (φ₂ := .bf16) (DotDims.plain 10000 128 64) none x w
          (constant (F := Ideal) ⟨2, ![10000, 64]⟩ .f32 0x00000000#32) := by
    unfold k0_pay1
    simp only [shapeCast_self]
    rfl
  rw [e]
  exact matmul_plain_zero_apply (φ₁ := .bf16) (φ₂ := .bf16) none x w p q

/-- The second product, 10000 × 64 by 64 × 32, at (p, q). -/
theorem k2_pay1_entry (x : Vec Ideal S10000x64 .f32) (w : Vec Ideal S64x32 .f32) (p : Fin 10000) (q : Fin 32) :
    k2_pay1 (F := Ideal) x w (ix2 p q) = ∑ c : Fin 64, x (ix2 p c) * w (ix2 c q) := by
  have e : k2_pay1 (F := Ideal) x w
      = FloatOps.matmul (F := Ideal) (φ₁ := .bf16) (φ₂ := .bf16) (DotDims.plain 10000 64 32) none x w
          (constant (F := Ideal) ⟨2, ![10000, 32]⟩ .f32 0x00000000#32) := by
    unfold k2_pay1
    simp only [shapeCast_self]
    rfl
  rw [e]
  exact matmul_plain_zero_apply (φ₁ := .bf16) (φ₂ := .bf16) none x w p q

/-- The third product, 10000 × 32 by 32 × 16, at (p, q). -/
theorem k4_pay1_entry (x : Vec Ideal S10000x32 .f32) (w : Vec Ideal S32x16 .f32) (p : Fin 10000) (q : Fin 16) :
    k4_pay1 (F := Ideal) x w (ix2 p q) = ∑ c : Fin 32, x (ix2 p c) * w (ix2 c q) := by
  have e : k4_pay1 (F := Ideal) x w
      = FloatOps.matmul (F := Ideal) (φ₁ := .bf16) (φ₂ := .bf16) (DotDims.plain 10000 32 16) none x w
          (constant (F := Ideal) ⟨2, ![10000, 16]⟩ .f32 0x00000000#32) := by
    unfold k4_pay1
    simp only [shapeCast_self]
    rfl
  rw [e]
  exact matmul_plain_zero_apply (φ₁ := .bf16) (φ₂ := .bf16) none x w p q

/-! ## The three fused combines -/

/-- The first combine (width 64) at (p, q): the two arrays added, the bias row added, scaled by a row, shifted by a row, rectified. -/
theorem k1_pay1_entry (a s : Vec Ideal S10000x64 .f32) (b sc sh : Vec Ideal S1x64 .f32) (p : Fin 10000) (q : Fin 64) :
    k1_pay1 (F := Ideal) a s b sc sh (ix2 p q)
      = max ((a (ix2 p q) + s (ix2 p q) + b (ix2 (0 : Fin 1) q)) * sc (ix2 (0 : Fin 1) q)
          + sh (ix2 (0 : Fin 1) q)) 0 := by
  unfold k1_pay1
  simp only [shapeCast_self]
  rw [maximumf_apply, addf_apply, mulf_apply, addf_apply, addf_apply, broadcast_apply,
    broadcastTo_row_apply, broadcastTo_row_apply, broadcastTo_row_apply, zero_scalar]

/-- The second combine (width 32) at (p, q). -/
theorem k3_pay1_entry (a s : Vec Ideal S10000x32 .f32) (b sc sh : Vec Ideal S1x32 .f32) (p : Fin 10000) (q : Fin 32) :
    k3_pay1 (F := Ideal) a s b sc sh (ix2 p q)
      = max ((a (ix2 p q) + s (ix2 p q) + b (ix2 (0 : Fin 1) q)) * sc (ix2 (0 : Fin 1) q)
          + sh (ix2 (0 : Fin 1) q)) 0 := by
  unfold k3_pay1
  simp only [shapeCast_self]
  rw [maximumf_apply, addf_apply, mulf_apply, addf_apply, addf_apply, broadcast_apply,
    broadcastTo_row_apply, broadcastTo_row_apply, broadcastTo_row_apply, zero_scalar]

/-- The third combine (width 16) at (p, q). -/
theorem k5_pay1_entry (a s : Vec Ideal S10000x16 .f32) (b sc sh : Vec Ideal S1x16 .f32) (p : Fin 10000) (q : Fin 16) :
    k5_pay1 (F := Ideal) a s b sc sh (ix2 p q)
      = max ((a (ix2 p q) + s (ix2 p q) + b (ix2 (0 : Fin 1) q)) * sc (ix2 (0 : Fin 1) q)
          + sh (ix2 (0 : Fin 1) q)) 0 := by
  unfold k5_pay1
  simp only [shapeCast_self]
  rw [maximumf_apply, addf_apply, mulf_apply, addf_apply, addf_apply, broadcast_apply,
    broadcastTo_row_apply, broadcastTo_row_apply, broadcastTo_row_apply, zero_scalar]

/-! ## The edge classifier -/

/-- The word 0x7F800000, as a scalar constant, is +infinity. -/
theorem top_scalar : Scalar.ofBits (F := Ideal) .f32 0x7F800000#32 = (⊤ : EReal) := by
  show Ideal.ofBits .f32 0x7F800000#32 = ⊤
  simp [Ideal.ofBits, Ideal.ieee]

/-- The word 0xFF800000, as a scalar constant, is -infinity. -/
theorem bot_scalar : Scalar.ofBits (F := Ideal) .f32 0xFF800000#32 = (⊥ : EReal) := by
  show Ideal.ofBits .f32 0xFF800000#32 = ⊥
  simp [Ideal.ofBits, Ideal.ieee]

/-- A selection on "x differs from x" always takes the second branch: on a linear order nothing
    differs from itself. -/
theorem select_ne_self (x u : EReal) :
    Scalar.select (FloatOps.cmpf (F := Ideal) (φ := .f32) .one x x) u x = x := by
  show Scalar.select (Ideal.cmp .one x x) u x = x
  simp [Scalar.select, Ideal.cmp]

/-- A selection on "x equals y" is the case distinction on that equality. -/
theorem select_eq (x y u : EReal) :
    Scalar.select (FloatOps.cmpf (F := Ideal) (φ := .f32) .oeq x y) u x = if x = y then u else x := by
  show Scalar.select (Ideal.cmp .oeq x y) u x = _
  by_cases h : x = y <;> simp [Scalar.select, Ideal.cmp, h]

/-- +infinity replaced by the largest finite value (kept as its word). -/
def clampTop (x : EReal) : EReal := if x = ⊤ then Ideal.ofBits .f32 0x7F7FFFFF#32 else x

/-- -infinity replaced by the least finite value (kept as its word). -/
def clampBot (x : EReal) : EReal := if x = ⊥ then Ideal.ofBits .f32 0xFF7FFFFF#32 else x

/-- The three selections in order: the first (on x ≠ x) never fires, the second replaces +infinity,
    the third replaces -infinity in what the second returned. -/
def clamp (x : EReal) : EReal := clampBot (clampTop x)

/-- A real number passes through the three selections unchanged. -/
theorem clamp_coe (r : ℝ) : clamp ((r : ℝ) : EReal) = ((r : ℝ) : EReal) := by
  simp [clamp, clampTop, clampBot]

section Layers
variable {M K N : Nat}

/-- A dense layer on a block of rows, at (p, q): the product into zeros (operands narrowed, which is
    the identity on exact values) plus the bias row repeated down the block. -/
theorem dense_layer_apply (x : FVec Ideal ⟨2, ![M, K]⟩ .f32) (w : FVec Ideal ⟨2, ![K, N]⟩ .f32)
    (b : FVec Ideal ⟨2, ![1, N]⟩ .f32) (h1 h2 : FTy.bf16.bits < FTy.f32.bits)
    (hb : (⟨2, ![1, N]⟩ : Shape).Broadcasts ⟨2, ![M, N]⟩) (p : Fin M) (q : Fin N) :
    addf (matmul (F := Ideal) (DotDims.plain M K N) none (truncf .bf16 x h1) (truncf .bf16 w h2)
          (constant (F := Ideal) ⟨2, ![M, N]⟩ .f32 0x00000000#32)) (broadcastTo ⟨2, ![M, N]⟩ b hb) (ix2 p q)
      = (∑ c : Fin K, x (ix2 p c) * w (ix2 c q)) + b (ix2 (0 : Fin 1) q) := by
  have hm := matmul_plain_zero_apply (φ₁ := .bf16) (φ₂ := .bf16) none x w p q
  rw [addf_apply, broadcastTo_row_apply]
  exact congrArg (fun t => t + b (ix2 (0 : Fin 1) q)) hm

/-- The same layer followed by the rectification (maximum with the zero constant). -/
theorem relu_layer_apply (x : FVec Ideal ⟨2, ![M, K]⟩ .f32) (w : FVec Ideal ⟨2, ![K, N]⟩ .f32)
    (b : FVec Ideal ⟨2, ![1, N]⟩ .f32) (h1 h2 : FTy.bf16.bits < FTy.f32.bits)
    (hb : (⟨2, ![1, N]⟩ : Shape).Broadcasts ⟨2, ![M, N]⟩) (p : Fin M) (q : Fin N) :
    maximumf (addf (matmul (F := Ideal) (DotDims.plain M K N) none (truncf .bf16 x h1) (truncf .bf16 w h2)
          (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p q)
      = max ((∑ c : Fin K, x (ix2 p c) * w (ix2 c q)) + b (ix2 (0 : Fin 1) q)) 0 := by
  rw [maximumf_apply, broadcast_apply, zero_scalar, dense_layer_apply]

end Layers

/-- The three printed dimension records are the plain "rows by contraction, contraction by columns" ones. -/
theorem dot6a : dot_S8000x40_S40x32_S8000x32_1_0_0_1_n_n = DotDims.plain 8000 40 32 := rfl
theorem dot6b : dot_S8000x32_S32x16_S8000x16_1_0_0_1_n_n = DotDims.plain 8000 32 16 := rfl
theorem dot6c : dot_S8000x16_S16x2_S8000x2_1_0_0_1_n_n = DotDims.plain 8000 16 2 := rfl

/-- The edge classifier before the replacement of infinities, on one row of 40 features, at output
    coordinate q: three dense layers, the bias added after each sum, the first two rectified after the
    bias.  An entry of the output depends on one row of the input only. -/
def mlpRow (row : Fin 40 → EReal) (w1 : S40x32.Idx → EReal) (b1 : S1x32.Idx → EReal)
    (w2 : S32x16.Idx → EReal) (b2 : S1x16.Idx → EReal) (w3 : S16x2.Idx → EReal) (b3 : S1x2.Idx → EReal)
    (q : Fin 2) : EReal :=
  (∑ k : Fin 16,
      max ((∑ l : Fin 32,
          max ((∑ j : Fin 40, row j * w1 (ix2 j l)) + b1 (ix2 (0 : Fin 1) l)) 0 * w2 (ix2 l k))
        + b2 (ix2 (0 : Fin 1) k)) 0 * w3 (ix2 k q))
    + b3 (ix2 (0 : Fin 1) q)

/-- The same on row p of a block of rows. -/
def mlpAt (e : S8000x40.Idx → EReal) (w1 : S40x32.Idx → EReal) (b1 : S1x32.Idx → EReal)
    (w2 : S32x16.Idx → EReal) (b2 : S1x16.Idx → EReal) (w3 : S16x2.Idx → EReal) (b3 : S1x2.Idx → EReal)
    (p : Fin 8000) (q : Fin 2) : EReal :=
  mlpRow (fun j => e (ix2 p j)) w1 b1 w2 b2 w3 b3 q

theorem mlpAt_eq_row (e : S8000x40.Idx → EReal) (w1 : S40x32.Idx → EReal) (b1 : S1x32.Idx → EReal)
    (w2 : S32x16.Idx → EReal) (b2 : S1x16.Idx → EReal) (w3 : S16x2.Idx → EReal) (b3 : S1x2.Idx → EReal)
    (p : Fin 8000) (q : Fin 2) :
    mlpAt e w1 b1 w2 b2 w3 b3 p q = mlpRow (fun j => e (ix2 p j)) w1 b1 w2 b2 w3 b3 q := rfl

/-- The value the loop part returns, at (p, q): the classifier with +infinity replaced. -/
theorem k6_pay2_entry (e : Vec Ideal S8000x40 .f32) (w1 : Vec Ideal S40x32 .f32) (b1 : Vec Ideal S1x32 .f32)
    (w2 : Vec Ideal S32x16 .f32) (b2 : Vec Ideal S1x16 .f32) (w3 : Vec Ideal S16x2 .f32) (b3 : Vec Ideal S1x2 .f32)
    (p : Fin 8000) (q : Fin 2) :
    k6_pay2 (F := Ideal) e w1 b1 w2 b2 w3 b3 (ix2 p q)
      = clampTop (mlpRow (fun j => e (ix2 p j)) w1 b1 w2 b2 w3 b3 q) := by
  unfold k6_pay2
  simp only [shapeCast_self, dot6a, dot6b, dot6c]
  rw [select_apply, cmpf_apply, broadcast_apply, broadcast_apply, select_apply, cmpf_apply, broadcast_apply,
    select_ne_self, select_eq, top_scalar, dense_layer_apply]
  simp only [relu_layer_apply]
  rfl

/-- The stored value from the loop part's, at any index: -infinity replaced. -/
theorem k6_pay1_apply (v : FVec Ideal S8000x2 .f32) (i : S8000x2.Idx) :
    k6_pay1 (F := Ideal) v i = clampBot (v i) := by
  unfold k6_pay1
  rw [select_apply, cmpf_apply, broadcast_apply, broadcast_apply, select_eq, bot_scalar]
  rfl

/-- The edge classifier's stored value at (p, q). -/
theorem k6_entry (e : Vec Ideal S8000x40 .f32) (w1 : Vec Ideal S40x32 .f32) (b1 : Vec Ideal S1x32 .f32)
    (w2 : Vec Ideal S32x16 .f32) (b2 : Vec Ideal S1x16 .f32) (w3 : Vec Ideal S16x2 .f32) (b3 : Vec Ideal S1x2 .f32)
    (p : Fin 8000) (q : Fin 2) :
    k6_pay1 (F := Ideal) (k6_pay2 (F := Ideal) e w1 b1 w2 b2 w3 b3) (ix2 p q)
      = clamp (mlpRow (fun j => e (ix2 p j)) w1 b1 w2 b2 w3 b3 q) := by
  rw [k6_pay1_apply, k6_pay2_entry]
  rfl

end Cert.Payloads
-- ==== Proof.Reference.Cut.lean ====
/-
  A single-assignment line read around any of its operations.

  Every operation of the reference's line writes one reference, and the 308 written references are pairwise
  different, so the line is in single-assignment form: once an operation has run, nothing after it writes its result.
  Cut the line as  first part ++ middle ++ last part.  A reference that the last part does not write holds, after the
  whole line, what it holds after the middle part run from the contents the first part leaves. Reading the middle part
  alone then relates the final contents of its results to the final contents of its operands.
-/
import proofs.«114179_j13726715478162_1_alg».proof.Proof.Reference.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- Operation k of the line writes exactly reference k of `W`. -/
theorem ops_W : List.Forall₂ (fun (op : HloOp τ sig (Elt F)) (y : Ref sig .tc) => op.writes = {Proc.devRef (τ := τ) .tc y})
    ops W :=
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .cons rfl <| .cons rfl <| .cons rfl <| .cons rfl <|
  .cons rfl <| .cons rfl <| .cons rfl <| .cons rfl <| .cons rfl <| .cons rfl <| .cons rfl <| .cons rfl <| .nil

/-- Operations paired with the references they write: a reference outside the list is written by none of them. -/
theorem not_writes_of_forall₂ : ∀ {l : List (HloOp τ sig (Elt F))} {L : List (Ref sig .tc)},
    List.Forall₂ (fun (op : HloOp τ sig (Elt F)) (y : Ref sig .tc) => op.writes = {Proc.devRef (τ := τ) .tc y}) l L →
    ∀ {r : Ref sig .tc}, r ∉ L → ∀ op ∈ l, Proc.devRef (τ := τ) .tc r ∉ op.writes
  | _, _, .nil, _, _, _, hop => nomatch hop
  | _, _, .cons (a := a) (b := b) h t, r, hr, op, hop => by
    rcases List.mem_cons.mp hop with rfl | hop
    · rw [h, Finset.mem_singleton]
      exact devRef_ne_of_ne fun e => hr (e ▸ List.mem_cons_self)
    · exact not_writes_of_forall₂ t (fun hm => hr (List.mem_cons_of_mem _ hm)) op hop

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The line cut as its first `k1` operations, a middle part, and everything from operation `k2` on: a reference
    not written from `k2` on holds at the end what it holds after the middle part. -/
theorem after_ops_cut (k1 k2 : ℕ) (mid : List (HloOp τ sig (Elt F)))
    (hcut : (ops : List (HloOp τ sig (Elt F))) = ops.take k1 ++ (mid ++ ops.drop k2))
    (V0 : Valuation τ sig (Elt F)) {r : Ref sig .tc} (hr : r ∉ W.drop k2) :
    after ops V0 (Proc.devRef .tc r) = after mid (after (ops.take k1) V0) (Proc.devRef .tc r) :=
  (congrArg (fun l => after l V0 (Proc.devRef .tc r)) hcut).trans (by
    rw [after_app, after_app]
    exact after_of_forall_not_mem (ops.drop k2) _ (not_writes_of_forall₂ (List.forall₂_drop k2 ops_W) hr))

end Cert.ReferenceIdeal.HandRun

end
-- ==== Proof.Reference.EntriesDense.lean ====
/-
  The reference's three node-wise matrix products, read at one entry, at the exact (extended-real) values.

  Each product is one operation of the line: a general product of a 100000 × K array of node features by a K × N
  weight. Cutting the line just before and just after that operation, the final contents of its result are the
  operation's function of the final contents of its operands (no later operation writes any of the three), and at an
  entry (p, q) that function is the sum over the contracted coordinate c of  x(p, c) · w(c, q).
-/
import proofs.«114179_j13726715478162_1_alg».proof.Proof.Reference.Cut
import proofs.«114179_j13726715478162_1_alg».proof.Proof.LibDense
import proofs.«114179_j13726715478162_1_alg».proof.Proof.LibTypedRef
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.ReferenceIdeal.Entries

open Cert.ReferenceIdeal Cert.ReferenceIdeal.Gen Cert.ReferenceIdeal.HandRun Idealize.ShloMosaic Idealize.ShloMosaic.TcCoe Idealize.SL.Sem Idealize.ShloMosaic.StableHlo Idealize.ShloMosaic.ValueIdx
open scoped BigOperators

variable {F : FTy → Type} [FloatOps F]
variable (V0 : Valuation τ sig (Elt Ideal))

/-- The buffers' contents after the whole line, from contents `V0`. -/
local notation "R" => after (ops (F := Ideal)) V0

/-- An array of extended reals, named at its shape: the identity, written so that an entry of a buffer's contents is
    an extended real by its type. -/
abbrev arr (S : Shape) (v : S.Idx → EReal) : S.Idx → EReal := v

/-- Operations 21 … 21 of the line. -/
abbrev mid_dense1 : List (HloOp τ sig (Elt F)) :=
  [ StableHlo.binary main_v4 main_arg3 main_v5 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
theorem cut_dense1 : (ops (F := F)) = (ops (F := F)).take 20 ++ (mid_dense1 ++ (ops (F := F)).drop 21) := rfl

set_option maxRecDepth 8192 in
/-- The 128 × 64 dense layer before its bias: entry (p, q) of the product is the sum over the contracted coordinate. -/
theorem dense1 (p : Fin 100000) (q : Fin 64) :
    arr S100000x64 (R (Proc.devRef .tc main_v5)) (ix2 p q)
      = ∑ c : Fin 128, arr S100000x128 (R (Proc.devRef .tc main_v4)) (ix2 p c) * arr S128x64 (V0 (Proc.devRef .tc main_arg3)) (ix2 c q) := by
  have cut := fun (r : Ref sig .tc) (hr : r ∉ W.drop 21) => after_ops_cut 20 21 (mid_dense1 (F := Ideal)) cut_dense1 V0 hr
  rw [← after_ops_of_not_mem V0 (r := main_arg3) (by decide)]
  rw [cut main_v5 (by decide), cut main_v4 (by decide), cut main_arg3 (by decide)]
  generalize after (List.take 20 (ops (F := Ideal))) V0 = V1
  simp only [mid_dense1, arr]
  after_results_simp
  exact StackMember.dotGeneral_plain_apply none _ _ p q

/-- Operations 94 … 94 of the line. -/
abbrev mid_dense2 : List (HloOp τ sig (Elt F)) :=
  [ StableHlo.binary main_v64 main_arg5 main_v65 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]
theorem cut_dense2 : (ops (F := F)) = (ops (F := F)).take 93 ++ (mid_dense2 ++ (ops (F := F)).drop 94) := rfl

set_option maxRecDepth 8192 in
/-- The 64 × 32 dense layer before its bias: entry (p, q) of the product is the sum over the contracted coordinate. -/
theorem dense2 (p : Fin 100000) (q : Fin 32) :
    arr S100000x32 (R (Proc.devRef .tc main_v65)) (ix2 p q)
      = ∑ c : Fin 64, arr S100000x64 (R (Proc.devRef .tc main_v64)) (ix2 p c) * arr S64x32 (V0 (Proc.devRef .tc main_arg5)) (ix2 c q) := by
  have cut := fun (r : Ref sig .tc) (hr : r ∉ W.drop 94) => after_ops_cut 93 94 (mid_dense2 (F := Ideal)) cut_dense2 V0 hr
  rw [← after_ops_of_not_mem V0 (r := main_arg5) (by decide)]
  rw [cut main_v65 (by decide), cut main_v64 (by decide), cut main_arg5 (by decide)]
  generalize after (List.take 93 (ops (F := Ideal))) V0 = V1
  simp only [mid_dense2, arr]
  after_results_simp
  exact StackMember.dotGeneral_plain_apply none _ _ p q

/-- Operations 167 … 167 of the line. -/
abbrev mid_dense3 : List (HloOp τ sig (Elt F)) :=
  [ StableHlo.binary main_v124 main_arg7 main_v125 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)) ]
theorem cut_dense3 : (ops (F := F)) = (ops (F := F)).take 166 ++ (mid_dense3 ++ (ops (F := F)).drop 167) := rfl

set_option maxRecDepth 8192 in
/-- The 32 × 16 dense layer before its bias: entry (p, q) of the product is the sum over the contracted coordinate. -/
theorem dense3 (p : Fin 100000) (q : Fin 16) :
    arr S100000x16 (R (Proc.devRef .tc main_v125)) (ix2 p q)
      = ∑ c : Fin 32, arr S100000x32 (R (Proc.devRef .tc main_v124)) (ix2 p c) * arr S32x16 (V0 (Proc.devRef .tc main_arg7)) (ix2 c q) := by
  have cut := fun (r : Ref sig .tc) (hr : r ∉ W.drop 167) => after_ops_cut 166 167 (mid_dense3 (F := Ideal)) cut_dense3 V0 hr
  rw [← after_ops_of_not_mem V0 (r := main_arg7) (by decide)]
  rw [cut main_v125 (by decide), cut main_v124 (by decide), cut main_arg7 (by decide)]
  generalize after (List.take 166 (ops (F := Ideal))) V0 = V1
  simp only [mid_dense3, arr]
  after_results_simp
  exact StackMember.dotGeneral_plain_apply none _ _ p q

end Cert.ReferenceIdeal.Entries

end
-- ==== Proof.Bridge.Product1.lean ====
/-
  Dense node layer 1: the kernel program's product array equals the reference's.

  On the kernel side the region's output array is the whole product of the arrays the region found (its ten row blocks
  tile it); on the reference side the general product of the whole arrays has the same entries, the sum over the
  contracted coordinate of the products. The inputs agree: the features by the previous step, the weights because they
  are an argument both programs leave alone.
-/
import proofs.«114179_j13726715478162_1_alg».proof.Proof.Bridge.Setup
import proofs.«114179_j13726715478162_1_alg».proof.Proof.Ideal.NodeLinear1Value
import proofs.«114179_j13726715478162_1_alg».proof.Proof.Payloads
import proofs.«114179_j13726715478162_1_alg».proof.Proof.Reference.EntriesDense

set_option maxRecDepth 16384

noncomputable section

open Idealize.ShloMosaic Idealize.ShloMosaic.TcCoe Idealize.SL.Sem Idealize.ShloMosaic.StableHlo Idealize.ShloMosaic.ValueIdx

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem product1_eq
    (hfeat : (Cert.KernelIdeal.Run.B2 m c (Proc.devRef .tc Cert.KernelIdeal.main_v27) : Cert.KernelIdeal.S100000x128.Idx → EReal) = Rv m' c (Proc.devRef .tc Cert.ReferenceIdeal.main_v4))
    (hw : R0 m' c (Proc.devRef .tc Cert.ReferenceIdeal.main_arg3) = Cert.KernelIdeal.Run.B0 m c (Proc.devRef .tc Cert.KernelIdeal.main_arg3)) :
    (Cert.KernelIdeal.Run.B3 m c (Proc.devRef .tc Cert.KernelIdeal.main_v28) : Cert.KernelIdeal.S100000x64.Idx → EReal) = Rv m' c (Proc.devRef .tc Cert.ReferenceIdeal.main_v5) := by
  have hk : (Cert.KernelIdeal.Run.B3 m c (Proc.devRef .tc Cert.KernelIdeal.main_v28) : Cert.KernelIdeal.S100000x64.Idx → EReal)
      = Cert.KernelIdeal.NodeLinear1.wholeProduct (Cert.KernelIdeal.Run.E2 m c Cert.KernelIdeal.main_v27) (Cert.KernelIdeal.Run.E2 m c Cert.KernelIdeal.main_arg3) :=
    (Cert.KernelIdeal.Run.B3_arr m c 2).trans (Cert.KernelIdeal.NodeLinear1.array_eq (Cert.KernelIdeal.Run.E2 m) Cert.Payloads.k0_pay1_entry c)
  have hr : (Rv m' c (Proc.devRef .tc Cert.ReferenceIdeal.main_v5) : Cert.KernelIdeal.S100000x64.Idx → EReal)
      = Cert.KernelIdeal.NodeLinear1.wholeProduct (Rv m' c (Proc.devRef .tc Cert.ReferenceIdeal.main_v4)) (R0 m' c (Proc.devRef .tc Cert.ReferenceIdeal.main_arg3)) := by
    funext i
    obtain ⟨p, q, rfl⟩ : ∃ (p : Fin 100000) (q : Fin 64), i = ix2 p q := ⟨i 0, i 1, eq_ix2 i⟩
    exact Cert.ReferenceIdeal.Entries.dense1 (R0 m' c) p q
  have e2 : (Cert.KernelIdeal.Run.E2 m c Cert.KernelIdeal.main_arg3 : Cert.KernelIdeal.S128x64.Idx → EReal) = R0 m' c (Proc.devRef .tc Cert.ReferenceIdeal.main_arg3) :=
    (Cert.KernelIdeal.Run.B2_main_arg3 m c).trans hw.symm
  rw [hk, hr, e2]
  exact congrArg (fun X => Cert.KernelIdeal.NodeLinear1.wholeProduct X _) hfeat

end Cert.Bridge

end
-- ==== Proof.Ideal.NodeLinear2Value.lean ====
/-
  Dense node layer 2: the output ARRAY after the region, at the exact (extended-real) values.

  Each grid point t writes rows 10000 t … 10000 t + 9999 of the output, and the entry (r, j) it writes is the sum over c
  of  x(r, c) · w(c, j) , x the node features and w the weights as the region finds them: a row of the product
  depends on the same row of x only, so it does not matter that x is read block by block. The ten blocks tile the
  100000 rows, so the whole output array is the whole product.
-/
import proofs.«114179_j13726715478162_1_alg».proof.Proof.Ideal.NodeLinear2
import Idealize.ShloMosaic.Lib.Pipeline.Value
import Idealize.ShloMosaic.Lib.ValueIdx

set_option maxRecDepth 16384

noncomputable section

namespace Cert.KernelIdeal.NodeLinear2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The whole product: entry (r, j) is the sum over c of x(r, c) · w(c, j). -/
def wholeProduct (X : S100000x64.Idx → EReal) (W : S64x32.Idx → EReal) : S100000x32.Idx → EReal :=
  fun i => ∑ c : Fin 64, X (ix2 (i 0) c) * W (ix2 c (i 1))

/-- Where the blocks sit: at point t the row windows are at block row t, block column 0; the weights at block (0, 0). -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product, GIVEN the body's arithmetic at an entry. -/
theorem flushed_eq
    (hpay : ∀ (x : Vec Ideal S10000x64 .f32) (w : Vec Ideal S64x32 .f32) (p : Fin 10000) (q : Fin 32),
      k2_pay1 x w (ix2 p q) = ∑ c : Fin 64, x (ix2 p c) * w (ix2 c q))
    (c : Dev nD) (t : Fin cfg2.N) :
    (dat V c).flushed 2 t = ((cfg2.win 2).blk t).view.read (Elt Ideal) (wholeProduct (V c main_v54) (V c main_arg5)) := by
  show (cfg2.win 2).cut (grid2.coords t) ((dat V c).after 2 t) = _
  rw [after_out]
  unfold result
  rw [View.canon_unit_zero zeros2]
  simp only [View.ld_unit_zero (S := S10000x64) zeros2, View.ld_unit_zero (S := S64x32) zeros2]
  obtain ⟨e0, e1, e2, e3, e4, e5⟩ := block_positions t
  funext j
  obtain ⟨p, q, rfl⟩ : ∃ (p : Fin 10000) (q : Fin 32), j = ix2 p q := ⟨j 0, j 1, eq_ix2 j⟩
  show k2_pay1 (blockAt V c 0 t) (blockAt V c 1 t) (ix2 p q) = wholeProduct (V c main_v54) (V c main_arg5) (((cfg2.win 2).blk t).view.emb (ix2 p q))
  rw [hpay]
  unfold wholeProduct
  refine Finset.sum_congr rfl fun cc _ => ?_
  have hx : ((cfg2.win 0).blk t).view.emb (ix2 p cc) = ix2 ((((cfg2.win 2).blk t).view.emb (ix2 p q)) 0) cc := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * cc.val = cc.val; omega
  have hw : ((cfg2.win 1).blk t).view.emb (ix2 cc q) = ix2 cc ((((cfg2.win 2).blk t).view.emb (ix2 p q)) 1) := by
    funext a; apply Fin.ext
    match a with
    | ⟨0, _⟩ => show win2_1.index t (0 : Fin 2) * 64 + 1 * cc.val = cc.val; omega
    | ⟨1, _⟩ => show win2_1.index t (1 : Fin 2) * 32 + 1 * q.val = win2_2.index t (1 : Fin 2) * 32 + 1 * q.val; omega
  have h1 : blockAt V c 0 t (ix2 p cc) = V c main_v54 (ix2 ((((cfg2.win 2).blk t).view.emb (ix2 p q)) 0) cc) := congrArg (V c main_v54) hx
  have h2 : blockAt V c 1 t (ix2 cc q) = V c main_arg5 (ix2 cc ((((cfg2.win 2).blk t).view.emb (ix2 p q)) 1)) := congrArg (V c main_arg5) hw
  rw [h1, h2]

/-- An index of the output array is in point t's block iff each coordinate is in the block's range on its axis. -/
theorem mem_block (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v55).slice (win2_2.rect t)).set ↔ _
  rw [View.set_slice_whole, Rect.mem_set_unit]
  exact Iff.rfl

/-- Every row r of the output is written by the point r / 10000: the ten blocks tile the array. -/
theorem covered (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : (i 0).val / 10000 < cfg2.N := by show (i 0).val / 10000 < grid2.N; rw [N_2]; omega
  refine ⟨⟨(i 0).val / 10000, hN⟩, flush2_2 _, ?_⟩
  rw [mem_block]
  obtain ⟨e0, e1, e2, e3, e4, e5⟩ := block_positions ⟨(i 0).val / 10000, hN⟩
  have e4' : win2_2.index ⟨(i 0).val / 10000, hN⟩ (0 : Fin 2) = (i 0).val / 10000 := e4
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 32 ≤ (i 1).val ∧ (i 1).val < win2_2.index ⟨(i 0).val / 10000, hN⟩ (1 : Fin 2) * 32 + 32; omega

/-- After the region the output array is the whole product of the arrays the region found, given the body's
    arithmetic at an entry. -/
theorem array_eq
    (hpay : ∀ (x : Vec Ideal S10000x64 .f32) (w : Vec Ideal S64x32 .f32) (p : Fin 10000) (q : Fin 32),
      k2_pay1 x w (ix2 p q) = ∑ c : Fin 64, x (ix2 p c) * w (ix2 c q))
    (c : Dev nD) : (dat V c).arrAt 2 cfg2.N = wholeProduct (V c main_v54) (V c main_arg5) :=
  (dat V c).arrAt_eq_of_cover 2 _ (fun t _ => flushed_eq V hpay c t) covered

end Cert.KernelIdeal.NodeLinear2

end
-- ==== Proof.Bridge.Product2.lean ====
/-
  Dense node layer 2: the kernel program's product array equals the reference's.

  On the kernel side the region's output array is the whole product of the arrays the region found (its ten row blocks
  tile it); on the reference side the general product of the whole arrays has the same entries, the sum over the
  contracted coordinate of the products. The inputs agree: the features by the previous step, the weights because they
  are an argument both programs leave alone.
-/
import proofs.«114179_j13726715478162_1_alg».proof.Proof.Bridge.Setup
import proofs.«114179_j13726715478162_1_alg».proof.Proof.Ideal.NodeLinear2Value
import proofs.«114179_j13726715478162_1_alg».proof.Proof.Payloads
import proofs.«114179_j13726715478162_1_alg».proof.Proof.Reference.EntriesDense

set_option maxRecDepth 16384

noncomputable section

open Idealize.ShloMosaic Idealize.ShloMosaic.TcCoe Idealize.SL.Sem Idealize.ShloMosaic.StableHlo Idealize.ShloMosaic.ValueIdx

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem product2_eq
    (hfeat : (Cert.KernelIdeal.Run.B5 m c (Proc.devRef .tc Cert.KernelIdeal.main_v54) : Cert.KernelIdeal.S100000x64.Idx → EReal) = Rv m' c (Proc.devRef .tc Cert.ReferenceIdeal.main_v64))
    (hw : R0 m' c (Proc.devRef .tc Cert.ReferenceIdeal.main_arg5) = Cert.KernelIdeal.Run.B0 m c (Proc.devRef .tc Cert.KernelIdeal.main_arg5)) :
    (Cert.KernelIdeal.Run.B6 m c (Proc.devRef .tc Cert.KernelIdeal.main_v55) : Cert.KernelIdeal.S100000x32.Idx → EReal) = Rv m' c (Proc.devRef .tc Cert.ReferenceIdeal.main_v65) := by
  have hk : (Cert.KernelIdeal.Run.B6 m c (Proc.devRef .tc Cert.KernelIdeal.main_v55) : Cert.KernelIdeal.S100000x32.Idx → EReal)
      = Cert.KernelIdeal.NodeLinear2.wholeProduct (Cert.KernelIdeal.Run.E5 m c Cert.KernelIdeal.main_v54) (Cert.KernelIdeal.Run.E5 m c Cert.KernelIdeal.main_arg5) :=
    (Cert.KernelIdeal.Run.B6_arr m c 2).trans (Cert.KernelIdeal.NodeLinear2.array_eq (Cert.KernelIdeal.Run.E5 m) Cert.Payloads.k2_pay1_entry c)
  have hr : (Rv m' c (Proc.devRef .tc Cert.ReferenceIdeal.main_v65) : Cert.KernelIdeal.S100000x32.Idx → EReal)
      = Cert.KernelIdeal.NodeLinear2.wholeProduct (Rv m' c (Proc.devRef .tc Cert.ReferenceIdeal.main_v64)) (R0 m' c (Proc.devRef .tc Cert.ReferenceIdeal.main_arg5)) := by
    funext i
    obtain ⟨p, q, rfl⟩ : ∃ (p : Fin 100000) (q : Fin 32), i = ix2 p q := ⟨i 0, i 1, eq_ix2 i⟩
    exact Cert.ReferenceIdeal.Entries.dense2 (R0 m' c) p q
  have e2 : (Cert.KernelIdeal.Run.E5 m c Cert.KernelIdeal.main_arg5 : Cert.KernelIdeal.S64x32.Idx → EReal) = R0 m' c (Proc.devRef .tc Cert.ReferenceIdeal.main_arg5) :=
    (Cert.KernelIdeal.Run.B5_main_arg5 m c).trans hw.symm
  rw [hk, hr, e2]
  exact congrArg (fun X => Cert.KernelIdeal.NodeLinear2.wholeProduct X _) hfeat

end Cert.Bridge

end
-- ==== Proof.Ideal.NodeLinear3Value.lean ====
/-
  Dense node layer 3: the output ARRAY after the region, at the exact (extended-real) values.

  Each grid point t writes rows 10000 t … 10000 t + 9999 of the output, and the entry (r, j) it writes is the sum over c
  of  x(r, c) · w(c, j) , x the node features and w the weights as the region finds them: a row of the product
  depends on the same row of x only, so it does not matter that x is read block by block. The ten blocks tile the
  100000 rows, so the whole output array is the whole product.
-/
import proofs.«114179_j13726715478162_1_alg».proof.Proof.Ideal.NodeLinear3
import Idealize.ShloMosaic.Lib.Pipeline.Value
import Idealize.ShloMosaic.Lib.ValueIdx

set_option maxRecDepth 16384

noncomputable section

namespace Cert.KernelIdeal.NodeLinear3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The whole product: entry (r, j) is the sum over c of x(r, c) · w(c, j). -/
def wholeProduct (X : S100000x32.Idx → EReal) (W : S32x16.Idx → EReal) : S100000x16.Idx → EReal :=
  fun i => ∑ c : Fin 32, X (ix2 (i 0) c) * W (ix2 c (i 1))

/-- Where the blocks sit: at point t the row windows are at block row t, block column 0; the weights at block (0, 0). -/
theorem block_positions : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product, GIVEN the body's arithmetic at an entry. -/
theorem flushed_eq
    (hpay : ∀ (x : Vec Ideal S10000x32 .f32) (w : Vec Ideal S32x16 .f32) (p : Fin 10000) (q : Fin 16),
      k4_pay1 x w (ix2 p q) = ∑ c : Fin 32, x (ix2 p c) * w (ix2 c q))
    (c : Dev nD) (t : Fin cfg4.N) :
    (dat V c).flushed 2 t = ((cfg4.win 2).blk t).view.read (Elt Ideal) (wholeProduct (V c main_v81) (V c main_arg7)) := by
  show (cfg4.win 2).cut (grid4.coords t) ((dat V c).after 2 t) = _
  rw [after_out]
  unfold result
  rw [View.canon_unit_zero zeros2]
  simp only [View.ld_unit_zero (S := S10000x32) zeros2, View.ld_unit_zero (S := S32x16) zeros2]
  obtain ⟨e0, e1, e2, e3, e4, e5⟩ := block_positions t
  funext j
  obtain ⟨p, q, rfl⟩ : ∃ (p : Fin 10000) (q : Fin 16), j = ix2 p q := ⟨j 0, j 1, eq_ix2 j⟩
  show k4_pay1 (blockAt V c 0 t) (blockAt V c 1 t) (ix2 p q) = wholeProduct (V c main_v81) (V c main_arg7) (((cfg4.win 2).blk t).view.emb (ix2 p q))
  rw [hpay]
  unfold wholeProduct
  refine Finset.sum_congr rfl fun cc _ => ?_
  have hx : ((cfg4.win 0).blk t).view.emb (ix2 p cc) = ix2 ((((cfg4.win 2).blk t).view.emb (ix2 p q)) 0) cc := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 32 + 1 * cc.val = cc.val; omega
  have hw : ((cfg4.win 1).blk t).view.emb (ix2 cc q) = ix2 cc ((((cfg4.win 2).blk t).view.emb (ix2 p q)) 1) := by
    funext a; apply Fin.ext
    match a with
    | ⟨0, _⟩ => show win4_1.index t (0 : Fin 2) * 32 + 1 * cc.val = cc.val; omega
    | ⟨1, _⟩ => show win4_1.index t (1 : Fin 2) * 16 + 1 * q.val = win4_2.index t (1 : Fin 2) * 16 + 1 * q.val; omega
  have h1 : blockAt V c 0 t (ix2 p cc) = V c main_v81 (ix2 ((((cfg4.win 2).blk t).view.emb (ix2 p q)) 0) cc) := congrArg (V c main_v81) hx
  have h2 : blockAt V c 1 t (ix2 cc q) = V c main_arg7 (ix2 cc ((((cfg4.win 2).blk t).view.emb (ix2 p q)) 1)) := congrArg (V c main_arg7) hw
  rw [h1, h2]

/-- An index of the output array is in point t's block iff each coordinate is in the block's range on its axis. -/
theorem mem_block (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v82).slice (win4_2.rect t)).set ↔ _
  rw [View.set_slice_whole, Rect.mem_set_unit]
  exact Iff.rfl

/-- Every row r of the output is written by the point r / 10000: the ten blocks tile the array. -/
theorem covered (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  have hN : (i 0).val / 10000 < cfg4.N := by show (i 0).val / 10000 < grid4.N; rw [N_4]; omega
  refine ⟨⟨(i 0).val / 10000, hN⟩, flush4_2 _, ?_⟩
  rw [mem_block]
  obtain ⟨e0, e1, e2, e3, e4, e5⟩ := block_positions ⟨(i 0).val / 10000, hN⟩
  have e4' : win4_2.index ⟨(i 0).val / 10000, hN⟩ (0 : Fin 2) = (i 0).val / 10000 := e4
  intro a
  match a with
  | ⟨0, _⟩ => show win4_2.index ⟨(i 0).val / 10000, hN⟩ (0 : Fin 2) * 10000 ≤ (i 0).val ∧ (i 0).val < win4_2.index ⟨(i 0).val / 10000, hN⟩ (0 : Fin 2) * 10000 + 10000; omega
  | ⟨1, _⟩ => show win4_2.index ⟨(i 0).val / 10000, hN⟩ (1 : Fin 2) * 16 ≤ (i 1).val ∧ (i 1).val < win4_2.index ⟨(i 0).val / 10000, hN⟩ (1 : Fin 2) * 16 + 16; omega

/-- After the region the output array is the whole product of the arrays the region found, given the body's
    arithmetic at an entry. -/
theorem array_eq
    (hpay : ∀ (x : Vec Ideal S10000x32 .f32) (w : Vec Ideal S32x16 .f32) (p : Fin 10000) (q : Fin 16),
      k4_pay1 x w (ix2 p q) = ∑ c : Fin 32, x (ix2 p c) * w (ix2 c q))
    (c : Dev nD) : (dat V c).arrAt 2 cfg4.N = wholeProduct (V c main_v81) (V c main_arg7) :=
  (dat V c).arrAt_eq_of_cover 2 _ (fun t _ => flushed_eq V hpay c t) covered

end Cert.KernelIdeal.NodeLinear3

end
-- ==== Proof.Bridge.Product3.lean ====
/-
  Dense node layer 3: the kernel program's product array equals the reference's.

  On the kernel side the region's output array is the whole product of the arrays the region found (its ten row blocks
  tile it); on the reference side the general product of the whole arrays has the same entries, the sum over the
  contracted coordinate of the products. The inputs agree: the features by the previous step, the weights because they
  are an argument both programs leave alone.
-/
import proofs.«114179_j13726715478162_1_alg».proof.Proof.Bridge.Setup
import proofs.«114179_j13726715478162_1_alg».proof.Proof.Ideal.NodeLinear3Value
import proofs.«114179_j13726715478162_1_alg».proof.Proof.Payloads
import proofs.«114179_j13726715478162_1_alg».proof.Proof.Reference.EntriesDense

set_option maxRecDepth 16384

noncomputable section

open Idealize.ShloMosaic Idealize.ShloMosaic.TcCoe Idealize.SL.Sem Idealize.ShloMosaic.StableHlo Idealize.ShloMosaic.ValueIdx

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem product3_eq
    (hfeat : (Cert.KernelIdeal.Run.B8 m c (Proc.devRef .tc Cert.KernelIdeal.main_v81) : Cert.KernelIdeal.S100000x32.Idx → EReal) = Rv m' c (Proc.devRef .tc Cert.ReferenceIdeal.main_v124))
    (hw : R0 m' c (Proc.devRef .tc Cert.ReferenceIdeal.main_arg7) = Cert.KernelIdeal.Run.B0 m c (Proc.devRef .tc Cert.KernelIdeal.main_arg7)) :
    (Cert.KernelIdeal.Run.B9 m c (Proc.devRef .tc Cert.KernelIdeal.main_v82) : Cert.KernelIdeal.S100000x16.Idx → EReal) = Rv m' c (Proc.devRef .tc Cert.ReferenceIdeal.main_v125) := by
  have hk : (Cert.KernelIdeal.Run.B9 m c (Proc.devRef .tc Cert.KernelIdeal.main_v82) : Cert.KernelIdeal.S100000x16.Idx → EReal)
      = Cert.KernelIdeal.NodeLinear3.wholeProduct (Cert.KernelIdeal.Run.E8 m c Cert.KernelIdeal.main_v81) (Cert.KernelIdeal.Run.E8 m c Cert.KernelIdeal.main_arg7) :=
    (Cert.KernelIdeal.Run.B9_arr m c 2).trans (Cert.KernelIdeal.NodeLinear3.array_eq (Cert.KernelIdeal.Run.E8 m) Cert.Payloads.k4_pay1_entry c)
  have hr : (Rv m' c (Proc.devRef .tc Cert.ReferenceIdeal.main_v125) : Cert.KernelIdeal.S100000x16.Idx → EReal)
      = Cert.KernelIdeal.NodeLinear3.wholeProduct (Rv m' c (Proc.devRef .tc Cert.ReferenceIdeal.main_v124)) (R0 m' c (Proc.devRef .tc Cert.ReferenceIdeal.main_arg7)) := by
    funext i
    obtain ⟨p, q, rfl⟩ : ∃ (p : Fin 100000) (q : Fin 16), i = ix2 p q := ⟨i 0, i 1, eq_ix2 i⟩
    exact Cert.ReferenceIdeal.Entries.dense3 (R0 m' c) p q
  have e2 : (Cert.KernelIdeal.Run.E8 m c Cert.KernelIdeal.main_arg7 : Cert.KernelIdeal.S32x16.Idx → EReal) = R0 m' c (Proc.devRef .tc Cert.ReferenceIdeal.main_arg7) :=
    (Cert.KernelIdeal.Run.B8_main_arg7 m c).trans hw.symm
  rw [hk, hr, e2]
  exact congrArg (fun X => Cert.KernelIdeal.NodeLinear3.wholeProduct X _) hfeat

end Cert.Bridge

end
-- ==== Proof.Bridge.Keep.lean ====
/-
  A region changes only the arrays of its own windows: every other buffer holds after the region what it held before.
  (Restated in the form in which a chain of host operations, read back step by step, can use it.)
-/
import proofs.«114179_j13726715478162_1_alg».proof.Proof.Ideal.Run

noncomputable section

open Idealize.ShloMosaic Idealize.ShloMosaic.TcCoe

namespace Cert.Bridge

variable {F : FTy → Type} [FloatOps F] (m : (ℓ : Loc Cert.KernelIdeal.nD Cert.KernelIdeal.τ Cert.KernelIdeal.sig) → Buf (Elt F) ℓ) (c : Dev Cert.KernelIdeal.nD)

theorem B3_keep (b : Ref Cert.KernelIdeal.sig .tc) (hb : ∀ w, Pipeline.arrRef Cert.KernelIdeal.spec0 w ≠ b) :
    Cert.KernelIdeal.Run.B3 m c (no_index (Proc.devRef .tc b)) = Cert.KernelIdeal.Run.B2 m c (Proc.devRef .tc b) :=
  Cert.KernelIdeal.Run.B3_of_ne m c b hb

theorem B5_keep (b : Ref Cert.KernelIdeal.sig .tc) (hb : ∀ w, Pipeline.arrRef Cert.KernelIdeal.spec1 w ≠ b) :
    Cert.KernelIdeal.Run.B5 m c (no_index (Proc.devRef .tc b)) = Cert.KernelIdeal.Run.B4 m c (Proc.devRef .tc b) :=
  Cert.KernelIdeal.Run.B5_of_ne m c b hb

theorem B6_keep (b : Ref Cert.KernelIdeal.sig .tc) (hb : ∀ w, Pipeline.arrRef Cert.KernelIdeal.spec2 w ≠ b) :
    Cert.KernelIdeal.Run.B6 m c (no_index (Proc.devRef .tc b)) = Cert.KernelIdeal.Run.B5 m c (Proc.devRef .tc b) :=
  Cert.KernelIdeal.Run.B6_of_ne m c b hb

theorem B8_keep (b : Ref Cert.KernelIdeal.sig .tc) (hb : ∀ w, Pipeline.arrRef Cert.KernelIdeal.spec3 w ≠ b) :
    Cert.KernelIdeal.Run.B8 m c (no_index (Proc.devRef .tc b)) = Cert.KernelIdeal.Run.B7 m c (Proc.devRef .tc b) :=
  Cert.KernelIdeal.Run.B8_of_ne m c b hb

theorem B9_keep (b : Ref Cert.KernelIdeal.sig .tc) (hb : ∀ w, Pipeline.arrRef Cert.KernelIdeal.spec4 w ≠ b) :
    Cert.KernelIdeal.Run.B9 m c (no_index (Proc.devRef .tc b)) = Cert.KernelIdeal.Run.B8 m c (Proc.devRef .tc b) :=
  Cert.KernelIdeal.Run.B9_of_ne m c b hb

theorem B11_keep (b : Ref Cert.KernelIdeal.sig .tc) (hb : ∀ w, Pipeline.arrRef Cert.KernelIdeal.spec5 w ≠ b) :
    Cert.KernelIdeal.Run.B11 m c (no_index (Proc.devRef .tc b)) = Cert.KernelIdeal.Run.B10 m c (Proc.devRef .tc b) :=
  Cert.KernelIdeal.Run.B11_of_ne m c b hb

theorem B14_keep (b : Ref Cert.KernelIdeal.sig .tc) (hb : ∀ w, Pipeline.arrRef Cert.KernelIdeal.spec6 w ≠ b) :
    Cert.KernelIdeal.Run.B14 m c (no_index (Proc.devRef .tc b)) = Cert.KernelIdeal.Run.B13 m c (Proc.devRef .tc b) :=
  Cert.KernelIdeal.Run.B14_of_ne m c b hb

end Cert.Bridge

end
-- ==== Proof.Bridge.Agg1.lean ====
/-
  Layer 1, the neighbour sums: the same gather, scaling by the edge normalisation and segment sum, applied on both sides to
  equal products and the same edge list.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem agg1_eq
    (hin : (Cert.KernelIdeal.Run.B3 m c (Proc.devRef .tc Cert.KernelIdeal.main_v28) : Cert.KernelIdeal.S100000x64.Idx → EReal)
      = Rv m' c (Proc.devRef .tc Cert.ReferenceIdeal.main_v5))
    (hidx : R0 m' c (Proc.devRef .tc Cert.ReferenceIdeal.main_arg1) = Cert.KernelIdeal.Run.B0 m c (Proc.devRef .tc Cert.KernelIdeal.main_arg1)) :
    (Cert.KernelIdeal.Run.B4 m c (Proc.devRef .tc Cert.KernelIdeal.main_v41) : Cert.KernelIdeal.S100000x64.Idx → EReal)
      = Rv m' c (Proc.devRef .tc Cert.ReferenceIdeal.main_v40) := by
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Self1.lean ====
/-
  Layer 1, the self terms: the product scaled row by row by the squared inverse root degree, on both sides.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem self1_eq
    (hin : (Cert.KernelIdeal.Run.B3 m c (Proc.devRef .tc Cert.KernelIdeal.main_v28) : Cert.KernelIdeal.S100000x64.Idx → EReal)
      = Rv m' c (Proc.devRef .tc Cert.ReferenceIdeal.main_v5))
    (hidx : R0 m' c (Proc.devRef .tc Cert.ReferenceIdeal.main_arg1) = Cert.KernelIdeal.Run.B0 m c (Proc.devRef .tc Cert.KernelIdeal.main_arg1)) :
    (Cert.KernelIdeal.Run.B4 m c (Proc.devRef .tc Cert.KernelIdeal.main_v44) : Cert.KernelIdeal.S100000x64.Idx → EReal)
      = Rv m' c (Proc.devRef .tc Cert.ReferenceIdeal.main_v44) := by
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Agg2.lean ====
/-
  Layer 2, the neighbour sums.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem agg2_eq
    (hin : (Cert.KernelIdeal.Run.B6 m c (Proc.devRef .tc Cert.KernelIdeal.main_v55) : Cert.KernelIdeal.S100000x32.Idx → EReal)
      = Rv m' c (Proc.devRef .tc Cert.ReferenceIdeal.main_v65))
    (hidx : R0 m' c (Proc.devRef .tc Cert.ReferenceIdeal.main_arg1) = Cert.KernelIdeal.Run.B0 m c (Proc.devRef .tc Cert.KernelIdeal.main_arg1)) :
    (Cert.KernelIdeal.Run.B7 m c (Proc.devRef .tc Cert.KernelIdeal.main_v68) : Cert.KernelIdeal.S100000x32.Idx → EReal)
      = Rv m' c (Proc.devRef .tc Cert.ReferenceIdeal.main_v100) := by
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Self2.lean ====
/-
  Layer 2, the self terms.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem self2_eq
    (hin : (Cert.KernelIdeal.Run.B6 m c (Proc.devRef .tc Cert.KernelIdeal.main_v55) : Cert.KernelIdeal.S100000x32.Idx → EReal)
      = Rv m' c (Proc.devRef .tc Cert.ReferenceIdeal.main_v65))
    (hidx : R0 m' c (Proc.devRef .tc Cert.ReferenceIdeal.main_arg1) = Cert.KernelIdeal.Run.B0 m c (Proc.devRef .tc Cert.KernelIdeal.main_arg1)) :
    (Cert.KernelIdeal.Run.B7 m c (Proc.devRef .tc Cert.KernelIdeal.main_v71) : Cert.KernelIdeal.S100000x32.Idx → EReal)
      = Rv m' c (Proc.devRef .tc Cert.ReferenceIdeal.main_v104) := by
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Agg3.lean ====
/-
  Layer 3, the neighbour sums.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem agg3_eq
    (hin : (Cert.KernelIdeal.Run.B9 m c (Proc.devRef .tc Cert.KernelIdeal.main_v82) : Cert.KernelIdeal.S100000x16.Idx → EReal)
      = Rv m' c (Proc.devRef .tc Cert.ReferenceIdeal.main_v125))
    (hidx : R0 m' c (Proc.devRef .tc Cert.ReferenceIdeal.main_arg1) = Cert.KernelIdeal.Run.B0 m c (Proc.devRef .tc Cert.KernelIdeal.main_arg1)) :
    (Cert.KernelIdeal.Run.B10 m c (Proc.devRef .tc Cert.KernelIdeal.main_v95) : Cert.KernelIdeal.S100000x16.Idx → EReal)
      = Rv m' c (Proc.devRef .tc Cert.ReferenceIdeal.main_v160) := by
  dsimp only [Cert.KernelIdeal.Run.B10, Cert.KernelIdeal.Gen.hostOps5]
  after_results_simp
  simp (disch := decide) only [B9_keep, B8_keep]
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Self3.lean ====
/-
  Layer 3, the self terms.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem self3_eq
    (hin : (Cert.KernelIdeal.Run.B9 m c (Proc.devRef .tc Cert.KernelIdeal.main_v82) : Cert.KernelIdeal.S100000x16.Idx → EReal)
      = Rv m' c (Proc.devRef .tc Cert.ReferenceIdeal.main_v125))
    (hidx : R0 m' c (Proc.devRef .tc Cert.ReferenceIdeal.main_arg1) = Cert.KernelIdeal.Run.B0 m c (Proc.devRef .tc Cert.KernelIdeal.main_arg1)) :
    (Cert.KernelIdeal.Run.B10 m c (Proc.devRef .tc Cert.KernelIdeal.main_v98) : Cert.KernelIdeal.S100000x16.Idx → EReal)
      = Rv m' c (Proc.devRef .tc Cert.ReferenceIdeal.main_v164) := by
  dsimp only [Cert.KernelIdeal.Run.B10, Cert.KernelIdeal.Gen.hostOps5]
  after_results_simp
  simp (disch := decide) only [B9_keep, B8_keep]
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.GatherSrc.lean ====
/-
  The last layer's rows gathered at each edge's source node: the same gather of equal arrays along the same edge list.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem gather_src_eq
    (hin : (Cert.KernelIdeal.Run.B11 m c (Proc.devRef .tc Cert.KernelIdeal.main_v108) : Cert.KernelIdeal.S100000x16.Idx → EReal) = Rv m' c (Proc.devRef .tc Cert.ReferenceIdeal.main_v184))
    (hidx : R0 m' c (Proc.devRef .tc Cert.ReferenceIdeal.main_arg1) = Cert.KernelIdeal.Run.B0 m c (Proc.devRef .tc Cert.KernelIdeal.main_arg1)) :
    (Cert.KernelIdeal.Run.B13 m c (Proc.devRef .tc Cert.KernelIdeal.main_v116) : Cert.KernelIdeal.S3200000x16.Idx → EReal) = Rv m' c (Proc.devRef .tc Cert.ReferenceIdeal.main_v191) := by
  dsimp only [Cert.KernelIdeal.Run.B13, Cert.KernelIdeal.Run.B12, Cert.KernelIdeal.Gen.hostOps6_1, Cert.KernelIdeal.Gen.hostOps6]
  after_results_simp
  simp (disch := decide) only [B11_keep]
  dsimp only [Cert.KernelIdeal.Run.B10, Cert.KernelIdeal.Gen.hostOps5]
  after_results_simp
  simp (disch := decide) only [B9_keep, B8_keep]
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.GatherDst.lean ====
/-
  The last layer's rows gathered at each edge's target node: the same gather of equal arrays along the same edge list.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem gather_dst_eq
    (hin : (Cert.KernelIdeal.Run.B11 m c (Proc.devRef .tc Cert.KernelIdeal.main_v108) : Cert.KernelIdeal.S100000x16.Idx → EReal) = Rv m' c (Proc.devRef .tc Cert.ReferenceIdeal.main_v184))
    (hidx : R0 m' c (Proc.devRef .tc Cert.ReferenceIdeal.main_arg1) = Cert.KernelIdeal.Run.B0 m c (Proc.devRef .tc Cert.KernelIdeal.main_arg1)) :
    (Cert.KernelIdeal.Run.B13 m c (Proc.devRef .tc Cert.KernelIdeal.main_v123) : Cert.KernelIdeal.S3200000x16.Idx → EReal) = Rv m' c (Proc.devRef .tc Cert.ReferenceIdeal.main_v198) := by
  dsimp only [Cert.KernelIdeal.Run.B13, Cert.KernelIdeal.Run.B12, Cert.KernelIdeal.Gen.hostOps6_1, Cert.KernelIdeal.Gen.hostOps6]
  after_results_simp
  simp (disch := decide) only [B11_keep]
  dsimp only [Cert.KernelIdeal.Run.B10, Cert.KernelIdeal.Gen.hostOps5]
  after_results_simp
  simp (disch := decide) only [B9_keep, B8_keep]
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  rw [hin]
  dsimp only [Rv, Cert.ReferenceIdeal.HandRun.ops]
  after_results_simp
  simp only [Cert.Lib.TypedRef.ofBuf_toBuf_id]
  rw [hidx]
  rfl

end Cert.Bridge

end
-- ==== Proof.Bridge.Attrs.lean ====
/-
  The edge attributes with infinities replaced by the largest finite values: the same three selections of the same
  argument array on both sides.
-/
import proofs.«114179_j13726715478162_1_alg».proof.Proof.Bridge.Setup
import proofs.«114179_j13726715478162_1_alg».proof.Proof.Bridge.Keep

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 8000000 in
theorem attrs_eq
    (hea : (R0 m' c (Proc.devRef .tc Cert.ReferenceIdeal.main_arg2) : Cert.KernelIdeal.S3200000x8.Idx → EReal) = Cert.KernelIdeal.Run.B0 m c (Proc.devRef .tc Cert.KernelIdeal.main_arg2)) :
    (Cert.KernelIdeal.Run.B13 m c (Proc.devRef .tc Cert.KernelIdeal.main_v109) : Cert.KernelIdeal.S3200000x8.Idx → EReal) = Rv m' c (Proc.devRef .tc Cert.ReferenceIdeal.main_v199) := by
  dsimp only [Cert.KernelIdeal.Run.B13, Cert.KernelIdeal.Run.B12, Cert.KernelIdeal.Gen.hostOps6_1, Cert.KernelIdeal.Gen.hostOps6]
  after_results_simp
  simp (disch := decide) only [B11_keep]
  dsimp only [Cert.KernelIdeal.Run.B10, Cert.KernelIdeal.Gen.hostOps5]
  after_results_simp
  simp (disch := decide) only [B9_keep, B8_keep]
  dsimp only [Cert.KernelIdeal.Run.B7, Cert.KernelIdeal.Gen.hostOps3]
  after_results_simp
  simp (disch := decide) only [B6_keep, B5_keep]
  dsimp only [Cert.KernelIdeal.Run.B4, Cert.KernelIdeal.Gen.hostOps1]
  after_results_simp
  simp (disch := decide) only [B3_keep]
  dsimp only [Cert.KernelIdeal.Run.B2, Cert.KernelIdeal.Run.B1, Cert.KernelIdeal.Gen.hostOps0_1, Cert.KernelIdeal.Gen.hostOps0]
  after_results_simp
  try dsimp only [Rv, Cert.ReferenceIdeal.HandRun.ops]
  try after_results_simp
  simp only [Cert.Lib.TypedRef.ofBuf_toBuf_id]
  rw [hea] <;> rfl

end Cert.Bridge

end
-- ==== Proof.Bridge.Concat.lean ====
/-
  The edge features: each edge's row is the last layer's row at its source node, then the row at its target node, then
  the edge's own cleaned attributes, laid side by side.

  On each side the three parts are computed first and joined by one operation of three operands. That operation is read
  here by cutting the line of operations at it: the joined buffer is the join of the three part buffers as they stand
  just before it, and nothing after it writes a part. So the joined buffers of the two programs agree as soon as the
  three parts do.
-/
import proofs.«114179_j13726715478162_1_alg».proof.Proof.Bridge.Setup
import proofs.«114179_j13726715478162_1_alg».proof.Proof.Reference.Cut
import Idealize.ShloMosaic.Lib.Pipeline.Frame

set_option maxRecDepth 16384

noncomputable section

open Idealize.ShloMosaic Idealize.ShloMosaic.TcCoe Idealize.SL.Sem Idealize.ShloMosaic.StableHlo

namespace Cert.Bridge

/-! ## The kernel program's side -/

section KernelSide

open Cert.KernelIdeal Cert.KernelIdeal.Gen

/-- The joining operation, alone, and the three reshapes that follow it in the last host stretch. -/
abbrev joinK : List (HloOp τ sig (Elt Ideal)) :=
  [ StableHlo.nary ![main_v116, main_v123, main_v109] main_v124 (fun u => concatenate S3200000x40 1 [⟨S3200000x16, u 0⟩, ⟨S3200000x16, u 1⟩, ⟨S3200000x8, u 2⟩] concatenates_S3200000x16_S3200000x16_S3200000x8_S3200000x40_d1) ]
abbrev tailK : List (HloOp τ sig (Elt Ideal)) :=
  [ StableHlo.reshape main_arg22 main_v125 rfl shapeCasts_S32_S1x32,
    StableHlo.reshape main_arg24 main_v126 rfl shapeCasts_S16_S1x16,
    StableHlo.reshape main_arg26 main_v127 rfl shapeCasts_S2_S1x2 ]

theorem cutK : (hostOps6_1 (F := Ideal)) = (hostOps6_1 (F := Ideal)).take 18 ++ (joinK ++ tailK) := rfl

/-- The three parts side by side. -/
def sideBySideK (X1 X2 : S3200000x16.Idx → EReal) (X3 : S3200000x8.Idx → EReal) : S3200000x40.Idx → EReal :=
  concatenate S3200000x40 1 [⟨S3200000x16, X1⟩, ⟨S3200000x16, X2⟩, ⟨S3200000x8, X3⟩] concatenates_S3200000x16_S3200000x16_S3200000x8_S3200000x40_d1

/-- After the last host stretch the joined buffer is the three part buffers side by side. -/
theorem joinedK (W : Valuation τ sig (Elt Ideal)) :
    (after (hostOps6_1 (F := Ideal)) W (Proc.devRef .tc main_v124) : S3200000x40.Idx → EReal)
      = sideBySideK (after (hostOps6_1 (F := Ideal)) W (Proc.devRef .tc main_v116))
          (after (hostOps6_1 (F := Ideal)) W (Proc.devRef .tc main_v123)) (after (hostOps6_1 (F := Ideal)) W (Proc.devRef .tc main_v109)) := by
  rw [cutK]
  simp only [StableHlo.after_append]
  generalize after (List.take 18 (hostOps6_1 (F := Ideal))) W = V
  simp only [joinK, tailK]
  after_results
  rfl

end KernelSide

/-! ## The reference's side -/

section ReferenceSide

open Cert.ReferenceIdeal Cert.ReferenceIdeal.Gen Cert.ReferenceIdeal.HandRun

variable {F : FTy → Type} [FloatOps F]

/-- The joining operation of the reference, alone. -/
abbrev joinR : List (HloOp τ sig (Elt F)) :=
  [ StableHlo.nary ![main_v191, main_v198, main_v199] main_v200 (fun u => concatenate S3200000x40 1 [⟨S3200000x16, u 0⟩, ⟨S3200000x16, u 1⟩, ⟨S3200000x8, u 2⟩] concatenates_S3200000x16_S3200000x16_S3200000x8_S3200000x40_d1) ]

theorem cutR : (ops (F := F)) = (ops (F := F)).take 273 ++ (joinR ++ (ops (F := F)).drop 274) := rfl

def sideBySideR (X1 X2 : S3200000x16.Idx → EReal) (X3 : S3200000x8.Idx → EReal) : S3200000x40.Idx → EReal :=
  concatenate S3200000x40 1 [⟨S3200000x16, X1⟩, ⟨S3200000x16, X2⟩, ⟨S3200000x8, X3⟩] concatenates_S3200000x16_S3200000x16_S3200000x8_S3200000x40_d1

theorem joinedR (V0 : Valuation τ sig (Elt Ideal)) :
    (after (ops (F := Ideal)) V0 (Proc.devRef .tc main_v200) : S3200000x40.Idx → EReal)
      = sideBySideR (after (ops (F := Ideal)) V0 (Proc.devRef .tc main_v191))
          (after (ops (F := Ideal)) V0 (Proc.devRef .tc main_v198)) (after (ops (F := Ideal)) V0 (Proc.devRef .tc main_v199)) := by
  have cut := fun (r : Ref sig .tc) (hr : r ∉ W.drop 274) => after_ops_cut 273 274 (joinR (F := Ideal)) cutR V0 hr
  rw [cut main_v200 (by decide), cut main_v191 (by decide), cut main_v198 (by decide), cut main_v199 (by decide)]
  generalize after (List.take 273 (ops (F := Ideal))) V0 = V1
  simp only [joinR]
  after_results
  rfl

end ReferenceSide

/-! ## The two sides -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem feats_eq
    (h1 : (Cert.KernelIdeal.Run.B13 m c (Proc.devRef .tc Cert.KernelIdeal.main_v116) : Cert.KernelIdeal.S3200000x16.Idx → EReal) = Rv m' c (Proc.devRef .tc Cert.ReferenceIdeal.main_v191))
    (h2 : (Cert.KernelIdeal.Run.B13 m c (Proc.devRef .tc Cert.KernelIdeal.main_v123) : Cert.KernelIdeal.S3200000x16.Idx → EReal) = Rv m' c (Proc.devRef .tc Cert.ReferenceIdeal.main_v198))
    (h3 : (Cert.KernelIdeal.Run.B13 m c (Proc.devRef .tc Cert.KernelIdeal.main_v109) : Cert.KernelIdeal.S3200000x8.Idx → EReal) = Rv m' c (Proc.devRef .tc Cert.ReferenceIdeal.main_v199)) :
    (Cert.KernelIdeal.Run.B13 m c (Proc.devRef .tc Cert.KernelIdeal.main_v124) : Cert.KernelIdeal.S3200000x40.Idx → EReal) = Rv m' c (Proc.devRef .tc Cert.ReferenceIdeal.main_v200) := by
  have hk := joinedK (Cert.KernelIdeal.Run.B12 m c)
  have hr := joinedR (R0 m' c)
  refine hk.trans (Eq.trans ?_ hr.symm)
  show sideBySideK (Cert.KernelIdeal.Run.B13 m c (Proc.devRef .tc Cert.KernelIdeal.main_v116)) (Cert.KernelIdeal.Run.B13 m c (Proc.devRef .tc Cert.KernelIdeal.main_v123)) (Cert.KernelIdeal.Run.B13 m c (Proc.devRef .tc Cert.KernelIdeal.main_v109))
    = sideBySideR (Rv m' c (Proc.devRef .tc Cert.ReferenceIdeal.main_v191)) (Rv m' c (Proc.devRef .tc Cert.ReferenceIdeal.main_v198)) (Rv m' c (Proc.devRef .tc Cert.ReferenceIdeal.main_v199))
  rw [h1, h2, h3]
  rfl

end Cert.Bridge

end
-- ==== Proof.LibBatchNormLaw.lean ====
/-
  Folding an affine normalisation into one scale and one shift, on the extended reals.

  A batch-normalisation layer in inference mode maps an entry `c` to `(c - m) * r * g + be`, where `m` is the
  running mean, `r` the reciprocal standard deviation, `g` the gain and `be` the offset. A fused implementation
  precomputes `s = r * g` and `t = be - m * s` and evaluates `c * s + t`. Over the reals the two agree by
  distributivity. Over the extended reals distributivity fails at the infinities in general, but here only `c` may
  be infinite: `m`, `r`, `g`, `be` are real. Then an infinite `c` absorbs the finite subtrahend (`c - m = c`),
  the product `c * s` is `⊤`, `0` or `⊥` by the sign of `s`, and adding either finite tail to it gives the same
  value. So the identity holds for EVERY extended real `c`, and a proof that uses it never has to show that `c`,
  which may come out of long chains of gathers and segment sums, is finite.
-/
import Mathlib.Data.EReal.Inv

namespace BatchNormLaw

/-- `(c - m) * r * g + be = c * (r * g) + (be - m * (r * g))` for every extended real `c` and real `m r g be`. -/
theorem fold_scale_shift (c : EReal) (r g m be : ℝ) :
    (c - (m : EReal)) * (r : EReal) * (g : EReal) + (be : EReal)
      = c * ((r : EReal) * (g : EReal)) + ((be : EReal) - (m : EReal) * ((r : EReal) * (g : EReal))) := by
  rw [mul_assoc, ← EReal.coe_mul r g]
  generalize r * g = s
  induction c using EReal.rec with
  | bot =>
    have h1 : (⊥ : EReal) - (m : EReal) = ⊥ := EReal.bot_sub _
    rw [h1, ← EReal.coe_mul, ← EReal.coe_sub]
    rcases lt_trichotomy s 0 with h | h | h
    · rw [EReal.bot_mul_coe_of_neg h, EReal.top_add_coe, EReal.top_add_coe]
    · subst h; simp
    · rw [EReal.bot_mul_coe_of_pos h, EReal.bot_add, EReal.bot_add]
  | coe c =>
    rw [← EReal.coe_sub, ← EReal.coe_mul, ← EReal.coe_add, ← EReal.coe_mul, ← EReal.coe_mul, ← EReal.coe_sub,
      ← EReal.coe_add]
    congr 1
    ring
  | top =>
    have h1 : (⊤ : EReal) - (m : EReal) = ⊤ := EReal.top_sub_coe _
    rw [h1, ← EReal.coe_mul, ← EReal.coe_sub]
    rcases lt_trichotomy s 0 with h | h | h
    · rw [EReal.top_mul_coe_of_neg h, EReal.bot_add, EReal.bot_add]
    · subst h; simp
    · rw [EReal.top_mul_coe_of_pos h, EReal.top_add_coe, EReal.top_add_coe]

end BatchNormLaw
-- ==== Proof.LayerLaw.lean ====
/-
  One entry of a normalised, rectified layer, on the extended reals.

  The reference computes  max(((c - m) · r) · g + be, 0)  with  r = 1 / sqrt(v + ε) ; the fused form computes
  max(c · s + t, 0)  with  s = r · g  and  t = be - m · s . Here ε is the single-precision number nearest to 10⁻⁵, which is
  (2²³ + 2606508) · 2⁻⁴⁰, a positive real; so for a real variance v ≥ 0 the number v + ε is a positive real and r is a
  real. With m, g, be real as well, the two forms agree for EVERY extended real c (the fold of scale and shift).
-/
import proofs.«114179_j13726715478162_1_alg».proof.Proof.LibBatchNormLaw
import Idealize.ShloMosaic.PureOps.Ideal
import Idealize.ShloMosaic.PureOps.Ideal.Laws

noncomputable section

namespace Cert.LayerLaw

open Idealize.ShloMosaic

/-- The ε of the normalisation is a positive real. -/
theorem eps_pos : ∃ e : ℝ, 0 < e ∧ Ideal.ofBits .f32 0x3727C5AC#32 = ((e : ℝ) : EReal) := by
  refine ⟨((2 ^ 23 + 2606508 : ℕ) : ℝ) * (2 : ℝ) ^ ((110 : Int) - 127 - 23), by positivity, ?_⟩
  simp [Ideal.ofBits, Ideal.ieee, -EReal.coe_mul]

/-- The reciprocal square root of a non-negative real plus a positive real is a real. -/
theorem rsqrt_real (v e : ℝ) (hv : 0 ≤ v) (he : 0 < e) : ∃ s : ℝ, Ideal.rsqrt ((v : EReal) + (e : EReal)) = ((s : ℝ) : EReal) := by
  have hpos : 0 < v + e := by linarith
  refine ⟨(Real.sqrt (v + e))⁻¹, ?_⟩
  rw [← EReal.coe_add, Ideal.rsqrt_coe, if_neg (not_lt.mpr hpos.le), if_neg hpos.ne']

/-- One entry of the layer: the reference's form equals the fused form, for every extended real `c`, when the variance is
    a non-negative real and mean, gain and offset are reals. -/
theorem entry_eq (c x_v x_g x_be x_m : EReal) (v g be mm : ℝ) (hv0 : 0 ≤ v)
    (hv : x_v = (v : EReal)) (hg : x_g = (g : EReal)) (hbe : x_be = (be : EReal)) (hm : x_m = (mm : EReal)) :
    max (((c - x_m) * Ideal.rsqrt (x_v + Ideal.ofBits .f32 0x3727C5AC#32)) * x_g + x_be) 0
      = max (c * (Ideal.rsqrt (x_v + Ideal.ofBits .f32 0x3727C5AC#32) * x_g)
          + (x_be - x_m * (Ideal.rsqrt (x_v + Ideal.ofBits .f32 0x3727C5AC#32) * x_g))) 0 := by
  obtain ⟨e, he, hE⟩ := eps_pos
  obtain ⟨s, hs⟩ := rsqrt_real v e hv0 he
  rw [hv, hg, hbe, hm, hE, hs, BatchNormLaw.fold_scale_shift]

end Cert.LayerLaw

end
-- ==== Proof.Bridge.OutLaw.lean ====
/-
  Assembling one entry of a fused layer's output: the kernel program's value equals the reference's.

  The kernel program computes  max((A + S + b) · sc + sh, 0)  with the rows  b = bias,
  sc = rsqrt(v + eps) · g  and  sh = be - m · sc ; the reference computes
  max((((A + S + bias) - m) · rsqrt(v + eps)) · g + be, 0) .  When the two programs read the same
  summands A, S and the same parameter entries, and the variance entry is a nonnegative real and the
  other parameter entries are reals, the two values agree: this is the fold of scale and shift, with
  c = A + S + bias arbitrary.
-/
import proofs.«114179_j13726715478162_1_alg».proof.Proof.LayerLaw
import Idealize.ShloMosaic.PureOps.Ideal

noncomputable section

namespace Cert.Bridge

open Idealize.ShloMosaic

/-- An array of extended reals, read as such (pins the entry type, so that arithmetic on entries typechecks). -/
abbrev rd (S : Shape) (v : S.Idx → EReal) : S.Idx → EReal := v

/-- The algebra of one entry.  L is the kernel program's value, Rr the reference's; x… are what the
    kernel's combine reads, y… what the reference reads, z… the kernel program's parameter entries. -/
theorem assemble (L Rr xA xS xb xsc xsh yA yS y4 y9 y10 y11 y12 z4 z9 z10 z11 z12 : EReal)
    (v g be mm : ℝ) (hv0 : 0 ≤ v)
    (eL : L = max ((xA + xS + xb) * xsc + xsh) 0)
    (eb : xb = z4)
    (esc : xsc = Ideal.rsqrt (z12 + Ideal.ofBits .f32 0x3727C5AC#32) * z9)
    (esh : xsh = z10 - z11 * (Ideal.rsqrt (z12 + Ideal.ofBits .f32 0x3727C5AC#32) * z9))
    (eR : Rr = max ((((yA + yS + y4) - y11) * Ideal.rsqrt (y12 + Ideal.ofBits .f32 0x3727C5AC#32)) * y9 + y10) 0)
    (hA : xA = yA) (hS : xS = yS)
    (h4 : y4 = z4) (h9 : y9 = z9) (h10 : y10 = z10) (h11 : y11 = z11) (h12 : y12 = z12)
    (hv : z12 = ((v : ℝ) : EReal)) (hg : z9 = ((g : ℝ) : EReal)) (hbe : z10 = ((be : ℝ) : EReal))
    (hm : z11 = ((mm : ℝ) : EReal)) :
    L = Rr := by
  rw [eL, eR, eb, esc, esh, hA, hS, h4, h9, h10, h11, h12]
  exact (Cert.LayerLaw.entry_eq (yA + yS + z4) z12 z9 z10 z11 v g be mm hv0 hv hg hbe hm).symm

end Cert.Bridge

end
-- ==== Proof.Ideal.Combine1Value.lean ====
/-
  The fused combine of layer 1: the output ARRAY after the region, at the exact (extended-real) values.

  Each grid point t writes rows 10000 t … 10000 t + 9999 of the output; the entry (r, j) it writes is
  max((A(r, j) + S(r, j) + b(j)) · sc(j) + sh(j), 0), A the neighbour sums, S the self terms, b, sc, sh the three rows, all as
  the region finds them. An entry depends on the same entry of A and S and on column j of the rows only, and the ten
  blocks tile the 100000 rows, so the whole output array is that expression entry by entry.
-/
import proofs.«114179_j13726715478162_1_alg».proof.Proof.Ideal.Combine1
import Idealize.ShloMosaic.Lib.Pipeline.Value
import Idealize.ShloMosaic.Lib.ValueIdx

set_option maxRecDepth 16384

noncomputable section

namespace Cert.KernelIdeal.Combine1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The rectified affine combination, entry by entry, each row read at the entry's column. -/
def combined (A S : S100000x64.Idx → EReal) (b sc sh : S1x64.Idx → EReal) : S100000x64.Idx → EReal :=
  fun i => max ((A i + S i + b (ix2 (0 : Fin 1) (i 1))) * sc (ix2 (0 : Fin 1) (i 1)) + sh (ix2 (0 : Fin 1) (i 1))) 0

set_option maxHeartbeats 2000000 in
/-- Where the blocks sit: at point t the three row-block windows are at block row t, block column 0; -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0 :=
  (by decide +kernel : ∀ t : Fin grid1.N, _)

set_option maxHeartbeats 2000000 in
/-- and the three rows at block (0, 0). -/
theorem row_positions : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

set_option maxHeartbeats 2000000 in
/-- What point t writes back is block t of the combination, GIVEN the body's arithmetic at an entry. -/
theorem flushed_eq
    (hpay : ∀ (a s : Vec Ideal S10000x64 .f32) (b sc sh : Vec Ideal S1x64 .f32) (p : Fin 10000) (q : Fin 64),
      k1_pay1 a s b sc sh (ix2 p q) = max ((a (ix2 p q) + s (ix2 p q) + b (ix2 (0 : Fin 1) q)) * sc (ix2 (0 : Fin 1) q) + sh (ix2 (0 : Fin 1) q)) 0)
    (c : Dev nD) (t : Fin cfg1.N) :
    (dat V c).flushed 5 t = ((cfg1.win 5).blk t).view.read (Elt Ideal)
      (combined (V c main_v41) (V c main_v44) (V c main_v51) (V c main_v52) (V c main_v53)) := by
  show (cfg1.win 5).cut (grid1.coords t) ((dat V c).after 5 t) = _
  rw [after_out]
  unfold result
  rw [View.canon_unit_zero zeros2]
  simp only [View.ld_unit_zero (S := S10000x64) zeros2, View.ld_unit_zero (S := S1x64) zeros2]
  obtain ⟨e0, e1, e2, e3, e10, e11⟩ := block_positions t
  obtain ⟨e4, e5, e6, e7, e8, e9⟩ := row_positions t
  funext j
  obtain ⟨p, q, rfl⟩ : ∃ (p : Fin 10000) (q : Fin 64), j = ix2 p q := ⟨j 0, j 1, eq_ix2 j⟩
  show k1_pay1 (blockAt V c 0 t) (blockAt V c 1 t) (blockAt V c 2 t) (blockAt V c 3 t) (blockAt V c 4 t) (ix2 p q)
    = combined (V c main_v41) (V c main_v44) (V c main_v51) (V c main_v52) (V c main_v53) (((cfg1.win 5).blk t).view.emb (ix2 p q))
  rw [hpay]
  unfold combined
  have hA : ((cfg1.win 0).blk t).view.emb (ix2 p q) = (((cfg1.win 5).blk t).view.emb (ix2 p q)) := by
    funext a; apply Fin.ext
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * q.val = win1_5.index t (1 : Fin 2) * 64 + 1 * q.val; omega
  have hS : ((cfg1.win 1).blk t).view.emb (ix2 p q) = (((cfg1.win 5).blk t).view.emb (ix2 p q)) := by
    funext a; apply Fin.ext
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * q.val = win1_5.index t (1 : Fin 2) * 64 + 1 * q.val; omega
  have hcol : ((((cfg1.win 5).blk t).view.emb (ix2 p q)) 1).val = q.val := by
    show win1_5.index t (1 : Fin 2) * 64 + 1 * q.val = q.val; omega
  have hb : ((cfg1.win 2).blk t).view.emb (ix2 (0 : Fin 1) q) = ix2 (0 : Fin 1) ((((cfg1.win 5).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = ((((cfg1.win 5).blk t).view.emb (ix2 p q)) 1).val; omega
  have hsc : ((cfg1.win 3).blk t).view.emb (ix2 (0 : Fin 1) q) = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = ((((cfg1.win 5).blk t).view.emb (ix2 p q)) 1).val; omega
  have hsh : ((cfg1.win 4).blk t).view.emb (ix2 (0 : Fin 1) q) = ix2 (0 : Fin 1) ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 64 + 1 * q.val = ((((cfg1.win 5).blk t).view.emb (ix2 p q)) 1).val; omega
  have h0 : blockAt V c 0 t (ix2 p q) = V c main_v41 (((cfg1.win 5).blk t).view.emb (ix2 p q)) := congrArg (V c main_v41) hA
  have h1 : blockAt V c 1 t (ix2 p q) = V c main_v44 (((cfg1.win 5).blk t).view.emb (ix2 p q)) := congrArg (V c main_v44) hS
  have h2 : blockAt V c 2 t (ix2 (0 : Fin 1) q) = V c main_v51 (ix2 (0 : Fin 1) ((((cfg1.win 5).blk t).view.emb (ix2 p q)) 1)) := congrArg (V c main_v51) hb
  have h3 : blockAt V c 3 t (ix2 (0 : Fin 1) q) = V c main_v52 (ix2 (0 : Fin 1) ((((cfg1.win 5).blk t).view.emb (ix2 p q)) 1)) := congrArg (V c main_v52) hsc
  have h4 : blockAt V c 4 t (ix2 (0 : Fin 1) q) = V c main_v53 (ix2 (0 : Fin 1) ((((cfg1.win 5).blk t).view.emb (ix2 p q)) 1)) := congrArg (V c main_v53) hsh
  rw [h0, h1, h2, h3, h4]

/-- An index of the output array is in point t's block iff each coordinate is in the block's range on its axis. -/
theorem mem_block (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v54).slice (win1_5.rect t)).set ↔ _
  rw [View.set_slice_whole, Rect.mem_set_unit]
  exact Iff.rfl

/-- Every row r of the output is written by the point r / 10000: the ten blocks tile the array. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 10000 < cfg1.N := by show (i 0).val / 10000 < grid1.N; rw [N_1]; omega
  refine ⟨⟨(i 0).val / 10000, hN⟩, flush1_5 _, ?_⟩
  rw [mem_block]
  obtain ⟨e0, e1, e2, e3, e10, e11⟩ := block_positions ⟨(i 0).val / 10000, hN⟩
  have e10' : win1_5.index ⟨(i 0).val / 10000, hN⟩ (0 : Fin 2) = (i 0).val / 10000 := e10
  intro a
  match a with
  | ⟨0, _⟩ => show win1_5.index ⟨(i 0).val / 10000, hN⟩ (0 : Fin 2) * 10000 ≤ (i 0).val ∧ (i 0).val < win1_5.index ⟨(i 0).val / 10000, hN⟩ (0 : Fin 2) * 10000 + 10000; omega
  | ⟨1, _⟩ => show win1_5.index ⟨(i 0).val / 10000, hN⟩ (1 : Fin 2) * 64 ≤ (i 1).val ∧ (i 1).val < win1_5.index ⟨(i 0).val / 10000, hN⟩ (1 : Fin 2) * 64 + 64; omega

/-- After the region the output array is the combination of the arrays the region found, given the body's arithmetic
    at an entry. -/
theorem array_eq
    (hpay : ∀ (a s : Vec Ideal S10000x64 .f32) (b sc sh : Vec Ideal S1x64 .f32) (p : Fin 10000) (q : Fin 64),
      k1_pay1 a s b sc sh (ix2 p q) = max ((a (ix2 p q) + s (ix2 p q) + b (ix2 (0 : Fin 1) q)) * sc (ix2 (0 : Fin 1) q) + sh (ix2 (0 : Fin 1) q)) 0)
    (c : Dev nD) : (dat V c).arrAt 5 cfg1.N = combined (V c main_v41) (V c main_v44) (V c main_v51) (V c main_v52) (V c main_v53) :=
  (dat V c).arrAt_eq_of_cover 5 _ (fun t _ => flushed_eq V hpay c t) covered

end Cert.KernelIdeal.Combine1

end
-- ==== Proof.KernelRows.lean ====
/-
  The three rows the host program prepares for each fused combine, read at an entry.

  Before each combine the host computes, from the layer's batch-normalisation vectors (scale g,
  shift be, mean m, variance v) and a small constant eps,
      scale = rsqrt(v + eps) * g        and        shift = be - m * scale,
  and lays the layer's bias, this scale and this shift out as 1 × N rows.  Here each of those rows
  is read at (0, q): the row's entry is the vector's entry at q, and the vector's entry is the
  arithmetic expression above at q, all operations being entrywise and exact.  No operation of these
  stretches writes an argument array, so the arguments are read as they were before the stretch.
-/
import proofs.«114179_j13726715478162_1_alg».proof.Proof.Gen.KernelIdeal.Launch
import proofs.«114179_j13726715478162_1_alg».proof.Proof.LibDense
import Idealize.ShloMosaic.Lib.StableHlo.Run
import Idealize.ShloMosaic.PureOps.Ideal
import Idealize.ShloMosaic.Lib.ValueIdx
import Idealize.ShloMosaic.Lib.Pipeline.Value

noncomputable section

namespace Cert.KernelRows

open Idealize.ShloMosaic Idealize.ShloMosaic.ValueIdx Idealize.SL.Sem
open Cert.KernelIdeal Cert.KernelIdeal.Gen Cert.Lib.Dense

variable (W : Valuation Cert.KernelIdeal.τ Cert.KernelIdeal.sig (Elt Ideal))

/- The argument arrays are read through the memory's general contents type, which is the extended
   reals only after unfolding the signature; the arithmetic below is therefore written with the
   operations pinned to the extended reals, so that each statement reads  W(arg) (q) + eps , etc.,
   directly on the contents. -/
local notation:65 a:65 " +ₑ " b:66 => @HAdd.hAdd EReal EReal EReal instHAdd a b
local notation:65 a:65 " -ₑ " b:66 => @HSub.hSub EReal EReal EReal instHSub a b
local notation:70 a:70 " *ₑ " b:71 => @HMul.hMul EReal EReal EReal instHMul a b

/-! ## Layer 1 (width 64) -/

/-- The bias row of layer 1 at (0, q) is the bias vector at q. -/
theorem bias_row1 (q : Fin 64) :
    StableHlo.after (hostOps1 (F := Ideal)) W (Proc.devRef .tc main_v51) (ix2 (0 : Fin 1) q) = W (Proc.devRef .tc main_arg4) (ix1 q) := by
  after_results_simp
  exact shapeCast_vec_row_apply _ _ q

/-- The scale row of layer 1 at (0, q): rsqrt(v + eps) * g at q. -/
theorem scale_row1 (q : Fin 64) :
    StableHlo.after (hostOps1 (F := Ideal)) W (Proc.devRef .tc main_v52) (ix2 (0 : Fin 1) q)
      = Ideal.rsqrt (W (Proc.devRef .tc main_arg12) (ix1 q) +ₑ Ideal.ofBits .f32 0x3727C5AC#32) *ₑ W (Proc.devRef .tc main_arg9) (ix1 q) := by
  after_results_simp
  refine (shapeCast_vec_row_apply _ _ q).trans ?_
  rfl

/-- The shift row of layer 1 at (0, q): be - m * (rsqrt(v + eps) * g) at q. -/
theorem shift_row1 (q : Fin 64) :
    StableHlo.after (hostOps1 (F := Ideal)) W (Proc.devRef .tc main_v53) (ix2 (0 : Fin 1) q)
      = W (Proc.devRef .tc main_arg10) (ix1 q) -ₑ W (Proc.devRef .tc main_arg11) (ix1 q)
          *ₑ (Ideal.rsqrt (W (Proc.devRef .tc main_arg12) (ix1 q) +ₑ Ideal.ofBits .f32 0x3727C5AC#32) *ₑ W (Proc.devRef .tc main_arg9) (ix1 q)) := by
  after_results_simp
  refine (shapeCast_vec_row_apply _ _ q).trans ?_
  rfl

/-! ## Layer 2 (width 32) -/

/-- The bias row of layer 2 at (0, q) is the bias vector at q. -/
theorem bias_row2 (q : Fin 32) :
    StableHlo.after (hostOps3 (F := Ideal)) W (Proc.devRef .tc main_v78) (ix2 (0 : Fin 1) q) = W (Proc.devRef .tc main_arg6) (ix1 q) := by
  after_results_simp
  exact shapeCast_vec_row_apply _ _ q

/-- The scale row of layer 2 at (0, q): rsqrt(v + eps) * g at q. -/
theorem scale_row2 (q : Fin 32) :
    StableHlo.after (hostOps3 (F := Ideal)) W (Proc.devRef .tc main_v79) (ix2 (0 : Fin 1) q)
      = Ideal.rsqrt (W (Proc.devRef .tc main_arg16) (ix1 q) +ₑ Ideal.ofBits .f32 0x3727C5AC#32) *ₑ W (Proc.devRef .tc main_arg13) (ix1 q) := by
  after_results_simp
  refine (shapeCast_vec_row_apply _ _ q).trans ?_
  rfl

/-- The shift row of layer 2 at (0, q): be - m * (rsqrt(v + eps) * g) at q. -/
theorem shift_row2 (q : Fin 32) :
    StableHlo.after (hostOps3 (F := Ideal)) W (Proc.devRef .tc main_v80) (ix2 (0 : Fin 1) q)
      = W (Proc.devRef .tc main_arg14) (ix1 q) -ₑ W (Proc.devRef .tc main_arg15) (ix1 q)
          *ₑ (Ideal.rsqrt (W (Proc.devRef .tc main_arg16) (ix1 q) +ₑ Ideal.ofBits .f32 0x3727C5AC#32) *ₑ W (Proc.devRef .tc main_arg13) (ix1 q)) := by
  after_results_simp
  refine (shapeCast_vec_row_apply _ _ q).trans ?_
  rfl

/-! ## Layer 3 (width 16) -/

/-- The bias row of layer 3 at (0, q) is the bias vector at q. -/
theorem bias_row3 (q : Fin 16) :
    StableHlo.after (hostOps5 (F := Ideal)) W (Proc.devRef .tc main_v105) (ix2 (0 : Fin 1) q) = W (Proc.devRef .tc main_arg8) (ix1 q) := by
  after_results_simp
  exact shapeCast_vec_row_apply _ _ q

/-- The scale row of layer 3 at (0, q): rsqrt(v + eps) * g at q. -/
theorem scale_row3 (q : Fin 16) :
    StableHlo.after (hostOps5 (F := Ideal)) W (Proc.devRef .tc main_v106) (ix2 (0 : Fin 1) q)
      = Ideal.rsqrt (W (Proc.devRef .tc main_arg20) (ix1 q) +ₑ Ideal.ofBits .f32 0x3727C5AC#32) *ₑ W (Proc.devRef .tc main_arg17) (ix1 q) := by
  after_results_simp
  refine (shapeCast_vec_row_apply _ _ q).trans ?_
  rfl

/-- The shift row of layer 3 at (0, q): be - m * (rsqrt(v + eps) * g) at q. -/
theorem shift_row3 (q : Fin 16) :
    StableHlo.after (hostOps5 (F := Ideal)) W (Proc.devRef .tc main_v107) (ix2 (0 : Fin 1) q)
      = W (Proc.devRef .tc main_arg18) (ix1 q) -ₑ W (Proc.devRef .tc main_arg19) (ix1 q)
          *ₑ (Ideal.rsqrt (W (Proc.devRef .tc main_arg20) (ix1 q) +ₑ Ideal.ofBits .f32 0x3727C5AC#32) *ₑ W (Proc.devRef .tc main_arg17) (ix1 q)) := by
  after_results_simp
  refine (shapeCast_vec_row_apply _ _ q).trans ?_
  rfl

end Cert.KernelRows
-- ==== Proof.Domain.lean ====
/-
  What the precondition says about the batch-normalisation parameters.

  The precondition is one i1 scalar: the conjunction, over every float input x, of
  "every entry of |x| is below +infinity", and, for the three variance inputs, of
  "every entry is at least zero".  At the ideal instance a float is an extended real, the
  word 0x7F800000 denotes the top element and the zero word denotes 0; so |x| < top says
  that x is neither top nor bottom, i.e. x is (the coercion of) a real number, and
  x >= 0 then says that this real number is nonnegative.

  Shape of the argument: the scalar is a left-nested chain  ((c0 & c1) & c2) & ...  of
  one-bit "and"s, and an "and" of two bits is 1 exactly when both are; so the chain being 1
  gives every conjunct.  A conjunct is an and-reduction over all axes of an array of bits;
  such a reduction is 1 only when every bit is, which gives the comparison at each index.
-/
import proofs.«114179_j13726715478162_1_alg».proof.Defs
import proofs.«114179_j13726715478162_1_alg».proof.Proof.Gen.Pre_finite_inputs
import Idealize.ShloMosaic.Lib.ReduceAll
import Idealize.ShloMosaic.Lib.ValueIdx

noncomputable section

namespace Cert.Domain

open Idealize.ShloMosaic Idealize.SL.Sem
open Cert.Pre_finite_inputs

/-- The scalar shape has exactly one index (the empty tuple). -/
instance subsingleton_scalar_idx : Subsingleton S_.Idx := ⟨fun a b => funext fun d => d.elim0⟩

/-- The word 0x7F800000 is +infinity: the top extended real. -/
theorem top_word : Ideal.ofBits .f32 0x7F800000#32 = (⊤ : EReal) := by
  simp [Ideal.ofBits, Ideal.ieee]

/-- The all-zero word is the real number 0. -/
theorem zero_word : Ideal.ofBits .f32 0x00000000#32 = (0 : EReal) := by
  simp [Ideal.ofBits, Ideal.ieee]

/-- An extended real whose absolute value max x (-x) is strictly below top is a real:
    at top the maximum is top, at bottom -x is top, so both are excluded. -/
theorem real_of_abs_lt_top (x : EReal)
    (h : Ideal.cmp .olt (max x (-x)) (Ideal.ofBits .f32 0x7F800000#32) = 1#1) :
    ∃ r : ℝ, x = ((r : ℝ) : EReal) := by
  rw [top_word] at h
  induction x using EReal.rec
  · simp [Ideal.cmp] at h
  · exact ⟨_, rfl⟩
  · simp [Ideal.cmp] at h

/-- The comparison x >= (zero word) being 1 says 0 ≤ x. -/
theorem nonneg_of_ge_zero (x : EReal)
    (h : Ideal.cmp .oge x (Ideal.ofBits .f32 0x00000000#32) = 1#1) : (0 : EReal) ≤ x := by
  rw [zero_word] at h
  by_contra hn
  simp [Ideal.cmp, hn] at h

section Conjunct
variable {s : Shape} {axes : List (Fin s.rank)}

/-- One finiteness conjunct, all(|x| < +inf), gives: every entry of x is a real. -/
theorem real_of_all (hb : S_.BroadcastsInDim s (![] : Fin 0 → Fin s.rank)) (hr : s.ReducesTo axes S_)
    (hu : 0 < S_.numel) (x : FVec Ideal s .f32) (init : IVec S_ 1) (j : S_.Idx)
    (e : Host.reduce IntOp.andi
          (cmpf .olt (Host.absf x) (broadcastInDim s ![] hb (constant S_ .f32 0x7F800000#32)))
          init hr hu j = 1#1)
    (i : s.Idx) : ∃ r : ℝ, x i = ((r : ℝ) : EReal) :=
  real_of_abs_lt_top (x i) (Host.reduce_andi_all _ init hr hu j e i)

/-- One sign conjunct, all(x >= 0), gives: every entry of x is at least 0. -/
theorem nonneg_of_all (hb : S_.BroadcastsInDim s (![] : Fin 0 → Fin s.rank)) (hr : s.ReducesTo axes S_)
    (hu : 0 < S_.numel) (x : FVec Ideal s .f32) (init : IVec S_ 1) (j : S_.Idx)
    (e : Host.reduce IntOp.andi
          (cmpf .oge x (broadcastInDim s ![] hb (constant S_ .f32 0x00000000#32)))
          init hr hu j = 1#1)
    (i : s.Idx) : (0 : EReal) ≤ x i :=
  nonneg_of_ge_zero (x i) (Host.reduce_andi_all _ init hr hu j e i)

end Conjunct

variable [hF : Cert.Pre_finite_inputs.Facts]

/-- The whole chain, over arbitrary argument arrays: if the precondition's scalar is 1 then the
    twelve batch-normalisation arrays (arguments 9 to 20) have real entries and the three
    variance arrays (arguments 12, 16, 20) have nonnegative entries.  The chain is peeled from
    the outside: the last conjunct first. -/
theorem decode (a0 : FVec Ideal S100000x128 .f32) (a1 : IVec S2x3200000 32) (a2 : FVec Ideal S3200000x8 .f32) (a3 : FVec Ideal S128x64 .f32) (a4 : FVec Ideal S64 .f32) (a5 : FVec Ideal S64x32 .f32) (a6 : FVec Ideal S32 .f32) (a7 : FVec Ideal S32x16 .f32) (a8 : FVec Ideal S16 .f32) (a9 : FVec Ideal S64 .f32) (a10 : FVec Ideal S64 .f32) (a11 : FVec Ideal S64 .f32) (a12 : FVec Ideal S64 .f32) (a13 : FVec Ideal S32 .f32) (a14 : FVec Ideal S32 .f32) (a15 : FVec Ideal S32 .f32) (a16 : FVec Ideal S32 .f32) (a17 : FVec Ideal S16 .f32) (a18 : FVec Ideal S16 .f32) (a19 : FVec Ideal S16 .f32) (a20 : FVec Ideal S16 .f32) (a21 : FVec Ideal S40x32 .f32) (a22 : FVec Ideal S32 .f32) (a23 : FVec Ideal S32x16 .f32) (a24 : FVec Ideal S16 .f32) (a25 : FVec Ideal S16x2 .f32) (a26 : FVec Ideal S2 .f32)
    (h : fn (F := Ideal) a0 a1 a2 a3 a4 a5 a6 a7 a8 a9 a10 a11 a12 a13 a14 a15 a16 a17 a18 a19 a20 a21 a22 a23 a24 a25 a26 ValueIdx.ix0 = 1#1) :
    (∀ i, ∃ r : ℝ, a9 i = ((r : ℝ) : EReal)) ∧
    (∀ i, ∃ r : ℝ, a10 i = ((r : ℝ) : EReal)) ∧
    (∀ i, ∃ r : ℝ, a11 i = ((r : ℝ) : EReal)) ∧
    (∀ i, ∃ r : ℝ, a12 i = ((r : ℝ) : EReal)) ∧
    (∀ i, ∃ r : ℝ, a13 i = ((r : ℝ) : EReal)) ∧
    (∀ i, ∃ r : ℝ, a14 i = ((r : ℝ) : EReal)) ∧
    (∀ i, ∃ r : ℝ, a15 i = ((r : ℝ) : EReal)) ∧
    (∀ i, ∃ r : ℝ, a16 i = ((r : ℝ) : EReal)) ∧
    (∀ i, ∃ r : ℝ, a17 i = ((r : ℝ) : EReal)) ∧
    (∀ i, ∃ r : ℝ, a18 i = ((r : ℝ) : EReal)) ∧
    (∀ i, ∃ r : ℝ, a19 i = ((r : ℝ) : EReal)) ∧
    (∀ i, ∃ r : ℝ, a20 i = ((r : ℝ) : EReal)) ∧
    (∀ i, (0 : EReal) ≤ a12 i) ∧
    (∀ i, (0 : EReal) ≤ a16 i) ∧
    (∀ i, (0 : EReal) ≤ a20 i) := by
  dsimp only [fn, fn_part1, fn_part2, fn_part3, fn_part4, fn_part5, fn_part6, fn_part7, fn_part8] at h
  obtain ⟨h, n20⟩ := IntOp.andi_eq_one.1 h
  obtain ⟨h, n16⟩ := IntOp.andi_eq_one.1 h
  obtain ⟨h, n12⟩ := IntOp.andi_eq_one.1 h
  obtain ⟨h, f26⟩ := IntOp.andi_eq_one.1 h
  obtain ⟨h, f25⟩ := IntOp.andi_eq_one.1 h
  obtain ⟨h, f24⟩ := IntOp.andi_eq_one.1 h
  obtain ⟨h, f23⟩ := IntOp.andi_eq_one.1 h
  obtain ⟨h, f22⟩ := IntOp.andi_eq_one.1 h
  obtain ⟨h, f21⟩ := IntOp.andi_eq_one.1 h
  obtain ⟨h, f20⟩ := IntOp.andi_eq_one.1 h
  obtain ⟨h, f19⟩ := IntOp.andi_eq_one.1 h
  obtain ⟨h, f18⟩ := IntOp.andi_eq_one.1 h
  obtain ⟨h, f17⟩ := IntOp.andi_eq_one.1 h
  obtain ⟨h, f16⟩ := IntOp.andi_eq_one.1 h
  obtain ⟨h, f15⟩ := IntOp.andi_eq_one.1 h
  obtain ⟨h, f14⟩ := IntOp.andi_eq_one.1 h
  obtain ⟨h, f13⟩ := IntOp.andi_eq_one.1 h
  obtain ⟨h, f12⟩ := IntOp.andi_eq_one.1 h
  obtain ⟨h, f11⟩ := IntOp.andi_eq_one.1 h
  obtain ⟨h, f10⟩ := IntOp.andi_eq_one.1 h
  obtain ⟨h, f9⟩ := IntOp.andi_eq_one.1 h
  exact ⟨fun i => real_of_all (Facts.bcast_S_S64) (Facts.reducesTo_S64_S_d0) Facts.h_S_ a9 _ _ f9 i,
    fun i => real_of_all (Facts.bcast_S_S64) (Facts.reducesTo_S64_S_d0) Facts.h_S_ a10 _ _ f10 i,
    fun i => real_of_all (Facts.bcast_S_S64) (Facts.reducesTo_S64_S_d0) Facts.h_S_ a11 _ _ f11 i,
    fun i => real_of_all (Facts.bcast_S_S64) (Facts.reducesTo_S64_S_d0) Facts.h_S_ a12 _ _ f12 i,
    fun i => real_of_all (Facts.bcast_S_S32) (Facts.reducesTo_S32_S_d0) Facts.h_S_ a13 _ _ f13 i,
    fun i => real_of_all (Facts.bcast_S_S32) (Facts.reducesTo_S32_S_d0) Facts.h_S_ a14 _ _ f14 i,
    fun i => real_of_all (Facts.bcast_S_S32) (Facts.reducesTo_S32_S_d0) Facts.h_S_ a15 _ _ f15 i,
    fun i => real_of_all (Facts.bcast_S_S32) (Facts.reducesTo_S32_S_d0) Facts.h_S_ a16 _ _ f16 i,
    fun i => real_of_all (Facts.bcast_S_S16) (Facts.reducesTo_S16_S_d0) Facts.h_S_ a17 _ _ f17 i,
    fun i => real_of_all (Facts.bcast_S_S16) (Facts.reducesTo_S16_S_d0) Facts.h_S_ a18 _ _ f18 i,
    fun i => real_of_all (Facts.bcast_S_S16) (Facts.reducesTo_S16_S_d0) Facts.h_S_ a19 _ _ f19 i,
    fun i => real_of_all (Facts.bcast_S_S16) (Facts.reducesTo_S16_S_d0) Facts.h_S_ a20 _ _ f20 i,
    fun i => nonneg_of_all (Facts.bcast_S_S64) (Facts.reducesTo_S64_S_d0) Facts.h_S_ a12 _ _ n12 i,
    fun i => nonneg_of_all (Facts.bcast_S_S32) (Facts.reducesTo_S32_S_d0) Facts.h_S_ a16 _ _ n16 i,
    fun i => nonneg_of_all (Facts.bcast_S_S16) (Facts.reducesTo_S16_S_d0) Facts.h_S_ a20 _ _ n20 i⟩

section AtMemory

variable (m : (ℓ : Loc Cert.KernelIdeal.nD Cert.KernelIdeal.τ Cert.KernelIdeal.sig) → Buf (Elt Ideal) ℓ)
  (hpre : Cert.Pre_KernelIdeal m) (c : Dev Cert.KernelIdeal.nD)
include hpre

/-- The decoded chain at the argument arrays of the idealised kernel on device c: the precondition
    holds on every device, and its value at the one index of the scalar shape is the bit 1. -/
theorem all_facts :
    (∀ i, ∃ r : ℝ, (m ((c.tc : Thread Cert.KernelIdeal.nD Cert.KernelIdeal.τ).loc Cert.KernelIdeal.main_arg9)) i = ((r : ℝ) : EReal)) ∧
    (∀ i, ∃ r : ℝ, (m ((c.tc : Thread Cert.KernelIdeal.nD Cert.KernelIdeal.τ).loc Cert.KernelIdeal.main_arg10)) i = ((r : ℝ) : EReal)) ∧
    (∀ i, ∃ r : ℝ, (m ((c.tc : Thread Cert.KernelIdeal.nD Cert.KernelIdeal.τ).loc Cert.KernelIdeal.main_arg11)) i = ((r : ℝ) : EReal)) ∧
    (∀ i, ∃ r : ℝ, (m ((c.tc : Thread Cert.KernelIdeal.nD Cert.KernelIdeal.τ).loc Cert.KernelIdeal.main_arg12)) i = ((r : ℝ) : EReal)) ∧
    (∀ i, ∃ r : ℝ, (m ((c.tc : Thread Cert.KernelIdeal.nD Cert.KernelIdeal.τ).loc Cert.KernelIdeal.main_arg13)) i = ((r : ℝ) : EReal)) ∧
    (∀ i, ∃ r : ℝ, (m ((c.tc : Thread Cert.KernelIdeal.nD Cert.KernelIdeal.τ).loc Cert.KernelIdeal.main_arg14)) i = ((r : ℝ) : EReal)) ∧
    (∀ i, ∃ r : ℝ, (m ((c.tc : Thread Cert.KernelIdeal.nD Cert.KernelIdeal.τ).loc Cert.KernelIdeal.main_arg15)) i = ((r : ℝ) : EReal)) ∧
    (∀ i, ∃ r : ℝ, (m ((c.tc : Thread Cert.KernelIdeal.nD Cert.KernelIdeal.τ).loc Cert.KernelIdeal.main_arg16)) i = ((r : ℝ) : EReal)) ∧
    (∀ i, ∃ r : ℝ, (m ((c.tc : Thread Cert.KernelIdeal.nD Cert.KernelIdeal.τ).loc Cert.KernelIdeal.main_arg17)) i = ((r : ℝ) : EReal)) ∧
    (∀ i, ∃ r : ℝ, (m ((c.tc : Thread Cert.KernelIdeal.nD Cert.KernelIdeal.τ).loc Cert.KernelIdeal.main_arg18)) i = ((r : ℝ) : EReal)) ∧
    (∀ i, ∃ r : ℝ, (m ((c.tc : Thread Cert.KernelIdeal.nD Cert.KernelIdeal.τ).loc Cert.KernelIdeal.main_arg19)) i = ((r : ℝ) : EReal)) ∧
    (∀ i, ∃ r : ℝ, (m ((c.tc : Thread Cert.KernelIdeal.nD Cert.KernelIdeal.τ).loc Cert.KernelIdeal.main_arg20)) i = ((r : ℝ) : EReal)) ∧
    (∀ i, (0 : EReal) ≤ (m ((c.tc : Thread Cert.KernelIdeal.nD Cert.KernelIdeal.τ).loc Cert.KernelIdeal.main_arg12)) i) ∧
    (∀ i, (0 : EReal) ≤ (m ((c.tc : Thread Cert.KernelIdeal.nD Cert.KernelIdeal.τ).loc Cert.KernelIdeal.main_arg16)) i) ∧
    (∀ i, (0 : EReal) ≤ (m ((c.tc : Thread Cert.KernelIdeal.nD Cert.KernelIdeal.τ).loc Cert.KernelIdeal.main_arg20)) i) :=
  decode _ _ _ _ _ _ _ _ _ _ _ _ _ _ _ _ _ _ _ _ _ _ _ _ _ _ _ (congrFun (hpre c) ValueIdx.ix0)

/-- Argument 9 (the scale of the first normalisation): every entry is a real number. -/
theorem real_arg9 : ∀ i, ∃ r : ℝ, (m ((c.tc : Thread Cert.KernelIdeal.nD Cert.KernelIdeal.τ).loc Cert.KernelIdeal.main_arg9)) i = ((r : ℝ) : EReal) :=
  (all_facts m hpre c).1

/-- Argument 10 (the shift of the first normalisation): every entry is a real number. -/
theorem real_arg10 : ∀ i, ∃ r : ℝ, (m ((c.tc : Thread Cert.KernelIdeal.nD Cert.KernelIdeal.τ).loc Cert.KernelIdeal.main_arg10)) i = ((r : ℝ) : EReal) :=
  (all_facts m hpre c).2.1

/-- Argument 11 (the mean of the first normalisation): every entry is a real number. -/
theorem real_arg11 : ∀ i, ∃ r : ℝ, (m ((c.tc : Thread Cert.KernelIdeal.nD Cert.KernelIdeal.τ).loc Cert.KernelIdeal.main_arg11)) i = ((r : ℝ) : EReal) :=
  (all_facts m hpre c).2.2.1

/-- Argument 12 (the variance of the first normalisation): every entry is a real number. -/
theorem real_arg12 : ∀ i, ∃ r : ℝ, (m ((c.tc : Thread Cert.KernelIdeal.nD Cert.KernelIdeal.τ).loc Cert.KernelIdeal.main_arg12)) i = ((r : ℝ) : EReal) :=
  (all_facts m hpre c).2.2.2.1

/-- Argument 13 (the scale of the second normalisation): every entry is a real number. -/
theorem real_arg13 : ∀ i, ∃ r : ℝ, (m ((c.tc : Thread Cert.KernelIdeal.nD Cert.KernelIdeal.τ).loc Cert.KernelIdeal.main_arg13)) i = ((r : ℝ) : EReal) :=
  (all_facts m hpre c).2.2.2.2.1

/-- Argument 14 (the shift of the second normalisation): every entry is a real number. -/
theorem real_arg14 : ∀ i, ∃ r : ℝ, (m ((c.tc : Thread Cert.KernelIdeal.nD Cert.KernelIdeal.τ).loc Cert.KernelIdeal.main_arg14)) i = ((r : ℝ) : EReal) :=
  (all_facts m hpre c).2.2.2.2.2.1

/-- Argument 15 (the mean of the second normalisation): every entry is a real number. -/
theorem real_arg15 : ∀ i, ∃ r : ℝ, (m ((c.tc : Thread Cert.KernelIdeal.nD Cert.KernelIdeal.τ).loc Cert.KernelIdeal.main_arg15)) i = ((r : ℝ) : EReal) :=
  (all_facts m hpre c).2.2.2.2.2.2.1

/-- Argument 16 (the variance of the second normalisation): every entry is a real number. -/
theorem real_arg16 : ∀ i, ∃ r : ℝ, (m ((c.tc : Thread Cert.KernelIdeal.nD Cert.KernelIdeal.τ).loc Cert.KernelIdeal.main_arg16)) i = ((r : ℝ) : EReal) :=
  (all_facts m hpre c).2.2.2.2.2.2.2.1

/-- Argument 17 (the scale of the third normalisation): every entry is a real number. -/
theorem real_arg17 : ∀ i, ∃ r : ℝ, (m ((c.tc : Thread Cert.KernelIdeal.nD Cert.KernelIdeal.τ).loc Cert.KernelIdeal.main_arg17)) i = ((r : ℝ) : EReal) :=
  (all_facts m hpre c).2.2.2.2.2.2.2.2.1

/-- Argument 18 (the shift of the third normalisation): every entry is a real number. -/
theorem real_arg18 : ∀ i, ∃ r : ℝ, (m ((c.tc : Thread Cert.KernelIdeal.nD Cert.KernelIdeal.τ).loc Cert.KernelIdeal.main_arg18)) i = ((r : ℝ) : EReal) :=
  (all_facts m hpre c).2.2.2.2.2.2.2.2.2.1

/-- Argument 19 (the mean of the third normalisation): every entry is a real number. -/
theorem real_arg19 : ∀ i, ∃ r : ℝ, (m ((c.tc : Thread Cert.KernelIdeal.nD Cert.KernelIdeal.τ).loc Cert.KernelIdeal.main_arg19)) i = ((r : ℝ) : EReal) :=
  (all_facts m hpre c).2.2.2.2.2.2.2.2.2.2.1

/-- Argument 20 (the variance of the third normalisation): every entry is a real number. -/
theorem real_arg20 : ∀ i, ∃ r : ℝ, (m ((c.tc : Thread Cert.KernelIdeal.nD Cert.KernelIdeal.τ).loc Cert.KernelIdeal.main_arg20)) i = ((r : ℝ) : EReal) :=
  (all_facts m hpre c).2.2.2.2.2.2.2.2.2.2.2.1

/-- Argument 12 (the variance of the first normalisation): every entry is a nonnegative real number. -/
theorem nonneg_arg12 : ∀ i, ∃ r : ℝ, 0 ≤ r ∧ (m ((c.tc : Thread Cert.KernelIdeal.nD Cert.KernelIdeal.τ).loc Cert.KernelIdeal.main_arg12)) i = ((r : ℝ) : EReal) := by
  intro i
  obtain ⟨r, hr⟩ := real_arg12 m hpre c i
  have h0 := (all_facts m hpre c).2.2.2.2.2.2.2.2.2.2.2.2.1 i
  rw [hr] at h0
  exact ⟨r, EReal.coe_nonneg.1 h0, hr⟩

/-- Argument 16 (the variance of the second normalisation): every entry is a nonnegative real number. -/
theorem nonneg_arg16 : ∀ i, ∃ r : ℝ, 0 ≤ r ∧ (m ((c.tc : Thread Cert.KernelIdeal.nD Cert.KernelIdeal.τ).loc Cert.KernelIdeal.main_arg16)) i = ((r : ℝ) : EReal) := by
  intro i
  obtain ⟨r, hr⟩ := real_arg16 m hpre c i
  have h0 := (all_facts m hpre c).2.2.2.2.2.2.2.2.2.2.2.2.2.1 i
  rw [hr] at h0
  exact ⟨r, EReal.coe_nonneg.1 h0, hr⟩

/-- Argument 20 (the variance of the third normalisation): every entry is a nonnegative real number. -/
theorem nonneg_arg20 : ∀ i, ∃ r : ℝ, 0 ≤ r ∧ (m ((c.tc : Thread Cert.KernelIdeal.nD Cert.KernelIdeal.τ).loc Cert.KernelIdeal.main_arg20)) i = ((r : ℝ) : EReal) := by
  intro i
  obtain ⟨r, hr⟩ := real_arg20 m hpre c i
  have h0 := (all_facts m hpre c).2.2.2.2.2.2.2.2.2.2.2.2.2.2 i
  rw [hr] at h0
  exact ⟨r, EReal.coe_nonneg.1 h0, hr⟩

end AtMemory

end Cert.Domain
-- ==== Proof.Bridge.Out1.lean ====
/-
  Layer 1: the fused layer's output array is the same in the kernel program and in the reference.

  The kernel program's output array after the combine region is, entry by entry,
  max((A + S + b) · sc + sh, 0), with A the neighbour sums, S the self terms and b, sc, sh the three
  rows the host prepared: b the bias, sc = rsqrt(v + eps) · g, sh = be - m · sc, read from the
  unchanged argument arrays.  The reference's entry is max((((A + S + bias) - m) · rsqrt(v + eps)) · g + be, 0).
  The summands agree by hypothesis, the argument arrays agree by hypothesis, the precondition makes the
  variance entry a nonnegative real and the other three parameter entries reals; the fold of scale and
  shift then identifies the two values.
-/
import proofs.«114179_j13726715478162_1_alg».proof.Proof.Bridge.Setup
import proofs.«114179_j13726715478162_1_alg».proof.Proof.Bridge.OutLaw
import proofs.«114179_j13726715478162_1_alg».proof.Proof.Ideal.Combine1Value
import proofs.«114179_j13726715478162_1_alg».proof.Proof.Payloads
import proofs.«114179_j13726715478162_1_alg».proof.Proof.KernelRows
import proofs.«114179_j13726715478162_1_alg».proof.Proof.Domain
import proofs.«114179_j13726715478162_1_alg».proof.Proof.LayerLaw

set_option maxRecDepth 16384

noncomputable section

open Idealize.ShloMosaic Idealize.ShloMosaic.TcCoe Idealize.ShloMosaic.ValueIdx Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The output array after the combine region is the rectified affine combination of the arrays
    the region found. -/
theorem out1_combined :
    Cert.KernelIdeal.Run.B5 m c (Proc.devRef .tc Cert.KernelIdeal.main_v54)
      = Cert.KernelIdeal.Combine1.combined (Cert.KernelIdeal.Run.E4 m c Cert.KernelIdeal.main_v41) (Cert.KernelIdeal.Run.E4 m c Cert.KernelIdeal.main_v44)
          (Cert.KernelIdeal.Run.E4 m c Cert.KernelIdeal.main_v51) (Cert.KernelIdeal.Run.E4 m c Cert.KernelIdeal.main_v52) (Cert.KernelIdeal.Run.E4 m c Cert.KernelIdeal.main_v53) :=
  (Cert.KernelIdeal.Run.B5_arr m c 5).trans (Cert.KernelIdeal.Combine1.array_eq (Cert.KernelIdeal.Run.E4 m) Cert.Payloads.k1_pay1_entry c)

/-- One entry, given the reference's entry in its own form. -/
theorem out1_entry_of_ref (hpre : Cert.Pre_KernelIdeal m)
    (hagg : (Cert.KernelIdeal.Run.B4 m c (Proc.devRef .tc Cert.KernelIdeal.main_v41) : Cert.KernelIdeal.S100000x64.Idx → EReal) = Rv m' c (Proc.devRef .tc Cert.ReferenceIdeal.main_v40))
    (hself : (Cert.KernelIdeal.Run.B4 m c (Proc.devRef .tc Cert.KernelIdeal.main_v44) : Cert.KernelIdeal.S100000x64.Idx → EReal) = Rv m' c (Proc.devRef .tc Cert.ReferenceIdeal.main_v44))
    (h4 : (R0 m' c (Proc.devRef .tc Cert.ReferenceIdeal.main_arg4) : Cert.KernelIdeal.S64.Idx → EReal) = Cert.KernelIdeal.Run.B0 m c (Proc.devRef .tc Cert.KernelIdeal.main_arg4))
    (h9 : (R0 m' c (Proc.devRef .tc Cert.ReferenceIdeal.main_arg9) : Cert.KernelIdeal.S64.Idx → EReal) = Cert.KernelIdeal.Run.B0 m c (Proc.devRef .tc Cert.KernelIdeal.main_arg9))
    (h10 : (R0 m' c (Proc.devRef .tc Cert.ReferenceIdeal.main_arg10) : Cert.KernelIdeal.S64.Idx → EReal) = Cert.KernelIdeal.Run.B0 m c (Proc.devRef .tc Cert.KernelIdeal.main_arg10))
    (h11 : (R0 m' c (Proc.devRef .tc Cert.ReferenceIdeal.main_arg11) : Cert.KernelIdeal.S64.Idx → EReal) = Cert.KernelIdeal.Run.B0 m c (Proc.devRef .tc Cert.KernelIdeal.main_arg11))
    (h12 : (R0 m' c (Proc.devRef .tc Cert.ReferenceIdeal.main_arg12) : Cert.KernelIdeal.S64.Idx → EReal) = Cert.KernelIdeal.Run.B0 m c (Proc.devRef .tc Cert.KernelIdeal.main_arg12))
    (p : Fin 100000) (q : Fin 64)
    (href : rd Cert.KernelIdeal.S100000x64 (Rv m' c (Proc.devRef .tc Cert.ReferenceIdeal.main_v64)) (ix2 p q)
      = max ((((rd Cert.KernelIdeal.S100000x64 (Rv m' c (Proc.devRef .tc Cert.ReferenceIdeal.main_v40)) (ix2 p q) + rd Cert.KernelIdeal.S100000x64 (Rv m' c (Proc.devRef .tc Cert.ReferenceIdeal.main_v44)) (ix2 p q) + rd Cert.KernelIdeal.S64 (R0 m' c (Proc.devRef .tc Cert.ReferenceIdeal.main_arg4)) (ix1 q))
              - rd Cert.KernelIdeal.S64 (R0 m' c (Proc.devRef .tc Cert.ReferenceIdeal.main_arg11)) (ix1 q))
            * Ideal.rsqrt (rd Cert.KernelIdeal.S64 (R0 m' c (Proc.devRef .tc Cert.ReferenceIdeal.main_arg12)) (ix1 q) + Ideal.ofBits .f32 0x3727C5AC#32))
          * rd Cert.KernelIdeal.S64 (R0 m' c (Proc.devRef .tc Cert.ReferenceIdeal.main_arg9)) (ix1 q) + rd Cert.KernelIdeal.S64 (R0 m' c (Proc.devRef .tc Cert.ReferenceIdeal.main_arg10)) (ix1 q)) 0) :
    rd Cert.KernelIdeal.S100000x64 (Cert.KernelIdeal.Run.B5 m c (Proc.devRef .tc Cert.KernelIdeal.main_v54)) (ix2 p q) = rd Cert.KernelIdeal.S100000x64 (Rv m' c (Proc.devRef .tc Cert.ReferenceIdeal.main_v64)) (ix2 p q) := by
  have hb := Cert.KernelRows.bias_row1 (Cert.KernelIdeal.Run.B3 m c) q
  have hsc := Cert.KernelRows.scale_row1 (Cert.KernelIdeal.Run.B3 m c) q
  have hsh := Cert.KernelRows.shift_row1 (Cert.KernelIdeal.Run.B3 m c) q
  rw [Cert.KernelIdeal.Run.B3_main_arg4 m c] at hb
  rw [Cert.KernelIdeal.Run.B3_main_arg12 m c, Cert.KernelIdeal.Run.B3_main_arg9 m c] at hsc
  rw [Cert.KernelIdeal.Run.B3_main_arg10 m c, Cert.KernelIdeal.Run.B3_main_arg11 m c, Cert.KernelIdeal.Run.B3_main_arg12 m c, Cert.KernelIdeal.Run.B3_main_arg9 m c] at hsh
  obtain ⟨v, hv0, hv⟩ := Cert.Domain.nonneg_arg12 m hpre c (ix1 q)
  obtain ⟨g, hg⟩ := Cert.Domain.real_arg9 m hpre c (ix1 q)
  obtain ⟨be, hbe⟩ := Cert.Domain.real_arg10 m hpre c (ix1 q)
  obtain ⟨mm, hm⟩ := Cert.Domain.real_arg11 m hpre c (ix1 q)
  exact assemble _ _ _ _ _ _ _ _ _ _ _ _ _ _ _ _ _ _ _ v g be mm hv0
    (congrFun (out1_combined m c) (ix2 p q)) hb hsc hsh href
    (congrFun hagg (ix2 p q)) (congrFun hself (ix2 p q))
    (congrFun h4 (ix1 q)) (congrFun h9 (ix1 q)) (congrFun h10 (ix1 q)) (congrFun h11 (ix1 q)) (congrFun h12 (ix1 q))
    hv hg hbe hm

/-- The whole array, given the reference's entries in their own form. -/
theorem out1_eq_of_ref (hpre : Cert.Pre_KernelIdeal m)
    (hagg : (Cert.KernelIdeal.Run.B4 m c (Proc.devRef .tc Cert.KernelIdeal.main_v41) : Cert.KernelIdeal.S100000x64.Idx → EReal) = Rv m' c (Proc.devRef .tc Cert.ReferenceIdeal.main_v40))
    (hself : (Cert.KernelIdeal.Run.B4 m c (Proc.devRef .tc Cert.KernelIdeal.main_v44) : Cert.KernelIdeal.S100000x64.Idx → EReal) = Rv m' c (Proc.devRef .tc Cert.ReferenceIdeal.main_v44))
    (h4 : (R0 m' c (Proc.devRef .tc Cert.ReferenceIdeal.main_arg4) : Cert.KernelIdeal.S64.Idx → EReal) = Cert.KernelIdeal.Run.B0 m c (Proc.devRef .tc Cert.KernelIdeal.main_arg4))
    (h9 : (R0 m' c (Proc.devRef .tc Cert.ReferenceIdeal.main_arg9) : Cert.KernelIdeal.S64.Idx → EReal) = Cert.KernelIdeal.Run.B0 m c (Proc.devRef .tc Cert.KernelIdeal.main_arg9))
    (h10 : (R0 m' c (Proc.devRef .tc Cert.ReferenceIdeal.main_arg10) : Cert.KernelIdeal.S64.Idx → EReal) = Cert.KernelIdeal.Run.B0 m c (Proc.devRef .tc Cert.KernelIdeal.main_arg10))
    (h11 : (R0 m' c (Proc.devRef .tc Cert.ReferenceIdeal.main_arg11) : Cert.KernelIdeal.S64.Idx → EReal) = Cert.KernelIdeal.Run.B0 m c (Proc.devRef .tc Cert.KernelIdeal.main_arg11))
    (h12 : (R0 m' c (Proc.devRef .tc Cert.ReferenceIdeal.main_arg12) : Cert.KernelIdeal.S64.Idx → EReal) = Cert.KernelIdeal.Run.B0 m c (Proc.devRef .tc Cert.KernelIdeal.main_arg12))
    (href : ∀ (p : Fin 100000) (q : Fin 64), rd Cert.KernelIdeal.S100000x64 (Rv m' c (Proc.devRef .tc Cert.ReferenceIdeal.main_v64)) (ix2 p q)
      = max ((((rd Cert.KernelIdeal.S100000x64 (Rv m' c (Proc.devRef .tc Cert.ReferenceIdeal.main_v40)) (ix2 p q) + rd Cert.KernelIdeal.S100000x64 (Rv m' c (Proc.devRef .tc Cert.ReferenceIdeal.main_v44)) (ix2 p q) + rd Cert.KernelIdeal.S64 (R0 m' c (Proc.devRef .tc Cert.ReferenceIdeal.main_arg4)) (ix1 q))
              - rd Cert.KernelIdeal.S64 (R0 m' c (Proc.devRef .tc Cert.ReferenceIdeal.main_arg11)) (ix1 q))
            * Ideal.rsqrt (rd Cert.KernelIdeal.S64 (R0 m' c (Proc.devRef .tc Cert.ReferenceIdeal.main_arg12)) (ix1 q) + Ideal.ofBits .f32 0x3727C5AC#32))
          * rd Cert.KernelIdeal.S64 (R0 m' c (Proc.devRef .tc Cert.ReferenceIdeal.main_arg9)) (ix1 q) + rd Cert.KernelIdeal.S64 (R0 m' c (Proc.devRef .tc Cert.ReferenceIdeal.main_arg10)) (ix1 q)) 0) :
    (Cert.KernelIdeal.Run.B5 m c (Proc.devRef .tc Cert.KernelIdeal.main_v54) : Cert.KernelIdeal.S100000x64.Idx → EReal) = Rv m' c (Proc.devRef .tc Cert.ReferenceIdeal.main_v64) := by
  funext i
  obtain ⟨p, q, rfl⟩ : ∃ (p : Fin 100000) (q : Fin 64), i = ix2 p q := ⟨i 0, i 1, eq_ix2 i⟩
  exact out1_entry_of_ref m m' c hpre hagg hself h4 h9 h10 h11 h12 p q (href p q)

end Cert.Bridge

end
-- ==== Proof.Ideal.Combine2Value.lean ====
/-
  The fused combine of layer 2: the output ARRAY after the region, at the exact (extended-real) values.

  Each grid point t writes rows 10000 t … 10000 t + 9999 of the output; the entry (r, j) it writes is
  max((A(r, j) + S(r, j) + b(j)) · sc(j) + sh(j), 0), A the neighbour sums, S the self terms, b, sc, sh the three rows, all as
  the region finds them. An entry depends on the same entry of A and S and on column j of the rows only, and the ten
  blocks tile the 100000 rows, so the whole output array is that expression entry by entry.
-/
import proofs.«114179_j13726715478162_1_alg».proof.Proof.Ideal.Combine2
import Idealize.ShloMosaic.Lib.Pipeline.Value
import Idealize.ShloMosaic.Lib.ValueIdx

set_option maxRecDepth 16384

noncomputable section

namespace Cert.KernelIdeal.Combine2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The rectified affine combination, entry by entry, each row read at the entry's column. -/
def combined (A S : S100000x32.Idx → EReal) (b sc sh : S1x32.Idx → EReal) : S100000x32.Idx → EReal :=
  fun i => max ((A i + S i + b (ix2 (0 : Fin 1) (i 1))) * sc (ix2 (0 : Fin 1) (i 1)) + sh (ix2 (0 : Fin 1) (i 1))) 0

set_option maxHeartbeats 2000000 in
/-- Where the blocks sit: at point t the three row-block windows are at block row t, block column 0; -/
theorem block_positions : ∀ t : Fin cfg3.N,
    win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0 :=
  (by decide +kernel : ∀ t : Fin grid3.N, _)

set_option maxHeartbeats 2000000 in
/-- and the three rows at block (0, 0). -/
theorem row_positions : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- What point t writes back is block t of the combination, GIVEN the body's arithmetic at an entry. -/
theorem flushed_eq
    (hpay : ∀ (a s : Vec Ideal S10000x32 .f32) (b sc sh : Vec Ideal S1x32 .f32) (p : Fin 10000) (q : Fin 32),
      k3_pay1 a s b sc sh (ix2 p q) = max ((a (ix2 p q) + s (ix2 p q) + b (ix2 (0 : Fin 1) q)) * sc (ix2 (0 : Fin 1) q) + sh (ix2 (0 : Fin 1) q)) 0)
    (c : Dev nD) (t : Fin cfg3.N) :
    (dat V c).flushed 5 t = ((cfg3.win 5).blk t).view.read (Elt Ideal)
      (combined (V c main_v68) (V c main_v71) (V c main_v78) (V c main_v79) (V c main_v80)) := by
  show (cfg3.win 5).cut (grid3.coords t) ((dat V c).after 5 t) = _
  rw [after_out]
  unfold result
  rw [View.canon_unit_zero zeros2]
  simp only [View.ld_unit_zero (S := S10000x32) zeros2, View.ld_unit_zero (S := S1x32) zeros2]
  obtain ⟨e0, e1, e2, e3, e10, e11⟩ := block_positions t
  obtain ⟨e4, e5, e6, e7, e8, e9⟩ := row_positions t
  funext j
  obtain ⟨p, q, rfl⟩ : ∃ (p : Fin 10000) (q : Fin 32), j = ix2 p q := ⟨j 0, j 1, eq_ix2 j⟩
  show k3_pay1 (blockAt V c 0 t) (blockAt V c 1 t) (blockAt V c 2 t) (blockAt V c 3 t) (blockAt V c 4 t) (ix2 p q)
    = combined (V c main_v68) (V c main_v71) (V c main_v78) (V c main_v79) (V c main_v80) (((cfg3.win 5).blk t).view.emb (ix2 p q))
  rw [hpay]
  unfold combined
  have hA : ((cfg3.win 0).blk t).view.emb (ix2 p q) = (((cfg3.win 5).blk t).view.emb (ix2 p q)) := by
    funext a; apply Fin.ext
    match a with
    | ⟨0, _⟩ => show win3_0.index t (0 : Fin 2) * 10000 + 1 * p.val = win3_5.index t (0 : Fin 2) * 10000 + 1 * p.val; omega
    | ⟨1, _⟩ => show win3_0.index t (1 : Fin 2) * 32 + 1 * q.val = win3_5.index t (1 : Fin 2) * 32 + 1 * q.val; omega
  have hS : ((cfg3.win 1).blk t).view.emb (ix2 p q) = (((cfg3.win 5).blk t).view.emb (ix2 p q)) := by
    funext a; apply Fin.ext
    match a with
    | ⟨0, _⟩ => show win3_1.index t (0 : Fin 2) * 10000 + 1 * p.val = win3_5.index t (0 : Fin 2) * 10000 + 1 * p.val; omega
    | ⟨1, _⟩ => show win3_1.index t (1 : Fin 2) * 32 + 1 * q.val = win3_5.index t (1 : Fin 2) * 32 + 1 * q.val; omega
  have hcol : ((((cfg3.win 5).blk t).view.emb (ix2 p q)) 1).val = q.val := by
    show win3_5.index t (1 : Fin 2) * 32 + 1 * q.val = q.val; omega
  have hb : ((cfg3.win 2).blk t).view.emb (ix2 (0 : Fin 1) q) = ix2 (0 : Fin 1) ((((cfg3.win 5).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 32 + 1 * q.val = ((((cfg3.win 5).blk t).view.emb (ix2 p q)) 1).val; omega
  have hsc : ((cfg3.win 3).blk t).view.emb (ix2 (0 : Fin 1) q) = ix2 (0 : Fin 1) ((((cfg3.win 5).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 32 + 1 * q.val = ((((cfg3.win 5).blk t).view.emb (ix2 p q)) 1).val; omega
  have hsh : ((cfg3.win 4).blk t).view.emb (ix2 (0 : Fin 1) q) = ix2 (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 32 + 1 * q.val = ((((cfg3.win 5).blk t).view.emb (ix2 p q)) 1).val; omega
  have h0 : blockAt V c 0 t (ix2 p q) = V c main_v68 (((cfg3.win 5).blk t).view.emb (ix2 p q)) := congrArg (V c main_v68) hA
  have h1 : blockAt V c 1 t (ix2 p q) = V c main_v71 (((cfg3.win 5).blk t).view.emb (ix2 p q)) := congrArg (V c main_v71) hS
  have h2 : blockAt V c 2 t (ix2 (0 : Fin 1) q) = V c main_v78 (ix2 (0 : Fin 1) ((((cfg3.win 5).blk t).view.emb (ix2 p q)) 1)) := congrArg (V c main_v78) hb
  have h3 : blockAt V c 3 t (ix2 (0 : Fin 1) q) = V c main_v79 (ix2 (0 : Fin 1) ((((cfg3.win 5).blk t).view.emb (ix2 p q)) 1)) := congrArg (V c main_v79) hsc
  have h4 : blockAt V c 4 t (ix2 (0 : Fin 1) q) = V c main_v80 (ix2 (0 : Fin 1) ((((cfg3.win 5).blk t).view.emb (ix2 p q)) 1)) := congrArg (V c main_v80) hsh
  rw [h0, h1, h2, h3, h4]

/-- An index of the output array is in point t's block iff each coordinate is in the block's range on its axis. -/
theorem mem_block (t : Fin cfg3.N) (i : S100000x32.Idx) :
    i ∈ ((cfg3.win 5).blk t).view.set ↔ ∀ a : Fin 2, win3_5.index t a * S10000x32.size a ≤ (i a).val ∧ (i a).val < win3_5.index t a * S10000x32.size a + S10000x32.size a := by
  show i ∈ ((View.whole main_v81).slice (win3_5.rect t)).set ↔ _
  rw [View.set_slice_whole, Rect.mem_set_unit]
  exact Iff.rfl

/-- Every row r of the output is written by the point r / 10000: the ten blocks tile the array. -/
theorem covered (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  have hN : (i 0).val / 10000 < cfg3.N := by show (i 0).val / 10000 < grid3.N; rw [N_3]; omega
  refine ⟨⟨(i 0).val / 10000, hN⟩, flush3_5 _, ?_⟩
  rw [mem_block]
  obtain ⟨e0, e1, e2, e3, e10, e11⟩ := block_positions ⟨(i 0).val / 10000, hN⟩
  have e10' : win3_5.index ⟨(i 0).val / 10000, hN⟩ (0 : Fin 2) = (i 0).val / 10000 := e10
  intro a
  match a with
  | ⟨0, _⟩ => show win3_5.index ⟨(i 0).val / 10000, hN⟩ (0 : Fin 2) * 10000 ≤ (i 0).val ∧ (i 0).val < win3_5.index ⟨(i 0).val / 10000, hN⟩ (0 : Fin 2) * 10000 + 10000; omega
  | ⟨1, _⟩ => show win3_5.index ⟨(i 0).val / 10000, hN⟩ (1 : Fin 2) * 32 ≤ (i 1).val ∧ (i 1).val < win3_5.index ⟨(i 0).val / 10000, hN⟩ (1 : Fin 2) * 32 + 32; omega

/-- After the region the output array is the combination of the arrays the region found, given the body's arithmetic
    at an entry. -/
theorem array_eq
    (hpay : ∀ (a s : Vec Ideal S10000x32 .f32) (b sc sh : Vec Ideal S1x32 .f32) (p : Fin 10000) (q : Fin 32),
      k3_pay1 a s b sc sh (ix2 p q) = max ((a (ix2 p q) + s (ix2 p q) + b (ix2 (0 : Fin 1) q)) * sc (ix2 (0 : Fin 1) q) + sh (ix2 (0 : Fin 1) q)) 0)
    (c : Dev nD) : (dat V c).arrAt 5 cfg3.N = combined (V c main_v68) (V c main_v71) (V c main_v78) (V c main_v79) (V c main_v80) :=
  (dat V c).arrAt_eq_of_cover 5 _ (fun t _ => flushed_eq V hpay c t) covered

end Cert.KernelIdeal.Combine2

end
-- ==== Proof.Bridge.Out2.lean ====
/-
  Layer 2: the fused layer's output array is the same in the kernel program and in the reference.

  The kernel program's output array after the combine region is, entry by entry,
  max((A + S + b) · sc + sh, 0), with A the neighbour sums, S the self terms and b, sc, sh the three
  rows the host prepared: b the bias, sc = rsqrt(v + eps) · g, sh = be - m · sc, read from the
  unchanged argument arrays.  The reference's entry is max((((A + S + bias) - m) · rsqrt(v + eps)) · g + be, 0).
  The summands agree by hypothesis, the argument arrays agree by hypothesis, the precondition makes the
  variance entry a nonnegative real and the other three parameter entries reals; the fold of scale and
  shift then identifies the two values.
-/
import proofs.«114179_j13726715478162_1_alg».proof.Proof.Bridge.Setup
import proofs.«114179_j13726715478162_1_alg».proof.Proof.Bridge.OutLaw
import proofs.«114179_j13726715478162_1_alg».proof.Proof.Ideal.Combine2Value
import proofs.«114179_j13726715478162_1_alg».proof.Proof.Payloads
import proofs.«114179_j13726715478162_1_alg».proof.Proof.KernelRows
import proofs.«114179_j13726715478162_1_alg».proof.Proof.Domain
import proofs.«114179_j13726715478162_1_alg».proof.Proof.LayerLaw

set_option maxRecDepth 16384

noncomputable section

open Idealize.ShloMosaic Idealize.ShloMosaic.TcCoe Idealize.ShloMosaic.ValueIdx Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The output array after the combine region is the rectified affine combination of the arrays
    the region found. -/
theorem out2_combined :
    Cert.KernelIdeal.Run.B8 m c (Proc.devRef .tc Cert.KernelIdeal.main_v81)
      = Cert.KernelIdeal.Combine2.combined (Cert.KernelIdeal.Run.E7 m c Cert.KernelIdeal.main_v68) (Cert.KernelIdeal.Run.E7 m c Cert.KernelIdeal.main_v71)
          (Cert.KernelIdeal.Run.E7 m c Cert.KernelIdeal.main_v78) (Cert.KernelIdeal.Run.E7 m c Cert.KernelIdeal.main_v79) (Cert.KernelIdeal.Run.E7 m c Cert.KernelIdeal.main_v80) :=
  (Cert.KernelIdeal.Run.B8_arr m c 5).trans (Cert.KernelIdeal.Combine2.array_eq (Cert.KernelIdeal.Run.E7 m) Cert.Payloads.k3_pay1_entry c)

/-- One entry, given the reference's entry in its own form. -/
theorem out2_entry_of_ref (hpre : Cert.Pre_KernelIdeal m)
    (hagg : (Cert.KernelIdeal.Run.B7 m c (Proc.devRef .tc Cert.KernelIdeal.main_v68) : Cert.KernelIdeal.S100000x32.Idx → EReal) = Rv m' c (Proc.devRef .tc Cert.ReferenceIdeal.main_v100))
    (hself : (Cert.KernelIdeal.Run.B7 m c (Proc.devRef .tc Cert.KernelIdeal.main_v71) : Cert.KernelIdeal.S100000x32.Idx → EReal) = Rv m' c (Proc.devRef .tc Cert.ReferenceIdeal.main_v104))
    (h6 : (R0 m' c (Proc.devRef .tc Cert.ReferenceIdeal.main_arg6) : Cert.KernelIdeal.S32.Idx → EReal) = Cert.KernelIdeal.Run.B0 m c (Proc.devRef .tc Cert.KernelIdeal.main_arg6))
    (h13 : (R0 m' c (Proc.devRef .tc Cert.ReferenceIdeal.main_arg13) : Cert.KernelIdeal.S32.Idx → EReal) = Cert.KernelIdeal.Run.B0 m c (Proc.devRef .tc Cert.KernelIdeal.main_arg13))
    (h14 : (R0 m' c (Proc.devRef .tc Cert.ReferenceIdeal.main_arg14) : Cert.KernelIdeal.S32.Idx → EReal) = Cert.KernelIdeal.Run.B0 m c (Proc.devRef .tc Cert.KernelIdeal.main_arg14))
    (h15 : (R0 m' c (Proc.devRef .tc Cert.ReferenceIdeal.main_arg15) : Cert.KernelIdeal.S32.Idx → EReal) = Cert.KernelIdeal.Run.B0 m c (Proc.devRef .tc Cert.KernelIdeal.main_arg15))
    (h16 : (R0 m' c (Proc.devRef .tc Cert.ReferenceIdeal.main_arg16) : Cert.KernelIdeal.S32.Idx → EReal) = Cert.KernelIdeal.Run.B0 m c (Proc.devRef .tc Cert.KernelIdeal.main_arg16))
    (p : Fin 100000) (q : Fin 32)
    (href : rd Cert.KernelIdeal.S100000x32 (Rv m' c (Proc.devRef .tc Cert.ReferenceIdeal.main_v124)) (ix2 p q)
      = max ((((rd Cert.KernelIdeal.S100000x32 (Rv m' c (Proc.devRef .tc Cert.ReferenceIdeal.main_v100)) (ix2 p q) + rd Cert.KernelIdeal.S100000x32 (Rv m' c (Proc.devRef .tc Cert.ReferenceIdeal.main_v104)) (ix2 p q) + rd Cert.KernelIdeal.S32 (R0 m' c (Proc.devRef .tc Cert.ReferenceIdeal.main_arg6)) (ix1 q))
              - rd Cert.KernelIdeal.S32 (R0 m' c (Proc.devRef .tc Cert.ReferenceIdeal.main_arg15)) (ix1 q))
            * Ideal.rsqrt (rd Cert.KernelIdeal.S32 (R0 m' c (Proc.devRef .tc Cert.ReferenceIdeal.main_arg16)) (ix1 q) + Ideal.ofBits .f32 0x3727C5AC#32))
          * rd Cert.KernelIdeal.S32 (R0 m' c (Proc.devRef .tc Cert.ReferenceIdeal.main_arg13)) (ix1 q) + rd Cert.KernelIdeal.S32 (R0 m' c (Proc.devRef .tc Cert.ReferenceIdeal.main_arg14)) (ix1 q)) 0) :
    rd Cert.KernelIdeal.S100000x32 (Cert.KernelIdeal.Run.B8 m c (Proc.devRef .tc Cert.KernelIdeal.main_v81)) (ix2 p q) = rd Cert.KernelIdeal.S100000x32 (Rv m' c (Proc.devRef .tc Cert.ReferenceIdeal.main_v124)) (ix2 p q) := by
  have hb := Cert.KernelRows.bias_row2 (Cert.KernelIdeal.Run.B6 m c) q
  have hsc := Cert.KernelRows.scale_row2 (Cert.KernelIdeal.Run.B6 m c) q
  have hsh := Cert.KernelRows.shift_row2 (Cert.KernelIdeal.Run.B6 m c) q
  rw [Cert.KernelIdeal.Run.B6_main_arg6 m c] at hb
  rw [Cert.KernelIdeal.Run.B6_main_arg16 m c, Cert.KernelIdeal.Run.B6_main_arg13 m c] at hsc
  rw [Cert.KernelIdeal.Run.B6_main_arg14 m c, Cert.KernelIdeal.Run.B6_main_arg15 m c, Cert.KernelIdeal.Run.B6_main_arg16 m c, Cert.KernelIdeal.Run.B6_main_arg13 m c] at hsh
  obtain ⟨v, hv0, hv⟩ := Cert.Domain.nonneg_arg16 m hpre c (ix1 q)
  obtain ⟨g, hg⟩ := Cert.Domain.real_arg13 m hpre c (ix1 q)
  obtain ⟨be, hbe⟩ := Cert.Domain.real_arg14 m hpre c (ix1 q)
  obtain ⟨mm, hm⟩ := Cert.Domain.real_arg15 m hpre c (ix1 q)
  exact assemble _ _ _ _ _ _ _ _ _ _ _ _ _ _ _ _ _ _ _ v g be mm hv0
    (congrFun (out2_combined m c) (ix2 p q)) hb hsc hsh href
    (congrFun hagg (ix2 p q)) (congrFun hself (ix2 p q))
    (congrFun h6 (ix1 q)) (congrFun h13 (ix1 q)) (congrFun h14 (ix1 q)) (congrFun h15 (ix1 q)) (congrFun h16 (ix1 q))
    hv hg hbe hm

/-- The whole array, given the reference's entries in their own form. -/
theorem out2_eq_of_ref (hpre : Cert.Pre_KernelIdeal m)
    (hagg : (Cert.KernelIdeal.Run.B7 m c (Proc.devRef .tc Cert.KernelIdeal.main_v68) : Cert.KernelIdeal.S100000x32.Idx → EReal) = Rv m' c (Proc.devRef .tc Cert.ReferenceIdeal.main_v100))
    (hself : (Cert.KernelIdeal.Run.B7 m c (Proc.devRef .tc Cert.KernelIdeal.main_v71) : Cert.KernelIdeal.S100000x32.Idx → EReal) = Rv m' c (Proc.devRef .tc Cert.ReferenceIdeal.main_v104))
    (h6 : (R0 m' c (Proc.devRef .tc Cert.ReferenceIdeal.main_arg6) : Cert.KernelIdeal.S32.Idx → EReal) = Cert.KernelIdeal.Run.B0 m c (Proc.devRef .tc Cert.KernelIdeal.main_arg6))
    (h13 : (R0 m' c (Proc.devRef .tc Cert.ReferenceIdeal.main_arg13) : Cert.KernelIdeal.S32.Idx → EReal) = Cert.KernelIdeal.Run.B0 m c (Proc.devRef .tc Cert.KernelIdeal.main_arg13))
    (h14 : (R0 m' c (Proc.devRef .tc Cert.ReferenceIdeal.main_arg14) : Cert.KernelIdeal.S32.Idx → EReal) = Cert.KernelIdeal.Run.B0 m c (Proc.devRef .tc Cert.KernelIdeal.main_arg14))
    (h15 : (R0 m' c (Proc.devRef .tc Cert.ReferenceIdeal.main_arg15) : Cert.KernelIdeal.S32.Idx → EReal) = Cert.KernelIdeal.Run.B0 m c (Proc.devRef .tc Cert.KernelIdeal.main_arg15))
    (h16 : (R0 m' c (Proc.devRef .tc Cert.ReferenceIdeal.main_arg16) : Cert.KernelIdeal.S32.Idx → EReal) = Cert.KernelIdeal.Run.B0 m c (Proc.devRef .tc Cert.KernelIdeal.main_arg16))
    (href : ∀ (p : Fin 100000) (q : Fin 32), rd Cert.KernelIdeal.S100000x32 (Rv m' c (Proc.devRef .tc Cert.ReferenceIdeal.main_v124)) (ix2 p q)
      = max ((((rd Cert.KernelIdeal.S100000x32 (Rv m' c (Proc.devRef .tc Cert.ReferenceIdeal.main_v100)) (ix2 p q) + rd Cert.KernelIdeal.S100000x32 (Rv m' c (Proc.devRef .tc Cert.ReferenceIdeal.main_v104)) (ix2 p q) + rd Cert.KernelIdeal.S32 (R0 m' c (Proc.devRef .tc Cert.ReferenceIdeal.main_arg6)) (ix1 q))
              - rd Cert.KernelIdeal.S32 (R0 m' c (Proc.devRef .tc Cert.ReferenceIdeal.main_arg15)) (ix1 q))
            * Ideal.rsqrt (rd Cert.KernelIdeal.S32 (R0 m' c (Proc.devRef .tc Cert.ReferenceIdeal.main_arg16)) (ix1 q) + Ideal.ofBits .f32 0x3727C5AC#32))
          * rd Cert.KernelIdeal.S32 (R0 m' c (Proc.devRef .tc Cert.ReferenceIdeal.main_arg13)) (ix1 q) + rd Cert.KernelIdeal.S32 (R0 m' c (Proc.devRef .tc Cert.ReferenceIdeal.main_arg14)) (ix1 q)) 0) :
    (Cert.KernelIdeal.Run.B8 m c (Proc.devRef .tc Cert.KernelIdeal.main_v81) : Cert.KernelIdeal.S100000x32.Idx → EReal) = Rv m' c (Proc.devRef .tc Cert.ReferenceIdeal.main_v124) := by
  funext i
  obtain ⟨p, q, rfl⟩ : ∃ (p : Fin 100000) (q : Fin 32), i = ix2 p q := ⟨i 0, i 1, eq_ix2 i⟩
  exact out2_entry_of_ref m m' c hpre hagg hself h6 h13 h14 h15 h16 p q (href p q)

end Cert.Bridge

end
-- ==== Proof.Ideal.Combine3Value.lean ====
/-
  The fused combine of layer 3: the output ARRAY after the region, at the exact (extended-real) values.

  Each grid point t writes rows 10000 t … 10000 t + 9999 of the output; the entry (r, j) it writes is
  max((A(r, j) + S(r, j) + b(j)) · sc(j) + sh(j), 0), A the neighbour sums, S the self terms, b, sc, sh the three rows, all as
  the region finds them. An entry depends on the same entry of A and S and on column j of the rows only, and the ten
  blocks tile the 100000 rows, so the whole output array is that expression entry by entry.
-/
import proofs.«114179_j13726715478162_1_alg».proof.Proof.Ideal.Combine3
import Idealize.ShloMosaic.Lib.Pipeline.Value
import Idealize.ShloMosaic.Lib.ValueIdx

set_option maxRecDepth 16384

noncomputable section

namespace Cert.KernelIdeal.Combine3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The rectified affine combination, entry by entry, each row read at the entry's column. -/
def combined (A S : S100000x16.Idx → EReal) (b sc sh : S1x16.Idx → EReal) : S100000x16.Idx → EReal :=
  fun i => max ((A i + S i + b (ix2 (0 : Fin 1) (i 1))) * sc (ix2 (0 : Fin 1) (i 1)) + sh (ix2 (0 : Fin 1) (i 1))) 0

set_option maxHeartbeats 2000000 in
/-- Where the blocks sit: at point t the three row-block windows are at block row t, block column 0; -/
theorem block_positions : ∀ t : Fin cfg5.N,
    win5_0.index t (0 : Fin 2) = t.val ∧ win5_0.index t (1 : Fin 2) = 0
    ∧ win5_1.index t (0 : Fin 2) = t.val ∧ win5_1.index t (1 : Fin 2) = 0
    ∧ win5_5.index t (0 : Fin 2) = t.val ∧ win5_5.index t (1 : Fin 2) = 0 :=
  (by decide +kernel : ∀ t : Fin grid5.N, _)

set_option maxHeartbeats 2000000 in
/-- and the three rows at block (0, 0). -/
theorem row_positions : ∀ t : Fin cfg5.N,
    win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- What point t writes back is block t of the combination, GIVEN the body's arithmetic at an entry. -/
theorem flushed_eq
    (hpay : ∀ (a s : Vec Ideal S10000x16 .f32) (b sc sh : Vec Ideal S1x16 .f32) (p : Fin 10000) (q : Fin 16),
      k5_pay1 a s b sc sh (ix2 p q) = max ((a (ix2 p q) + s (ix2 p q) + b (ix2 (0 : Fin 1) q)) * sc (ix2 (0 : Fin 1) q) + sh (ix2 (0 : Fin 1) q)) 0)
    (c : Dev nD) (t : Fin cfg5.N) :
    (dat V c).flushed 5 t = ((cfg5.win 5).blk t).view.read (Elt Ideal)
      (combined (V c main_v95) (V c main_v98) (V c main_v105) (V c main_v106) (V c main_v107)) := by
  show (cfg5.win 5).cut (grid5.coords t) ((dat V c).after 5 t) = _
  rw [after_out]
  unfold result
  rw [View.canon_unit_zero zeros2]
  simp only [View.ld_unit_zero (S := S10000x16) zeros2, View.ld_unit_zero (S := S1x16) zeros2]
  obtain ⟨e0, e1, e2, e3, e10, e11⟩ := block_positions t
  obtain ⟨e4, e5, e6, e7, e8, e9⟩ := row_positions t
  funext j
  obtain ⟨p, q, rfl⟩ : ∃ (p : Fin 10000) (q : Fin 16), j = ix2 p q := ⟨j 0, j 1, eq_ix2 j⟩
  show k5_pay1 (blockAt V c 0 t) (blockAt V c 1 t) (blockAt V c 2 t) (blockAt V c 3 t) (blockAt V c 4 t) (ix2 p q)
    = combined (V c main_v95) (V c main_v98) (V c main_v105) (V c main_v106) (V c main_v107) (((cfg5.win 5).blk t).view.emb (ix2 p q))
  rw [hpay]
  unfold combined
  have hA : ((cfg5.win 0).blk t).view.emb (ix2 p q) = (((cfg5.win 5).blk t).view.emb (ix2 p q)) := by
    funext a; apply Fin.ext
    match a with
    | ⟨0, _⟩ => show win5_0.index t (0 : Fin 2) * 10000 + 1 * p.val = win5_5.index t (0 : Fin 2) * 10000 + 1 * p.val; omega
    | ⟨1, _⟩ => show win5_0.index t (1 : Fin 2) * 16 + 1 * q.val = win5_5.index t (1 : Fin 2) * 16 + 1 * q.val; omega
  have hS : ((cfg5.win 1).blk t).view.emb (ix2 p q) = (((cfg5.win 5).blk t).view.emb (ix2 p q)) := by
    funext a; apply Fin.ext
    match a with
    | ⟨0, _⟩ => show win5_1.index t (0 : Fin 2) * 10000 + 1 * p.val = win5_5.index t (0 : Fin 2) * 10000 + 1 * p.val; omega
    | ⟨1, _⟩ => show win5_1.index t (1 : Fin 2) * 16 + 1 * q.val = win5_5.index t (1 : Fin 2) * 16 + 1 * q.val; omega
  have hcol : ((((cfg5.win 5).blk t).view.emb (ix2 p q)) 1).val = q.val := by
    show win5_5.index t (1 : Fin 2) * 16 + 1 * q.val = q.val; omega
  have hb : ((cfg5.win 2).blk t).view.emb (ix2 (0 : Fin 1) q) = ix2 (0 : Fin 1) ((((cfg5.win 5).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 16 + 1 * q.val = ((((cfg5.win 5).blk t).view.emb (ix2 p q)) 1).val; omega
  have hsc : ((cfg5.win 3).blk t).view.emb (ix2 (0 : Fin 1) q) = ix2 (0 : Fin 1) ((((cfg5.win 5).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 16 + 1 * q.val = ((((cfg5.win 5).blk t).view.emb (ix2 p q)) 1).val; omega
  have hsh : ((cfg5.win 4).blk t).view.emb (ix2 (0 : Fin 1) q) = ix2 (0 : Fin 1) ((((cfg5.win 5).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 16 + 1 * q.val = ((((cfg5.win 5).blk t).view.emb (ix2 p q)) 1).val; omega
  have h0 : blockAt V c 0 t (ix2 p q) = V c main_v95 (((cfg5.win 5).blk t).view.emb (ix2 p q)) := congrArg (V c main_v95) hA
  have h1 : blockAt V c 1 t (ix2 p q) = V c main_v98 (((cfg5.win 5).blk t).view.emb (ix2 p q)) := congrArg (V c main_v98) hS
  have h2 : blockAt V c 2 t (ix2 (0 : Fin 1) q) = V c main_v105 (ix2 (0 : Fin 1) ((((cfg5.win 5).blk t).view.emb (ix2 p q)) 1)) := congrArg (V c main_v105) hb
  have h3 : blockAt V c 3 t (ix2 (0 : Fin 1) q) = V c main_v106 (ix2 (0 : Fin 1) ((((cfg5.win 5).blk t).view.emb (ix2 p q)) 1)) := congrArg (V c main_v106) hsc
  have h4 : blockAt V c 4 t (ix2 (0 : Fin 1) q) = V c main_v107 (ix2 (0 : Fin 1) ((((cfg5.win 5).blk t).view.emb (ix2 p q)) 1)) := congrArg (V c main_v107) hsh
  rw [h0, h1, h2, h3, h4]

/-- An index of the output array is in point t's block iff each coordinate is in the block's range on its axis. -/
theorem mem_block (t : Fin cfg5.N) (i : S100000x16.Idx) :
    i ∈ ((cfg5.win 5).blk t).view.set ↔ ∀ a : Fin 2, win5_5.index t a * S10000x16.size a ≤ (i a).val ∧ (i a).val < win5_5.index t a * S10000x16.size a + S10000x16.size a := by
  show i ∈ ((View.whole main_v108).slice (win5_5.rect t)).set ↔ _
  rw [View.set_slice_whole, Rect.mem_set_unit]
  exact Iff.rfl

/-- Every row r of the output is written by the point r / 10000: the ten blocks tile the array. -/
theorem covered (i : S100000x16.Idx) : ∃ t : Fin cfg5.N, (cfg5.win 5).flush t = true ∧ i ∈ ((cfg5.win 5).blk t).view.set := by
  have hi0 : (i 0).val < 100000 := (i 0).isLt
  have hi1 : (i 1).val < 16 := (i 1).isLt
  have hN : (i 0).val / 10000 < cfg5.N := by show (i 0).val / 10000 < grid5.N; rw [N_5]; omega
  refine ⟨⟨(i 0).val / 10000, hN⟩, flush5_5 _, ?_⟩
  rw [mem_block]
  obtain ⟨e0, e1, e2, e3, e10, e11⟩ := block_positions ⟨(i 0).val / 10000, hN⟩
  have e10' : win5_5.index ⟨(i 0).val / 10000, hN⟩ (0 : Fin 2) = (i 0).val / 10000 := e10
  intro a
  match a with
  | ⟨0, _⟩ => show win5_5.index ⟨(i 0).val / 10000, hN⟩ (0 : Fin 2) * 10000 ≤ (i 0).val ∧ (i 0).val < win5_5.index ⟨(i 0).val / 10000, hN⟩ (0 : Fin 2) * 10000 + 10000; omega
  | ⟨1, _⟩ => show win5_5.index ⟨(i 0).val / 10000, hN⟩ (1 : Fin 2) * 16 ≤ (i 1).val ∧ (i 1).val < win5_5.index ⟨(i 0).val / 10000, hN⟩ (1 : Fin 2) * 16 + 16; omega

/-- After the region the output array is the combination of the arrays the region found, given the body's arithmetic
    at an entry. -/
theorem array_eq
    (hpay : ∀ (a s : Vec Ideal S10000x16 .f32) (b sc sh : Vec Ideal S1x16 .f32) (p : Fin 10000) (q : Fin 16),
      k5_pay1 a s b sc sh (ix2 p q) = max ((a (ix2 p q) + s (ix2 p q) + b (ix2 (0 : Fin 1) q)) * sc (ix2 (0 : Fin 1) q) + sh (ix2 (0 : Fin 1) q)) 0)
    (c : Dev nD) : (dat V c).arrAt 5 cfg5.N = combined (V c main_v95) (V c main_v98) (V c main_v105) (V c main_v106) (V c main_v107) :=
  (dat V c).arrAt_eq_of_cover 5 _ (fun t _ => flushed_eq V hpay c t) covered

end Cert.KernelIdeal.Combine3

end
-- ==== Proof.Bridge.Out3.lean ====
/-
  Layer 3: the fused layer's output array is the same in the kernel program and in the reference.

  The kernel program's output array after the combine region is, entry by entry,
  max((A + S + b) · sc + sh, 0), with A the neighbour sums, S the self terms and b, sc, sh the three
  rows the host prepared: b the bias, sc = rsqrt(v + eps) · g, sh = be - m · sc, read from the
  unchanged argument arrays.  The reference's entry is max((((A + S + bias) - m) · rsqrt(v + eps)) · g + be, 0).
  The summands agree by hypothesis, the argument arrays agree by hypothesis, the precondition makes the
  variance entry a nonnegative real and the other three parameter entries reals; the fold of scale and
  shift then identifies the two values.
-/
import proofs.«114179_j13726715478162_1_alg».proof.Proof.Bridge.Setup
import proofs.«114179_j13726715478162_1_alg».proof.Proof.Bridge.OutLaw
import proofs.«114179_j13726715478162_1_alg».proof.Proof.Ideal.Combine3Value
import proofs.«114179_j13726715478162_1_alg».proof.Proof.Payloads
import proofs.«114179_j13726715478162_1_alg».proof.Proof.KernelRows
import proofs.«114179_j13726715478162_1_alg».proof.Proof.Domain
import proofs.«114179_j13726715478162_1_alg».proof.Proof.LayerLaw

set_option maxRecDepth 16384

noncomputable section

open Idealize.ShloMosaic Idealize.ShloMosaic.TcCoe Idealize.ShloMosaic.ValueIdx Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The output array after the combine region is the rectified affine combination of the arrays
    the region found. -/
theorem out3_combined :
    Cert.KernelIdeal.Run.B11 m c (Proc.devRef .tc Cert.KernelIdeal.main_v108)
      = Cert.KernelIdeal.Combine3.combined (Cert.KernelIdeal.Run.E10 m c Cert.KernelIdeal.main_v95) (Cert.KernelIdeal.Run.E10 m c Cert.KernelIdeal.main_v98)
          (Cert.KernelIdeal.Run.E10 m c Cert.KernelIdeal.main_v105) (Cert.KernelIdeal.Run.E10 m c Cert.KernelIdeal.main_v106) (Cert.KernelIdeal.Run.E10 m c Cert.KernelIdeal.main_v107) :=
  (Cert.KernelIdeal.Run.B11_arr m c 5).trans (Cert.KernelIdeal.Combine3.array_eq (Cert.KernelIdeal.Run.E10 m) Cert.Payloads.k5_pay1_entry c)

/-- One entry, given the reference's entry in its own form. -/
theorem out3_entry_of_ref (hpre : Cert.Pre_KernelIdeal m)
    (hagg : (Cert.KernelIdeal.Run.B10 m c (Proc.devRef .tc Cert.KernelIdeal.main_v95) : Cert.KernelIdeal.S100000x16.Idx → EReal) = Rv m' c (Proc.devRef .tc Cert.ReferenceIdeal.main_v160))
    (hself : (Cert.KernelIdeal.Run.B10 m c (Proc.devRef .tc Cert.KernelIdeal.main_v98) : Cert.KernelIdeal.S100000x16.Idx → EReal) = Rv m' c (Proc.devRef .tc Cert.ReferenceIdeal.main_v164))
    (h8 : (R0 m' c (Proc.devRef .tc Cert.ReferenceIdeal.main_arg8) : Cert.KernelIdeal.S16.Idx → EReal) = Cert.KernelIdeal.Run.B0 m c (Proc.devRef .tc Cert.KernelIdeal.main_arg8))
    (h17 : (R0 m' c (Proc.devRef .tc Cert.ReferenceIdeal.main_arg17) : Cert.KernelIdeal.S16.Idx → EReal) = Cert.KernelIdeal.Run.B0 m c (Proc.devRef .tc Cert.KernelIdeal.main_arg17))
    (h18 : (R0 m' c (Proc.devRef .tc Cert.ReferenceIdeal.main_arg18) : Cert.KernelIdeal.S16.Idx → EReal) = Cert.KernelIdeal.Run.B0 m c (Proc.devRef .tc Cert.KernelIdeal.main_arg18))
    (h19 : (R0 m' c (Proc.devRef .tc Cert.ReferenceIdeal.main_arg19) : Cert.KernelIdeal.S16.Idx → EReal) = Cert.KernelIdeal.Run.B0 m c (Proc.devRef .tc Cert.KernelIdeal.main_arg19))
    (h20 : (R0 m' c (Proc.devRef .tc Cert.ReferenceIdeal.main_arg20) : Cert.KernelIdeal.S16.Idx → EReal) = Cert.KernelIdeal.Run.B0 m c (Proc.devRef .tc Cert.KernelIdeal.main_arg20))
    (p : Fin 100000) (q : Fin 16)
    (href : rd Cert.KernelIdeal.S100000x16 (Rv m' c (Proc.devRef .tc Cert.ReferenceIdeal.main_v184)) (ix2 p q)
      = max ((((rd Cert.KernelIdeal.S100000x16 (Rv m' c (Proc.devRef .tc Cert.ReferenceIdeal.main_v160)) (ix2 p q) + rd Cert.KernelIdeal.S100000x16 (Rv m' c (Proc.devRef .tc Cert.ReferenceIdeal.main_v164)) (ix2 p q) + rd Cert.KernelIdeal.S16 (R0 m' c (Proc.devRef .tc Cert.ReferenceIdeal.main_arg8)) (ix1 q))
              - rd Cert.KernelIdeal.S16 (R0 m' c (Proc.devRef .tc Cert.ReferenceIdeal.main_arg19)) (ix1 q))
            * Ideal.rsqrt (rd Cert.KernelIdeal.S16 (R0 m' c (Proc.devRef .tc Cert.ReferenceIdeal.main_arg20)) (ix1 q) + Ideal.ofBits .f32 0x3727C5AC#32))
          * rd Cert.KernelIdeal.S16 (R0 m' c (Proc.devRef .tc Cert.ReferenceIdeal.main_arg17)) (ix1 q) + rd Cert.KernelIdeal.S16 (R0 m' c (Proc.devRef .tc Cert.ReferenceIdeal.main_arg18)) (ix1 q)) 0) :
    rd Cert.KernelIdeal.S100000x16 (Cert.KernelIdeal.Run.B11 m c (Proc.devRef .tc Cert.KernelIdeal.main_v108)) (ix2 p q) = rd Cert.KernelIdeal.S100000x16 (Rv m' c (Proc.devRef .tc Cert.ReferenceIdeal.main_v184)) (ix2 p q) := by
  have hb := Cert.KernelRows.bias_row3 (Cert.KernelIdeal.Run.B9 m c) q
  have hsc := Cert.KernelRows.scale_row3 (Cert.KernelIdeal.Run.B9 m c) q
  have hsh := Cert.KernelRows.shift_row3 (Cert.KernelIdeal.Run.B9 m c) q
  rw [Cert.KernelIdeal.Run.B9_main_arg8 m c] at hb
  rw [Cert.KernelIdeal.Run.B9_main_arg20 m c, Cert.KernelIdeal.Run.B9_main_arg17 m c] at hsc
  rw [Cert.KernelIdeal.Run.B9_main_arg18 m c, Cert.KernelIdeal.Run.B9_main_arg19 m c, Cert.KernelIdeal.Run.B9_main_arg20 m c, Cert.KernelIdeal.Run.B9_main_arg17 m c] at hsh
  obtain ⟨v, hv0, hv⟩ := Cert.Domain.nonneg_arg20 m hpre c (ix1 q)
  obtain ⟨g, hg⟩ := Cert.Domain.real_arg17 m hpre c (ix1 q)
  obtain ⟨be, hbe⟩ := Cert.Domain.real_arg18 m hpre c (ix1 q)
  obtain ⟨mm, hm⟩ := Cert.Domain.real_arg19 m hpre c (ix1 q)
  exact assemble _ _ _ _ _ _ _ _ _ _ _ _ _ _ _ _ _ _ _ v g be mm hv0
    (congrFun (out3_combined m c) (ix2 p q)) hb hsc hsh href
    (congrFun hagg (ix2 p q)) (congrFun hself (ix2 p q))
    (congrFun h8 (ix1 q)) (congrFun h17 (ix1 q)) (congrFun h18 (ix1 q)) (congrFun h19 (ix1 q)) (congrFun h20 (ix1 q))
    hv hg hbe hm

/-- The whole array, given the reference's entries in their own form. -/
theorem out3_eq_of_ref (hpre : Cert.Pre_KernelIdeal m)
    (hagg : (Cert.KernelIdeal.Run.B10 m c (Proc.devRef .tc Cert.KernelIdeal.main_v95) : Cert.KernelIdeal.S100000x16.Idx → EReal) = Rv m' c (Proc.devRef .tc Cert.ReferenceIdeal.main_v160))
    (hself : (Cert.KernelIdeal.Run.B10 m c (Proc.devRef .tc Cert.KernelIdeal.main_v98) : Cert.KernelIdeal.S100000x16.Idx → EReal) = Rv m' c (Proc.devRef .tc Cert.ReferenceIdeal.main_v164))
    (h8 : (R0 m' c (Proc.devRef .tc Cert.ReferenceIdeal.main_arg8) : Cert.KernelIdeal.S16.Idx → EReal) = Cert.KernelIdeal.Run.B0 m c (Proc.devRef .tc Cert.KernelIdeal.main_arg8))
    (h17 : (R0 m' c (Proc.devRef .tc Cert.ReferenceIdeal.main_arg17) : Cert.KernelIdeal.S16.Idx → EReal) = Cert.KernelIdeal.Run.B0 m c (Proc.devRef .tc Cert.KernelIdeal.main_arg17))
    (h18 : (R0 m' c (Proc.devRef .tc Cert.ReferenceIdeal.main_arg18) : Cert.KernelIdeal.S16.Idx → EReal) = Cert.KernelIdeal.Run.B0 m c (Proc.devRef .tc Cert.KernelIdeal.main_arg18))
    (h19 : (R0 m' c (Proc.devRef .tc Cert.ReferenceIdeal.main_arg19) : Cert.KernelIdeal.S16.Idx → EReal) = Cert.KernelIdeal.Run.B0 m c (Proc.devRef .tc Cert.KernelIdeal.main_arg19))
    (h20 : (R0 m' c (Proc.devRef .tc Cert.ReferenceIdeal.main_arg20) : Cert.KernelIdeal.S16.Idx → EReal) = Cert.KernelIdeal.Run.B0 m c (Proc.devRef .tc Cert.KernelIdeal.main_arg20))
    (href : ∀ (p : Fin 100000) (q : Fin 16), rd Cert.KernelIdeal.S100000x16 (Rv m' c (Proc.devRef .tc Cert.ReferenceIdeal.main_v184)) (ix2 p q)
      = max ((((rd Cert.KernelIdeal.S100000x16 (Rv m' c (Proc.devRef .tc Cert.ReferenceIdeal.main_v160)) (ix2 p q) + rd Cert.KernelIdeal.S100000x16 (Rv m' c (Proc.devRef .tc Cert.ReferenceIdeal.main_v164)) (ix2 p q) + rd Cert.KernelIdeal.S16 (R0 m' c (Proc.devRef .tc Cert.ReferenceIdeal.main_arg8)) (ix1 q))
              - rd Cert.KernelIdeal.S16 (R0 m' c (Proc.devRef .tc Cert.ReferenceIdeal.main_arg19)) (ix1 q))
            * Ideal.rsqrt (rd Cert.KernelIdeal.S16 (R0 m' c (Proc.devRef .tc Cert.ReferenceIdeal.main_arg20)) (ix1 q) + Ideal.ofBits .f32 0x3727C5AC#32))
          * rd Cert.KernelIdeal.S16 (R0 m' c (Proc.devRef .tc Cert.ReferenceIdeal.main_arg17)) (ix1 q) + rd Cert.KernelIdeal.S16 (R0 m' c (Proc.devRef .tc Cert.ReferenceIdeal.main_arg18)) (ix1 q)) 0) :
    (Cert.KernelIdeal.Run.B11 m c (Proc.devRef .tc Cert.KernelIdeal.main_v108) : Cert.KernelIdeal.S100000x16.Idx → EReal) = Rv m' c (Proc.devRef .tc Cert.ReferenceIdeal.main_v184) := by
  funext i
  obtain ⟨p, q, rfl⟩ : ∃ (p : Fin 100000) (q : Fin 16), i = ix2 p q := ⟨i 0, i 1, eq_ix2 i⟩
  exact out3_entry_of_ref m m' c hpre hagg hself h8 h17 h18 h19 h20 p q (href p q)

end Cert.Bridge

end
-- ==== Proof.Reference.LayerEntries.lean ====
/-
  The reference's three layer outputs, read at one entry, at the exact (extended-real) values.

  Between a layer's two summands (the neighbour sums and the self term) and its output the reference
  runs: their sum; the bias, laid out as a 1 × N row and then as an M × N array, added; the running
  mean, laid out the same way, subtracted; the small constant added to the running variance and the
  reciprocal square root taken, laid out and multiplied in; the gain multiplied in; the offset added;
  the maximum with a zero array.  Every operation is entrywise, a vector laid out as a row and then
  as an array reads at (p, q) as the vector at q, and a constant laid out reads as the constant.  So
  the output at (p, q) is  max((((A + S + b) - mean) · rsqrt(var + eps)) · gain + offset, 0)  on the
  entries.  The line is in single-assignment form: cutting it around that stretch, the final contents
  of the output are the stretch's function of the final contents of its operands.
-/
import proofs.«114179_j13726715478162_1_alg».proof.Proof.Reference.Cut
import proofs.«114179_j13726715478162_1_alg».proof.Proof.LibDense
import proofs.«114179_j13726715478162_1_alg».proof.Proof.Bridge.OutLaw
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.LayerEntries

open Cert.ReferenceIdeal Cert.ReferenceIdeal.Gen Cert.ReferenceIdeal.HandRun Idealize.ShloMosaic Idealize.ShloMosaic.TcCoe Idealize.SL.Sem Idealize.ShloMosaic.StableHlo Idealize.ShloMosaic.ValueIdx
open Cert.Lib.Dense Cert.Bridge

section Generic
variable {M N : Nat}

/-- The stretch's function at an entry, over arbitrary arrays: every operation read at (p, q). -/
theorem layer_apply
    (A S : FVec Ideal ⟨2, ![M, N]⟩ .f32) (b mu v g be : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs1 : (⟨0, ![]⟩ : Shape).BroadcastsInDim ⟨1, ![N]⟩ (![] : Fin 0 → Fin 1))
    (hs2 : (⟨0, ![]⟩ : Shape).BroadcastsInDim ⟨2, ![M, N]⟩ (![] : Fin 0 → Fin 2))
    (p : Fin M) (q : Fin N) :
    maximumf
        (addf
          (mulf
            (mulf
              (subf
                (addf (addf A S)
                  (broadcastInDim ⟨2, ![M, N]⟩ ![0, 1] h2 (broadcastInDim ⟨2, ![1, N]⟩ ![1] h1 b)))
                (broadcastInDim ⟨2, ![M, N]⟩ ![0, 1] h2 (broadcastInDim ⟨2, ![1, N]⟩ ![1] h1 mu)))
              (broadcastInDim ⟨2, ![M, N]⟩ ![0, 1] h2 (broadcastInDim ⟨2, ![1, N]⟩ ![1] h1
                (Host.rsqrt (addf v (broadcastInDim ⟨1, ![N]⟩ ![] hs1
                  (constant (F := Ideal) ⟨0, ![]⟩ .f32 0x3727C5AC#32)))))))
            (broadcastInDim ⟨2, ![M, N]⟩ ![0, 1] h2 (broadcastInDim ⟨2, ![1, N]⟩ ![1] h1 g)))
          (broadcastInDim ⟨2, ![M, N]⟩ ![0, 1] h2 (broadcastInDim ⟨2, ![1, N]⟩ ![1] h1 be)))
        (broadcastInDim ⟨2, ![M, N]⟩ ![] hs2 (constant (F := Ideal) ⟨0, ![]⟩ .f32 0x00000000#32))
        (ix2 p q)
      = max ((((A (ix2 p q) + S (ix2 p q) + b (ix1 q)) - mu (ix1 q))
              * Ideal.rsqrt (v (ix1 q) + Ideal.ofBits .f32 0x3727C5AC#32))
            * g (ix1 q) + be (ix1 q)) 0 := by
  have hb : ∀ x : FVec Ideal ⟨1, ![N]⟩ .f32,
      broadcastInDim ⟨2, ![M, N]⟩ ![0, 1] h2 (broadcastInDim ⟨2, ![1, N]⟩ ![1] h1 x) (ix2 p q) = x (ix1 q) :=
    fun x => (broadcastInDim_row_apply _ h2 p q).trans (broadcastInDim_vec_row_apply x h1 q)
  have hz : broadcastInDim ⟨2, ![M, N]⟩ ![] hs2 (constant (F := Ideal) ⟨0, ![]⟩ .f32 0x00000000#32) (ix2 p q)
      = (0 : EReal) := Ideal.ofBits_zero_f32
  rw [maximumf_apply, addf_apply, mulf_apply, mulf_apply, subf_apply, addf_apply, addf_apply,
    hb, hb, hb, hb, hb, hz]
  rfl

end Generic

variable {F : FTy → Type} [FloatOps F]
variable (V0 : Valuation τ sig (Elt Ideal))

/-- The buffers' contents after the whole line, from contents V0. -/
local notation "R" => after (ops (F := Ideal)) V0

/-- Operations 71 … 93 of the line: the stretch of layer 1. -/
abbrev mid_layer1 : List (HloOp τ sig (Elt F)) :=
  [ StableHlo.binary main_v40 main_v44 main_v45 (addf : (⟨S100000x64, .f32⟩ : BufTy).Contents (Elt F) → (⟨S100000x64, .f32⟩ : BufTy).Contents (Elt F) → (⟨S100000x64, .f32⟩ : BufTy).Contents (Elt F)),
      StableHlo.unary main_arg4 main_v46 (broadcastInDim S1x64 ![1] bcast_S64_S1x64_1 : (⟨S64, .f32⟩ : BufTy).Contents (Elt F) → (⟨S1x64, .f32⟩ : BufTy).Contents (Elt F)),
      StableHlo.unary main_v46 main_v47 (broadcastInDim S100000x64 ![0, 1] bcast_S1x64_S100000x64_0_1 : (⟨S1x64, .f32⟩ : BufTy).Contents (Elt F) → (⟨S100000x64, .f32⟩ : BufTy).Contents (Elt F)),
      StableHlo.binary main_v45 main_v47 main_v48 (addf : (⟨S100000x64, .f32⟩ : BufTy).Contents (Elt F) → (⟨S100000x64, .f32⟩ : BufTy).Contents (Elt F) → (⟨S100000x64, .f32⟩ : BufTy).Contents (Elt F)),
      StableHlo.unary main_arg11 main_v49 (broadcastInDim S1x64 ![1] bcast_S64_S1x64_1 : (⟨S64, .f32⟩ : BufTy).Contents (Elt F) → (⟨S1x64, .f32⟩ : BufTy).Contents (Elt F)),
      StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
      StableHlo.binary main_v48 main_v50 main_v51 (subf : (⟨S100000x64, .f32⟩ : BufTy).Contents (Elt F) → (⟨S100000x64, .f32⟩ : BufTy).Contents (Elt F) → (⟨S100000x64, .f32⟩ : BufTy).Contents (Elt F)),
      StableHlo.nullary main_cst_8 (constant S_ .f32 0x3727C5AC#32),
      StableHlo.unary main_cst_8 main_v52 (broadcastInDim S64 ![] bcast_S_S64 : (⟨S_, .f32⟩ : BufTy).Contents (Elt F) → (⟨S64, .f32⟩ : BufTy).Contents (Elt F)),
      StableHlo.binary main_arg12 main_v52 main_v53 (addf : (⟨S64, .f32⟩ : BufTy).Contents (Elt F) → (⟨S64, .f32⟩ : BufTy).Contents (Elt F) → (⟨S64, .f32⟩ : BufTy).Contents (Elt F)),
      StableHlo.unary main_v53 main_v54 (Host.rsqrt : (⟨S64, .f32⟩ : BufTy).Contents (Elt F) → (⟨S64, .f32⟩ : BufTy).Contents (Elt F)),
      StableHlo.unary main_v54 main_v55 (broadcastInDim S1x64 ![1] bcast_S64_S1x64_1 : (⟨S64, .f32⟩ : BufTy).Contents (Elt F) → (⟨S1x64, .f32⟩ : BufTy).Contents (Elt F)),
      StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
      StableHlo.binary main_v51 main_v56 main_v57 (mulf : (⟨S100000x64, .f32⟩ : BufTy).Contents (Elt F) → (⟨S100000x64, .f32⟩ : BufTy).Contents (Elt F) → (⟨S100000x64, .f32⟩ : BufTy).Contents (Elt F)),
      StableHlo.unary main_arg9 main_v58 (broadcastInDim S1x64 ![1] bcast_S64_S1x64_1 : (⟨S64, .f32⟩ : BufTy).Contents (Elt F) → (⟨S1x64, .f32⟩ : BufTy).Contents (Elt F)),
      StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
      StableHlo.binary main_v57 main_v59 main_v60 (mulf : (⟨S100000x64, .f32⟩ : BufTy).Contents (Elt F) → (⟨S100000x64, .f32⟩ : BufTy).Contents (Elt F) → (⟨S100000x64, .f32⟩ : BufTy).Contents (Elt F)),
      StableHlo.unary main_arg10 main_v61 (broadcastInDim S1x64 ![1] bcast_S64_S1x64_1 : (⟨S64, .f32⟩ : BufTy).Contents (Elt F) → (⟨S1x64, .f32⟩ : BufTy).Contents (Elt F)),
      StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
      StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
      StableHlo.nullary main_call1_cst ((constant S_ .f32 0x00000000#32) : (⟨S_, .f32⟩ : BufTy).Contents (Elt F)),
      StableHlo.unary main_call1_cst main_call1_v0 ((broadcastInDim S100000x64 ![] bcast_S_S100000x64) : (⟨S_, .f32⟩ : BufTy).Contents (Elt F) → (⟨S100000x64, .f32⟩ : BufTy).Contents (Elt F)),
      StableHlo.binary main_v63 main_call1_v0 main_v64 (maximumf : (⟨S100000x64, .f32⟩ : BufTy).Contents (Elt F) → (⟨S100000x64, .f32⟩ : BufTy).Contents (Elt F) → (⟨S100000x64, .f32⟩ : BufTy).Contents (Elt F)) ]
theorem cut_layer1 : (ops (F := F)) = (ops (F := F)).take 70 ++ (mid_layer1 ++ (ops (F := F)).drop 93) := rfl

set_option maxRecDepth 8192 in
/-- The output of layer 1 (width 64) at (p, q). -/
theorem layer1 (p : Fin 100000) (q : Fin 64) :
    rd S100000x64 (R (Proc.devRef .tc main_v64)) (ix2 p q)
      = max ((((rd S100000x64 (R (Proc.devRef .tc main_v40)) (ix2 p q) + rd S100000x64 (R (Proc.devRef .tc main_v44)) (ix2 p q) + rd S64 (V0 (Proc.devRef .tc main_arg4)) (ix1 q))
              - rd S64 (V0 (Proc.devRef .tc main_arg11)) (ix1 q))
            * Ideal.rsqrt (rd S64 (V0 (Proc.devRef .tc main_arg12)) (ix1 q) + Ideal.ofBits .f32 0x3727C5AC#32))
          * rd S64 (V0 (Proc.devRef .tc main_arg9)) (ix1 q) + rd S64 (V0 (Proc.devRef .tc main_arg10)) (ix1 q)) 0 := by
  have cut := fun (r : Ref sig .tc) (hr : r ∉ W.drop 93) => after_ops_cut 70 93 (mid_layer1 (F := Ideal)) cut_layer1 V0 hr
  rw [← after_ops_of_not_mem V0 (r := main_arg4) (by decide), ← after_ops_of_not_mem V0 (r := main_arg11) (by decide), ← after_ops_of_not_mem V0 (r := main_arg12) (by decide), ← after_ops_of_not_mem V0 (r := main_arg9) (by decide), ← after_ops_of_not_mem V0 (r := main_arg10) (by decide)]
  rw [cut main_v64 (by decide), cut main_v40 (by decide), cut main_v44 (by decide), cut main_arg4 (by decide), cut main_arg11 (by decide), cut main_arg12 (by decide), cut main_arg9 (by decide), cut main_arg10 (by decide)]
  generalize after (List.take 70 (ops (F := Ideal))) V0 = V1
  simp only [mid_layer1, rd]
  after_results_simp
  exact layer_apply _ _ _ _ _ _ _ _ _ _ _ p q

/-- Operations 144 … 166 of the line: the stretch of layer 2. -/
abbrev mid_layer2 : List (HloOp τ sig (Elt F)) :=
  [ StableHlo.binary main_v100 main_v104 main_v105 (addf : (⟨S100000x32, .f32⟩ : BufTy).Contents (Elt F) → (⟨S100000x32, .f32⟩ : BufTy).Contents (Elt F) → (⟨S100000x32, .f32⟩ : BufTy).Contents (Elt F)),
      StableHlo.unary main_arg6 main_v106 (broadcastInDim S1x32 ![1] bcast_S32_S1x32_1 : (⟨S32, .f32⟩ : BufTy).Contents (Elt F) → (⟨S1x32, .f32⟩ : BufTy).Contents (Elt F)),
      StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
      StableHlo.binary main_v105 main_v107 main_v108 (addf : (⟨S100000x32, .f32⟩ : BufTy).Contents (Elt F) → (⟨S100000x32, .f32⟩ : BufTy).Contents (Elt F) → (⟨S100000x32, .f32⟩ : BufTy).Contents (Elt F)),
      StableHlo.unary main_arg15 main_v109 (broadcastInDim S1x32 ![1] bcast_S32_S1x32_1 : (⟨S32, .f32⟩ : BufTy).Contents (Elt F) → (⟨S1x32, .f32⟩ : BufTy).Contents (Elt F)),
      StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
      StableHlo.binary main_v108 main_v110 main_v111 (subf : (⟨S100000x32, .f32⟩ : BufTy).Contents (Elt F) → (⟨S100000x32, .f32⟩ : BufTy).Contents (Elt F) → (⟨S100000x32, .f32⟩ : BufTy).Contents (Elt F)),
      StableHlo.nullary main_cst_19 (constant S_ .f32 0x3727C5AC#32),
      StableHlo.unary main_cst_19 main_v112 (broadcastInDim S32 ![] bcast_S_S32 : (⟨S_, .f32⟩ : BufTy).Contents (Elt F) → (⟨S32, .f32⟩ : BufTy).Contents (Elt F)),
      StableHlo.binary main_arg16 main_v112 main_v113 (addf : (⟨S32, .f32⟩ : BufTy).Contents (Elt F) → (⟨S32, .f32⟩ : BufTy).Contents (Elt F) → (⟨S32, .f32⟩ : BufTy).Contents (Elt F)),
      StableHlo.unary main_v113 main_v114 (Host.rsqrt : (⟨S32, .f32⟩ : BufTy).Contents (Elt F) → (⟨S32, .f32⟩ : BufTy).Contents (Elt F)),
      StableHlo.unary main_v114 main_v115 (broadcastInDim S1x32 ![1] bcast_S32_S1x32_1 : (⟨S32, .f32⟩ : BufTy).Contents (Elt F) → (⟨S1x32, .f32⟩ : BufTy).Contents (Elt F)),
      StableHlo.unary main_v115 main_v116 (broadcastInDim S100000x32 ![0, 1] bcast_S1x32_S100000x32_0_1 : (⟨S1x32, .f32⟩ : BufTy).Contents (Elt F) → (⟨S100000x32, .f32⟩ : BufTy).Contents (Elt F)),
      StableHlo.binary main_v111 main_v116 main_v117 (mulf : (⟨S100000x32, .f32⟩ : BufTy).Contents (Elt F) → (⟨S100000x32, .f32⟩ : BufTy).Contents (Elt F) → (⟨S100000x32, .f32⟩ : BufTy).Contents (Elt F)),
      StableHlo.unary main_arg13 main_v118 (broadcastInDim S1x32 ![1] bcast_S32_S1x32_1 : (⟨S32, .f32⟩ : BufTy).Contents (Elt F) → (⟨S1x32, .f32⟩ : BufTy).Contents (Elt F)),
      StableHlo.unary main_v118 main_v119 (broadcastInDim S100000x32 ![0, 1] bcast_S1x32_S100000x32_0_1 : (⟨S1x32, .f32⟩ : BufTy).Contents (Elt F) → (⟨S100000x32, .f32⟩ : BufTy).Contents (Elt F)),
      StableHlo.binary main_v117 main_v119 main_v120 (mulf : (⟨S100000x32, .f32⟩ : BufTy).Contents (Elt F) → (⟨S100000x32, .f32⟩ : BufTy).Contents (Elt F) → (⟨S100000x32, .f32⟩ : BufTy).Contents (Elt F)),
      StableHlo.unary main_arg14 main_v121 (broadcastInDim S1x32 ![1] bcast_S32_S1x32_1 : (⟨S32, .f32⟩ : BufTy).Contents (Elt F) → (⟨S1x32, .f32⟩ : BufTy).Contents (Elt F)),
      StableHlo.unary main_v121 main_v122 (broadcastInDim S100000x32 ![0, 1] bcast_S1x32_S100000x32_0_1 : (⟨S1x32, .f32⟩ : BufTy).Contents (Elt F) → (⟨S100000x32, .f32⟩ : BufTy).Contents (Elt F)),
      StableHlo.binary main_v120 main_v122 main_v123 (addf : (⟨S100000x32, .f32⟩ : BufTy).Contents (Elt F) → (⟨S100000x32, .f32⟩ : BufTy).Contents (Elt F) → (⟨S100000x32, .f32⟩ : BufTy).Contents (Elt F)),
      StableHlo.nullary main_call2_cst ((constant S_ .f32 0x00000000#32) : (⟨S_, .f32⟩ : BufTy).Contents (Elt F)),
      StableHlo.unary main_call2_cst main_call2_v0 ((broadcastInDim S100000x32 ![] bcast_S_S100000x32) : (⟨S_, .f32⟩ : BufTy).Contents (Elt F) → (⟨S100000x32, .f32⟩ : BufTy).Contents (Elt F)),
      StableHlo.binary main_v123 main_call2_v0 main_v124 (maximumf : (⟨S100000x32, .f32⟩ : BufTy).Contents (Elt F) → (⟨S100000x32, .f32⟩ : BufTy).Contents (Elt F) → (⟨S100000x32, .f32⟩ : BufTy).Contents (Elt F)) ]
theorem cut_layer2 : (ops (F := F)) = (ops (F := F)).take 143 ++ (mid_layer2 ++ (ops (F := F)).drop 166) := rfl

set_option maxRecDepth 8192 in
/-- The output of layer 2 (width 32) at (p, q). -/
theorem layer2 (p : Fin 100000) (q : Fin 32) :
    rd S100000x32 (R (Proc.devRef .tc main_v124)) (ix2 p q)
      = max ((((rd S100000x32 (R (Proc.devRef .tc main_v100)) (ix2 p q) + rd S100000x32 (R (Proc.devRef .tc main_v104)) (ix2 p q) + rd S32 (V0 (Proc.devRef .tc main_arg6)) (ix1 q))
              - rd S32 (V0 (Proc.devRef .tc main_arg15)) (ix1 q))
            * Ideal.rsqrt (rd S32 (V0 (Proc.devRef .tc main_arg16)) (ix1 q) + Ideal.ofBits .f32 0x3727C5AC#32))
          * rd S32 (V0 (Proc.devRef .tc main_arg13)) (ix1 q) + rd S32 (V0 (Proc.devRef .tc main_arg14)) (ix1 q)) 0 := by
  have cut := fun (r : Ref sig .tc) (hr : r ∉ W.drop 166) => after_ops_cut 143 166 (mid_layer2 (F := Ideal)) cut_layer2 V0 hr
  rw [← after_ops_of_not_mem V0 (r := main_arg6) (by decide), ← after_ops_of_not_mem V0 (r := main_arg15) (by decide), ← after_ops_of_not_mem V0 (r := main_arg16) (by decide), ← after_ops_of_not_mem V0 (r := main_arg13) (by decide), ← after_ops_of_not_mem V0 (r := main_arg14) (by decide)]
  rw [cut main_v124 (by decide), cut main_v100 (by decide), cut main_v104 (by decide), cut main_arg6 (by decide), cut main_arg15 (by decide), cut main_arg16 (by decide), cut main_arg13 (by decide), cut main_arg14 (by decide)]
  generalize after (List.take 143 (ops (F := Ideal))) V0 = V1
  simp only [mid_layer2, rd]
  after_results_simp
  exact layer_apply _ _ _ _ _ _ _ _ _ _ _ p q

/-- Operations 217 … 239 of the line: the stretch of layer 3. -/
abbrev mid_layer3 : List (HloOp τ sig (Elt F)) :=
  [ StableHlo.binary main_v160 main_v164 main_v165 (addf : (⟨S100000x16, .f32⟩ : BufTy).Contents (Elt F) → (⟨S100000x16, .f32⟩ : BufTy).Contents (Elt F) → (⟨S100000x16, .f32⟩ : BufTy).Contents (Elt F)),
      StableHlo.unary main_arg8 main_v166 (broadcastInDim S1x16 ![1] bcast_S16_S1x16_1 : (⟨S16, .f32⟩ : BufTy).Contents (Elt F) → (⟨S1x16, .f32⟩ : BufTy).Contents (Elt F)),
      StableHlo.unary main_v166 main_v167 (broadcastInDim S100000x16 ![0, 1] bcast_S1x16_S100000x16_0_1 : (⟨S1x16, .f32⟩ : BufTy).Contents (Elt F) → (⟨S100000x16, .f32⟩ : BufTy).Contents (Elt F)),
      StableHlo.binary main_v165 main_v167 main_v168 (addf : (⟨S100000x16, .f32⟩ : BufTy).Contents (Elt F) → (⟨S100000x16, .f32⟩ : BufTy).Contents (Elt F) → (⟨S100000x16, .f32⟩ : BufTy).Contents (Elt F)),
      StableHlo.unary main_arg19 main_v169 (broadcastInDim S1x16 ![1] bcast_S16_S1x16_1 : (⟨S16, .f32⟩ : BufTy).Contents (Elt F) → (⟨S1x16, .f32⟩ : BufTy).Contents (Elt F)),
      StableHlo.unary main_v169 main_v170 (broadcastInDim S100000x16 ![0, 1] bcast_S1x16_S100000x16_0_1 : (⟨S1x16, .f32⟩ : BufTy).Contents (Elt F) → (⟨S100000x16, .f32⟩ : BufTy).Contents (Elt F)),
      StableHlo.binary main_v168 main_v170 main_v171 (subf : (⟨S100000x16, .f32⟩ : BufTy).Contents (Elt F) → (⟨S100000x16, .f32⟩ : BufTy).Contents (Elt F) → (⟨S100000x16, .f32⟩ : BufTy).Contents (Elt F)),
      StableHlo.nullary main_cst_30 (constant S_ .f32 0x3727C5AC#32),
      StableHlo.unary main_cst_30 main_v172 (broadcastInDim S16 ![] bcast_S_S16 : (⟨S_, .f32⟩ : BufTy).Contents (Elt F) → (⟨S16, .f32⟩ : BufTy).Contents (Elt F)),
      StableHlo.binary main_arg20 main_v172 main_v173 (addf : (⟨S16, .f32⟩ : BufTy).Contents (Elt F) → (⟨S16, .f32⟩ : BufTy).Contents (Elt F) → (⟨S16, .f32⟩ : BufTy).Contents (Elt F)),
      StableHlo.unary main_v173 main_v174 (Host.rsqrt : (⟨S16, .f32⟩ : BufTy).Contents (Elt F) → (⟨S16, .f32⟩ : BufTy).Contents (Elt F)),
      StableHlo.unary main_v174 main_v175 (broadcastInDim S1x16 ![1] bcast_S16_S1x16_1 : (⟨S16, .f32⟩ : BufTy).Contents (Elt F) → (⟨S1x16, .f32⟩ : BufTy).Contents (Elt F)),
      StableHlo.unary main_v175 main_v176 (broadcastInDim S100000x16 ![0, 1] bcast_S1x16_S100000x16_0_1 : (⟨S1x16, .f32⟩ : BufTy).Contents (Elt F) → (⟨S100000x16, .f32⟩ : BufTy).Contents (Elt F)),
      StableHlo.binary main_v171 main_v176 main_v177 (mulf : (⟨S100000x16, .f32⟩ : BufTy).Contents (Elt F) → (⟨S100000x16, .f32⟩ : BufTy).Contents (Elt F) → (⟨S100000x16, .f32⟩ : BufTy).Contents (Elt F)),
      StableHlo.unary main_arg17 main_v178 (broadcastInDim S1x16 ![1] bcast_S16_S1x16_1 : (⟨S16, .f32⟩ : BufTy).Contents (Elt F) → (⟨S1x16, .f32⟩ : BufTy).Contents (Elt F)),
      StableHlo.unary main_v178 main_v179 (broadcastInDim S100000x16 ![0, 1] bcast_S1x16_S100000x16_0_1 : (⟨S1x16, .f32⟩ : BufTy).Contents (Elt F) → (⟨S100000x16, .f32⟩ : BufTy).Contents (Elt F)),
      StableHlo.binary main_v177 main_v179 main_v180 (mulf : (⟨S100000x16, .f32⟩ : BufTy).Contents (Elt F) → (⟨S100000x16, .f32⟩ : BufTy).Contents (Elt F) → (⟨S100000x16, .f32⟩ : BufTy).Contents (Elt F)),
      StableHlo.unary main_arg18 main_v181 (broadcastInDim S1x16 ![1] bcast_S16_S1x16_1 : (⟨S16, .f32⟩ : BufTy).Contents (Elt F) → (⟨S1x16, .f32⟩ : BufTy).Contents (Elt F)),
      StableHlo.unary main_v181 main_v182 (broadcastInDim S100000x16 ![0, 1] bcast_S1x16_S100000x16_0_1 : (⟨S1x16, .f32⟩ : BufTy).Contents (Elt F) → (⟨S100000x16, .f32⟩ : BufTy).Contents (Elt F)),
      StableHlo.binary main_v180 main_v182 main_v183 (addf : (⟨S100000x16, .f32⟩ : BufTy).Contents (Elt F) → (⟨S100000x16, .f32⟩ : BufTy).Contents (Elt F) → (⟨S100000x16, .f32⟩ : BufTy).Contents (Elt F)),
      StableHlo.nullary main_call3_cst ((constant S_ .f32 0x00000000#32) : (⟨S_, .f32⟩ : BufTy).Contents (Elt F)),
      StableHlo.unary main_call3_cst main_call3_v0 ((broadcastInDim S100000x16 ![] bcast_S_S100000x16) : (⟨S_, .f32⟩ : BufTy).Contents (Elt F) → (⟨S100000x16, .f32⟩ : BufTy).Contents (Elt F)),
      StableHlo.binary main_v183 main_call3_v0 main_v184 (maximumf : (⟨S100000x16, .f32⟩ : BufTy).Contents (Elt F) → (⟨S100000x16, .f32⟩ : BufTy).Contents (Elt F) → (⟨S100000x16, .f32⟩ : BufTy).Contents (Elt F)) ]
theorem cut_layer3 : (ops (F := F)) = (ops (F := F)).take 216 ++ (mid_layer3 ++ (ops (F := F)).drop 239) := rfl

set_option maxRecDepth 8192 in
/-- The output of layer 3 (width 16) at (p, q). -/
theorem layer3 (p : Fin 100000) (q : Fin 16) :
    rd S100000x16 (R (Proc.devRef .tc main_v184)) (ix2 p q)
      = max ((((rd S100000x16 (R (Proc.devRef .tc main_v160)) (ix2 p q) + rd S100000x16 (R (Proc.devRef .tc main_v164)) (ix2 p q) + rd S16 (V0 (Proc.devRef .tc main_arg8)) (ix1 q))
              - rd S16 (V0 (Proc.devRef .tc main_arg19)) (ix1 q))
            * Ideal.rsqrt (rd S16 (V0 (Proc.devRef .tc main_arg20)) (ix1 q) + Ideal.ofBits .f32 0x3727C5AC#32))
          * rd S16 (V0 (Proc.devRef .tc main_arg17)) (ix1 q) + rd S16 (V0 (Proc.devRef .tc main_arg18)) (ix1 q)) 0 := by
  have cut := fun (r : Ref sig .tc) (hr : r ∉ W.drop 239) => after_ops_cut 216 239 (mid_layer3 (F := Ideal)) cut_layer3 V0 hr
  rw [← after_ops_of_not_mem V0 (r := main_arg8) (by decide), ← after_ops_of_not_mem V0 (r := main_arg19) (by decide), ← after_ops_of_not_mem V0 (r := main_arg20) (by decide), ← after_ops_of_not_mem V0 (r := main_arg17) (by decide), ← after_ops_of_not_mem V0 (r := main_arg18) (by decide)]
  rw [cut main_v184 (by decide), cut main_v160 (by decide), cut main_v164 (by decide), cut main_arg8 (by decide), cut main_arg19 (by decide), cut main_arg20 (by decide), cut main_arg17 (by decide), cut main_arg18 (by decide)]
  generalize after (List.take 216 (ops (F := Ideal))) V0 = V1
  simp only [mid_layer3, rd]
  after_results_simp
  exact layer_apply _ _ _ _ _ _ _ _ _ _ _ p q

end Cert.ReferenceIdeal.LayerEntries

end
-- ==== Proof.Bridge.OutJoin.lean ====
/-
  The three fused layers' output arrays: kernel program = reference program.

  Each statement joins the kernel program's side (the combine region's output, entry by entry, over
  the rows the host prepared) with the reference's entry in its own form; the algebra of one entry is
  the fold of scale and shift.
-/
import proofs.«114179_j13726715478162_1_alg».proof.Proof.Bridge.Out1
import proofs.«114179_j13726715478162_1_alg».proof.Proof.Bridge.Out2
import proofs.«114179_j13726715478162_1_alg».proof.Proof.Bridge.Out3
import proofs.«114179_j13726715478162_1_alg».proof.Proof.Reference.LayerEntries

set_option maxRecDepth 16384

noncomputable section

open Idealize.ShloMosaic Idealize.ShloMosaic.TcCoe Idealize.ShloMosaic.ValueIdx Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Layer 1: the fused layer's output array is the same in the two programs, given that the two
    summands and the five parameter vectors (bias, gain, offset, mean, variance) agree. -/
theorem out1_eq (hpre : Cert.Pre_KernelIdeal m)
    (hagg : (Cert.KernelIdeal.Run.B4 m c (Proc.devRef .tc Cert.KernelIdeal.main_v41) : Cert.KernelIdeal.S100000x64.Idx → EReal) = Rv m' c (Proc.devRef .tc Cert.ReferenceIdeal.main_v40))
    (hself : (Cert.KernelIdeal.Run.B4 m c (Proc.devRef .tc Cert.KernelIdeal.main_v44) : Cert.KernelIdeal.S100000x64.Idx → EReal) = Rv m' c (Proc.devRef .tc Cert.ReferenceIdeal.main_v44))
    (h4 : (R0 m' c (Proc.devRef .tc Cert.ReferenceIdeal.main_arg4) : Cert.KernelIdeal.S64.Idx → EReal) = Cert.KernelIdeal.Run.B0 m c (Proc.devRef .tc Cert.KernelIdeal.main_arg4))
    (h9 : (R0 m' c (Proc.devRef .tc Cert.ReferenceIdeal.main_arg9) : Cert.KernelIdeal.S64.Idx → EReal) = Cert.KernelIdeal.Run.B0 m c (Proc.devRef .tc Cert.KernelIdeal.main_arg9))
    (h10 : (R0 m' c (Proc.devRef .tc Cert.ReferenceIdeal.main_arg10) : Cert.KernelIdeal.S64.Idx → EReal) = Cert.KernelIdeal.Run.B0 m c (Proc.devRef .tc Cert.KernelIdeal.main_arg10))
    (h11 : (R0 m' c (Proc.devRef .tc Cert.ReferenceIdeal.main_arg11) : Cert.KernelIdeal.S64.Idx → EReal) = Cert.KernelIdeal.Run.B0 m c (Proc.devRef .tc Cert.KernelIdeal.main_arg11))
    (h12 : (R0 m' c (Proc.devRef .tc Cert.ReferenceIdeal.main_arg12) : Cert.KernelIdeal.S64.Idx → EReal) = Cert.KernelIdeal.Run.B0 m c (Proc.devRef .tc Cert.KernelIdeal.main_arg12)) :
    (Cert.KernelIdeal.Run.B5 m c (Proc.devRef .tc Cert.KernelIdeal.main_v54) : Cert.KernelIdeal.S100000x64.Idx → EReal) = Rv m' c (Proc.devRef .tc Cert.ReferenceIdeal.main_v64) :=
  out1_eq_of_ref m m' c hpre hagg hself h4 h9 h10 h11 h12
    (fun p q => Cert.ReferenceIdeal.LayerEntries.layer1 (R0 m' c) p q)

/-- Layer 2: the fused layer's output array is the same in the two programs, given that the two
    summands and the five parameter vectors (bias, gain, offset, mean, variance) agree. -/
theorem out2_eq (hpre : Cert.Pre_KernelIdeal m)
    (hagg : (Cert.KernelIdeal.Run.B7 m c (Proc.devRef .tc Cert.KernelIdeal.main_v68) : Cert.KernelIdeal.S100000x32.Idx → EReal) = Rv m' c (Proc.devRef .tc Cert.ReferenceIdeal.main_v100))
    (hself : (Cert.KernelIdeal.Run.B7 m c (Proc.devRef .tc Cert.KernelIdeal.main_v71) : Cert.KernelIdeal.S100000x32.Idx → EReal) = Rv m' c (Proc.devRef .tc Cert.ReferenceIdeal.main_v104))
    (h6 : (R0 m' c (Proc.devRef .tc Cert.ReferenceIdeal.main_arg6) : Cert.KernelIdeal.S32.Idx → EReal) = Cert.KernelIdeal.Run.B0 m c (Proc.devRef .tc Cert.KernelIdeal.main_arg6))
    (h13 : (R0 m' c (Proc.devRef .tc Cert.ReferenceIdeal.main_arg13) : Cert.KernelIdeal.S32.Idx → EReal) = Cert.KernelIdeal.Run.B0 m c (Proc.devRef .tc Cert.KernelIdeal.main_arg13))
    (h14 : (R0 m' c (Proc.devRef .tc Cert.ReferenceIdeal.main_arg14) : Cert.KernelIdeal.S32.Idx → EReal) = Cert.KernelIdeal.Run.B0 m c (Proc.devRef .tc Cert.KernelIdeal.main_arg14))
    (h15 : (R0 m' c (Proc.devRef .tc Cert.ReferenceIdeal.main_arg15) : Cert.KernelIdeal.S32.Idx → EReal) = Cert.KernelIdeal.Run.B0 m c (Proc.devRef .tc Cert.KernelIdeal.main_arg15))
    (h16 : (R0 m' c (Proc.devRef .tc Cert.ReferenceIdeal.main_arg16) : Cert.KernelIdeal.S32.Idx → EReal) = Cert.KernelIdeal.Run.B0 m c (Proc.devRef .tc Cert.KernelIdeal.main_arg16)) :
    (Cert.KernelIdeal.Run.B8 m c (Proc.devRef .tc Cert.KernelIdeal.main_v81) : Cert.KernelIdeal.S100000x32.Idx → EReal) = Rv m' c (Proc.devRef .tc Cert.ReferenceIdeal.main_v124) :=
  out2_eq_of_ref m m' c hpre hagg hself h6 h13 h14 h15 h16
    (fun p q => Cert.ReferenceIdeal.LayerEntries.layer2 (R0 m' c) p q)

/-- Layer 3: the fused layer's output array is the same in the two programs, given that the two
    summands and the five parameter vectors (bias, gain, offset, mean, variance) agree. -/
theorem out3_eq (hpre : Cert.Pre_KernelIdeal m)
    (hagg : (Cert.KernelIdeal.Run.B10 m c (Proc.devRef .tc Cert.KernelIdeal.main_v95) : Cert.KernelIdeal.S100000x16.Idx → EReal) = Rv m' c (Proc.devRef .tc Cert.ReferenceIdeal.main_v160))
    (hself : (Cert.KernelIdeal.Run.B10 m c (Proc.devRef .tc Cert.KernelIdeal.main_v98) : Cert.KernelIdeal.S100000x16.Idx → EReal) = Rv m' c (Proc.devRef .tc Cert.ReferenceIdeal.main_v164))
    (h8 : (R0 m' c (Proc.devRef .tc Cert.ReferenceIdeal.main_arg8) : Cert.KernelIdeal.S16.Idx → EReal) = Cert.KernelIdeal.Run.B0 m c (Proc.devRef .tc Cert.KernelIdeal.main_arg8))
    (h17 : (R0 m' c (Proc.devRef .tc Cert.ReferenceIdeal.main_arg17) : Cert.KernelIdeal.S16.Idx → EReal) = Cert.KernelIdeal.Run.B0 m c (Proc.devRef .tc Cert.KernelIdeal.main_arg17))
    (h18 : (R0 m' c (Proc.devRef .tc Cert.ReferenceIdeal.main_arg18) : Cert.KernelIdeal.S16.Idx → EReal) = Cert.KernelIdeal.Run.B0 m c (Proc.devRef .tc Cert.KernelIdeal.main_arg18))
    (h19 : (R0 m' c (Proc.devRef .tc Cert.ReferenceIdeal.main_arg19) : Cert.KernelIdeal.S16.Idx → EReal) = Cert.KernelIdeal.Run.B0 m c (Proc.devRef .tc Cert.KernelIdeal.main_arg19))
    (h20 : (R0 m' c (Proc.devRef .tc Cert.ReferenceIdeal.main_arg20) : Cert.KernelIdeal.S16.Idx → EReal) = Cert.KernelIdeal.Run.B0 m c (Proc.devRef .tc Cert.KernelIdeal.main_arg20)) :
    (Cert.KernelIdeal.Run.B11 m c (Proc.devRef .tc Cert.KernelIdeal.main_v108) : Cert.KernelIdeal.S100000x16.Idx → EReal) = Rv m' c (Proc.devRef .tc Cert.ReferenceIdeal.main_v184) :=
  out3_eq_of_ref m m' c hpre hagg hself h8 h17 h18 h19 h20
    (fun p q => Cert.ReferenceIdeal.LayerEntries.layer3 (R0 m' c) p q)

end Cert.Bridge

end
-- ==== Proof.Ideal.EdgeMlpValue.lean ====
/-
  The edge classifier: the output ARRAY after the region, at the exact (extended-real) values.

  Each grid point t writes the scores of edges 8000 t … 8000 t + 7999. The two scores of an edge depend on that edge's row
  of features only (dense, rectify, dense, rectify, dense, then an infinite entry replaced by the largest finite value of
  its sign) and on the six parameter arrays, which every point reads whole. The 400 blocks tile the 3200000 edges, so the
  whole output array is that function of each edge's row.
-/
import proofs.«114179_j13726715478162_1_alg».proof.Proof.Ideal.EdgeMlp
import proofs.«114179_j13726715478162_1_alg».proof.Proof.Payloads
import Idealize.ShloMosaic.Lib.Pipeline.Value
import Idealize.ShloMosaic.Lib.ValueIdx

set_option maxRecDepth 16384

noncomputable section

namespace Cert.KernelIdeal.EdgeMlp

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The scores of every edge: the classifier applied to the edge's row of features. -/
def scores (E : S3200000x40.Idx → EReal) (w1 : S40x32.Idx → EReal) (b1 : S1x32.Idx → EReal) (w2 : S32x16.Idx → EReal)
    (b2 : S1x16.Idx → EReal) (w3 : S16x2.Idx → EReal) (b3 : S1x2.Idx → EReal) : S3200000x2.Idx → EReal :=
  fun i => Cert.Payloads.clamp (Cert.Payloads.mlpRow (fun j => E (ix2 (i 0) j)) w1 b1 w2 b2 w3 b3 (i 1))

set_option maxHeartbeats 4000000 in
/-- Where the blocks sit: at point t the feature and score windows are at block row t, block column 0; -/
theorem block_positions : ∀ t : Fin cfg6.N,
    win6_0.index t (0 : Fin 2) = t.val ∧ win6_0.index t (1 : Fin 2) = 0
    ∧ win6_7.index t (0 : Fin 2) = t.val ∧ win6_7.index t (1 : Fin 2) = 0 :=
  (by decide +kernel : ∀ t : Fin grid6.N, _)

set_option maxHeartbeats 4000000 in
/-- and the six parameter arrays at block (0, 0). -/
theorem param_positions : ∀ t : Fin cfg6.N,
    win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

set_option maxHeartbeats 4000000 in
/-- What point t writes back is block t of the scores, GIVEN the body's arithmetic at an entry. -/
theorem flushed_eq
    (hpay : ∀ (e : Vec Ideal S8000x40 .f32) (w1 : Vec Ideal S40x32 .f32) (b1 : Vec Ideal S1x32 .f32) (w2 : Vec Ideal S32x16 .f32) (b2 : Vec Ideal S1x16 .f32) (w3 : Vec Ideal S16x2 .f32) (b3 : Vec Ideal S1x2 .f32) (p : Fin 8000) (q : Fin 2),
      k6_pay1 (k6_pay2 e w1 b1 w2 b2 w3 b3) (ix2 p q) = Cert.Payloads.clamp (Cert.Payloads.mlpRow (fun j => e (ix2 p j)) w1 b1 w2 b2 w3 b3 q))
    (c : Dev nD) (t : Fin cfg6.N) :
    (dat V c).flushed 7 t = ((cfg6.win 7).blk t).view.read (Elt Ideal)
      (scores (V c main_v124) (V c main_arg21) (V c main_v125) (V c main_arg23) (V c main_v126) (V c main_arg25) (V c main_v127)) := by
  show (cfg6.win 7).cut (grid6.coords t) ((dat V c).after 7 t) = _
  rw [after_out]
  unfold result
  rw [View.canon_unit_zero zeros2]
  simp only [View.ld_unit_zero (S := S8000x40) zeros2, View.ld_unit_zero (S := S40x32) zeros2, View.ld_unit_zero (S := S1x32) zeros2,
    View.ld_unit_zero (S := S32x16) zeros2, View.ld_unit_zero (S := S1x16) zeros2, View.ld_unit_zero (S := S16x2) zeros2, View.ld_unit_zero (S := S1x2) zeros2]
  obtain ⟨e0, e1, e14, e15⟩ := block_positions t
  obtain ⟨e2, e3, e4, e5, e6, e7, e8, e9, e10, e11, e12, e13⟩ := param_positions t
  funext j
  obtain ⟨p, q, rfl⟩ : ∃ (p : Fin 8000) (q : Fin 2), j = ix2 p q := ⟨j 0, j 1, eq_ix2 j⟩
  show k6_pay1 (k6_pay2 (blockAt V c 0 t) (blockAt V c 1 t) (blockAt V c 2 t) (blockAt V c 3 t) (blockAt V c 4 t) (blockAt V c 5 t) (blockAt V c 6 t)) (ix2 p q)
    = scores (V c main_v124) (V c main_arg21) (V c main_v125) (V c main_arg23) (V c main_v126) (V c main_arg25) (V c main_v127) (((cfg6.win 7).blk t).view.emb (ix2 p q))
  rw [hpay]
  unfold scores
  have hw1 : blockAt V c 1 t = V c main_arg21 := by
    funext y
    refine congrArg (V c main_arg21) ?_
    funext ax; apply Fin.ext
    match ax with
    | ⟨0, _⟩ => show win6_1.index t (0 : Fin 2) * 40 + 1 * (y 0).val = (y 0).val; omega
    | ⟨1, _⟩ => show win6_1.index t (1 : Fin 2) * 32 + 1 * (y 1).val = (y 1).val; omega
  have hw2 : blockAt V c 2 t = V c main_v125 := by
    funext y
    refine congrArg (V c main_v125) ?_
    funext ax; apply Fin.ext
    match ax with
    | ⟨0, _⟩ => show win6_2.index t (0 : Fin 2) * 1 + 1 * (y 0).val = (y 0).val; omega
    | ⟨1, _⟩ => show win6_2.index t (1 : Fin 2) * 32 + 1 * (y 1).val = (y 1).val; omega
  have hw3 : blockAt V c 3 t = V c main_arg23 := by
    funext y
    refine congrArg (V c main_arg23) ?_
    funext ax; apply Fin.ext
    match ax with
    | ⟨0, _⟩ => show win6_3.index t (0 : Fin 2) * 32 + 1 * (y 0).val = (y 0).val; omega
    | ⟨1, _⟩ => show win6_3.index t (1 : Fin 2) * 16 + 1 * (y 1).val = (y 1).val; omega
  have hw4 : blockAt V c 4 t = V c main_v126 := by
    funext y
    refine congrArg (V c main_v126) ?_
    funext ax; apply Fin.ext
    match ax with
    | ⟨0, _⟩ => show win6_4.index t (0 : Fin 2) * 1 + 1 * (y 0).val = (y 0).val; omega
    | ⟨1, _⟩ => show win6_4.index t (1 : Fin 2) * 16 + 1 * (y 1).val = (y 1).val; omega
  have hw5 : blockAt V c 5 t = V c main_arg25 := by
    funext y
    refine congrArg (V c main_arg25) ?_
    funext ax; apply Fin.ext
    match ax with
    | ⟨0, _⟩ => show win6_5.index t (0 : Fin 2) * 16 + 1 * (y 0).val = (y 0).val; omega
    | ⟨1, _⟩ => show win6_5.index t (1 : Fin 2) * 2 + 1 * (y 1).val = (y 1).val; omega
  have hw6 : blockAt V c 6 t = V c main_v127 := by
    funext y
    refine congrArg (V c main_v127) ?_
    funext ax; apply Fin.ext
    match ax with
    | ⟨0, _⟩ => show win6_6.index t (0 : Fin 2) * 1 + 1 * (y 0).val = (y 0).val; omega
    | ⟨1, _⟩ => show win6_6.index t (1 : Fin 2) * 2 + 1 * (y 1).val = (y 1).val; omega
  have hrow : (fun j => blockAt V c 0 t (ix2 p j)) = fun j => V c main_v124 (ix2 ((((cfg6.win 7).blk t).view.emb (ix2 p q)) 0) j) := by
    funext jj
    refine congrArg (V c main_v124) ?_
    funext ax; apply Fin.ext
    match ax with
    | ⟨0, _⟩ => show win6_0.index t (0 : Fin 2) * 8000 + 1 * p.val = win6_7.index t (0 : Fin 2) * 8000 + 1 * p.val; omega
    | ⟨1, _⟩ => show win6_0.index t (1 : Fin 2) * 40 + 1 * jj.val = jj.val; omega
  have hq : q = (((cfg6.win 7).blk t).view.emb (ix2 p q)) 1 := by
    apply Fin.ext
    show q.val = win6_7.index t (1 : Fin 2) * 2 + 1 * q.val; omega
  rw [hw1, hw2, hw3, hw4, hw5, hw6, hrow, ← hq]

/-- An index of the output array is in point t's block iff each coordinate is in the block's range on its axis. -/
theorem mem_block (t : Fin cfg6.N) (i : S3200000x2.Idx) :
    i ∈ ((cfg6.win 7).blk t).view.set ↔ ∀ a : Fin 2, win6_7.index t a * S8000x2.size a ≤ (i a).val ∧ (i a).val < win6_7.index t a * S8000x2.size a + S8000x2.size a := by
  show i ∈ ((View.whole main_v128).slice (win6_7.rect t)).set ↔ _
  rw [View.set_slice_whole, Rect.mem_set_unit]
  exact Iff.rfl

/-- Edge r is scored by the point r / 8000: the 400 blocks tile the array. -/
theorem covered (i : S3200000x2.Idx) : ∃ t : Fin cfg6.N, (cfg6.win 7).flush t = true ∧ i ∈ ((cfg6.win 7).blk t).view.set := by
  have hi0 : (i 0).val < 3200000 := (i 0).isLt
  have hi1 : (i 1).val < 2 := (i 1).isLt
  have hN : (i 0).val / 8000 < cfg6.N := by show (i 0).val / 8000 < grid6.N; rw [N_6]; omega
  refine ⟨⟨(i 0).val / 8000, hN⟩, flush6_7 _, ?_⟩
  rw [mem_block]
  obtain ⟨e0, e1, e14, e15⟩ := block_positions ⟨(i 0).val / 8000, hN⟩
  have e14' : win6_7.index ⟨(i 0).val / 8000, hN⟩ (0 : Fin 2) = (i 0).val / 8000 := e14
  intro a
  match a with
  | ⟨0, _⟩ => show win6_7.index ⟨(i 0).val / 8000, hN⟩ (0 : Fin 2) * 8000 ≤ (i 0).val ∧ (i 0).val < win6_7.index ⟨(i 0).val / 8000, hN⟩ (0 : Fin 2) * 8000 + 8000; omega
  | ⟨1, _⟩ => show win6_7.index ⟨(i 0).val / 8000, hN⟩ (1 : Fin 2) * 2 ≤ (i 1).val ∧ (i 1).val < win6_7.index ⟨(i 0).val / 8000, hN⟩ (1 : Fin 2) * 2 + 2; omega

/-- After the region the output array is the scores of the arrays the region found, given the body's arithmetic at an
    entry. -/
theorem array_eq
    (hpay : ∀ (e : Vec Ideal S8000x40 .f32) (w1 : Vec Ideal S40x32 .f32) (b1 : Vec Ideal S1x32 .f32) (w2 : Vec Ideal S32x16 .f32) (b2 : Vec Ideal S1x16 .f32) (w3 : Vec Ideal S16x2 .f32) (b3 : Vec Ideal S1x2 .f32) (p : Fin 8000) (q : Fin 2),
      k6_pay1 (k6_pay2 e w1 b1 w2 b2 w3 b3) (ix2 p q) = Cert.Payloads.clamp (Cert.Payloads.mlpRow (fun j => e (ix2 p j)) w1 b1 w2 b2 w3 b3 q))
    (c : Dev nD) : (dat V c).arrAt 7 cfg6.N
      = scores (V c main_v124) (V c main_arg21) (V c main_v125) (V c main_arg23) (V c main_v126) (V c main_arg25) (V c main_v127) :=
  (dat V c).arrAt_eq_of_cover 7 _ (fun t _ => flushed_eq V hpay c t) covered

end Cert.KernelIdeal.EdgeMlp

end
-- ==== Proof.KernelRows2.lean ====
/-
  The edge classifier's three bias rows, read at an entry.

  Just before the last kernel call the host lays each of the classifier's three bias vectors
  (lengths 32, 16 and 2) out as a 1 × N row.  The row's entry at (0, l) is the vector's entry at l:
  a reshape keeps the elements in row-major order, and position l of the vector is position
  0 · N + l of the row.  No operation of the stretch writes an argument array.
-/
import proofs.«114179_j13726715478162_1_alg».proof.Proof.Gen.KernelIdeal.Launch
import proofs.«114179_j13726715478162_1_alg».proof.Proof.LibDense
import Idealize.ShloMosaic.Lib.StableHlo.Run
import Idealize.ShloMosaic.PureOps.Ideal
import Idealize.ShloMosaic.Lib.ValueIdx
import Idealize.ShloMosaic.Lib.Pipeline.Value

noncomputable section

namespace Cert.KernelRows

open Idealize.ShloMosaic Idealize.ShloMosaic.ValueIdx Idealize.SL.Sem
open Cert.KernelIdeal Cert.KernelIdeal.Gen Cert.Lib.Dense

variable (W : Valuation Cert.KernelIdeal.τ Cert.KernelIdeal.sig (Elt Ideal))

/-- The bias row of the classifier's layer 1 at (0, l) is the bias vector (length 32) at l. -/
theorem mlp_bias_row1 (l : Fin 32) :
    StableHlo.after (hostOps6_1 (F := Ideal)) W (Proc.devRef .tc main_v125) (ix2 (0 : Fin 1) l)
      = W (Proc.devRef .tc main_arg22) (ix1 l) := by
  after_results_simp
  exact shapeCast_vec_row_apply _ _ l

/-- The bias row of the classifier's layer 2 at (0, l) is the bias vector (length 16) at l. -/
theorem mlp_bias_row2 (l : Fin 16) :
    StableHlo.after (hostOps6_1 (F := Ideal)) W (Proc.devRef .tc main_v126) (ix2 (0 : Fin 1) l)
      = W (Proc.devRef .tc main_arg24) (ix1 l) := by
  after_results_simp
  exact shapeCast_vec_row_apply _ _ l

/-- The bias row of the classifier's layer 3 at (0, l) is the bias vector (length 2) at l. -/
theorem mlp_bias_row3 (l : Fin 2) :
    StableHlo.after (hostOps6_1 (F := Ideal)) W (Proc.devRef .tc main_v127) (ix2 (0 : Fin 1) l)
      = W (Proc.devRef .tc main_arg26) (ix1 l) := by
  after_results_simp
  exact shapeCast_vec_row_apply _ _ l

end Cert.KernelRows
-- ==== Proof.Reference.EntriesScores.lean ====
/-
  The reference's final scores, read at one entry, at the exact (extended-real) values.

  From the 40 edge features of edge p the line computes three dense layers (a product of the whole arrays plus the
  bias laid out as an array), the first two followed by the rectifier, and then replaces non-finite values: a
  selection on "x differs from x", which never fires on an order, then +infinity replaced by the largest finite value
  and -infinity by the least. Each stage is read at an entry from a cut of the line around it; an entry of a layer
  depends on one row of its input only, so the stages compose row by row into the closed form of the classifier.
-/
import proofs.«114179_j13726715478162_1_alg».proof.Proof.Reference.EntriesDense
import proofs.«114179_j13726715478162_1_alg».proof.Proof.Payloads
import proofs.«114179_j13726715478162_1_alg».proof.Proof.LibDense
import proofs.«114179_j13726715478162_1_alg».proof.Proof.LibTypedRef
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

-- one declaration at a time: each decides memberships in lists of three hundred references, and several at once hold too much memory
set_option Elab.async false

noncomputable section

namespace Cert.ReferenceIdeal.Entries

open Cert.ReferenceIdeal Cert.ReferenceIdeal.Gen Cert.ReferenceIdeal.HandRun Idealize.ShloMosaic Idealize.ShloMosaic.TcCoe Idealize.SL.Sem Idealize.ShloMosaic.StableHlo Idealize.ShloMosaic.ValueIdx
open scoped BigOperators

variable {F : FTy → Type} [FloatOps F]
variable (V0 : Valuation τ sig (Elt Ideal))

/-- The buffers' contents after the whole line, from contents `V0`. -/
local notation "R" => after (ops (F := Ideal)) V0

/-! ## The stretches' operations at an index, for any shape

Stated over an arbitrary shape (or arbitrary extents), so that reading one of the line's operations at an entry is a
rewrite by one of these, whatever the extents are. -/

/-- The rectifier written as a maximum against a broadcast zero constant, at an index. -/
theorem relu_at {S : Shape} (h0 : (⟨0, ![]⟩ : Shape).BroadcastsInDim S ![]) (x : FVec Ideal S .f32) (i : S.Idx) :
    maximumf x (broadcastInDim S ![] h0 (constant (F := Ideal) S_ .f32 0x00000000#32)) i = max (x i) 0 := by
  rw [maximumf_apply, broadcastInDim_scalar_apply, constant_apply, Ideal.ofBits_zero_f32]

/-- A dense layer as the host writes it — the product of the whole arrays plus the bias laid out as a row and then as
    an array — at (p, q): the sum over the contracted coordinate plus the bias at q. -/
theorem aff_at {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    addf (Host.dotGeneral D none x w)
        (broadcastInDim ⟨2, ![M, N]⟩ (![0, 1] : Fin 2 → Fin 2) h2 (broadcastInDim ⟨2, ![1, N]⟩ (![1] : Fin 1 → Fin 2) h1 b))
        (ix2 p q)
      = (∑ c : Fin K, x (ix2 p c) * w (ix2 c q)) + b (ix1 q) := by
  subst hD
  rw [addf_apply, StackMember.dotGeneral_plain_apply, Cert.Lib.Dense.broadcastInDim_row_apply,
    Cert.Lib.Dense.broadcastInDim_vec_row_apply]

/-- A selection on "x differs from x" (unordered or not equal) takes the second branch: nothing differs from itself. -/
theorem select_une_self (x u : EReal) :
    Scalar.select (FloatOps.cmpf (F := Ideal) (φ := .f32) .une x x) u x = x := by
  show Scalar.select (Ideal.cmp .une x x) u x = x
  simp [Scalar.select, Ideal.cmp]

/-- The first selection of the replacement of non-finite values, at an index: it returns its operand. -/
theorem sel_une_at {S : Shape} (u x : FVec Ideal S .f32) (i : S.Idx) : select (cmpf .une x x) u x i = x i := by
  rw [select_apply, cmpf_apply]
  exact select_une_self _ _

/-- The second selection, at an index: +infinity replaced by the largest finite value. -/
theorem sel_top_at {S : Shape} (h0 : (⟨0, ![]⟩ : Shape).BroadcastsInDim S ![]) (x : FVec Ideal S .f32) (i : S.Idx) :
    select (cmpf .oeq x (broadcastInDim S ![] h0 (constant (F := Ideal) S_ .f32 0x7F800000#32)))
        (broadcastInDim S ![] h0 (constant (F := Ideal) S_ .f32 0x7F7FFFFF#32)) x i
      = Cert.Payloads.clampTop (x i) := by
  rw [select_apply, cmpf_apply, broadcastInDim_scalar_apply, broadcastInDim_scalar_apply, constant_apply, constant_apply,
    Cert.Payloads.select_eq, show Ideal.ofBits .f32 0x7F800000#32 = (⊤ : EReal) from Cert.Payloads.top_scalar]
  rfl

/-- The third selection, at an index: -infinity replaced by the least finite value. -/
theorem sel_bot_at {S : Shape} (h0 : (⟨0, ![]⟩ : Shape).BroadcastsInDim S ![]) (x : FVec Ideal S .f32) (i : S.Idx) :
    select (cmpf .oeq x (broadcastInDim S ![] h0 (constant (F := Ideal) S_ .f32 0xFF800000#32)))
        (broadcastInDim S ![] h0 (constant (F := Ideal) S_ .f32 0xFF7FFFFF#32)) x i
      = Cert.Payloads.clampBot (x i) := by
  rw [select_apply, cmpf_apply, broadcastInDim_scalar_apply, broadcastInDim_scalar_apply, constant_apply, constant_apply,
    Cert.Payloads.select_eq, show Ideal.ofBits .f32 0xFF800000#32 = (⊥ : EReal) from Cert.Payloads.bot_scalar]
  rfl

/-! ## The stages -/

/-- Operations 275 … 278 of the line. -/
abbrev mid_aff1 : List (HloOp τ sig (Elt F)) :=
  [ StableHlo.binary main_v200 main_arg21 main_v201 ((fun l r => Host.dotGeneral dot_S3200000x40_S40x32_S3200000x32_1_0_0_1_n_n none l r) : (⟨S3200000x40, .f32⟩ : BufTy).Contents (Elt F) → (⟨S40x32, .f32⟩ : BufTy).Contents (Elt F) → (⟨S3200000x32, .f32⟩ : BufTy).Contents (Elt F)),
      StableHlo.unary main_arg22 main_v202 (broadcastInDim S1x32 ![1] bcast_S32_S1x32_1 : (⟨S32, .f32⟩ : BufTy).Contents (Elt F) → (⟨S1x32, .f32⟩ : BufTy).Contents (Elt F)),
      StableHlo.unary main_v202 main_v203 (broadcastInDim S3200000x32 ![0, 1] bcast_S1x32_S3200000x32_0_1 : (⟨S1x32, .f32⟩ : BufTy).Contents (Elt F) → (⟨S3200000x32, .f32⟩ : BufTy).Contents (Elt F)),
      StableHlo.binary main_v201 main_v203 main_v204 (addf : (⟨S3200000x32, .f32⟩ : BufTy).Contents (Elt F) → (⟨S3200000x32, .f32⟩ : BufTy).Contents (Elt F) → (⟨S3200000x32, .f32⟩ : BufTy).Contents (Elt F)) ]
theorem cut_aff1 : (ops (F := F)) = (ops (F := F)).take 274 ++ (mid_aff1 ++ (ops (F := F)).drop 278) := rfl

set_option maxRecDepth 8192 in
/-- A dense layer with its bias, at (p, q): the sum over the contracted coordinate plus the bias at q. -/
theorem aff1 (p : Fin 3200000) (q : Fin 32) :
    arr S3200000x32 (R (Proc.devRef .tc main_v204)) (ix2 p q)
      = (∑ c : Fin 40, arr S3200000x40 (R (Proc.devRef .tc main_v200)) (ix2 p c) * arr S40x32 (V0 (Proc.devRef .tc main_arg21)) (ix2 c q))
          + arr S32 (V0 (Proc.devRef .tc main_arg22)) (ix1 q) := by
  have cut := fun (r : Ref sig .tc) (hr : r ∉ W.drop 278) => after_ops_cut 274 278 (mid_aff1 (F := Ideal)) cut_aff1 V0 hr
  rw [← after_ops_of_not_mem V0 (r := main_arg21) (by decide), ← after_ops_of_not_mem V0 (r := main_arg22) (by decide)]
  rw [cut main_v204 (by decide), cut main_v200 (by decide), cut main_arg21 (by decide), cut main_arg22 (by decide)]
  generalize after (List.take 274 (ops (F := Ideal))) V0 = V1
  simp only [mid_aff1, arr]
  after_results_simp
  rw [aff_at dot_S3200000x40_S40x32_S3200000x32_1_0_0_1_n_n rfl]

/-- Operations 279 … 281 of the line. -/
abbrev mid_relu_c1 : List (HloOp τ sig (Elt F)) :=
  [ StableHlo.nullary main_call5_cst ((constant S_ .f32 0x00000000#32) : (⟨S_, .f32⟩ : BufTy).Contents (Elt F)),
      StableHlo.unary main_call5_cst main_call5_v0 ((broadcastInDim S3200000x32 ![] bcast_S_S3200000x32) : (⟨S_, .f32⟩ : BufTy).Contents (Elt F) → (⟨S3200000x32, .f32⟩ : BufTy).Contents (Elt F)),
      StableHlo.binary main_v204 main_call5_v0 main_v205 (maximumf : (⟨S3200000x32, .f32⟩ : BufTy).Contents (Elt F) → (⟨S3200000x32, .f32⟩ : BufTy).Contents (Elt F) → (⟨S3200000x32, .f32⟩ : BufTy).Contents (Elt F)) ]
theorem cut_relu_c1 : (ops (F := F)) = (ops (F := F)).take 278 ++ (mid_relu_c1 ++ (ops (F := F)).drop 281) := rfl

set_option maxRecDepth 8192 in
/-- The rectifier at (p, q): the maximum with zero. -/
theorem relu_c1 (p : Fin 3200000) (q : Fin 32) :
    arr S3200000x32 (R (Proc.devRef .tc main_v205)) (ix2 p q) = max (arr S3200000x32 (R (Proc.devRef .tc main_v204)) (ix2 p q)) 0 := by
  have cut := fun (r : Ref sig .tc) (hr : r ∉ W.drop 281) => after_ops_cut 278 281 (mid_relu_c1 (F := Ideal)) cut_relu_c1 V0 hr
  rw [cut main_v205 (by decide), cut main_v204 (by decide)]
  generalize after (List.take 278 (ops (F := Ideal))) V0 = V1
  simp only [mid_relu_c1, arr]
  after_results_simp
  rw [relu_at]

/-- Operations 282 … 285 of the line. -/
abbrev mid_aff2 : List (HloOp τ sig (Elt F)) :=
  [ StableHlo.binary main_v205 main_arg23 main_v206 ((fun l r => Host.dotGeneral dot_S3200000x32_S32x16_S3200000x16_1_0_0_1_n_n none l r) : (⟨S3200000x32, .f32⟩ : BufTy).Contents (Elt F) → (⟨S32x16, .f32⟩ : BufTy).Contents (Elt F) → (⟨S3200000x16, .f32⟩ : BufTy).Contents (Elt F)),
      StableHlo.unary main_arg24 main_v207 (broadcastInDim S1x16 ![1] bcast_S16_S1x16_1 : (⟨S16, .f32⟩ : BufTy).Contents (Elt F) → (⟨S1x16, .f32⟩ : BufTy).Contents (Elt F)),
      StableHlo.unary main_v207 main_v208 (broadcastInDim S3200000x16 ![0, 1] bcast_S1x16_S3200000x16_0_1 : (⟨S1x16, .f32⟩ : BufTy).Contents (Elt F) → (⟨S3200000x16, .f32⟩ : BufTy).Contents (Elt F)),
      StableHlo.binary main_v206 main_v208 main_v209 (addf : (⟨S3200000x16, .f32⟩ : BufTy).Contents (Elt F) → (⟨S3200000x16, .f32⟩ : BufTy).Contents (Elt F) → (⟨S3200000x16, .f32⟩ : BufTy).Contents (Elt F)) ]
theorem cut_aff2 : (ops (F := F)) = (ops (F := F)).take 281 ++ (mid_aff2 ++ (ops (F := F)).drop 285) := rfl

set_option maxRecDepth 8192 in
/-- A dense layer with its bias, at (p, q): the sum over the contracted coordinate plus the bias at q. -/
theorem aff2 (p : Fin 3200000) (q : Fin 16) :
    arr S3200000x16 (R (Proc.devRef .tc main_v209)) (ix2 p q)
      = (∑ c : Fin 32, arr S3200000x32 (R (Proc.devRef .tc main_v205)) (ix2 p c) * arr S32x16 (V0 (Proc.devRef .tc main_arg23)) (ix2 c q))
          + arr S16 (V0 (Proc.devRef .tc main_arg24)) (ix1 q) := by
  have cut := fun (r : Ref sig .tc) (hr : r ∉ W.drop 285) => after_ops_cut 281 285 (mid_aff2 (F := Ideal)) cut_aff2 V0 hr
  rw [← after_ops_of_not_mem V0 (r := main_arg23) (by decide), ← after_ops_of_not_mem V0 (r := main_arg24) (by decide)]
  rw [cut main_v209 (by decide), cut main_v205 (by decide), cut main_arg23 (by decide), cut main_arg24 (by decide)]
  generalize after (List.take 281 (ops (F := Ideal))) V0 = V1
  simp only [mid_aff2, arr]
  after_results_simp
  rw [aff_at dot_S3200000x32_S32x16_S3200000x16_1_0_0_1_n_n rfl]

/-- Operations 286 … 288 of the line. -/
abbrev mid_relu_c2 : List (HloOp τ sig (Elt F)) :=
  [ StableHlo.nullary main_call6_cst ((constant S_ .f32 0x00000000#32) : (⟨S_, .f32⟩ : BufTy).Contents (Elt F)),
      StableHlo.unary main_call6_cst main_call6_v0 ((broadcastInDim S3200000x16 ![] bcast_S_S3200000x16) : (⟨S_, .f32⟩ : BufTy).Contents (Elt F) → (⟨S3200000x16, .f32⟩ : BufTy).Contents (Elt F)),
      StableHlo.binary main_v209 main_call6_v0 main_v210 (maximumf : (⟨S3200000x16, .f32⟩ : BufTy).Contents (Elt F) → (⟨S3200000x16, .f32⟩ : BufTy).Contents (Elt F) → (⟨S3200000x16, .f32⟩ : BufTy).Contents (Elt F)) ]
theorem cut_relu_c2 : (ops (F := F)) = (ops (F := F)).take 285 ++ (mid_relu_c2 ++ (ops (F := F)).drop 288) := rfl

set_option maxRecDepth 8192 in
/-- The rectifier at (p, q): the maximum with zero. -/
theorem relu_c2 (p : Fin 3200000) (q : Fin 16) :
    arr S3200000x16 (R (Proc.devRef .tc main_v210)) (ix2 p q) = max (arr S3200000x16 (R (Proc.devRef .tc main_v209)) (ix2 p q)) 0 := by
  have cut := fun (r : Ref sig .tc) (hr : r ∉ W.drop 288) => after_ops_cut 285 288 (mid_relu_c2 (F := Ideal)) cut_relu_c2 V0 hr
  rw [cut main_v210 (by decide), cut main_v209 (by decide)]
  generalize after (List.take 285 (ops (F := Ideal))) V0 = V1
  simp only [mid_relu_c2, arr]
  after_results_simp
  rw [relu_at]

/-- Operations 289 … 292 of the line. -/
abbrev mid_aff3 : List (HloOp τ sig (Elt F)) :=
  [ StableHlo.binary main_v210 main_arg25 main_v211 ((fun l r => Host.dotGeneral dot_S3200000x16_S16x2_S3200000x2_1_0_0_1_n_n none l r) : (⟨S3200000x16, .f32⟩ : BufTy).Contents (Elt F) → (⟨S16x2, .f32⟩ : BufTy).Contents (Elt F) → (⟨S3200000x2, .f32⟩ : BufTy).Contents (Elt F)),
      StableHlo.unary main_arg26 main_v212 (broadcastInDim S1x2 ![1] bcast_S2_S1x2_1 : (⟨S2, .f32⟩ : BufTy).Contents (Elt F) → (⟨S1x2, .f32⟩ : BufTy).Contents (Elt F)),
      StableHlo.unary main_v212 main_v213 (broadcastInDim S3200000x2 ![0, 1] bcast_S1x2_S3200000x2_0_1 : (⟨S1x2, .f32⟩ : BufTy).Contents (Elt F) → (⟨S3200000x2, .f32⟩ : BufTy).Contents (Elt F)),
      StableHlo.binary main_v211 main_v213 main_v214 (addf : (⟨S3200000x2, .f32⟩ : BufTy).Contents (Elt F) → (⟨S3200000x2, .f32⟩ : BufTy).Contents (Elt F) → (⟨S3200000x2, .f32⟩ : BufTy).Contents (Elt F)) ]
theorem cut_aff3 : (ops (F := F)) = (ops (F := F)).take 288 ++ (mid_aff3 ++ (ops (F := F)).drop 292) := rfl

set_option maxRecDepth 8192 in
/-- A dense layer with its bias, at (p, q): the sum over the contracted coordinate plus the bias at q. -/
theorem aff3 (p : Fin 3200000) (q : Fin 2) :
    arr S3200000x2 (R (Proc.devRef .tc main_v214)) (ix2 p q)
      = (∑ c : Fin 16, arr S3200000x16 (R (Proc.devRef .tc main_v210)) (ix2 p c) * arr S16x2 (V0 (Proc.devRef .tc main_arg25)) (ix2 c q))
          + arr S2 (V0 (Proc.devRef .tc main_arg26)) (ix1 q) := by
  have cut := fun (r : Ref sig .tc) (hr : r ∉ W.drop 292) => after_ops_cut 288 292 (mid_aff3 (F := Ideal)) cut_aff3 V0 hr
  rw [← after_ops_of_not_mem V0 (r := main_arg25) (by decide), ← after_ops_of_not_mem V0 (r := main_arg26) (by decide)]
  rw [cut main_v214 (by decide), cut main_v210 (by decide), cut main_arg25 (by decide), cut main_arg26 (by decide)]
  generalize after (List.take 288 (ops (F := Ideal))) V0 = V1
  simp only [mid_aff3, arr]
  after_results_simp
  rw [aff_at dot_S3200000x16_S16x2_S3200000x2_1_0_0_1_n_n rfl]

/-- Operations 293 … 308 of the line. -/
abbrev mid_clampE : List (HloOp τ sig (Elt F)) :=
  [ StableHlo.binary main_v214 main_v214 main_call7_v0 ((cmpf .une) : (⟨S3200000x2, .f32⟩ : BufTy).Contents (Elt F) → (⟨S3200000x2, .f32⟩ : BufTy).Contents (Elt F) → (⟨S3200000x2, .i1⟩ : BufTy).Contents (Elt F)),
      StableHlo.nullary main_call7_cst ((constant S_ .f32 0x00000000#32) : (⟨S_, .f32⟩ : BufTy).Contents (Elt F)),
      StableHlo.unary main_call7_cst main_call7_call0_v0 ((broadcastInDim S3200000x2 ![] bcast_S_S3200000x2) : (⟨S_, .f32⟩ : BufTy).Contents (Elt F) → (⟨S3200000x2, .f32⟩ : BufTy).Contents (Elt F)),
      StableHlo.ternary main_call7_v0 main_call7_call0_v0 main_v214 main_call7_v1 (select : (⟨S3200000x2, .i1⟩ : BufTy).Contents (Elt F) → (⟨S3200000x2, .f32⟩ : BufTy).Contents (Elt F) → (⟨S3200000x2, .f32⟩ : BufTy).Contents (Elt F) → (⟨S3200000x2, .f32⟩ : BufTy).Contents (Elt F)),
      StableHlo.nullary main_call7_cst_0 ((constant S_ .f32 0x7F800000#32) : (⟨S_, .f32⟩ : BufTy).Contents (Elt F)),
      StableHlo.unary main_call7_cst_0 main_call7_v2 ((broadcastInDim S3200000x2 ![] bcast_S_S3200000x2) : (⟨S_, .f32⟩ : BufTy).Contents (Elt F) → (⟨S3200000x2, .f32⟩ : BufTy).Contents (Elt F)),
      StableHlo.binary main_call7_v1 main_call7_v2 main_call7_v3 ((cmpf .oeq) : (⟨S3200000x2, .f32⟩ : BufTy).Contents (Elt F) → (⟨S3200000x2, .f32⟩ : BufTy).Contents (Elt F) → (⟨S3200000x2, .i1⟩ : BufTy).Contents (Elt F)),
      StableHlo.nullary main_call7_cst_1 ((constant S_ .f32 0x7F7FFFFF#32) : (⟨S_, .f32⟩ : BufTy).Contents (Elt F)),
      StableHlo.unary main_call7_cst_1 main_call7_call1_v0 ((broadcastInDim S3200000x2 ![] bcast_S_S3200000x2) : (⟨S_, .f32⟩ : BufTy).Contents (Elt F) → (⟨S3200000x2, .f32⟩ : BufTy).Contents (Elt F)),
      StableHlo.ternary main_call7_v3 main_call7_call1_v0 main_call7_v1 main_call7_v4 (select : (⟨S3200000x2, .i1⟩ : BufTy).Contents (Elt F) → (⟨S3200000x2, .f32⟩ : BufTy).Contents (Elt F) → (⟨S3200000x2, .f32⟩ : BufTy).Contents (Elt F) → (⟨S3200000x2, .f32⟩ : BufTy).Contents (Elt F)),
      StableHlo.nullary main_call7_cst_2 ((constant S_ .f32 0xFF800000#32) : (⟨S_, .f32⟩ : BufTy).Contents (Elt F)),
      StableHlo.unary main_call7_cst_2 main_call7_v5 ((broadcastInDim S3200000x2 ![] bcast_S_S3200000x2) : (⟨S_, .f32⟩ : BufTy).Contents (Elt F) → (⟨S3200000x2, .f32⟩ : BufTy).Contents (Elt F)),
      StableHlo.binary main_call7_v4 main_call7_v5 main_call7_v6 ((cmpf .oeq) : (⟨S3200000x2, .f32⟩ : BufTy).Contents (Elt F) → (⟨S3200000x2, .f32⟩ : BufTy).Contents (Elt F) → (⟨S3200000x2, .i1⟩ : BufTy).Contents (Elt F)),
      StableHlo.nullary main_call7_cst_3 ((constant S_ .f32 0xFF7FFFFF#32) : (⟨S_, .f32⟩ : BufTy).Contents (Elt F)),
      StableHlo.unary main_call7_cst_3 main_call7_call2_v0 ((broadcastInDim S3200000x2 ![] bcast_S_S3200000x2) : (⟨S_, .f32⟩ : BufTy).Contents (Elt F) → (⟨S3200000x2, .f32⟩ : BufTy).Contents (Elt F)),
      StableHlo.ternary main_call7_v6 main_call7_call2_v0 main_call7_v4 main_v215 (select : (⟨S3200000x2, .i1⟩ : BufTy).Contents (Elt F) → (⟨S3200000x2, .f32⟩ : BufTy).Contents (Elt F) → (⟨S3200000x2, .f32⟩ : BufTy).Contents (Elt F) → (⟨S3200000x2, .f32⟩ : BufTy).Contents (Elt F)) ]
theorem cut_clampE : (ops (F := F)) = (ops (F := F)).take 292 ++ (mid_clampE ++ (ops (F := F)).drop 308) := rfl

set_option maxRecDepth 8192 in
/-- The replacement of non-finite values at (p, q). -/
theorem clampE (p : Fin 3200000) (q : Fin 2) :
    arr S3200000x2 (R (Proc.devRef .tc main_v215)) (ix2 p q) = Cert.Payloads.clamp (arr S3200000x2 (R (Proc.devRef .tc main_v214)) (ix2 p q)) := by
  have cut := fun (r : Ref sig .tc) (hr : r ∉ W.drop 308) => after_ops_cut 292 308 (mid_clampE (F := Ideal)) cut_clampE V0 hr
  rw [cut main_v215 (by decide), cut main_v214 (by decide)]
  generalize after (List.take 292 (ops (F := Ideal))) V0 = V1
  simp only [mid_clampE, arr]
  after_results_simp
  rw [sel_bot_at, sel_top_at, sel_une_at]
  try rfl

/-! ## The closed form -/

/-- The final scores at (p, q): the classifier's closed form on row p of the edge features, non-finite values replaced.
    The biases are vectors, passed as the rows they are laid out as. -/
theorem scores (p : Fin 3200000) (q : Fin 2) :
    arr S3200000x2 (R (Proc.devRef .tc main_v215)) (ix2 p q)
      = Cert.Payloads.clamp (Cert.Payloads.mlpRow (fun j => arr S3200000x40 (R (Proc.devRef .tc main_v200)) (ix2 p j))
          (arr S40x32 (V0 (Proc.devRef .tc main_arg21))) (fun i => arr S32 (V0 (Proc.devRef .tc main_arg22)) (ix1 (i 1 : Fin 32)))
          (arr S32x16 (V0 (Proc.devRef .tc main_arg23))) (fun i => arr S16 (V0 (Proc.devRef .tc main_arg24)) (ix1 (i 1 : Fin 16)))
          (arr S16x2 (V0 (Proc.devRef .tc main_arg25))) (fun i => arr S2 (V0 (Proc.devRef .tc main_arg26)) (ix1 (i 1 : Fin 2))) q) := by
  rw [clampE V0 p q, aff3 V0 p q]
  simp only [relu_c2 V0, aff2 V0, relu_c1 V0, aff1 V0]
  rfl

end Cert.ReferenceIdeal.Entries

end
-- ==== Proof.Bridge.Scores.lean ====
/-
  The classifier's scores: the kernel program's result array equals the reference's.

  On the kernel side the last region's output array is, edge by edge, the classifier applied to the edge's row of
  features (its 400 blocks tile the edges); the reference's chain of three dense layers with rectifies, then the
  replacement of infinities, has the same entries. The inputs agree: the edge features by the previous step; the three
  weight matrices are arguments; the three bias rows are the bias vectors, reshaped on one side and broadcast on the other.
-/
import proofs.«114179_j13726715478162_1_alg».proof.Proof.Bridge.Setup
import proofs.«114179_j13726715478162_1_alg».proof.Proof.Ideal.EdgeMlpValue
import proofs.«114179_j13726715478162_1_alg».proof.Proof.Payloads
import proofs.«114179_j13726715478162_1_alg».proof.Proof.KernelRows2
import proofs.«114179_j13726715478162_1_alg».proof.Proof.Reference.EntriesScores

set_option maxRecDepth 16384

noncomputable section

open Idealize.ShloMosaic Idealize.ShloMosaic.TcCoe Idealize.SL.Sem Idealize.ShloMosaic.StableHlo Idealize.ShloMosaic.ValueIdx

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

set_option maxHeartbeats 2000000 in
theorem scores_eq
    (hf : (Cert.KernelIdeal.Run.B13 m c (Proc.devRef .tc Cert.KernelIdeal.main_v124) : Cert.KernelIdeal.S3200000x40.Idx → EReal) = Rv m' c (Proc.devRef .tc Cert.ReferenceIdeal.main_v200))
    (h21 : R0 m' c (Proc.devRef .tc Cert.ReferenceIdeal.main_arg21) = Cert.KernelIdeal.Run.B0 m c (Proc.devRef .tc Cert.KernelIdeal.main_arg21))
    (h22 : R0 m' c (Proc.devRef .tc Cert.ReferenceIdeal.main_arg22) = Cert.KernelIdeal.Run.B0 m c (Proc.devRef .tc Cert.KernelIdeal.main_arg22))
    (h23 : R0 m' c (Proc.devRef .tc Cert.ReferenceIdeal.main_arg23) = Cert.KernelIdeal.Run.B0 m c (Proc.devRef .tc Cert.KernelIdeal.main_arg23))
    (h24 : R0 m' c (Proc.devRef .tc Cert.ReferenceIdeal.main_arg24) = Cert.KernelIdeal.Run.B0 m c (Proc.devRef .tc Cert.KernelIdeal.main_arg24))
    (h25 : R0 m' c (Proc.devRef .tc Cert.ReferenceIdeal.main_arg25) = Cert.KernelIdeal.Run.B0 m c (Proc.devRef .tc Cert.KernelIdeal.main_arg25))
    (h26 : R0 m' c (Proc.devRef .tc Cert.ReferenceIdeal.main_arg26) = Cert.KernelIdeal.Run.B0 m c (Proc.devRef .tc Cert.KernelIdeal.main_arg26)) :
    (Cert.KernelIdeal.Run.B14 m c (Proc.devRef .tc Cert.KernelIdeal.main_v128) : Cert.KernelIdeal.S3200000x2.Idx → EReal) = Rv m' c (Proc.devRef .tc Cert.ReferenceIdeal.main_v215) := by
  have hk : (Cert.KernelIdeal.Run.B14 m c (Proc.devRef .tc Cert.KernelIdeal.main_v128) : Cert.KernelIdeal.S3200000x2.Idx → EReal)
      = Cert.KernelIdeal.EdgeMlp.scores (Cert.KernelIdeal.Run.E13 m c Cert.KernelIdeal.main_v124) (Cert.KernelIdeal.Run.E13 m c Cert.KernelIdeal.main_arg21) (Cert.KernelIdeal.Run.E13 m c Cert.KernelIdeal.main_v125)
          (Cert.KernelIdeal.Run.E13 m c Cert.KernelIdeal.main_arg23) (Cert.KernelIdeal.Run.E13 m c Cert.KernelIdeal.main_v126) (Cert.KernelIdeal.Run.E13 m c Cert.KernelIdeal.main_arg25) (Cert.KernelIdeal.Run.E13 m c Cert.KernelIdeal.main_v127) :=
    (Cert.KernelIdeal.Run.B14_arr m c 7).trans (Cert.KernelIdeal.EdgeMlp.array_eq (Cert.KernelIdeal.Run.E13 m) Cert.Payloads.k6_entry c)
  have hr : (Rv m' c (Proc.devRef .tc Cert.ReferenceIdeal.main_v215) : Cert.KernelIdeal.S3200000x2.Idx → EReal)
      = Cert.KernelIdeal.EdgeMlp.scores (Rv m' c (Proc.devRef .tc Cert.ReferenceIdeal.main_v200)) (R0 m' c (Proc.devRef .tc Cert.ReferenceIdeal.main_arg21))
          (fun i => Cert.ReferenceIdeal.Entries.arr Cert.ReferenceIdeal.S32 (R0 m' c (Proc.devRef .tc Cert.ReferenceIdeal.main_arg22)) (ix1 (i 1 : Fin 32)))
          (R0 m' c (Proc.devRef .tc Cert.ReferenceIdeal.main_arg23))
          (fun i => Cert.ReferenceIdeal.Entries.arr Cert.ReferenceIdeal.S16 (R0 m' c (Proc.devRef .tc Cert.ReferenceIdeal.main_arg24)) (ix1 (i 1 : Fin 16)))
          (R0 m' c (Proc.devRef .tc Cert.ReferenceIdeal.main_arg25))
          (fun i => Cert.ReferenceIdeal.Entries.arr Cert.ReferenceIdeal.S2 (R0 m' c (Proc.devRef .tc Cert.ReferenceIdeal.main_arg26)) (ix1 (i 1 : Fin 2))) := by
    funext i
    obtain ⟨p, q, rfl⟩ : ∃ (p : Fin 3200000) (q : Fin 2), i = ix2 p q := ⟨i 0, i 1, eq_ix2 i⟩
    exact Cert.ReferenceIdeal.Entries.scores (R0 m' c) p q
  have e21 : (Cert.KernelIdeal.Run.E13 m c Cert.KernelIdeal.main_arg21 : Cert.KernelIdeal.S40x32.Idx → EReal) = R0 m' c (Proc.devRef .tc Cert.ReferenceIdeal.main_arg21) :=
    (Cert.KernelIdeal.Run.B13_main_arg21 m c).trans h21.symm
  have e23 : (Cert.KernelIdeal.Run.E13 m c Cert.KernelIdeal.main_arg23 : Cert.KernelIdeal.S32x16.Idx → EReal) = R0 m' c (Proc.devRef .tc Cert.ReferenceIdeal.main_arg23) :=
    (Cert.KernelIdeal.Run.B13_main_arg23 m c).trans h23.symm
  have e25 : (Cert.KernelIdeal.Run.E13 m c Cert.KernelIdeal.main_arg25 : Cert.KernelIdeal.S16x2.Idx → EReal) = R0 m' c (Proc.devRef .tc Cert.ReferenceIdeal.main_arg25) :=
    (Cert.KernelIdeal.Run.B13_main_arg25 m c).trans h25.symm
  have e125 : (Cert.KernelIdeal.Run.E13 m c Cert.KernelIdeal.main_v125 : Cert.KernelIdeal.S1x32.Idx → EReal)
      = fun i => Cert.ReferenceIdeal.Entries.arr Cert.ReferenceIdeal.S32 (R0 m' c (Proc.devRef .tc Cert.ReferenceIdeal.main_arg22)) (ix1 (i 1 : Fin 32)) := by
    funext i
    obtain ⟨z, l, rfl⟩ : ∃ (z : Fin 1) (l : Fin 32), i = ix2 z l := ⟨i 0, i 1, eq_ix2 i⟩
    obtain rfl : z = 0 := Subsingleton.elim _ _
    exact (Cert.KernelRows.mlp_bias_row1 (Cert.KernelIdeal.Run.B12 m c) l).trans
      ((congrFun (Cert.KernelIdeal.Run.B12_main_arg22 m c) (ix1 l)).trans (congrFun h22.symm (ix1 l)))
  have e126 : (Cert.KernelIdeal.Run.E13 m c Cert.KernelIdeal.main_v126 : Cert.KernelIdeal.S1x16.Idx → EReal)
      = fun i => Cert.ReferenceIdeal.Entries.arr Cert.ReferenceIdeal.S16 (R0 m' c (Proc.devRef .tc Cert.ReferenceIdeal.main_arg24)) (ix1 (i 1 : Fin 16)) := by
    funext i
    obtain ⟨z, l, rfl⟩ : ∃ (z : Fin 1) (l : Fin 16), i = ix2 z l := ⟨i 0, i 1, eq_ix2 i⟩
    obtain rfl : z = 0 := Subsingleton.elim _ _
    exact (Cert.KernelRows.mlp_bias_row2 (Cert.KernelIdeal.Run.B12 m c) l).trans
      ((congrFun (Cert.KernelIdeal.Run.B12_main_arg24 m c) (ix1 l)).trans (congrFun h24.symm (ix1 l)))
  have e127 : (Cert.KernelIdeal.Run.E13 m c Cert.KernelIdeal.main_v127 : Cert.KernelIdeal.S1x2.Idx → EReal)
      = fun i => Cert.ReferenceIdeal.Entries.arr Cert.ReferenceIdeal.S2 (R0 m' c (Proc.devRef .tc Cert.ReferenceIdeal.main_arg26)) (ix1 (i 1 : Fin 2)) := by
    funext i
    obtain ⟨z, l, rfl⟩ : ∃ (z : Fin 1) (l : Fin 2), i = ix2 z l := ⟨i 0, i 1, eq_ix2 i⟩
    obtain rfl : z = 0 := Subsingleton.elim _ _
    exact (Cert.KernelRows.mlp_bias_row3 (Cert.KernelIdeal.Run.B12 m c) l).trans
      ((congrFun (Cert.KernelIdeal.Run.B12_main_arg26 m c) (ix1 l)).trans (congrFun h26.symm (ix1 l)))
  rw [hk, hr, e21, e23, e25, e125, e126, e127]
  exact congrArg (fun X => Cert.KernelIdeal.EdgeMlp.scores X _ _ _ _ _ _) hf

end Cert.Bridge

end
-- ==== Proof.Bridge.Final.lean ====
/-
  The result arrays of the two programs are equal.

  Step by step along both programs: the cleaned features; then for each of the three layers the product with the weights,
  the neighbour sums and self terms (the same gathers and segment sums of equal arrays), and the normalised, rectified
  output (where the reference subtracts the mean, scales and shifts in three steps and the kernel program folds them
  into one scale and one shift, equal because the variance is a non-negative real); then the edge features and the
  classifier's scores.
-/
import proofs.«114179_j13726715478162_1_alg».proof.Proof.Bridge.Setup
import proofs.«114179_j13726715478162_1_alg».proof.Proof.Bridge.Product1
import proofs.«114179_j13726715478162_1_alg».proof.Proof.Bridge.Product2
import proofs.«114179_j13726715478162_1_alg».proof.Proof.Bridge.Product3
import proofs.«114179_j13726715478162_1_alg».proof.Proof.Bridge.Agg1
import proofs.«114179_j13726715478162_1_alg».proof.Proof.Bridge.Self1
import proofs.«114179_j13726715478162_1_alg».proof.Proof.Bridge.Agg2
import proofs.«114179_j13726715478162_1_alg».proof.Proof.Bridge.Self2
import proofs.«114179_j13726715478162_1_alg».proof.Proof.Bridge.Agg3
import proofs.«114179_j13726715478162_1_alg».proof.Proof.Bridge.Self3
import proofs.«114179_j13726715478162_1_alg».proof.Proof.Bridge.GatherSrc
import proofs.«114179_j13726715478162_1_alg».proof.Proof.Bridge.GatherDst
import proofs.«114179_j13726715478162_1_alg».proof.Proof.Bridge.Attrs
import proofs.«114179_j13726715478162_1_alg».proof.Proof.Bridge.Concat
import proofs.«114179_j13726715478162_1_alg».proof.Proof.Bridge.OutJoin
import proofs.«114179_j13726715478162_1_alg».proof.Proof.Bridge.Scores

set_option maxRecDepth 16384

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

variable [Cert.Pre_finite_inputs.Facts]

set_option maxHeartbeats 8000000 in
/-- From launch memories that agree on the 27 argument arrays (`a0` … `a26`), under the precondition. -/
theorem result_eq (hpre : Cert.Pre_KernelIdeal m)
    (a0 : R0 m' c (Proc.devRef .tc Cert.ReferenceIdeal.main_arg0) = Cert.KernelIdeal.Run.B0 m c (Proc.devRef .tc Cert.KernelIdeal.main_arg0))
    (a1 : R0 m' c (Proc.devRef .tc Cert.ReferenceIdeal.main_arg1) = Cert.KernelIdeal.Run.B0 m c (Proc.devRef .tc Cert.KernelIdeal.main_arg1))
    (a2 : R0 m' c (Proc.devRef .tc Cert.ReferenceIdeal.main_arg2) = Cert.KernelIdeal.Run.B0 m c (Proc.devRef .tc Cert.KernelIdeal.main_arg2))
    (a3 : R0 m' c (Proc.devRef .tc Cert.ReferenceIdeal.main_arg3) = Cert.KernelIdeal.Run.B0 m c (Proc.devRef .tc Cert.KernelIdeal.main_arg3))
    (a4 : R0 m' c (Proc.devRef .tc Cert.ReferenceIdeal.main_arg4) = Cert.KernelIdeal.Run.B0 m c (Proc.devRef .tc Cert.KernelIdeal.main_arg4))
    (a5 : R0 m' c (Proc.devRef .tc Cert.ReferenceIdeal.main_arg5) = Cert.KernelIdeal.Run.B0 m c (Proc.devRef .tc Cert.KernelIdeal.main_arg5))
    (a6 : R0 m' c (Proc.devRef .tc Cert.ReferenceIdeal.main_arg6) = Cert.KernelIdeal.Run.B0 m c (Proc.devRef .tc Cert.KernelIdeal.main_arg6))
    (a7 : R0 m' c (Proc.devRef .tc Cert.ReferenceIdeal.main_arg7) = Cert.KernelIdeal.Run.B0 m c (Proc.devRef .tc Cert.KernelIdeal.main_arg7))
    (a8 : R0 m' c (Proc.devRef .tc Cert.ReferenceIdeal.main_arg8) = Cert.KernelIdeal.Run.B0 m c (Proc.devRef .tc Cert.KernelIdeal.main_arg8))
    (a9 : R0 m' c (Proc.devRef .tc Cert.ReferenceIdeal.main_arg9) = Cert.KernelIdeal.Run.B0 m c (Proc.devRef .tc Cert.KernelIdeal.main_arg9))
    (a10 : R0 m' c (Proc.devRef .tc Cert.ReferenceIdeal.main_arg10) = Cert.KernelIdeal.Run.B0 m c (Proc.devRef .tc Cert.KernelIdeal.main_arg10))
    (a11 : R0 m' c (Proc.devRef .tc Cert.ReferenceIdeal.main_arg11) = Cert.KernelIdeal.Run.B0 m c (Proc.devRef .tc Cert.KernelIdeal.main_arg11))
    (a12 : R0 m' c (Proc.devRef .tc Cert.ReferenceIdeal.main_arg12) = Cert.KernelIdeal.Run.B0 m c (Proc.devRef .tc Cert.KernelIdeal.main_arg12))
    (a13 : R0 m' c (Proc.devRef .tc Cert.ReferenceIdeal.main_arg13) = Cert.KernelIdeal.Run.B0 m c (Proc.devRef .tc Cert.KernelIdeal.main_arg13))
    (a14 : R0 m' c (Proc.devRef .tc Cert.ReferenceIdeal.main_arg14) = Cert.KernelIdeal.Run.B0 m c (Proc.devRef .tc Cert.KernelIdeal.main_arg14))
    (a15 : R0 m' c (Proc.devRef .tc Cert.ReferenceIdeal.main_arg15) = Cert.KernelIdeal.Run.B0 m c (Proc.devRef .tc Cert.KernelIdeal.main_arg15))
    (a16 : R0 m' c (Proc.devRef .tc Cert.ReferenceIdeal.main_arg16) = Cert.KernelIdeal.Run.B0 m c (Proc.devRef .tc Cert.KernelIdeal.main_arg16))
    (a17 : R0 m' c (Proc.devRef .tc Cert.ReferenceIdeal.main_arg17) = Cert.KernelIdeal.Run.B0 m c (Proc.devRef .tc Cert.KernelIdeal.main_arg17))
    (a18 : R0 m' c (Proc.devRef .tc Cert.ReferenceIdeal.main_arg18) = Cert.KernelIdeal.Run.B0 m c (Proc.devRef .tc Cert.KernelIdeal.main_arg18))
    (a19 : R0 m' c (Proc.devRef .tc Cert.ReferenceIdeal.main_arg19) = Cert.KernelIdeal.Run.B0 m c (Proc.devRef .tc Cert.KernelIdeal.main_arg19))
    (a20 : R0 m' c (Proc.devRef .tc Cert.ReferenceIdeal.main_arg20) = Cert.KernelIdeal.Run.B0 m c (Proc.devRef .tc Cert.KernelIdeal.main_arg20))
    (a21 : R0 m' c (Proc.devRef .tc Cert.ReferenceIdeal.main_arg21) = Cert.KernelIdeal.Run.B0 m c (Proc.devRef .tc Cert.KernelIdeal.main_arg21))
    (a22 : R0 m' c (Proc.devRef .tc Cert.ReferenceIdeal.main_arg22) = Cert.KernelIdeal.Run.B0 m c (Proc.devRef .tc Cert.KernelIdeal.main_arg22))
    (a23 : R0 m' c (Proc.devRef .tc Cert.ReferenceIdeal.main_arg23) = Cert.KernelIdeal.Run.B0 m c (Proc.devRef .tc Cert.KernelIdeal.main_arg23))
    (a24 : R0 m' c (Proc.devRef .tc Cert.ReferenceIdeal.main_arg24) = Cert.KernelIdeal.Run.B0 m c (Proc.devRef .tc Cert.KernelIdeal.main_arg24))
    (a25 : R0 m' c (Proc.devRef .tc Cert.ReferenceIdeal.main_arg25) = Cert.KernelIdeal.Run.B0 m c (Proc.devRef .tc Cert.KernelIdeal.main_arg25))
    (a26 : R0 m' c (Proc.devRef .tc Cert.ReferenceIdeal.main_arg26) = Cert.KernelIdeal.Run.B0 m c (Proc.devRef .tc Cert.KernelIdeal.main_arg26)) :
    (Cert.KernelIdeal.Run.B14 m c (Proc.devRef .tc Cert.KernelIdeal.main_v128) : Cert.KernelIdeal.S3200000x2.Idx → EReal) = Rv m' c (Proc.devRef .tc Cert.ReferenceIdeal.main_v215) := by
  have clean := cleaned_eq m m' c a0
  have p1 := product1_eq m m' c clean a3
  have g1 := agg1_eq m m' c p1 a1
  have s1 := self1_eq m m' c p1 a1
  have o1 := out1_eq m m' c hpre g1 s1 a4 a9 a10 a11 a12
  have p2 := product2_eq m m' c o1 a5
  have g2 := agg2_eq m m' c p2 a1
  have s2 := self2_eq m m' c p2 a1
  have o2 := out2_eq m m' c hpre g2 s2 a6 a13 a14 a15 a16
  have p3 := product3_eq m m' c o2 a7
  have g3 := agg3_eq m m' c p3 a1
  have s3 := self3_eq m m' c p3 a1
  have o3 := out3_eq m m' c hpre g3 s3 a8 a17 a18 a19 a20
  have f1 := gather_src_eq m m' c o3 a1
  have f2 := gather_dst_eq m m' c o3 a1
  have f3 := attrs_eq m m' c a2
  have f := feats_eq m m' c f1 f2 f3
  exact scores_eq m m' c f a21 a22 a23 a24 a25 a26

end Cert.Bridge

end
-- ==== Proof.lean ====
/-
  The certificate of one graph network: three rounds of message passing over the edges of a graph, then a small
  classifier applied to every edge.

  The three programs. The word-level kernel program and its idealization run seven pipelined regions (three dense node
  layers, three fused "neighbour sum + self term + bias, normalise, rectify" combines, the edge classifier) between
  stretches of array operations that gather rows along edges and sum them per node; the reference does everything with
  whole-array operations. Each program's execution is followed from launch to return: it terminates, nothing faults,
  its argument arrays end as launched. The idealization rewrote nothing, so there is nothing to preserve. At the exact
  values the two results agree: every step is the same operation of equal arrays, a block-wise product against a whole
  one, or the normalisation folded into one scale and shift — equal because a variance is a non-negative real, which
  the precondition states.
-/
import proofs.«114179_j13726715478162_1_alg».proof.Defs
import proofs.«114179_j13726715478162_1_alg».proof.Proof.Gen.Kernel
import proofs.«114179_j13726715478162_1_alg».proof.Proof.Gen.KernelIdeal
import proofs.«114179_j13726715478162_1_alg».proof.Proof.Gen.ReferenceIdeal
import proofs.«114179_j13726715478162_1_alg».proof.Proof.Gen.Pre_finite_inputs
import proofs.«114179_j13726715478162_1_alg».proof.Proof.Bits.Run
import proofs.«114179_j13726715478162_1_alg».proof.Proof.Ideal.Run
import proofs.«114179_j13726715478162_1_alg».proof.Proof.Reference.Run
import proofs.«114179_j13726715478162_1_alg».proof.Proof.Bridge.Final
import Idealize.ShloMosaic.Adequacy
import Idealize.ShloMosaic.Init

set_option maxRecDepth 16384

noncomputable section

namespace Cert.Proof

open Idealize.ShloMosaic Idealize.ShloMosaic.TcCoe Idealize.SL.Sem

/-- The word-level program's execution with the result forgotten. -/
theorem frame_kernel : Cert.frame_Kernel := fun m g _ =>
  (θ_run Cert.Kernel.defs _ _).mono (fun _ h c => (h c).2) (Cert.Kernel.Run.execution (F := Bits) m g)

/-- The idealized program's. -/
theorem frame_ideal : Cert.frame_KernelIdeal := fun m g _ =>
  (θ_run Cert.KernelIdeal.defs _ _).mono (fun _ h c => (h c).2) (Cert.KernelIdeal.Run.execution (F := Ideal) m g)

/-- The reference's: a list of array operations, none of which writes an argument. -/
theorem frame_reference : Cert.frame_ReferenceIdeal := fun m g _ => Cert.ReferenceIdeal.HandRun.frame m g

/-- The idealization applied no rewrite. -/
theorem preserves : Cert.preserves_Kernel_KernelIdeal := trivial

set_option maxHeartbeats 8000000 in
/-- Both idealized programs end, from memories agreeing on the arguments, with the same result array. -/
theorem algebraic : Cert.algebraic_KernelIdeal_ReferenceIdeal := by
  intro m g m' g' hpre hagree
  refine ⟨fun c => Cert.KernelIdeal.Run.B14 m c (Proc.devRef .tc Cert.KernelIdeal.main_v128),
    Cert.KernelIdeal.Run.execution (F := Ideal) m g, ?_⟩
  refine (θ_run Cert.ReferenceIdeal.defs _ _).mono (fun r h c => ?_) (Cert.ReferenceIdeal.HandRun.run_all (F := Ideal) m' g')
  exact ⟨(h c Cert.ReferenceIdeal.main_v215).trans (Cert.Bridge.result_eq m m' c hpre (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2).symm,
      (h c Cert.ReferenceIdeal.main_arg0).trans (Cert.ReferenceIdeal.HandRun.after_ops_of_not_mem _ (by decide)),
      (h c Cert.ReferenceIdeal.main_arg1).trans (Cert.ReferenceIdeal.HandRun.after_ops_of_not_mem _ (by decide)),
      (h c Cert.ReferenceIdeal.main_arg2).trans (Cert.ReferenceIdeal.HandRun.after_ops_of_not_mem _ (by decide)),
      (h c Cert.ReferenceIdeal.main_arg3).trans (Cert.ReferenceIdeal.HandRun.after_ops_of_not_mem _ (by decide)),
      (h c Cert.ReferenceIdeal.main_arg4).trans (Cert.ReferenceIdeal.HandRun.after_ops_of_not_mem _ (by decide)),
      (h c Cert.ReferenceIdeal.main_arg5).trans (Cert.ReferenceIdeal.HandRun.after_ops_of_not_mem _ (by decide)),
      (h c Cert.ReferenceIdeal.main_arg6).trans (Cert.ReferenceIdeal.HandRun.after_ops_of_not_mem _ (by decide)),
      (h c Cert.ReferenceIdeal.main_arg7).trans (Cert.ReferenceIdeal.HandRun.after_ops_of_not_mem _ (by decide)),
      (h c Cert.ReferenceIdeal.main_arg8).trans (Cert.ReferenceIdeal.HandRun.after_ops_of_not_mem _ (by decide)),
      (h c Cert.ReferenceIdeal.main_arg9).trans (Cert.ReferenceIdeal.HandRun.after_ops_of_not_mem _ (by decide)),
      (h c Cert.ReferenceIdeal.main_arg10).trans (Cert.ReferenceIdeal.HandRun.after_ops_of_not_mem _ (by decide)),
      (h c Cert.ReferenceIdeal.main_arg11).trans (Cert.ReferenceIdeal.HandRun.after_ops_of_not_mem _ (by decide)),
      (h c Cert.ReferenceIdeal.main_arg12).trans (Cert.ReferenceIdeal.HandRun.after_ops_of_not_mem _ (by decide)),
      (h c Cert.ReferenceIdeal.main_arg13).trans (Cert.ReferenceIdeal.HandRun.after_ops_of_not_mem _ (by decide)),
      (h c Cert.ReferenceIdeal.main_arg14).trans (Cert.ReferenceIdeal.HandRun.after_ops_of_not_mem _ (by decide)),
      (h c Cert.ReferenceIdeal.main_arg15).trans (Cert.ReferenceIdeal.HandRun.after_ops_of_not_mem _ (by decide)),
      (h c Cert.ReferenceIdeal.main_arg16).trans (Cert.ReferenceIdeal.HandRun.after_ops_of_not_mem _ (by decide)),
      (h c Cert.ReferenceIdeal.main_arg17).trans (Cert.ReferenceIdeal.HandRun.after_ops_of_not_mem _ (by decide)),
      (h c Cert.ReferenceIdeal.main_arg18).trans (Cert.ReferenceIdeal.HandRun.after_ops_of_not_mem _ (by decide)),
      (h c Cert.ReferenceIdeal.main_arg19).trans (Cert.ReferenceIdeal.HandRun.after_ops_of_not_mem _ (by decide)),
      (h c Cert.ReferenceIdeal.main_arg20).trans (Cert.ReferenceIdeal.HandRun.after_ops_of_not_mem _ (by decide)),
      (h c Cert.ReferenceIdeal.main_arg21).trans (Cert.ReferenceIdeal.HandRun.after_ops_of_not_mem _ (by decide)),
      (h c Cert.ReferenceIdeal.main_arg22).trans (Cert.ReferenceIdeal.HandRun.after_ops_of_not_mem _ (by decide)),
      (h c Cert.ReferenceIdeal.main_arg23).trans (Cert.ReferenceIdeal.HandRun.after_ops_of_not_mem _ (by decide)),
      (h c Cert.ReferenceIdeal.main_arg24).trans (Cert.ReferenceIdeal.HandRun.after_ops_of_not_mem _ (by decide)),
      (h c Cert.ReferenceIdeal.main_arg25).trans (Cert.ReferenceIdeal.HandRun.after_ops_of_not_mem _ (by decide)),
      (h c Cert.ReferenceIdeal.main_arg26).trans (Cert.ReferenceIdeal.HandRun.after_ops_of_not_mem _ (by decide))⟩

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
